-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S8x1024x64x64 : Shape := ⟨4, ![8, 1024, 64, 64]⟩
abbrev S8x1024x64 : Shape := ⟨3, ![8, 1024, 64]⟩
abbrev S8x16 : Shape := ⟨2, ![8, 16]⟩
abbrev S_ : Shape := ⟨0, ![]⟩

class Facts : Prop where
  bcast_S_S8x1024x64x64 : S_.BroadcastsInDim S8x1024x64x64 (![] : Fin 0 → Fin S8x1024x64x64.rank)
  reducesTo_S8x1024x64x64_S_d0_1_2_3 : S8x1024x64x64.ReducesTo [0, 1, 2, 3] S_
  h_S_ : 0 < S_.numel
  bcast_S_S8x1024x64 : S_.BroadcastsInDim S8x1024x64 (![] : Fin 0 → Fin S8x1024x64.rank)
  reducesTo_S8x1024x64_S_d0_1_2 : S8x1024x64.ReducesTo [0, 1, 2] S_
  bcast_S_S8x16 : S_.BroadcastsInDim S8x16 (![] : Fin 0 → Fin S8x16.rank)
  reducesTo_S8x16_S_d0_1 : S8x16.ReducesTo [0, 1] S_

variable [Facts]

def fn_part1 {F : FTy → Type} [FloatOps F] (main_arg3 : IVec S8x16 32) (main_v13 : IVec S_ 1) (main_v15 : IVec S8x16 1) (main_c_5 : IVec S_ 32) : IVec S_ 1 :=
  let main_v16 : IVec S8x16 32 := broadcastInDim S8x16 ![] bcast_S_S8x16 main_c_5
  let main_v17 : IVec S8x16 1 := cmpi .sle main_arg3 main_v16
  let main_v18 : IVec S8x16 1 := andi main_v15 main_v17
  let main_c_6 : IVec S_ 1 := constantI S_ 1 1#1
  let main_v19 : IVec S_ 1 := (fun x v => Host.reduce IntOp.andi x v reducesTo_S8x16_S_d0_1 h_S_) main_v18 main_c_6
  let main_v20 : IVec S_ 1 := andi main_v13 main_v19
  main_v20

def fn {F : FTy → Type} [FloatOps F] (main_arg0 : FVec F S8x1024x64x64 .f32) (main_arg1 : FVec F S8x1024x64 .f32) (main_arg2 : FVec F S8x1024x64 .f32) (main_arg3 : IVec S8x16 32) : IVec S_ 1 :=
  let main_v0 : FVec F S8x1024x64x64 .f32 := Host.absf main_arg0
  let main_cst : FVec F S_ .f32 := constant S_ .f32 0x7F800000#32
  let main_v1 : FVec F S8x1024x64x64 .f32 := broadcastInDim S8x1024x64x64 ![] bcast_S_S8x1024x64x64 main_cst
  let main_v2 : IVec S8x1024x64x64 1 := cmpf .olt main_v0 main_v1
  let main_c : IVec S_ 1 := constantI S_ 1 1#1
  let main_v3 : IVec S_ 1 := (fun x v => Host.reduce IntOp.andi x v reducesTo_S8x1024x64x64_S_d0_1_2_3 h_S_) main_v2 main_c
  let main_v4 : FVec F S8x1024x64 .f32 := Host.absf main_arg1
  let main_cst_0 : FVec F S_ .f32 := constant S_ .f32 0x7F800000#32
  let main_v5 : FVec F S8x1024x64 .f32 := broadcastInDim S8x1024x64 ![] bcast_S_S8x1024x64 main_cst_0
  let main_v6 : IVec S8x1024x64 1 := cmpf .olt main_v4 main_v5
  let main_c_1 : IVec S_ 1 := constantI S_ 1 1#1
  let main_v7 : IVec S_ 1 := (fun x v => Host.reduce IntOp.andi x v reducesTo_S8x1024x64_S_d0_1_2 h_S_) main_v6 main_c_1
  let main_v8 : IVec S_ 1 := andi main_v3 main_v7
  let main_v9 : FVec F S8x1024x64 .f32 := Host.absf main_arg2
  let main_cst_2 : FVec F S_ .f32 := constant S_ .f32 0x7F800000#32
  let main_v10 : FVec F S8x1024x64 .f32 := broadcastInDim S8x1024x64 ![] bcast_S_S8x1024x64 main_cst_2
  let main_v11 : IVec S8x1024x64 1 := cmpf .olt main_v9 main_v10
  let main_c_3 : IVec S_ 1 := constantI S_ 1 1#1
  let main_v12 : IVec S_ 1 := (fun x v => Host.reduce IntOp.andi x v reducesTo_S8x1024x64_S_d0_1_2 h_S_) main_v11 main_c_3
  let main_v13 : IVec S_ 1 := andi main_v8 main_v12
  let main_c_4 : IVec S_ 32 := constantI S_ 32 0#32
  let main_v14 : IVec S8x16 32 := broadcastInDim S8x16 ![] bcast_S_S8x16 main_c_4
  let main_v15 : IVec S8x16 1 := cmpi .sge main_arg3 main_v14
  let main_c_5 : IVec S_ 32 := constantI S_ 32 1023#32
  fn_part1 (F := F) main_arg3 main_v13 main_v15 main_c_5
-- ==== Kernel.lean ====
abbrev S8x1024x64x64 : Shape := ⟨4, ![8, 1024, 64, 64]⟩
abbrev S8x1024x64 : Shape := ⟨3, ![8, 1024, 64]⟩
abbrev S8x16 : Shape := ⟨2, ![8, 16]⟩
abbrev S8x16x1 : Shape := ⟨3, ![8, 16, 1]⟩
abbrev S8x1x16 : Shape := ⟨3, ![8, 1, 16]⟩
abbrev S8x16x16 : Shape := ⟨3, ![8, 16, 16]⟩
abbrev S16x16 : Shape := ⟨2, ![16, 16]⟩
abbrev S_ : Shape := ⟨0, ![]⟩
abbrev S8 : Shape := ⟨1, ![8]⟩
abbrev S8x1 : Shape := ⟨2, ![8, 1]⟩
abbrev S32 : Shape := ⟨1, ![32]⟩
abbrev S32x1 : Shape := ⟨2, ![32, 1]⟩
abbrev S32x16 : Shape := ⟨2, ![32, 16]⟩
abbrev S8x64x64x1024 : Shape := ⟨4, ![8, 64, 64, 1024]⟩
abbrev S32768x1024 : Shape := ⟨2, ![32768, 1024]⟩
abbrev S8192x64 : Shape := ⟨2, ![8192, 64]⟩
abbrev S8192x128 : Shape := ⟨2, ![8192, 128]⟩
abbrev S32x1024 : Shape := ⟨2, ![32, 1024]⟩
abbrev S16 : Shape := ⟨1, ![16]⟩
abbrev S16x128 : Shape := ⟨2, ![16, 128]⟩
abbrev S1x16 : Shape := ⟨2, ![1, 16]⟩

abbrev nBuf : Table → Nat
  | .hbm => 91
  | .local .scVector .vmem => 6
  | _ => 0

abbrev bufTy : (tb : Table) → Fin (nBuf tb) → BufTy
  | .hbm, ⟨0, _⟩ => ⟨S8x1024x64x64, .f32⟩
  | .hbm, ⟨1, _⟩ => ⟨S8x1024x64, .f32⟩
  | .hbm, ⟨2, _⟩ => ⟨S8x1024x64, .f32⟩
  | .hbm, ⟨3, _⟩ => ⟨S8x16, .i32⟩
  | .hbm, ⟨4, _⟩ => ⟨S8x16x1, .i32⟩
  | .hbm, ⟨5, _⟩ => ⟨S8x1x16, .i32⟩
  | .hbm, ⟨6, _⟩ => ⟨S8x16x16, .i32⟩
  | .hbm, ⟨7, _⟩ => ⟨S8x16x16, .i32⟩
  | .hbm, ⟨8, _⟩ => ⟨S8x16x16, .i1⟩
  | .hbm, ⟨9, _⟩ => ⟨S16x16, .i32⟩
  | .hbm, ⟨10, _⟩ => ⟨S_, .i32⟩
  | .hbm, ⟨11, _⟩ => ⟨S16x16, .i32⟩
  | .hbm, ⟨12, _⟩ => ⟨S16x16, .i32⟩
  | .hbm, ⟨13, _⟩ => ⟨S16x16, .i32⟩
  | .hbm, ⟨14, _⟩ => ⟨S16x16, .i1⟩
  | .hbm, ⟨15, _⟩ => ⟨S8x16x16, .i1⟩
  | .hbm, ⟨16, _⟩ => ⟨S_, .i1⟩
  | .hbm, ⟨17, _⟩ => ⟨S8x16x16, .i1⟩
  | .hbm, ⟨18, _⟩ => ⟨S8x16x16, .i1⟩
  | .hbm, ⟨19, _⟩ => ⟨S_, .i1⟩
  | .hbm, ⟨20, _⟩ => ⟨S8x16, .i1⟩
  | .hbm, ⟨21, _⟩ => ⟨S8x16, .i1⟩
  | .hbm, ⟨22, _⟩ => ⟨S8x16x16, .i32⟩
  | .hbm, ⟨23, _⟩ => ⟨S_, .i32⟩
  | .hbm, ⟨24, _⟩ => ⟨S8x16, .i32⟩
  | .hbm, ⟨25, _⟩ => ⟨S_, .i32⟩
  | .hbm, ⟨26, _⟩ => ⟨S_, .i32⟩
  | .hbm, ⟨27, _⟩ => ⟨S8x16, .i32⟩
  | .hbm, ⟨28, _⟩ => ⟨S8x16, .i32⟩
  | .hbm, ⟨29, _⟩ => ⟨S8x16, .f32⟩
  | .hbm, ⟨30, _⟩ => ⟨S8, .i32⟩
  | .hbm, ⟨31, _⟩ => ⟨S8x1, .i32⟩
  | .hbm, ⟨32, _⟩ => ⟨S_, .i32⟩
  | .hbm, ⟨33, _⟩ => ⟨S8x1, .i32⟩
  | .hbm, ⟨34, _⟩ => ⟨S8x1, .i32⟩
  | .hbm, ⟨35, _⟩ => ⟨S8x16, .i32⟩
  | .hbm, ⟨36, _⟩ => ⟨S8x16, .i32⟩
  | .hbm, ⟨37, _⟩ => ⟨S32, .i32⟩
  | .hbm, ⟨38, _⟩ => ⟨S_, .i32⟩
  | .hbm, ⟨39, _⟩ => ⟨S_, .i32⟩
  | .hbm, ⟨40, _⟩ => ⟨S32, .i32⟩
  | .hbm, ⟨41, _⟩ => ⟨S32, .i32⟩
  | .hbm, ⟨42, _⟩ => ⟨S32, .i32⟩
  | .hbm, ⟨43, _⟩ => ⟨S_, .i32⟩
  | .hbm, ⟨44, _⟩ => ⟨S32, .i32⟩
  | .hbm, ⟨45, _⟩ => ⟨S32, .i1⟩
  | .hbm, ⟨46, _⟩ => ⟨S32, .i32⟩
  | .hbm, ⟨47, _⟩ => ⟨S32, .i32⟩
  | .hbm, ⟨48, _⟩ => ⟨S_, .i32⟩
  | .hbm, ⟨49, _⟩ => ⟨S32, .i32⟩
  | .hbm, ⟨50, _⟩ => ⟨S32, .i1⟩
  | .hbm, ⟨51, _⟩ => ⟨S32, .i1⟩
  | .hbm, ⟨52, _⟩ => ⟨S_, .i32⟩
  | .hbm, ⟨53, _⟩ => ⟨S32, .i32⟩
  | .hbm, ⟨54, _⟩ => ⟨S32, .i32⟩
  | .hbm, ⟨55, _⟩ => ⟨S32, .i32⟩
  | .hbm, ⟨56, _⟩ => ⟨S_, .i32⟩
  | .hbm, ⟨57, _⟩ => ⟨S32, .i32⟩
  | .hbm, ⟨58, _⟩ => ⟨S32, .i1⟩
  | .hbm, ⟨59, _⟩ => ⟨S_, .i32⟩
  | .hbm, ⟨60, _⟩ => ⟨S32, .i32⟩
  | .hbm, ⟨61, _⟩ => ⟨S32, .i32⟩
  | .hbm, ⟨62, _⟩ => ⟨S32, .i32⟩
  | .hbm, ⟨63, _⟩ => ⟨S32x1, .i32⟩
  | .hbm, ⟨64, _⟩ => ⟨S32x16, .i32⟩
  | .hbm, ⟨65, _⟩ => ⟨S_, .i32⟩
  | .hbm, ⟨66, _⟩ => ⟨S32, .i32⟩
  | .hbm, ⟨67, _⟩ => ⟨S32, .i1⟩
  | .hbm, ⟨68, _⟩ => ⟨S_, .i32⟩
  | .hbm, ⟨69, _⟩ => ⟨S32, .i32⟩
  | .hbm, ⟨70, _⟩ => ⟨S32, .i32⟩
  | .hbm, ⟨71, _⟩ => ⟨S32, .i32⟩
  | .hbm, ⟨72, _⟩ => ⟨S32x1, .i32⟩
  | .hbm, ⟨73, _⟩ => ⟨S32x16, .f32⟩
  | .hbm, ⟨74, _⟩ => ⟨S_, .i32⟩
  | .hbm, ⟨75, _⟩ => ⟨S32, .i32⟩
  | .hbm, ⟨76, _⟩ => ⟨S32, .i1⟩
  | .hbm, ⟨77, _⟩ => ⟨S_, .i32⟩
  | .hbm, ⟨78, _⟩ => ⟨S32, .i32⟩
  | .hbm, ⟨79, _⟩ => ⟨S32, .i32⟩
  | .hbm, ⟨80, _⟩ => ⟨S32, .i32⟩
  | .hbm, ⟨81, _⟩ => ⟨S32x1, .i32⟩
  | .hbm, ⟨82, _⟩ => ⟨S32x16, .i32⟩
  | .hbm, ⟨83, _⟩ => ⟨S8x64x64x1024, .f32⟩
  | .hbm, ⟨84, _⟩ => ⟨S32768x1024, .f32⟩
  | .hbm, ⟨85, _⟩ => ⟨S8192x64, .f32⟩
  | .hbm, ⟨86, _⟩ => ⟨S8192x64, .f32⟩
  | .hbm, ⟨87, _⟩ => ⟨S8192x128, .f32⟩
  | .hbm, ⟨88, _⟩ => ⟨S32768x1024, .f32⟩
  | .hbm, ⟨89, _⟩ => ⟨S8x64x64x1024, .f32⟩
  | .hbm, ⟨90, _⟩ => ⟨S8x1024x64x64, .f32⟩
  | .local .scVector .vmem, ⟨0, _⟩ => ⟨S32x1024, .f32⟩
  | .local .scVector .vmem, ⟨1, _⟩ => ⟨S32x1024, .f32⟩
  | .local .scVector .vmem, ⟨2, _⟩ => ⟨S16, .i32⟩
  | .local .scVector .vmem, ⟨3, _⟩ => ⟨S16, .f32⟩
  | .local .scVector .vmem, ⟨4, _⟩ => ⟨S16, .i32⟩
  | .local .scVector .vmem, ⟨5, _⟩ => ⟨S16x128, .f32⟩
  | _, _ => ⟨S8x1024x64x64, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_0 : Ref sig .tc := ⟨.hbm, 16, rfl⟩
abbrev main_call0_v6 : Ref sig .tc := ⟨.hbm, 17, rfl⟩
abbrev main_v5 : Ref sig .tc := ⟨.hbm, 18, rfl⟩
abbrev main_c : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_c_0 : Ref sig .tc := ⟨.hbm, 23, rfl⟩
abbrev main_v9 : Ref sig .tc := ⟨.hbm, 24, rfl⟩
abbrev main_c_1 : Ref sig .tc := ⟨.hbm, 25, rfl⟩
abbrev main_call1_v0 : Ref sig .tc := ⟨.hbm, 26, rfl⟩
abbrev main_call1_v1 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c_2 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_c_3 : Ref sig .tc := ⟨.hbm, 38, rfl⟩
abbrev main_call2_v0 : Ref sig .tc := ⟨.hbm, 39, rfl⟩
abbrev main_call2_v1 : Ref sig .tc := ⟨.hbm, 40, rfl⟩
abbrev main_call2_v2 : Ref sig .tc := ⟨.hbm, 41, rfl⟩
abbrev main_call2_v3 : Ref sig .tc := ⟨.hbm, 42, rfl⟩
abbrev main_call2_v4 : Ref sig .tc := ⟨.hbm, 43, rfl⟩
abbrev main_call2_v5 : Ref sig .tc := ⟨.hbm, 44, rfl⟩
abbrev main_call2_v6 : Ref sig .tc := ⟨.hbm, 45, rfl⟩
abbrev main_call2_v7 : Ref sig .tc := ⟨.hbm, 46, rfl⟩
abbrev main_call2_v8 : Ref sig .tc := ⟨.hbm, 47, rfl⟩
abbrev main_call2_c : Ref sig .tc := ⟨.hbm, 48, rfl⟩
abbrev main_call2_v9 : Ref sig .tc := ⟨.hbm, 49, rfl⟩
abbrev main_call2_v10 : Ref sig .tc := ⟨.hbm, 50, rfl⟩
abbrev main_call2_v11 : Ref sig .tc := ⟨.hbm, 51, rfl⟩
abbrev main_call2_c_0 : Ref sig .tc := ⟨.hbm, 52, rfl⟩
abbrev main_call2_v12 : Ref sig .tc := ⟨.hbm, 53, rfl⟩
abbrev main_call2_v13 : Ref sig .tc := ⟨.hbm, 54, rfl⟩
abbrev main_v19 : Ref sig .tc := ⟨.hbm, 55, rfl⟩
abbrev main_c_4 : Ref sig .tc := ⟨.hbm, 56, rfl⟩
abbrev main_v20 : Ref sig .tc := ⟨.hbm, 57, rfl⟩
abbrev main_v21 : Ref sig .tc := ⟨.hbm, 58, rfl⟩
abbrev main_c_5 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_c_6 : Ref sig .tc := ⟨.hbm, 65, rfl⟩
abbrev main_v27 : Ref sig .tc := ⟨.hbm, 66, rfl⟩
abbrev main_v28 : Ref sig .tc := ⟨.hbm, 67, rfl⟩
abbrev main_c_7 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_c_8 : Ref sig .tc := ⟨.hbm, 74, rfl⟩
abbrev main_v34 : Ref sig .tc := ⟨.hbm, 75, rfl⟩
abbrev main_v35 : Ref sig .tc := ⟨.hbm, 76, rfl⟩
abbrev main_c_9 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v42_scv : Ref sig .scVector := ⟨.hbm, 84, rfl⟩
abbrev main_v45_scv : Ref sig .scVector := ⟨.hbm, 87, rfl⟩
abbrev main_v26_scv : Ref sig .scVector := ⟨.hbm, 64, rfl⟩
abbrev main_v33_scv : Ref sig .scVector := ⟨.hbm, 73, rfl⟩
abbrev main_v40_scv : Ref sig .scVector := ⟨.hbm, 82, rfl⟩
abbrev main_v46_scv : Ref sig .scVector := ⟨.hbm, 88, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1024_i32 : BitVec 32 := 1024#32
  let v2 : BitVec 32 := Scalar.muli v1 c1024_i32
  let v4 : BitVec 32 := Scalar.addi v2 c0_i32
  let c0_i32_0 : BitVec 32 := 0#32
  ![v4.toNat, 0]
def k0_off2 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_13_r0 : BitVec 32 := 0#32
  ![v1.toNat, 0]
@[reducible] def k0_t1_loop : Scf.Loop 32 :=
  let c0_i32_10 : BitVec 32 := 0#32
  let c16_i32_11 : BitVec 32 := 16#32
  let v16 : BitVec 32 := Scalar.addi c0_i32_10 c16_i32_11
  let c1_i32 : BitVec 32 := 1#32
  ⟨c0_i32_10, v16, c1_i32⟩
def k0_off3 (i : grid0.Coords) (k0_t1 : Fin k0_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1024_i32 : BitVec 32 := 1024#32
  let v2 : BitVec 32 := Scalar.muli v1 c1024_i32
  let c2_i32 : BitVec 32 := 2#32
  let c0_i32_10 : BitVec 32 := 0#32
  let c1_i32 : BitVec 32 := 1#32
  let arg19 : BitVec 32 := Scf.iv c0_i32_10 c1_i32 k0_t1
  let v17 : BitVec 32 := Scalar.muli c2_i32 arg19
  let c0_i32_13 : BitVec 32 := 0#32
  let v18 : BitVec 32 := Scalar.addi v17 c0_i32_13
  let c32_i32_14 : BitVec 32 := 32#32
  let v19 : BitVec 32 := Scalar.muli v18 c32_i32_14
  let v20 : BitVec 32 := Scalar.addi v2 v19
  let c0_i32_15 : BitVec 32 := 0#32
  ![v20.toNat, 0]

def k0_chk1 (v3 : IVec S16 32) (v28 : IVec S16 32) : Prop :=
  (∀ a x, ((![v3, v28] : Fin 2 → IVec S16 32) a x).toNat < S16x128.size a)
instance k0_chk1.dec : ∀ (v3 : IVec S16 32) (v28 : IVec S16 32), Decidable (k0_chk1 v3 v28) := fun v3 v28 => decidable_of_iff' _ (Iff.of_eq (k0_chk1.eq_1 v3 v28))
theorem k0_idx1_inb : ∀ (v3 : IVec S16 32) (v28 : IVec S16 32) (k0_hw1 : k0_chk1 v3 v28), ∀ a x, ((![v3, v28] : Fin 2 → IVec S16 32) a x).toNat < S16x128.size a := fun v3 v28 k0_hw1 => k0_hw1
@[reducible] def k0_t2_loop : Scf.Loop 32 :=
  let c0_i32_20 : BitVec 32 := 0#32
  let c32_i32_21 : BitVec 32 := 32#32
  let v31 : BitVec 32 := Scalar.addi c0_i32_20 c32_i32_21
  let c1_i32_22 : BitVec 32 := 1#32
  ⟨c0_i32_20, v31, c1_i32_22⟩

def k0_chk2 (v3 : IVec S16 32) (v69 : IVec S16 32) : Prop :=
  (∀ a x, ((![v3, v69] : Fin 2 → IVec S16 32) a x).toNat < S16x128.size a)
instance k0_chk2.dec : ∀ (v3 : IVec S16 32) (v69 : IVec S16 32), Decidable (k0_chk2 v3 v69) := fun v3 v69 => decidable_of_iff' _ (Iff.of_eq (k0_chk2.eq_1 v3 v69))
theorem k0_idx2_inb : ∀ (v3 : IVec S16 32) (v69 : IVec S16 32) (k0_hw2 : k0_chk2 v3 v69), ∀ a x, ((![v3, v69] : Fin 2 → IVec S16 32) a x).toNat < S16x128.size a := fun v3 v69 k0_hw2 => k0_hw2

def k0_chk3 (v12 : IVec S16 32) (v71 : IVec S16 32) : Prop :=
  (∀ a x, ((![v71, v12] : Fin 2 → IVec S16 32) a x).toNat < S32x1024.size a)
instance k0_chk3.dec : ∀ (v12 : IVec S16 32) (v71 : IVec S16 32), Decidable (k0_chk3 v12 v71) := fun v12 v71 => decidable_of_iff' _ (Iff.of_eq (k0_chk3.eq_1 v12 v71))
theorem k0_idx3_inb : ∀ (v12 : IVec S16 32) (v71 : IVec S16 32) (k0_hw3 : k0_chk3 v12 v71), ∀ a x, ((![v71, v12] : Fin 2 → IVec S16 32) a x).toNat < S32x1024.size a := fun v12 v71 k0_hw3 => k0_hw3
def k0_off4 (i : grid0.Coords) (k0_t1 : Fin k0_t1_loop.trips) (c0_i32_13 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1024_i32 : BitVec 32 := 1024#32
  let v2 : BitVec 32 := Scalar.muli v1 c1024_i32
  let c2_i32 : BitVec 32 := 2#32
  let c0_i32_10 : BitVec 32 := 0#32
  let c1_i32 : BitVec 32 := 1#32
  let arg19 : BitVec 32 := Scf.iv c0_i32_10 c1_i32 k0_t1
  let v17 : BitVec 32 := Scalar.muli c2_i32 arg19
  let v18 : BitVec 32 := Scalar.addi v17 c0_i32_13
  let c32_i32_24 : BitVec 32 := 32#32
  let v32 : BitVec 32 := Scalar.muli v18 c32_i32_24
  let v33 : BitVec 32 := Scalar.addi v2 v32
  let c0_i32_25 : BitVec 32 := 0#32
  ![v33.toNat, 0]
def k0_cond1 (k0_t1 : Fin k0_t1_loop.trips) : BitVec 1 :=
  let c2_i32 : BitVec 32 := 2#32
  let c0_i32_10 : BitVec 32 := 0#32
  let c1_i32 : BitVec 32 := 1#32
  let arg19 : BitVec 32 := Scf.iv c0_i32_10 c1_i32 k0_t1
  let v17 : BitVec 32 := Scalar.muli c2_i32 arg19
  let c0_i32_13 : BitVec 32 := 0#32
  let v18 : BitVec 32 := Scalar.addi v17 c0_i32_13
  let c2_i32_29 : BitVec 32 := 2#32
  let v38 : BitVec 32 := Scalar.addi v18 c2_i32_29
  let c32_i32_30 : BitVec 32 := 32#32
  let v39 : BitVec 1 := Scalar.cmpi .slt v38 c32_i32_30
  let v40 : BitVec 32 := Scalar.extui v39
  let c0_i32_31 : BitVec 32 := 0#32
  let v41 : BitVec 1 := Scalar.cmpi .ne v40 c0_i32_31
  v41

def k0_off5 (i : grid0.Coords) (k0_t1 : Fin k0_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1024_i32 : BitVec 32 := 1024#32
  let v2 : BitVec 32 := Scalar.muli v1 c1024_i32
  let c2_i32 : BitVec 32 := 2#32
  let c0_i32_10 : BitVec 32 := 0#32
  let c1_i32 : BitVec 32 := 1#32
  let arg19 : BitVec 32 := Scf.iv c0_i32_10 c1_i32 k0_t1
  let v17 : BitVec 32 := Scalar.muli c2_i32 arg19
  let c0_i32_13 : BitVec 32 := 0#32
  let v18 : BitVec 32 := Scalar.addi v17 c0_i32_13
  let c2_i32_54 : BitVec 32 := 2#32
  let v67 : BitVec 32 := Scalar.addi v18 c2_i32_54
  let c32_i32_55 : BitVec 32 := 32#32
  let v68 : BitVec 32 := Scalar.muli v67 c32_i32_55
  let v69 : BitVec 32 := Scalar.addi v2 v68
  let c0_i32_56 : BitVec 32 := 0#32
  ![v69.toNat, 0]

def k0_chk4 (v3 : IVec S16 32) (v53 : IVec S16 32) : Prop :=
  (∀ a x, ((![v3, v53] : Fin 2 → IVec S16 32) a x).toNat < S16x128.size a)
instance k0_chk4.dec : ∀ (v3 : IVec S16 32) (v53 : IVec S16 32), Decidable (k0_chk4 v3 v53) := fun v3 v53 => decidable_of_iff' _ (Iff.of_eq (k0_chk4.eq_1 v3 v53))
theorem k0_idx4_inb : ∀ (v3 : IVec S16 32) (v53 : IVec S16 32) (k0_hw4 : k0_chk4 v3 v53), ∀ a x, ((![v3, v53] : Fin 2 → IVec S16 32) a x).toNat < S16x128.size a := fun v3 v53 k0_hw4 => k0_hw4
@[reducible] def k0_t3_loop : Scf.Loop 32 :=
  let c0_i32_42 : BitVec 32 := 0#32
  let c32_i32_43 : BitVec 32 := 32#32
  let v56 : BitVec 32 := Scalar.addi c0_i32_42 c32_i32_43
  let c1_i32_44 : BitVec 32 := 1#32
  ⟨c0_i32_42, v56, c1_i32_44⟩

def k0_chk5 (v3 : IVec S16 32) (v69 : IVec S16 32) : Prop :=
  (∀ a x, ((![v3, v69] : Fin 2 → IVec S16 32) a x).toNat < S16x128.size a)
instance k0_chk5.dec : ∀ (v3 : IVec S16 32) (v69 : IVec S16 32), Decidable (k0_chk5 v3 v69) := fun v3 v69 => decidable_of_iff' _ (Iff.of_eq (k0_chk5.eq_1 v3 v69))
theorem k0_idx5_inb : ∀ (v3 : IVec S16 32) (v69 : IVec S16 32) (k0_hw5 : k0_chk5 v3 v69), ∀ a x, ((![v3, v69] : Fin 2 → IVec S16 32) a x).toNat < S16x128.size a := fun v3 v69 k0_hw5 => k0_hw5

def k0_chk6 (v12 : IVec S16 32) (v71 : IVec S16 32) : Prop :=
  (∀ a x, ((![v71, v12] : Fin 2 → IVec S16 32) a x).toNat < S32x1024.size a)
instance k0_chk6.dec : ∀ (v12 : IVec S16 32) (v71 : IVec S16 32), Decidable (k0_chk6 v12 v71) := fun v12 v71 => decidable_of_iff' _ (Iff.of_eq (k0_chk6.eq_1 v12 v71))
theorem k0_idx6_inb : ∀ (v12 : IVec S16 32) (v71 : IVec S16 32) (k0_hw6 : k0_chk6 v12 v71), ∀ a x, ((![v71, v12] : Fin 2 → IVec S16 32) a x).toNat < S32x1024.size a := fun v12 v71 k0_hw6 => k0_hw6
def k0_off6 (i : grid0.Coords) (k0_t1 : Fin k0_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1024_i32 : BitVec 32 := 1024#32
  let v2 : BitVec 32 := Scalar.muli v1 c1024_i32
  let c2_i32_32 : BitVec 32 := 2#32
  let c0_i32_10 : BitVec 32 := 0#32
  let c1_i32 : BitVec 32 := 1#32
  let arg19 : BitVec 32 := Scf.iv c0_i32_10 c1_i32 k0_t1
  let v42 : BitVec 32 := Scalar.muli c2_i32_32 arg19
  let c1_i32_33 : BitVec 32 := 1#32
  let v43 : BitVec 32 := Scalar.addi v42 c1_i32_33
  let c32_i32_46 : BitVec 32 := 32#32
  let v57 : BitVec 32 := Scalar.muli v43 c32_i32_46
  let v58 : BitVec 32 := Scalar.addi v2 v57
  let c0_i32_47 : BitVec 32 := 0#32
  ![v58.toNat, 0]
def k0_cond2 (k0_t1 : Fin k0_t1_loop.trips) : BitVec 1 :=
  let c2_i32_32 : BitVec 32 := 2#32
  let c0_i32_10 : BitVec 32 := 0#32
  let c1_i32 : BitVec 32 := 1#32
  let arg19 : BitVec 32 := Scf.iv c0_i32_10 c1_i32 k0_t1
  let v42 : BitVec 32 := Scalar.muli c2_i32_32 arg19
  let c1_i32_33 : BitVec 32 := 1#32
  let v43 : BitVec 32 := Scalar.addi v42 c1_i32_33
  let c2_i32_51 : BitVec 32 := 2#32
  let v63 : BitVec 32 := Scalar.addi v43 c2_i32_51
  let c32_i32_52 : BitVec 32 := 32#32
  let v64 : BitVec 1 := Scalar.cmpi .slt v63 c32_i32_52
  let v65 : BitVec 32 := Scalar.extui v64
  let c0_i32_53 : BitVec 32 := 0#32
  let v66 : BitVec 1 := Scalar.cmpi .ne v65 c0_i32_53
  v66

def k0_off7 (i : grid0.Coords) (k0_t1 : Fin k0_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1024_i32 : BitVec 32 := 1024#32
  let v2 : BitVec 32 := Scalar.muli v1 c1024_i32
  let c2_i32_32 : BitVec 32 := 2#32
  let c0_i32_10 : BitVec 32 := 0#32
  let c1_i32 : BitVec 32 := 1#32
  let arg19 : BitVec 32 := Scf.iv c0_i32_10 c1_i32 k0_t1
  let v42 : BitVec 32 := Scalar.muli c2_i32_32 arg19
  let c1_i32_33 : BitVec 32 := 1#32
  let v43 : BitVec 32 := Scalar.addi v42 c1_i32_33
  let c2_i32_54 : BitVec 32 := 2#32
  let v67 : BitVec 32 := Scalar.addi v43 c2_i32_54
  let c32_i32_55 : BitVec 32 := 32#32
  let v68 : BitVec 32 := Scalar.muli v67 c32_i32_55
  let v69 : BitVec 32 := Scalar.addi v2 v68
  let c0_i32_56 : BitVec 32 := 0#32
  ![v69.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  bcast_S8x16_S8x16x1_0_1 : S8x16.BroadcastsInDim S8x16x1 (![0, 1] : Fin 2 → Fin S8x16x1.rank)
  bcast_S8x16_S8x1x16_0_2 : S8x16.BroadcastsInDim S8x1x16 (![0, 2] : Fin 2 → Fin S8x1x16.rank)
  bcast_S8x16x1_S8x16x16_0_1_2 : S8x16x1.BroadcastsInDim S8x16x16 (![0, 1, 2] : Fin 3 → Fin S8x16x16.rank)
  bcast_S8x1x16_S8x16x16_0_1_2 : S8x1x16.BroadcastsInDim S8x16x16 (![0, 1, 2] : Fin 3 → Fin S8x16x16.rank)
  bcast_S_S16x16 : S_.BroadcastsInDim S16x16 (![] : Fin 0 → Fin S16x16.rank)
  bcast_S16x16_S8x16x16_1_2 : S16x16.BroadcastsInDim S8x16x16 (![1, 2] : Fin 2 → Fin S8x16x16.rank)
  bcast_S_S8x16x16 : S_.BroadcastsInDim S8x16x16 (![] : Fin 0 → Fin S8x16x16.rank)
  reducesTo_S8x16x16_S8x16_d2 : S8x16x16.ReducesTo [2] S8x16
  h_S_ : 0 < S_.numel
  natLt_1_32 : 1 < 32
  bcast_S_S8x16 : S_.BroadcastsInDim S8x16 (![] : Fin 0 → Fin S8x16.rank)
  bcast_S8_S8x1_0 : S8.BroadcastsInDim S8x1 (![0] : Fin 1 → Fin S8x1.rank)
  bcast_S_S8x1 : S_.BroadcastsInDim S8x1 (![] : Fin 0 → Fin S8x1.rank)
  bcast_S8x1_S8x16_0_1 : S8x1.BroadcastsInDim S8x16 (![0, 1] : Fin 2 → Fin S8x16.rank)
  bcast_S_S32 : S_.BroadcastsInDim S32 (![] : Fin 0 → Fin S32.rank)
  bcast_S32_S32x1_0 : S32.BroadcastsInDim S32x1 (![0] : Fin 1 → Fin S32x1.rank)
  transposes_S8x1024x64x64_S8x64x64x1024_0_2_3_1 : S8x1024x64x64.Transposes [0, 2, 3, 1] S8x64x64x1024
  shapeCasts_S8x64x64x1024_S32768x1024 : S8x64x64x1024.ShapeCasts S32768x1024
  shapeCasts_S8x1024x64_S8192x64 : S8x1024x64.ShapeCasts S8192x64
  concatenates_S8192x64_S8192x64_S8192x128_d1 : Shape.Concatenates [S8192x64, S8192x64] S8192x128 1
  iota_S16_d0_w32_scVector : S16.Iotas .scVector 32 [0]
  squeezes_S1x16_S16 : S1x16.Squeezes S16
  inb_S8192x128_S8192x128_0_0 : ∀ a, (![0, 0] : Fin 2 → Nat) a + S8192x128.size a ≤ S8192x128.size a
  gathers_S8192x128_S16x128 : S8192x128.Gathers 0 S16x128
  inb_S16_S16_0 : ∀ a, (![0] : Fin 1 → Nat) a + S16.size a ≤ S16.size a
  h_S16 : 0 < S16.numel
  h_S16x128 : 0 < S16x128.numel
  h_S32x1024 : 0 < S32x1024.numel
  shapeCasts_S32768x1024_S8x64x64x1024 : S32768x1024.ShapeCasts S8x64x64x1024
  transposes_S8x64x64x1024_S8x1024x64x64_0_3_1_2 : S8x64x64x1024.Transposes [0, 3, 1, 2] S8x1024x64x64
  gather_S8x16_S32x1_S32x16_1_0_n_n_0_1_116_wf : GatherDims.WF S8x16 S32x1 S32x16 [1] [0] [] [0] [] 1 ![1, 16]
  hcc0_scratch6 : 0 + S_.numel ≤ 8
  hcc0_scratch7 : 1 + S_.numel ≤ 8
  hcc0_scratch8 : 2 + S_.numel ≤ 8
  hcc0_scratch9 : 3 + S_.numel ≤ 8
  hcc0_scratch10 : 4 + S_.numel ≤ 8
  hcc0_scoped0 : 5 + S_.numel ≤ 8
  hcc0_scoped1 : 6 + S_.numel ≤ 8
  hcc0_scoped2 : 7 + S_.numel ≤ 8
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (r : Fin 2), ∀ a, (k0_off1 i (BitVec.ofNat 32 (32 * r.val))) a + S32x1024.size a ≤ S32768x1024.size a
  k0_off2_inb : ∀ i : grid0.Coords, ∀ a, (k0_off2 i) a + S1x16.size a ≤ S32x16.size a
  k0_t1_ok : k0_t1_loop.OK
  k0_off3_inb : ∀ (i : grid0.Coords) (k0_t1 : Fin k0_t1_loop.trips), ∀ a, (k0_off3 i k0_t1) a + S32x1024.size a ≤ S32768x1024.size a
  k0_t2_ok : k0_t2_loop.OK
  k0_off4_inb : ∀ (i : grid0.Coords) (k0_t1 : Fin k0_t1_loop.trips), ∀ (r : Fin 2), ∀ a, (k0_off4 i k0_t1 (BitVec.ofNat 32 r.val)) a + S32x1024.size a ≤ S32768x1024.size a
  k0_off5_inb : ∀ (i : grid0.Coords) (k0_t1 : Fin k0_t1_loop.trips), ∀ (k0_h1 : k0_cond1 k0_t1 = 1#1), ∀ a, (k0_off5 i k0_t1) a + S32x1024.size a ≤ S32768x1024.size a
  k0_t3_ok : k0_t3_loop.OK
  k0_off6_inb : ∀ (i : grid0.Coords) (k0_t1 : Fin k0_t1_loop.trips), ∀ a, (k0_off6 i k0_t1) a + S32x1024.size a ≤ S32768x1024.size a
  k0_off7_inb : ∀ (i : grid0.Coords) (k0_t1 : Fin k0_t1_loop.trips), ∀ (k0_h2 : k0_cond2 k0_t1 = 1#1), ∀ a, (k0_off7 i k0_t1) a + S32x1024.size a ≤ S32768x1024.size a

variable [Facts₀]

abbrev cc0_scratch6 : DmaSems sig S_ := SemArray.consecutive 0 S_ hcc0_scratch6
abbrev cc0_scratch7 : DmaSems sig S_ := SemArray.consecutive 1 S_ hcc0_scratch7
abbrev cc0_scratch8 : DmaSems sig S_ := SemArray.consecutive 2 S_ hcc0_scratch8
abbrev cc0_scratch9 : DmaSems sig S_ := SemArray.consecutive 3 S_ hcc0_scratch9
abbrev cc0_scratch10 : DmaSems sig S_ := SemArray.consecutive 4 S_ hcc0_scratch10
abbrev cc0_scoped0 : DmaSems sig S_ := SemArray.consecutive 5 S_ hcc0_scoped0
abbrev cc0_scoped1 : DmaSems sig S_ := SemArray.consecutive 6 S_ hcc0_scoped1
abbrev cc0_scoped2 : DmaSems sig S_ := SemArray.consecutive 7 S_ hcc0_scoped2
def gather_S8x16_S32x1_S32x16_1_0_n_n_0_1_116 : GatherDims S8x16 S32x1 S32x16 where
  offsetDims := [1]
  collapsedSliceDims := [0]
  operandBatchingDims := []
  startIndicesBatchingDims := []
  startIndexMap := [0]
  indexVectorDim := 1
  sliceSizes := ![1, 16]
  wf := gather_S8x16_S32x1_S32x16_1_0_n_n_0_1_116_wf

class Facts : Prop extends Facts₀ where

variable [Facts]
-- ==== ReferenceIdeal.lean ====
abbrev S8x1024x64x64 : Shape := ⟨4, ![8, 1024, 64, 64]⟩
abbrev S8x1024x64 : Shape := ⟨3, ![8, 1024, 64]⟩
abbrev S8x16 : Shape := ⟨2, ![8, 16]⟩
abbrev S8x1024x64x1 : Shape := ⟨4, ![8, 1024, 64, 1]⟩
abbrev S8x1024x1x64 : Shape := ⟨4, ![8, 1024, 1, 64]⟩
abbrev S8x16x1x1 : Shape := ⟨4, ![8, 16, 1, 1]⟩
abbrev S8x16x64x64 : Shape := ⟨4, ![8, 16, 64, 64]⟩
abbrev S_ : Shape := ⟨0, ![]⟩
abbrev S8x16x64x64x1 : Shape := ⟨5, ![8, 16, 64, 64, 1]⟩
abbrev S1 : Shape := ⟨1, ![1]⟩
abbrev S1x1x1x1x1 : Shape := ⟨5, ![1, 1, 1, 1, 1]⟩
abbrev S8 : Shape := ⟨1, ![8]⟩
abbrev S8x1 : Shape := ⟨2, ![8, 1]⟩
abbrev S8x16x1 : Shape := ⟨3, ![8, 16, 1]⟩
abbrev S8x16x2 : Shape := ⟨3, ![8, 16, 2]⟩

abbrev nBuf : Space → Nat
  | .hbm => 52
  | .vmem => 0
  | .smem => 0
  | _ => 0

abbrev bufTy : (tb : Table) → Fin (tcTables nBuf tb) → BufTy
  | .hbm, ⟨0, _⟩ => ⟨S8x1024x64x64, .f32⟩
  | .hbm, ⟨1, _⟩ => ⟨S8x1024x64, .f32⟩
  | .hbm, ⟨2, _⟩ => ⟨S8x1024x64, .f32⟩
  | .hbm, ⟨3, _⟩ => ⟨S8x16, .i32⟩
  | .hbm, ⟨4, _⟩ => ⟨S8x1024x64x1, .f32⟩
  | .hbm, ⟨5, _⟩ => ⟨S8x1024x1x64, .f32⟩
  | .hbm, ⟨6, _⟩ => ⟨S8x1024x64x64, .f32⟩
  | .hbm, ⟨7, _⟩ => ⟨S8x16x1x1, .i32⟩
  | .hbm, ⟨8, _⟩ => ⟨S8x16x64x64, .i32⟩
  | .hbm, ⟨9, _⟩ => ⟨S_, .i32⟩
  | .hbm, ⟨10, _⟩ => ⟨S8x16x64x64, .i32⟩
  | .hbm, ⟨11, _⟩ => ⟨S8x16x64x64, .i1⟩
  | .hbm, ⟨12, _⟩ => ⟨S_, .i32⟩
  | .hbm, ⟨13, _⟩ => ⟨S8x16x64x64, .i32⟩
  | .hbm, ⟨14, _⟩ => ⟨S8x16x64x64, .i32⟩
  | .hbm, ⟨15, _⟩ => ⟨S8x16x64x64, .i32⟩
  | .hbm, ⟨16, _⟩ => ⟨S8x16x64x64x1, .i32⟩
  | .hbm, ⟨17, _⟩ => ⟨S1, .i32⟩
  | .hbm, ⟨18, _⟩ => ⟨S_, .i32⟩
  | .hbm, ⟨19, _⟩ => ⟨S8x16x64x64x1, .i32⟩
  | .hbm, ⟨20, _⟩ => ⟨S8x16x64x64x1, .i1⟩
  | .hbm, ⟨21, _⟩ => ⟨S1x1x1x1x1, .i32⟩
  | .hbm, ⟨22, _⟩ => ⟨S8x16x64x64x1, .i32⟩
  | .hbm, ⟨23, _⟩ => ⟨S8x16x64x64x1, .i1⟩
  | .hbm, ⟨24, _⟩ => ⟨S8x16x64x64x1, .i1⟩
  | .hbm, ⟨25, _⟩ => ⟨S_, .i1⟩
  | .hbm, ⟨26, _⟩ => ⟨S8x16x64x64, .i1⟩
  | .hbm, ⟨27, _⟩ => ⟨S8x16x64x64, .f32⟩
  | .hbm, ⟨28, _⟩ => ⟨S_, .f32⟩
  | .hbm, ⟨29, _⟩ => ⟨S8x16x64x64, .f32⟩
  | .hbm, ⟨30, _⟩ => ⟨S8x16x64x64, .f32⟩
  | .hbm, ⟨31, _⟩ => ⟨S8, .i32⟩
  | .hbm, ⟨32, _⟩ => ⟨S8x1, .i32⟩
  | .hbm, ⟨33, _⟩ => ⟨S_, .i32⟩
  | .hbm, ⟨34, _⟩ => ⟨S8x1, .i32⟩
  | .hbm, ⟨35, _⟩ => ⟨S8x1, .i1⟩
  | .hbm, ⟨36, _⟩ => ⟨S_, .i32⟩
  | .hbm, ⟨37, _⟩ => ⟨S8x1, .i32⟩
  | .hbm, ⟨38, _⟩ => ⟨S8x1, .i32⟩
  | .hbm, ⟨39, _⟩ => ⟨S8x1, .i32⟩
  | .hbm, ⟨40, _⟩ => ⟨S_, .i32⟩
  | .hbm, ⟨41, _⟩ => ⟨S8x16, .i32⟩
  | .hbm, ⟨42, _⟩ => ⟨S8x16, .i1⟩
  | .hbm, ⟨43, _⟩ => ⟨S_, .i32⟩
  | .hbm, ⟨44, _⟩ => ⟨S8x16, .i32⟩
  | .hbm, ⟨45, _⟩ => ⟨S8x16, .i32⟩
  | .hbm, ⟨46, _⟩ => ⟨S8x16, .i32⟩
  | .hbm, ⟨47, _⟩ => ⟨S8x16, .i32⟩
  | .hbm, ⟨48, _⟩ => ⟨S8x16x1, .i32⟩
  | .hbm, ⟨49, _⟩ => ⟨S8x16x1, .i32⟩
  | .hbm, ⟨50, _⟩ => ⟨S8x16x2, .i32⟩
  | .hbm, ⟨51, _⟩ => ⟨S8x1024x64x64, .f32⟩
  | _, _ => ⟨S8x1024x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_cst : Ref sig .tc := ⟨.hbm, 28, rfl⟩
abbrev main_call0_v14 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_c : Ref sig .tc := ⟨.hbm, 33, rfl⟩
abbrev main_v8 : Ref sig .tc := ⟨.hbm, 34, rfl⟩
abbrev main_v9 : Ref sig .tc := ⟨.hbm, 35, rfl⟩
abbrev main_c_0 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_c_1 : Ref sig .tc := ⟨.hbm, 40, rfl⟩
abbrev main_v13 : Ref sig .tc := ⟨.hbm, 41, rfl⟩
abbrev main_v14 : Ref sig .tc := ⟨.hbm, 42, rfl⟩
abbrev main_c_2 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩

abbrev nD : Nat := 1
abbrev τ : Topo := Topo.v7x

variable {F : FTy → Type} [FloatOps F]

class Facts₀ : Prop where
  bcast_S8x1024x64_S8x1024x64x1_0_1_2 : S8x1024x64.BroadcastsInDim S8x1024x64x1 (![0, 1, 2] : Fin 3 → Fin S8x1024x64x1.rank)
  bcast_S8x1024x64_S8x1024x1x64_0_1_3 : S8x1024x64.BroadcastsInDim S8x1024x1x64 (![0, 1, 3] : Fin 3 → Fin S8x1024x1x64.rank)
  bcast_S8x16_S8x16x1x1_0_1 : S8x16.BroadcastsInDim S8x16x1x1 (![0, 1] : Fin 2 → Fin S8x16x1x1.rank)
  bcast_S8x16x1x1_S8x16x64x64_0_1_2_3 : S8x16x1x1.BroadcastsInDim S8x16x64x64 (![0, 1, 2, 3] : Fin 4 → Fin S8x16x64x64.rank)
  bcast_S_S8x16x64x64 : S_.BroadcastsInDim S8x16x64x64 (![] : Fin 0 → Fin S8x16x64x64.rank)
  shapeCasts_S8x16x64x64_S8x16x64x64x1 : S8x16x64x64.ShapeCasts S8x16x64x64x1
  bcast_S_S8x16x64x64x1 : S_.BroadcastsInDim S8x16x64x64x1 (![] : Fin 0 → Fin S8x16x64x64x1.rank)
  bcast_S1_S1x1x1x1x1_4 : S1.BroadcastsInDim S1x1x1x1x1 (![4] : Fin 1 → Fin S1x1x1x1x1.rank)
  bcast_S1x1x1x1x1_S8x16x64x64x1_0_1_2_3_4 : S1x1x1x1x1.BroadcastsInDim S8x16x64x64x1 (![0, 1, 2, 3, 4] : Fin 5 → Fin S8x16x64x64x1.rank)
  reducesTo_S8x16x64x64x1_S8x16x64x64_d4 : S8x16x64x64x1.ReducesTo [4] S8x16x64x64
  h_S_ : 0 < S_.numel
  bcast_S8_S8x1_0 : S8.BroadcastsInDim S8x1 (![0] : Fin 1 → Fin S8x1.rank)
  bcast_S_S8x1 : S_.BroadcastsInDim S8x1 (![] : Fin 0 → Fin S8x1.rank)
  bcast_S_S8x16 : S_.BroadcastsInDim S8x16 (![] : Fin 0 → Fin S8x16.rank)
  bcast_S8x1_S8x16_0_1 : S8x1.BroadcastsInDim S8x16 (![0, 1] : Fin 2 → Fin S8x16.rank)
  bcast_S8x16_S8x16x1_0_1 : S8x16.BroadcastsInDim S8x16x1 (![0, 1] : Fin 2 → Fin S8x16x1.rank)
  concatenates_S8x16x1_S8x16x1_S8x16x2_d2 : Shape.Concatenates [S8x16x1, S8x16x1] S8x16x2 2
  dot_S8x1024x64x1_S8x1024x1x64_S8x1024x64x64_3_2_2_3_01_01_wf : DotDims.WF S8x1024x64x1 S8x1024x1x64 S8x1024x64x64 [3] [2] [2] [3] [0, 1] [0, 1]
  gather_S8x1024x64x64_S8x16x64x64x1_S8x16x64x64_n_1_023_023_1_4_1111_wf : GatherDims.WF S8x1024x64x64 S8x16x64x64x1 S8x16x64x64 [] [1] [0, 2, 3] [1] [0, 2, 3] 4 ![1, 1, 1, 1]
  scatter_S8x1024x64x64_S8x16x2_S8x16x64x64_23_01_01_2_wf : ScatterDims.WF S8x1024x64x64 S8x16x2 S8x16x64x64 [2, 3] [0, 1] [0, 1] 2

variable [Facts₀]

def dot_S8x1024x64x1_S8x1024x1x64_S8x1024x64x64_3_2_2_3_01_01 : DotDims S8x1024x64x1 S8x1024x1x64 S8x1024x64x64 where
  lhsContracting := [3]
  rhsContracting := [2]
  lhsNonContracting := [2]
  rhsNonContracting := [3]
  lhsBatch := [0, 1]
  rhsBatch := [0, 1]
  wf := dot_S8x1024x64x1_S8x1024x1x64_S8x1024x64x64_3_2_2_3_01_01_wf
def gather_S8x1024x64x64_S8x16x64x64x1_S8x16x64x64_n_1_023_023_1_4_1111 : GatherDims S8x1024x64x64 S8x16x64x64x1 S8x16x64x64 where
  offsetDims := []
  collapsedSliceDims := [1]
  operandBatchingDims := [0, 2, 3]
  startIndicesBatchingDims := [0, 2, 3]
  startIndexMap := [1]
  indexVectorDim := 4
  sliceSizes := ![1, 1, 1, 1]
  wf := gather_S8x1024x64x64_S8x16x64x64x1_S8x16x64x64_n_1_023_023_1_4_1111_wf
def scatter_S8x1024x64x64_S8x16x2_S8x16x64x64_23_01_01_2 : ScatterDims S8x1024x64x64 S8x16x2 S8x16x64x64 where
  updateWindowDims := [2, 3]
  insertedWindowDims := [0, 1]
  scatterDimsToOperandDims := [0, 1]
  indexVectorDim := 2
  wf := scatter_S8x1024x64x64_S8x16x2_S8x16x64x64_23_01_01_2_wf

class Facts : Prop extends Facts₀ where

variable [Facts]
-- ==== Proof.Spec.lean ====
/-
  The functions this certificate's parts meet at, as pure terms over literal shapes.

  The arrays: `M : f32[8, 1024, 64, 64]` (a memory of 1024 slots per batch entry, each slot a 64 × 64 matrix),
  `M_k, M_v : f32[8, 1024, 64]` (a key and a value vector per slot) and `idx : i32[8, 16]` (sixteen slot numbers per
  batch entry, repeats allowed). The result adds to slot `idx[b, k]` of batch entry `b`, once per `k`, the outer
  product of that slot's key and value vectors.

  * `refAt`: entry `(b, n, i, j)` of the result as the array code states it: `M` plus one outer-product entry per
    position `k` whose slot number is `n`.
  * The kernel's route. The host lays `M` out as 32768 rows of 1024 (`m2At`: row `b·4096 + i·64 + j`, column `n`),
    the key and value vectors side by side as 8192 rows of 128 (`kvAt`: row `b·1024 + n`), and per worker `w` of 32
    (batch entry `w / 4`) the sixteen slot numbers (`nvecAt`), their table rows (`gvecAt`) and a weight per position
    (`wvecAt`: how often the position's slot number occurs, at its first occurrence, and zero at a repeat). A worker
    owns rows `w·1024 … w·1024 + 1023`; for row `x` it adds, lane by lane in ascending order, to column
    `nvec[w, k]` the product `(kv[g_k, (x / 64) % 64] · wvec[w, k]) · kv[g_k, 64 + x % 64]` for each lane `k` whose
    weight is positive (`rowAt`). The host lays the rows back (`outAt`).
  * `kerAt` is the composition: what the kernel's program returns at `(b, n, i, j)`.
-/
import Idealize.ShloMosaic.PureOps.Ideal
import Idealize.ShloMosaic.Lib.ValueIdx

noncomputable section

namespace Cert.Spec

open Idealize.ShloMosaic Idealize.ShloMosaic.ValueIdx

abbrev SM : Shape := ⟨4, ![8, 1024, 64, 64]⟩
abbrev SK : Shape := ⟨3, ![8, 1024, 64]⟩
abbrev SI : Shape := ⟨2, ![8, 16]⟩
abbrev SR : Shape := ⟨2, ![32768, 1024]⟩
abbrev SKV : Shape := ⟨2, ![8192, 128]⟩
abbrev SW : Shape := ⟨2, ![32, 16]⟩

/-! ## The array code's result -/

/-- Entry `(b, n, i, j)` of the array code's result over the extended reals. -/
def refAt (M : SM.Idx → EReal) (Mk Mv : SK.Idx → EReal) (idx : IVec SI 32) (b : Fin 8) (n : Fin 1024) (i j : Fin 64) : EReal :=
  M (ix4 b n i j) + ∑ k : Fin 16, if (idx (ix2 b k)).toNat = n.val then Mk (ix3 b n i) * Mv (ix3 b n j) else 0

def refOut (M : SM.Idx → EReal) (Mk Mv : SK.Idx → EReal) (idx : IVec SI 32) : SM.Idx → EReal :=
  fun p => refAt M Mk Mv idx (p 0) (p 1) (p 2) (p 3)

variable {F : FTy → Type} [FloatOps F]

/-! ## The host's layouts before the call -/

/-- Row `x = b·4096 + i·64 + j`, column `n` of the re-laid memory is `M[b, n, i, j]`. -/
def m2At (M : Vec F SM .f32) (x : Fin 32768) (n : Fin 1024) : Elt F .f32 :=
  M (ix4 (⟨x.val / 4096, by omega⟩ : Fin 8) n (⟨x.val / 64 % 64, by omega⟩ : Fin 64) (⟨x.val % 64, by omega⟩ : Fin 64))
def m2Of (M : Vec F SM .f32) : Vec F SR .f32 := fun p => m2At M (p 0) (p 1)

/-- Row `s = b·1024 + n` of the key/value table: the key vector in columns 0–63, the value vector in 64–127. -/
def kvAt (Mk Mv : Vec F SK .f32) (s : Fin 8192) (c : Fin 128) : Elt F .f32 :=
  if h : c.val < 64 then Mk (ix3 (⟨s.val / 1024, by omega⟩ : Fin 8) (⟨s.val % 1024, by omega⟩ : Fin 1024) (⟨c.val, h⟩ : Fin 64))
  else Mv (ix3 (⟨s.val / 1024, by omega⟩ : Fin 8) (⟨s.val % 1024, by omega⟩ : Fin 1024) (⟨c.val - 64, by omega⟩ : Fin 64))
def kvOf (Mk Mv : Vec F SK .f32) : Vec F SKV .f32 := fun p => kvAt Mk Mv (p 0) (p 1)

/-- Worker `w` serves batch entry `w / 4`. -/
def batchOf (w : Fin 32) : Fin 8 := ⟨w.val / 4, by omega⟩

def nvecAt (idx : IVec SI 32) (w : Fin 32) (k : Fin 16) : BitVec 32 := idx (ix2 (batchOf w) k)
def nvecOf (idx : IVec SI 32) : IVec SW 32 := fun p => nvecAt idx (p 0) (p 1)

def gvecAt (idx : IVec SI 32) (w : Fin 32) (k : Fin 16) : BitVec 32 := BitVec.ofNat 32 ((batchOf w).val * 1024) + idx (ix2 (batchOf w) k)
def gvecOf (idx : IVec SI 32) : IVec SW 32 := fun p => gvecAt idx (p 0) (p 1)

/-- How many of the sixteen positions of batch entry `b` hold position `k`'s slot number. -/
def cntAt (idx : IVec SI 32) (b : Fin 8) (k : Fin 16) : ℕ := (Finset.univ.filter fun l : Fin 16 => idx (ix2 b l) = idx (ix2 b k)).card
/-- Position `k` is the first holding its slot number. -/
def firstAt (idx : IVec SI 32) (b : Fin 8) (k : Fin 16) : Prop := ∀ l : Fin 16, l < k → idx (ix2 b l) ≠ idx (ix2 b k)
instance (idx : IVec SI 32) (b : Fin 8) (k : Fin 16) : Decidable (firstAt idx b k) := by unfold firstAt; infer_instance
/-- The integer weight: the count at a first occurrence, zero at a repeat. -/
def wrowAt (idx : IVec SI 32) (b : Fin 8) (k : Fin 16) : BitVec 32 := if firstAt idx b k then BitVec.ofNat 32 (cntAt idx b k) else 0#32
def wvecAt (idx : IVec SI 32) (w : Fin 32) (k : Fin 16) : Elt F .f32 := FloatOps.sitofp (F := F) .f32 (wrowAt idx (batchOf w) k)
def wvecOf (idx : IVec SI 32) : Vec F SW .f32 := fun p => wvecAt (F := F) idx (p 0) (p 1)

/-! ## What a worker leaves in its rows -/

/-- The table row lane `k` of worker `w` fetched, reduced into the table's 8192 rows. -/
def gRow (gv : IVec SW 32) (w : Fin 32) (k : Fin 16) : Fin 8192 := ⟨(gv (ix2 w k)).toNat % 8192, Nat.mod_lt _ (by norm_num)⟩

/-- Lane `k`'s contribution to row `x`: `(kv[g_k, (x / 64) % 64] · wv[w, k]) · kv[g_k, 64 + x % 64]`. -/
def laneVal (kv : Vec F SKV .f32) (wv : Vec F SW .f32) (gv : IVec SW 32) (w : Fin 32) (x : Fin 32768) (k : Fin 16) : Elt F .f32 :=
  FloatOps.mulf (F := F) (φ := .f32)
    (FloatOps.mulf (F := F) (φ := .f32) (kv (ix2 (gRow gv w k) (⟨x.val / 64 % 64, by omega⟩ : Fin 128))) (wv (ix2 w k)))
    (kv (ix2 (gRow gv w k) (⟨64 + x.val % 64, by omega⟩ : Fin 128)))

/-- Lane `k` of worker `w` lands in column `n`: its weight is positive and its slot number is `n`. -/
def laneOn (nv : IVec SW 32) (wv : Vec F SW .f32) (w : Fin 32) (n : Fin 1024) (k : Fin 16) : Prop :=
  FloatOps.cmpf (F := F) (φ := .f32) .ogt (wv (ix2 w k)) (Scalar.ofBits .f32 0x00000000#32) = 1#1 ∧ (nv (ix2 w k)).toNat = n.val

/-- Row `x`, column `n` after worker `x / 1024`'s updates: the lanes taken in ascending order, each landing lane's
    contribution added onto what is there. -/
def rowAt (m2 : Vec F SR .f32) (kv : Vec F SKV .f32) (nv : IVec SW 32) (wv : Vec F SW .f32) (gv : IVec SW 32)
    (x : Fin 32768) (n : Fin 1024) : Elt F .f32 :=
  open Classical in
  (List.finRange 16).foldl (fun g k =>
      if laneOn (F := F) nv wv (⟨x.val / 1024, by omega⟩ : Fin 32) n k
      then Elt.idxAdd (F := F) .f32 g (laneVal kv wv gv (⟨x.val / 1024, by omega⟩ : Fin 32) x k) else g)
    (m2 (ix2 x n))
def rowsOf (m2 : Vec F SR .f32) (kv : Vec F SKV .f32) (nv : IVec SW 32) (wv : Vec F SW .f32) (gv : IVec SW 32) : Vec F SR .f32 :=
  fun p => rowAt m2 kv nv wv gv (p 0) (p 1)

/-! ## The host's layout after the call, and the kernel's program as one function -/

def outAt (o2 : Vec F SR .f32) (b : Fin 8) (n : Fin 1024) (i j : Fin 64) : Elt F .f32 :=
  o2 (ix2 (⟨b.val * 4096 + i.val * 64 + j.val, by omega⟩ : Fin 32768) n)
def outOf (o2 : Vec F SR .f32) : Vec F SM .f32 := fun p => outAt o2 (p 0) (p 1) (p 2) (p 3)

def kerOut (M : Vec F SM .f32) (Mk Mv : Vec F SK .f32) (idx : IVec SI 32) : Vec F SM .f32 :=
  outOf (rowsOf (m2Of M) (kvOf Mk Mv) (nvecOf idx) (wvecOf (F := F) idx) (gvecOf idx))

end Cert.Spec

end
-- ==== Proof.TileDefs.lean ====
/-
  What the tile obligation and the launch meet at, for the program `KernelIdeal` read at any float instance `F`.

  The call runs on 32 vector subcores. Subcore `(c, s)` is worker `w = 16·c + s`; it owns rows `1024·w … 1024·w + 1023`
  of the re-laid memory (32768 rows of 1024) and of the output, in 32 chunks of 32 rows (chunk `32·w + g` of 1024), row
  `w` of each of the three per-worker vectors (slot numbers, weights, table rows), and reads the key/value table, which
  all workers share, through a read share. `tileIn` is what a worker is handed, `tileOut` what it hands back: the same,
  with its output rows at `Spec.rowsOf` of the five arrays it read. `TileBody` is the obligation: from `tileIn`, the
  subcore's scratch and semaphores, the kernel's body runs to its end and leaves `tileOut`.
-/
import proofs.«210205_g8383776161859_cont_9to1_m_1272_27_alg».proof.KernelIdeal
import proofs.«210205_g8383776161859_cont_9to1_m_1272_27_alg».proof.Proof.Gen.KernelIdeal
import proofs.«210205_g8383776161859_cont_9to1_m_1272_27_alg».proof.Proof.Gen.KernelIdeal.Skeleton
import proofs.«210205_g8383776161859_cont_9to1_m_1272_27_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic

noncomputable section

namespace Cert.KernelIdeal.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays of the call, as locations of device `d` -/

abbrev loc42 (d : Dev nD) : Loc nD τ sig := (SparseCore.T d).loc main_v42   -- the re-laid memory, 32768 × 1024
abbrev loc45 (d : Dev nD) : Loc nD τ sig := (SparseCore.T d).loc main_v45   -- the key/value table, 8192 × 128
abbrev loc26 (d : Dev nD) : Loc nD τ sig := (SparseCore.T d).loc main_v26   -- per worker: the slot numbers
abbrev loc33 (d : Dev nD) : Loc nD τ sig := (SparseCore.T d).loc main_v33   -- per worker: the weights
abbrev loc40 (d : Dev nD) : Loc nD τ sig := (SparseCore.T d).loc main_v40   -- per worker: the table rows
abbrev loc46 (d : Dev nD) : Loc nD τ sig := (SparseCore.T d).loc main_v46   -- the output rows, 32768 × 1024

/-! ## Workers, chunks, rows -/

abbrev cV (L : grid0.Coords) : Fin τ.nSC := (L 0).castLE hcore0
abbrev jV (L : grid0.Coords) : Fin τ.nSub := (L 1).castLE hsub0

theorem bound_zero : grid0.bound 0 = 2 := rfl
theorem bound_one : grid0.bound 1 = 16 := rfl

/-- The worker number of subcore `(L 0, L 1)`. -/
def wid (L : grid0.Coords) : Fin 32 := ⟨16 * (L 0).val + (L 1).val, by
  have h0 : (L 0).val < 2 := (L 0).isLt
  have h1 : (L 1).val < 16 := (L 1).isLt
  omega⟩

/-- Chunk `g` of worker `w`, among the 1024 chunks of 32 rows. -/
def chunkOf (w g : Fin 32) : Fin 1024 := ⟨32 * w.val + g.val, by omega⟩

theorem hdivC : 1024 ∣ S32768x1024.size 0 := ⟨32, rfl⟩
abbrev chunkRect (c : Fin 1024) : Rect S32768x1024 := Rect.part (s := S32768x1024) (a₀ := 0) hdivC c
abbrev chunkSet (c : Fin 1024) : Finset S32768x1024.Idx :=
  ((Memref.whole main_v42_scv : Memref sig .scVector .hbm S32768x1024 .f32).view.slice (chunkRect c)).set

theorem hdivW : 32 ∣ S32x16.size 0 := ⟨1, rfl⟩
abbrev wrowRect (w : Fin 32) : Rect S32x16 := Rect.part (s := S32x16) (a₀ := 0) hdivW w
abbrev wrowSet (w : Fin 32) : Finset S32x16.Idx :=
  ((Memref.whole main_v26_scv : Memref sig .scVector .hbm S32x16 .i32).view.slice (wrowRect w)).set

/-! ## What a worker is handed and hands back -/

variable [FloatOps F]

def tileIn (d : Dev nD) (w : Fin 32) (q : PosShare TreeShare)
    (f42 : Buf (Elt F) (loc42 d)) (f45 : Buf (Elt F) (loc45 d)) (f26 : Buf (Elt F) (loc26 d)) (f33 : Buf (Elt F) (loc33 d))
    (f40 : Buf (Elt F) (loc40 d)) (f46 : Buf (Elt F) (loc46 d)) : sProp 𝕄 :=
  iprop((bigSep Finset.univ fun g : Fin 32 => loc42 d ↦[chunkSet (chunkOf w g)]{fullShare} f42)
    ∗ (loc45 d ↦{q} f45)
    ∗ (loc26 d ↦[wrowSet w]{fullShare} f26) ∗ (loc33 d ↦[wrowSet w]{fullShare} f33) ∗ (loc40 d ↦[wrowSet w]{fullShare} f40)
    ∗ (bigSep Finset.univ fun g : Fin 32 => loc46 d ↦[chunkSet (chunkOf w g)]{fullShare} f46))

def tileOut (d : Dev nD) (w : Fin 32) (q : PosShare TreeShare)
    (f42 : Buf (Elt F) (loc42 d)) (f45 : Buf (Elt F) (loc45 d)) (f26 : Buf (Elt F) (loc26 d)) (f33 : Buf (Elt F) (loc33 d))
    (f40 : Buf (Elt F) (loc40 d)) : sProp 𝕄 :=
  iprop((bigSep Finset.univ fun g : Fin 32 => loc42 d ↦[chunkSet (chunkOf w g)]{fullShare} f42)
    ∗ (loc45 d ↦{q} f45)
    ∗ (loc26 d ↦[wrowSet w]{fullShare} f26) ∗ (loc33 d ↦[wrowSet w]{fullShare} f33) ∗ (loc40 d ↦[wrowSet w]{fullShare} f40)
    ∗ (bigSep Finset.univ fun g : Fin 32 => loc46 d ↦[chunkSet (chunkOf w g)]{fullShare} (Cert.Spec.rowsOf (F := F) f42 f45 f26 f33 f40)))

/-- The obligation of one worker: from its share of the arrays, its scratch and its semaphores, the kernel's body runs
    to its end, nothing faulting, and its output rows hold `Spec.rowsOf`. Asked of the arrays: every table row number
    below 8192 and every slot number below 1024 (what makes the indexed copy and the indexed stores in range). -/
def TileBody : Prop :=
  ∀ (_ : (K (F := F)).Facts) (d : Dev nD) (L : grid0.Coords) (q : PosShare TreeShare)
    (f42 : Buf (Elt F) (loc42 d)) (f45 : Buf (Elt F) (loc45 d)) (f26 : Buf (Elt F) (loc26 d)) (f33 : Buf (Elt F) (loc33 d))
    (f40 : Buf (Elt F) (loc40 d)) (f46 : Buf (Elt F) (loc46 d))
    (_ : ∀ p, (f40 p).toNat < 8192) (_ : ∀ p, (f26 p).toNat < 1024)
    (O : CellTallies nD τ sig (HIx 1)) (W : Waits sig (HIx 1)) (_ : ∀ g, O g none = 0),
    iprop(levAts (K (F := F)).L (K (F := F)).lev ∗ emp ∗ tileIn d (wid L) q f42 f45 f26 f33 f40 f46
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_body L (Memref.whole main_v42_scv) (Memref.isWhole_whole _) (Memref.whole main_v45_scv) (Memref.isWhole_whole _)
            (Memref.whole main_v26_scv) (Memref.isWhole_whole _) (Memref.whole main_v33_scv) (Memref.isWhole_whole _)
            (Memref.whole main_v40_scv) (Memref.isWhole_whole _) (Memref.whole main_v46_scv) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            cc0_scratch6 cc0_scratch7 cc0_scratch8 cc0_scratch9 cc0_scratch10 cc0_scoped0 cc0_scoped1 cc0_scoped2)
          fun _ => iprop(tileOut d (wid L) q f42 f45 f26 f33 f40 ∗ scopedBufs (V d (cV L) (jV L)) ∗ scopedSems0 (V d (cV L) (jV L))
            ∗ ∃ W', ⌜∀ p ∈ W', p ∈ W ∨ p.2 = none⌝ ∗ owes (V d (cV L) (jV L)) O W')

end Cert.KernelIdeal.Tile

end
-- ==== Proof.LaunchKI1.lean ====
/-
  The launch of the kernel's one call, first part: the facts of the configuration, what the handshakes carry, and
  the obligation of one vector subcore's task.

  The call runs on 2 SparseCores of 16 vector subcores. SparseCore `c` is handed, of the re-laid memory and of the
  output rows, the 512 chunks of its sixteen workers (worker `16·c + s` owns chunks `32·(16·c + s) … + 31`), of the
  three per-worker vectors the sixteen rows of its workers, and of the key/value table, which every worker reads, a
  read share (token `c` of the full share split in two); it hands worker `s` its 32 chunks of both arrays, its row of
  the three vectors, and token `s` of its own share split in sixteen. What comes back is the same with the output
  chunks at `Spec.rowsOf` of the five arrays read.
-/
import proofs.«210205_g8383776161859_cont_9to1_m_1272_27_alg».proof.Proof.TileDefs
import Idealize.ShloMosaic.Lib.Transfers

noncomputable section

namespace Cert.KernelIdeal.Launch

open Cert.KernelIdeal Cert.KernelIdeal.Gen Cert.KernelIdeal.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareTok shareDrop pointsTo_toks pointsTo_toks_split pointsTo_toks_join)

variable {F : FTy → Type}

local notation "𝕄" => MT nD τ sig (HIx 1) (Elt F) ℕ UU ℕ

/-! ## The configuration's facts -/

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## Workers and shares -/

/-- Worker `16·c + s`: vector subcore `s` of SparseCore `c`. -/
def wk (c : Fin 2) (s : Fin 16) : Fin 32 := ⟨16 * c.val + s.val, by omega⟩

/-- SparseCore `c`'s read share of the key/value table: token `c` of the full share. -/
def shC (c : Fin 2) : PosShare TreeShare := shareTokN fullShare c.val
/-- Worker `(c, s)`'s: token `s` of its SparseCore's. -/
def shW (c : Fin 2) (s : Fin 16) : PosShare TreeShare := shareTokN (shC c) s.val

/-! ## What the handshakes carry -/

variable [FloatOps F]

section Payloads

variable (d : Dev nD)
  (A42 : Buf (Elt F) (loc42 d)) (A45 : Buf (Elt F) (loc45 d)) (A26 : Buf (Elt F) (loc26 d)) (A33 : Buf (Elt F) (loc33 d))
  (A40 : Buf (Elt F) (loc40 d))

/-- What SparseCore `c` holds of the call's arrays, the output rows at `X`. -/
def coreRes (c : Fin 2) (X : Buf (Elt F) (loc46 d)) : sProp 𝕄 :=
  iprop((bigSep Finset.univ fun s : Fin 16 => bigSep Finset.univ fun g : Fin 32 => loc42 d ↦[chunkSet (chunkOf (wk c s) g)]{fullShare} A42)
    ∗ (loc45 d ↦{shC c} A45)
    ∗ (bigSep Finset.univ fun s : Fin 16 => loc26 d ↦[wrowSet (wk c s)]{fullShare} A26)
    ∗ (bigSep Finset.univ fun s : Fin 16 => loc33 d ↦[wrowSet (wk c s)]{fullShare} A33)
    ∗ (bigSep Finset.univ fun s : Fin 16 => loc40 d ↦[wrowSet (wk c s)]{fullShare} A40)
    ∗ (bigSep Finset.univ fun s : Fin 16 => bigSep Finset.univ fun g : Fin 32 => loc46 d ↦[chunkSet (chunkOf (wk c s) g)]{fullShare} X))

/-- What worker `(c, s)` holds, the output rows at `X`: `Tile.tileIn` at its share. -/
abbrev tileRes (c : Fin 2) (s : Fin 16) (X : Buf (Elt F) (loc46 d)) : sProp 𝕄 :=
  tileIn d (wk c s) (shW c s) A42 A45 A26 A33 A40 X

theorem tileOut_eq (w : Fin 32) (q : PosShare TreeShare) :
    (tileOut d w q A42 A45 A26 A33 A40 : sProp 𝕄) = tileIn d w q A42 A45 A26 A33 A40 (Cert.Spec.rowsOf (F := F) A42 A45 A26 A33 A40) := rfl

instance coreRes_storable (c : Fin 2) (X : Buf (Elt F) (loc46 d)) : BI.Storable (upEmb : UEmb _ 𝕄) (coreRes d A42 A45 A26 A33 A40 c X) := by
  unfold coreRes; infer_instance
instance tileIn_storable (w : Fin 32) (q : PosShare TreeShare) (X : Buf (Elt F) (loc46 d)) :
    BI.Storable (upEmb : UEmb _ 𝕄) (tileIn d w q A42 A45 A26 A33 A40 X) := by
  unfold tileIn; infer_instance

end Payloads

section Launch

variable (A42 : (d : Dev nD) → Buf (Elt F) (loc42 d)) (A45 : (d : Dev nD) → Buf (Elt F) (loc45 d)) (A26 : (d : Dev nD) → Buf (Elt F) (loc26 d))
  (A33 : (d : Dev nD) → Buf (Elt F) (loc33 d)) (A40 : (d : Dev nD) → Buf (Elt F) (loc40 d)) (f46 : (d : Dev nD) → Buf (Elt F) (loc46 d))

/-- The rows the call leaves on device `d`. -/
abbrev R46 (d : Dev nD) : Buf (Elt F) (loc46 d) := Cert.Spec.rowsOf (F := F) (A42 d) (A45 d) (A26 d) (A33 d) (A40 d)

/-- Call 0's payloads; no kernel's proof consumes anything of the launch's. -/
def P : (K (F := F)).Pay (nD := nD) (Val := Elt F) (Name := ℕ) (U := UU) where
  st := fun q d c => match q with | 0 => coreRes d (A42 d) (A45 d) (A26 d) (A33 d) (A40 d) (Fin.cast nCore_zero c) (f46 d)
  dn := fun q d c => match q with | 0 => coreRes d (A42 d) (A45 d) (A26 d) (A33 d) (A40 d) (Fin.cast nCore_zero c) (R46 A42 A45 A26 A33 A40 d)
  go := fun q d c s => match q with
    | 0 => tileRes d (A42 d) (A45 d) (A26 d) (A33 d) (A40 d) (Fin.cast nCore_zero c) (Fin.cast nSub_zero s) (f46 d)
  td := fun q d c s => match q with
    | 0 => tileRes d (A42 d) (A45 d) (A26 d) (A33 d) (A40 d) (Fin.cast nCore_zero c) (Fin.cast nSub_zero s) (R46 A42 A45 A26 A33 A40 d)
  x := fun _ _ => iprop(emp)

theorem P_st (d : Dev nD) (c : Fin ((K (F := F)).nCore 0)) :
    (P A42 A45 A26 A33 A40 f46).st 0 d c = coreRes d (A42 d) (A45 d) (A26 d) (A33 d) (A40 d) (Fin.cast nCore_zero c) (f46 d) := rfl
theorem P_dn (d : Dev nD) (c : Fin ((K (F := F)).nCore 0)) :
    (P A42 A45 A26 A33 A40 f46).dn 0 d c = coreRes d (A42 d) (A45 d) (A26 d) (A33 d) (A40 d) (Fin.cast nCore_zero c) (R46 A42 A45 A26 A33 A40 d) := rfl
theorem P_go (d : Dev nD) (c : Fin ((K (F := F)).nCore 0)) (s : Fin ((K (F := F)).nSub 0)) :
    (P A42 A45 A26 A33 A40 f46).go 0 d c s
      = tileRes d (A42 d) (A45 d) (A26 d) (A33 d) (A40 d) (Fin.cast nCore_zero c) (Fin.cast nSub_zero s) (f46 d) := rfl
theorem P_td (d : Dev nD) (c : Fin ((K (F := F)).nCore 0)) (s : Fin ((K (F := F)).nSub 0)) :
    (P A42 A45 A26 A33 A40 f46).td 0 d c s
      = tileRes d (A42 d) (A45 d) (A26 d) (A33 d) (A40 d) (Fin.cast nCore_zero c) (Fin.cast nSub_zero s) (R46 A42 A45 A26 A33 A40 d) := rfl

instance P_storable : (P (F := F) A42 A45 A26 A33 A40 f46).IsStorable where
  st q d c := match q with | 0 => by rw [P_st]; infer_instance
  dn q d c := match q with | 0 => by rw [P_dn]; infer_instance
  go q d c s := match q with | 0 => by rw [P_go]; infer_instance
  td q d c s := match q with | 0 => by rw [P_td]; infer_instance

/-! ## The task's obligation, from the body's -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_body (coordsV c s)
          (Memref.whole main_v42_scv) (Memref.isWhole_whole _) (Memref.whole main_v45_scv) (Memref.isWhole_whole _)
          (Memref.whole main_v26_scv) (Memref.isWhole_whole _) (Memref.whole main_v33_scv) (Memref.isWhole_whole _)
          (Memref.whole main_v40_scv) (Memref.isWhole_whole _) (Memref.whole main_v46_scv) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          (Memref.whole cc0_scratch4) (Memref.isWhole_whole _) (Memref.whole cc0_scratch5) (Memref.isWhole_whole _)
          cc0_scratch6 cc0_scratch7 cc0_scratch8 cc0_scratch9 cc0_scratch10 cc0_scoped0 cc0_scoped1 cc0_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem wid_coordsV (c : Fin (grid0.bound 0)) (s : Fin (grid0.bound 1)) :
    wid (coordsV c s) = wk (Fin.cast bound_zero c) (Fin.cast bound_one s) := rfl

theorem tileObl (hbody : TileBody (F := F)) (hg : ∀ d p, (A40 d p).toNat < 8192) (hn : ∀ d p, (A26 d p).toNat < 1024) :
    (K (F := F)).TileObl (D (F := F)) 𝒱 (P A42 A45 A26 A33 A40 f46) v₀ 0 := by
  intro d c i O W hO _ _
  -- this kernel owes nothing for a protocol of its own
  simp only [show (P A42 A45 A26 A33 A40 f46).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  rw [P_go, P_td, show (P A42 A45 A26 A33 A40 f46).x 0 (V d ((K (F := F)).core 0 c) ((K (F := F)).sub 0 i)) = iprop(emp) from rfl]
  exact (hbody facts d (coordsV ⟨_, hc.1⟩ ⟨_, hc.2⟩) (shW (Fin.cast nCore_zero c) (Fin.cast nSub_zero i))
    (A42 d) (A45 d) (A26 d) (A33 d) (A40 d) (f46 d) (hg d) (hn d) O W hO).trans (wp_mono frame _ _ fun _ => obl_post)

end Launch

end Cert.KernelIdeal.Launch

end
-- ==== Proof.LaunchKI2.lean ====
/-
  The launch of the kernel's one call, second part: how the arrays split and join.

  An array of 32768 rows is its 1024 chunks of 32 rows, and those are, by SparseCore `c`, worker `s` and chunk `g`,
  chunk `32·(16·c + s) + g`; a per-worker vector of 32 rows is its rows, row `16·c + s` by SparseCore and worker. A
  share of the key/value table is a remainder and one token per reader. So the six arrays of the call, whole, are
  what the two SparseCores are handed (and a remainder of the table's share, kept by the caller), and what a
  SparseCore is handed is what its sixteen workers are handed (and a remainder, kept by the sequencer); the same
  read backwards joins what comes back, at any contents of the output rows.
-/
import proofs.«210205_g8383776161859_cont_9to1_m_1272_27_alg».proof.Proof.LaunchKI1

noncomputable section

namespace Cert.KernelIdeal.Launch

open Cert.KernelIdeal Cert.KernelIdeal.Gen Cert.KernelIdeal.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareTok shareDrop pointsTo_toks pointsTo_toks_split pointsTo_toks_join)

variable {F : FTy → Type}

local notation "𝕄" => MT nD τ sig (HIx 1) (Elt F) ℕ UU ℕ

/-! ## Reindexing -/

section Reindex

variable {M : Type} [URA M]

theorem bigSep_fin_mul {m n : ℕ} (Φ : Fin (m * n) → sProp M) :
    bigSep Finset.univ Φ = bigSep Finset.univ fun a : Fin m => bigSep Finset.univ fun b : Fin n => Φ (finProdFinEquiv (a, b)) := by
  rw [bigSep_univ_equiv finProdFinEquiv Φ, bigSep_univ_prod]

/-- The 32 workers by SparseCore and subcore. -/
theorem bigSep_workers (Φ : Fin 32 → sProp M) :
    bigSep Finset.univ Φ = bigSep Finset.univ fun c : Fin 2 => bigSep Finset.univ fun s : Fin 16 => Φ (wk c s) := by
  rw [bigSep_fin_mul (m := 2) (n := 16) Φ]
  exact bigSep_congr fun c _ => bigSep_congr fun s _ => congrArg Φ (Fin.ext (by
    rw [finProdFinEquiv_apply_val]; show s.val + 16 * c.val = 16 * c.val + s.val; omega))

/-- The 1024 chunks by worker and chunk of the worker. -/
theorem bigSep_chunks (Φ : Fin 1024 → sProp M) :
    bigSep Finset.univ Φ = bigSep Finset.univ fun w : Fin 32 => bigSep Finset.univ fun g : Fin 32 => Φ (chunkOf w g) := by
  rw [bigSep_fin_mul (m := 32) (n := 32) Φ]
  exact bigSep_congr fun w _ => bigSep_congr fun g _ => congrArg Φ (Fin.ext (by
    rw [finProdFinEquiv_apply_val]; show g.val + 32 * w.val = 32 * w.val + g.val; omega))

end Reindex

/-! ## Chunks and rows partition their arrays -/

theorem chunkSet_eq (k : Fin 1024) : chunkSet k = (chunkRect k).set := by
  show ((View.whole (main_v42_scv : Ref sig .scVector)).slice (chunkRect k)).set = _
  rw [View.set_slice]; exact Finset.map_refl
theorem chunks_disjoint : ∀ i ∈ (Finset.univ : Finset (Fin 1024)), ∀ j ∈ (Finset.univ : Finset (Fin 1024)), i ≠ j → Disjoint (chunkSet i) (chunkSet j) :=
  fun i _ j _ h => by rw [chunkSet_eq, chunkSet_eq]; exact Rect.part_disjoint hdivC h
theorem chunks_cover : (Finset.univ : Finset (Fin 1024)).biUnion chunkSet = Finset.univ :=
  (Finset.biUnion_congr rfl fun i _ => chunkSet_eq i).trans (Rect.biUnion_part hdivC)

theorem wrowSet_eq (w : Fin 32) : wrowSet w = (wrowRect w).set := by
  show ((View.whole (main_v26_scv : Ref sig .scVector)).slice (wrowRect w)).set = _
  rw [View.set_slice]; exact Finset.map_refl
theorem wrows_disjoint : ∀ i ∈ (Finset.univ : Finset (Fin 32)), ∀ j ∈ (Finset.univ : Finset (Fin 32)), i ≠ j → Disjoint (wrowSet i) (wrowSet j) :=
  fun i _ j _ h => by rw [wrowSet_eq, wrowSet_eq]; exact Rect.part_disjoint hdivW h
theorem wrows_cover : (Finset.univ : Finset (Fin 32)).biUnion wrowSet = Finset.univ :=
  (Finset.biUnion_congr rfl fun i _ => wrowSet_eq i).trans (Rect.biUnion_part hdivW)

section Whole

variable (d : Dev nD)

theorem whole42 (f : Buf (Elt F) (loc42 d)) :
    (loc42 d ↦{fullShare} f : sProp 𝕄)
      = bigSep Finset.univ fun c : Fin 2 => bigSep Finset.univ fun s : Fin 16 => bigSep Finset.univ fun g : Fin 32 =>
          loc42 d ↦[chunkSet (chunkOf (wk c s) g)]{fullShare} f := by
  rw [← bigSep_workers (fun w => bigSep Finset.univ fun g : Fin 32 => (loc42 d ↦[chunkSet (chunkOf w g)]{fullShare} f : sProp 𝕄)),
    ← bigSep_chunks (fun k => (loc42 d ↦[chunkSet k]{fullShare} f : sProp 𝕄)),
    ← pointsTo_biUnion Finset.univ (ℓ := loc42 d) chunkSet chunks_disjoint, chunks_cover]; try rfl
theorem whole46 (f : Buf (Elt F) (loc46 d)) :
    (loc46 d ↦{fullShare} f : sProp 𝕄)
      = bigSep Finset.univ fun c : Fin 2 => bigSep Finset.univ fun s : Fin 16 => bigSep Finset.univ fun g : Fin 32 =>
          loc46 d ↦[chunkSet (chunkOf (wk c s) g)]{fullShare} f := by
  rw [← bigSep_workers (fun w => bigSep Finset.univ fun g : Fin 32 => (loc46 d ↦[chunkSet (chunkOf w g)]{fullShare} f : sProp 𝕄)),
    ← bigSep_chunks (fun k => (loc46 d ↦[chunkSet k]{fullShare} f : sProp 𝕄)),
    ← pointsTo_biUnion Finset.univ (ℓ := loc46 d) chunkSet chunks_disjoint, chunks_cover]; try rfl
theorem whole26 (f : Buf (Elt F) (loc26 d)) :
    (loc26 d ↦{fullShare} f : sProp 𝕄)
      = bigSep Finset.univ fun c : Fin 2 => bigSep Finset.univ fun s : Fin 16 => loc26 d ↦[wrowSet (wk c s)]{fullShare} f := by
  rw [← bigSep_workers (fun w => (loc26 d ↦[wrowSet w]{fullShare} f : sProp 𝕄)),
    ← pointsTo_biUnion Finset.univ (ℓ := loc26 d) wrowSet wrows_disjoint, wrows_cover]; try rfl
theorem whole33 (f : Buf (Elt F) (loc33 d)) :
    (loc33 d ↦{fullShare} f : sProp 𝕄)
      = bigSep Finset.univ fun c : Fin 2 => bigSep Finset.univ fun s : Fin 16 => loc33 d ↦[wrowSet (wk c s)]{fullShare} f := by
  rw [← bigSep_workers (fun w => (loc33 d ↦[wrowSet w]{fullShare} f : sProp 𝕄)),
    ← pointsTo_biUnion Finset.univ (ℓ := loc33 d) wrowSet wrows_disjoint, wrows_cover]; try rfl
theorem whole40 (f : Buf (Elt F) (loc40 d)) :
    (loc40 d ↦{fullShare} f : sProp 𝕄)
      = bigSep Finset.univ fun c : Fin 2 => bigSep Finset.univ fun s : Fin 16 => loc40 d ↦[wrowSet (wk c s)]{fullShare} f := by
  rw [← bigSep_workers (fun w => (loc40 d ↦[wrowSet w]{fullShare} f : sProp 𝕄)),
    ← pointsTo_biUnion Finset.univ (ℓ := loc40 d) wrowSet wrows_disjoint, wrows_cover]; try rfl

end Whole

variable [FloatOps F]

/-! ## A SparseCore's holdings are its workers' -/

section Core

variable (d : Dev nD)
  (A42 : Buf (Elt F) (loc42 d)) (A45 : Buf (Elt F) (loc45 d)) (A26 : Buf (Elt F) (loc26 d)) (A33 : Buf (Elt F) (loc33 d))
  (A40 : Buf (Elt F) (loc40 d))

theorem tiles_eq (c : Fin 2) (X : Buf (Elt F) (loc46 d)) :
    (bigSep Finset.univ fun s : Fin 16 => tileRes d A42 A45 A26 A33 A40 c s X)
      = iprop((bigSep Finset.univ fun s : Fin 16 => bigSep Finset.univ fun g : Fin 32 => loc42 d ↦[chunkSet (chunkOf (wk c s) g)]{fullShare} A42)
        ∗ (bigSep Finset.univ fun s : Fin 16 => loc45 d ↦{shareTok (shC c) 16 s} A45)
        ∗ (bigSep Finset.univ fun s : Fin 16 => loc26 d ↦[wrowSet (wk c s)]{fullShare} A26)
        ∗ (bigSep Finset.univ fun s : Fin 16 => loc33 d ↦[wrowSet (wk c s)]{fullShare} A33)
        ∗ (bigSep Finset.univ fun s : Fin 16 => loc40 d ↦[wrowSet (wk c s)]{fullShare} A40)
        ∗ (bigSep Finset.univ fun s : Fin 16 => bigSep Finset.univ fun g : Fin 32 => loc46 d ↦[chunkSet (chunkOf (wk c s) g)]{fullShare} X)) := by
  unfold tileRes tileIn shW
  rw [bigSep_sep', bigSep_sep', bigSep_sep', bigSep_sep', bigSep_sep']

theorem core_split (c : Fin 2) (X : Buf (Elt F) (loc46 d)) :
    coreRes d A42 A45 A26 A33 A40 c X
      ⊢ iprop((loc45 d ↦{shareDrop (shC c) 16} A45) ∗ bigSep Finset.univ fun s : Fin 16 => tileRes d A42 A45 A26 A33 A40 c s X) := by
  rw [tiles_eq]; unfold coreRes
  iintro ⟨H42, H45, H26, H33, H40, H46⟩
  ihave H := (pointsTo_toks_split (shC c) 16) $$ H45
  icases H with ⟨Hd, Ht⟩
  isplitl [Hd]; · iexact Hd
  isplitl [H42]; · iexact H42
  isplitl [Ht]; · iexact Ht
  isplitl [H26]; · iexact H26
  isplitl [H33]; · iexact H33
  isplitl [H40]; · iexact H40
  iexact H46

theorem core_join (c : Fin 2) (X : Buf (Elt F) (loc46 d)) :
    iprop((loc45 d ↦{shareDrop (shC c) 16} A45) ∗ bigSep Finset.univ fun s : Fin 16 => tileRes d A42 A45 A26 A33 A40 c s X)
      ⊢ coreRes d A42 A45 A26 A33 A40 c X := by
  rw [tiles_eq]; unfold coreRes
  iintro ⟨Hd, H42, Ht, H26, H33, H40, H46⟩
  isplitl [H42]; · iexact H42
  isplitl [Hd Ht]
  · iapply (pointsTo_toks_join (shC c) 16)
    isplitl [Hd]; · iexact Hd
    iexact Ht
  isplitl [H26]; · iexact H26
  isplitl [H33]; · iexact H33
  isplitl [H40]; · iexact H40
  iexact H46

/-! ## The call's arrays are the SparseCores' holdings -/

theorem cores_eq (X : Buf (Elt F) (loc46 d)) :
    (bigSep Finset.univ fun c : Fin 2 => coreRes d A42 A45 A26 A33 A40 c X)
      = iprop((loc42 d ↦{fullShare} A42)
        ∗ (bigSep Finset.univ fun c : Fin 2 => loc45 d ↦{shareTok fullShare 2 c} A45)
        ∗ (loc26 d ↦{fullShare} A26) ∗ (loc33 d ↦{fullShare} A33) ∗ (loc40 d ↦{fullShare} A40) ∗ (loc46 d ↦{fullShare} X)) := by
  unfold coreRes shC
  rw [bigSep_sep', bigSep_sep', bigSep_sep', bigSep_sep', bigSep_sep', ← whole42, ← whole26, ← whole33, ← whole40, ← whole46]

theorem call_split (X : Buf (Elt F) (loc46 d)) :
    iprop((loc42 d ↦{fullShare} A42) ∗ (loc45 d ↦{fullShare} A45) ∗ (loc26 d ↦{fullShare} A26) ∗ (loc33 d ↦{fullShare} A33)
        ∗ (loc40 d ↦{fullShare} A40) ∗ (loc46 d ↦{fullShare} X))
      ⊢ iprop((loc45 d ↦{shareDrop fullShare 2} A45) ∗ bigSep Finset.univ fun c : Fin 2 => coreRes d A42 A45 A26 A33 A40 c X) := by
  rw [cores_eq]
  iintro ⟨H42, H45, H26, H33, H40, H46⟩
  ihave H := (pointsTo_toks_split fullShare 2) $$ H45
  icases H with ⟨Hd, Ht⟩
  isplitl [Hd]; · iexact Hd
  isplitl [H42]; · iexact H42
  isplitl [Ht]; · iexact Ht
  isplitl [H26]; · iexact H26
  isplitl [H33]; · iexact H33
  isplitl [H40]; · iexact H40
  iexact H46

theorem call_join (X : Buf (Elt F) (loc46 d)) :
    iprop((loc45 d ↦{shareDrop fullShare 2} A45) ∗ bigSep Finset.univ fun c : Fin 2 => coreRes d A42 A45 A26 A33 A40 c X)
      ⊢ iprop((loc42 d ↦{fullShare} A42) ∗ (loc45 d ↦{fullShare} A45) ∗ (loc26 d ↦{fullShare} A26) ∗ (loc33 d ↦{fullShare} A33)
        ∗ (loc40 d ↦{fullShare} A40) ∗ (loc46 d ↦{fullShare} X)) := by
  rw [cores_eq]
  iintro ⟨Hd, H42, Ht, H26, H33, H40, H46⟩
  isplitl [H42]; · iexact H42
  isplitl [Hd Ht]
  · iapply (pointsTo_toks_join fullShare 2)
    isplitl [Hd]; · iexact Hd
    iexact Ht
  isplitl [H26]; · iexact H26
  isplitl [H33]; · iexact H33
  isplitl [H40]; · iexact H40
  iexact H46

end Core

/-! ## The launch theorem's split, and its launch element -/

section Launch

variable (A42 : (d : Dev nD) → Buf (Elt F) (loc42 d)) (A45 : (d : Dev nD) → Buf (Elt F) (loc45 d)) (A26 : (d : Dev nD) → Buf (Elt F) (loc26 d))
  (A33 : (d : Dev nD) → Buf (Elt F) (loc33 d)) (A40 : (d : Dev nD) → Buf (Elt F) (loc40 d)) (f46 : (d : Dev nD) → Buf (Elt F) (loc46 d))

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P A42 A45 A26 A33 A40 f46) 0 := by
  intro d c
  show coreRes d (A42 d) (A45 d) (A26 d) (A33 d) (A40 d) (Fin.cast nCore_zero c) (f46 d) ⊢ |={Set.univ}=> iprop(
      (bigSep Finset.univ fun i : Fin ((K (F := F)).nSub 0) =>
        tileRes d (A42 d) (A45 d) (A26 d) (A33 d) (A40 d) (Fin.cast nCore_zero c) (Fin.cast nSub_zero i) (f46 d))
      ∗ ((bigSep Finset.univ fun i : Fin ((K (F := F)).nSub 0) =>
          tileRes d (A42 d) (A45 d) (A26 d) (A33 d) (A40 d) (Fin.cast nCore_zero c) (Fin.cast nSub_zero i) (R46 A42 A45 A26 A33 A40 d))
        -∗ coreRes d (A42 d) (A45 d) (A26 d) (A33 d) (A40 d) (Fin.cast nCore_zero c) (R46 A42 A45 A26 A33 A40 d)))
  rw [bigSep_tasks (F := F) (fun i => tileRes d (A42 d) (A45 d) (A26 d) (A33 d) (A40 d) (Fin.cast nCore_zero c) i (f46 d)),
    bigSep_tasks (F := F) (fun i => tileRes d (A42 d) (A45 d) (A26 d) (A33 d) (A40 d) (Fin.cast nCore_zero c) i (R46 A42 A45 A26 A33 A40 d))]
  iintro H
  ihave H' := (core_split d (A42 d) (A45 d) (A26 d) (A33 d) (A40 d) (Fin.cast nCore_zero c) (f46 d)) $$ H
  icases H' with ⟨Hd, Ht⟩
  imodintro
  isplitl [Ht]; · iexact Ht
  iintro Ht
  iapply (core_join d (A42 d) (A45 d) (A26 d) (A33 d) (A40 d) (Fin.cast nCore_zero c) (R46 A42 A45 A26 A33 A40 d))
  isplitl [Hd]; · iexact Hd
  iexact Ht

/-- What the call takes for the two SparseCores, and what it hands back. -/
theorem st0_eq (d : Dev nD) :
    (bigSep Finset.univ fun c : Fin ((K (F := F)).nCore 0) => (P A42 A45 A26 A33 A40 f46).st 0 d c)
      = bigSep Finset.univ fun c : Fin 2 => coreRes d (A42 d) (A45 d) (A26 d) (A33 d) (A40 d) c (f46 d) :=
  bigSep_cores (F := F) (fun c => coreRes d (A42 d) (A45 d) (A26 d) (A33 d) (A40 d) c (f46 d))
theorem dn0_eq (d : Dev nD) :
    (bigSep Finset.univ fun c : Fin ((K (F := F)).nCore 0) => (P A42 A45 A26 A33 A40 f46).dn 0 d c)
      = bigSep Finset.univ fun c : Fin 2 => coreRes d (A42 d) (A45 d) (A26 d) (A33 d) (A40 d) c (R46 A42 A45 A26 A33 A40 d) :=
  bigSep_cores (F := F) (fun c => coreRes d (A42 d) (A45 d) (A26 d) (A33 d) (A40 d) c (R46 A42 A45 A26 A33 A40 d))

/-! ### The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P A42 A45 A26 A33 A40 f46).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Launch

end Cert.KernelIdeal.Launch

end
-- ==== Proof.HostKI.lean ====
/-
  The host side of the kernel's program: the StableHLO operations of @main before the SparseCore call and the two
  after it, as two lists of operations (a called function's operations stand in its call's place), the program as
  their runs around the call, and which buffers the lists touch and keep.
-/
import proofs.«210205_g8383776161859_cont_9to1_m_1272_27_alg».proof.Proof.Gen.KernelIdeal
import Idealize.ShloMosaic.Lib.StableHlo.Run

noncomputable section

namespace Cert.KernelIdeal.Host

open Cert.KernelIdeal Cert.KernelIdeal.Gen Idealize.ShloMosaic Idealize.ShloMosaic.TcCoe Idealize.SL.Sem Idealize.ShloMosaic.StableHlo

variable {F : FTy → Type} [FloatOps F]

/-- The 84 operations of @main before the call, in order. -/
def preOps : List (HloOp τ sig (Elt F)) :=
  [
    unary main_arg3 main_v0 (broadcastInDim S8x16x1 ![0, 1] bcast_S8x16_S8x16x1_0_1 : (⟨S8x16, .i32⟩ : BufTy).Contents (Elt F) → (⟨S8x16x1, .i32⟩ : BufTy).Contents (Elt F)),
    unary main_arg3 main_v1 (broadcastInDim S8x1x16 ![0, 2] bcast_S8x16_S8x1x16_0_2 : (⟨S8x16, .i32⟩ : BufTy).Contents (Elt F) → (⟨S8x1x16, .i32⟩ : BufTy).Contents (Elt F)),
    unary main_v0 main_v2 (broadcastInDim S8x16x16 ![0, 1, 2] bcast_S8x16x1_S8x16x16_0_1_2 : (⟨S8x16x1, .i32⟩ : BufTy).Contents (Elt F) → (⟨S8x16x16, .i32⟩ : BufTy).Contents (Elt F)),
    unary main_v1 main_v3 (broadcastInDim S8x16x16 ![0, 1, 2] bcast_S8x1x16_S8x16x16_0_1_2 : (⟨S8x1x16, .i32⟩ : BufTy).Contents (Elt F) → (⟨S8x16x16, .i32⟩ : BufTy).Contents (Elt F)),
    binary main_v2 main_v3 main_v4 (cmpi .eq : (⟨S8x16x16, .i32⟩ : BufTy).Contents (Elt F) → (⟨S8x16x16, .i32⟩ : BufTy).Contents (Elt F) → (⟨S8x16x16, .i1⟩ : BufTy).Contents (Elt F)),
    TRef.nullary (TRef.of (T := ⟨S16x16, .i32⟩) main_call0_v0) (iotaInDim S16x16 32 0),
    TRef.nullary (TRef.of (T := ⟨S_, .i32⟩) main_call0_c) (constantI S_ 32 4294967295#32),
    TRef.unary (TRef.of (T := ⟨S_, .i32⟩) main_call0_c) (TRef.of (T := ⟨S16x16, .i32⟩) main_call0_v1) (broadcastInDim S16x16 ![] bcast_S_S16x16),
    TRef.binary (TRef.of (T := ⟨S16x16, .i32⟩) main_call0_v0) (TRef.of (T := ⟨S16x16, .i32⟩) main_call0_v1) (TRef.of (T := ⟨S16x16, .i32⟩) main_call0_v2) addi,
    TRef.nullary (TRef.of (T := ⟨S16x16, .i32⟩) main_call0_v3) (iotaInDim S16x16 32 1),
    TRef.binary (TRef.of (T := ⟨S16x16, .i32⟩) main_call0_v2) (TRef.of (T := ⟨S16x16, .i32⟩) main_call0_v3) (TRef.of (T := ⟨S16x16, .i1⟩) main_call0_v4) (cmpi .sge),
    TRef.unary (TRef.of (T := ⟨S16x16, .i1⟩) main_call0_v4) (TRef.of (T := ⟨S8x16x16, .i1⟩) main_call0_v5) (broadcastInDim S8x16x16 ![1, 2] bcast_S16x16_S8x16x16_1_2),
    TRef.nullary (TRef.of (T := ⟨S_, .i1⟩) main_call0_c_0) (constantI S_ 1 0#1),
    TRef.unary (TRef.of (T := ⟨S_, .i1⟩) main_call0_c_0) (TRef.of (T := ⟨S8x16x16, .i1⟩) main_call0_v6) (broadcastInDim S8x16x16 ![] bcast_S_S8x16x16),
    TRef.ternary (TRef.of (T := ⟨S8x16x16, .i1⟩) main_call0_v5) (TRef.of (T := ⟨S8x16x16, .i1⟩) main_v4) (TRef.of (T := ⟨S8x16x16, .i1⟩) main_call0_v6) (TRef.of (T := ⟨S8x16x16, .i1⟩) main_v5) select,
    nullary main_c (constantI S_ 1 0#1),
    binary main_v5 main_c main_v6 ((fun x v => Host.reduce IntOp.ori x v reducesTo_S8x16x16_S8x16_d2 h_S_) : (⟨S8x16x16, .i1⟩ : BufTy).Contents (Elt F) → (⟨S_, .i1⟩ : BufTy).Contents (Elt F) → (⟨S8x16, .i1⟩ : BufTy).Contents (Elt F)),
    unary main_v6 main_v7 (noti : (⟨S8x16, .i1⟩ : BufTy).Contents (Elt F) → (⟨S8x16, .i1⟩ : BufTy).Contents (Elt F)),
    unary main_v4 main_v8 ((extui 32 · natLt_1_32) : (⟨S8x16x16, .i1⟩ : BufTy).Contents (Elt F) → (⟨S8x16x16, .i32⟩ : BufTy).Contents (Elt F)),
    nullary main_c_0 (constantI S_ 32 0#32),
    binary main_v8 main_c_0 main_v9 ((fun x v => Host.reduce IntOp.addi x v reducesTo_S8x16x16_S8x16_d2 h_S_) : (⟨S8x16x16, .i32⟩ : BufTy).Contents (Elt F) → (⟨S_, .i32⟩ : BufTy).Contents (Elt F) → (⟨S8x16, .i32⟩ : BufTy).Contents (Elt F)),
    nullary main_c_1 (constantI S_ 32 0#32),
    TRef.unary (TRef.of (T := ⟨S_, .i32⟩) main_c_1) (TRef.of (T := ⟨S_, .i32⟩) main_call1_v0) id,
    TRef.unary (TRef.of (T := ⟨S_, .i32⟩) main_call1_v0) (TRef.of (T := ⟨S8x16, .i32⟩) main_call1_v1) (broadcastInDim S8x16 ![] bcast_S_S8x16),
    TRef.ternary (TRef.of (T := ⟨S8x16, .i1⟩) main_v7) (TRef.of (T := ⟨S8x16, .i32⟩) main_v9) (TRef.of (T := ⟨S8x16, .i32⟩) main_call1_v1) (TRef.of (T := ⟨S8x16, .i32⟩) main_v10) select,
    unary main_v10 main_v11 (sitofp .f32 : (⟨S8x16, .i32⟩ : BufTy).Contents (Elt F) → (⟨S8x16, .f32⟩ : BufTy).Contents (Elt F)),
    nullary main_v12 (iotaInDim S8 32 0),
    unary main_v12 main_v13 (broadcastInDim S8x1 ![0] bcast_S8_S8x1_0 : (⟨S8, .i32⟩ : BufTy).Contents (Elt F) → (⟨S8x1, .i32⟩ : BufTy).Contents (Elt F)),
    nullary main_c_2 (constantI S_ 32 1024#32),
    unary main_c_2 main_v14 (broadcastInDim S8x1 ![] bcast_S_S8x1 : (⟨S_, .i32⟩ : BufTy).Contents (Elt F) → (⟨S8x1, .i32⟩ : BufTy).Contents (Elt F)),
    binary main_v13 main_v14 main_v15 (muli : (⟨S8x1, .i32⟩ : BufTy).Contents (Elt F) → (⟨S8x1, .i32⟩ : BufTy).Contents (Elt F) → (⟨S8x1, .i32⟩ : BufTy).Contents (Elt F)),
    unary main_v15 main_v16 (broadcastInDim S8x16 ![0, 1] bcast_S8x1_S8x16_0_1 : (⟨S8x1, .i32⟩ : BufTy).Contents (Elt F) → (⟨S8x16, .i32⟩ : BufTy).Contents (Elt F)),
    binary main_v16 main_arg3 main_v17 (addi : (⟨S8x16, .i32⟩ : BufTy).Contents (Elt F) → (⟨S8x16, .i32⟩ : BufTy).Contents (Elt F) → (⟨S8x16, .i32⟩ : BufTy).Contents (Elt F)),
    nullary main_v18 (iotaInDim S32 32 0),
    nullary main_c_3 (constantI S_ 32 4#32),
    TRef.unary (TRef.of (T := ⟨S_, .i32⟩) main_c_3) (TRef.of (T := ⟨S_, .i32⟩) main_call2_v0) id,
    TRef.unary (TRef.of (T := ⟨S_, .i32⟩) main_call2_v0) (TRef.of (T := ⟨S32, .i32⟩) main_call2_v1) (broadcastInDim S32 ![] bcast_S_S32),
    TRef.binary (TRef.of (T := ⟨S32, .i32⟩) main_v18) (TRef.of (T := ⟨S32, .i32⟩) main_call2_v1) (TRef.of (T := ⟨S32, .i32⟩) main_call2_v2) Host.divsi,
    TRef.unary (TRef.of (T := ⟨S32, .i32⟩) main_v18) (TRef.of (T := ⟨S32, .i32⟩) main_call2_v3) signi,
    TRef.unary (TRef.of (T := ⟨S_, .i32⟩) main_call2_v0) (TRef.of (T := ⟨S_, .i32⟩) main_call2_v4) signi,
    TRef.unary (TRef.of (T := ⟨S_, .i32⟩) main_call2_v4) (TRef.of (T := ⟨S32, .i32⟩) main_call2_v5) (broadcastInDim S32 ![] bcast_S_S32),
    TRef.binary (TRef.of (T := ⟨S32, .i32⟩) main_call2_v3) (TRef.of (T := ⟨S32, .i32⟩) main_call2_v5) (TRef.of (T := ⟨S32, .i1⟩) main_call2_v6) (cmpi .ne),
    TRef.unary (TRef.of (T := ⟨S_, .i32⟩) main_call2_v0) (TRef.of (T := ⟨S32, .i32⟩) main_call2_v7) (broadcastInDim S32 ![] bcast_S_S32),
    TRef.binary (TRef.of (T := ⟨S32, .i32⟩) main_v18) (TRef.of (T := ⟨S32, .i32⟩) main_call2_v7) (TRef.of (T := ⟨S32, .i32⟩) main_call2_v8) Host.remsi,
    TRef.nullary (TRef.of (T := ⟨S_, .i32⟩) main_call2_c) (constantI S_ 32 0#32),
    TRef.unary (TRef.of (T := ⟨S_, .i32⟩) main_call2_c) (TRef.of (T := ⟨S32, .i32⟩) main_call2_v9) (broadcastInDim S32 ![] bcast_S_S32),
    TRef.binary (TRef.of (T := ⟨S32, .i32⟩) main_call2_v8) (TRef.of (T := ⟨S32, .i32⟩) main_call2_v9) (TRef.of (T := ⟨S32, .i1⟩) main_call2_v10) (cmpi .ne),
    TRef.binary (TRef.of (T := ⟨S32, .i1⟩) main_call2_v6) (TRef.of (T := ⟨S32, .i1⟩) main_call2_v10) (TRef.of (T := ⟨S32, .i1⟩) main_call2_v11) andi,
    TRef.nullary (TRef.of (T := ⟨S_, .i32⟩) main_call2_c_0) (constantI S_ 32 1#32),
    TRef.unary (TRef.of (T := ⟨S_, .i32⟩) main_call2_c_0) (TRef.of (T := ⟨S32, .i32⟩) main_call2_v12) (broadcastInDim S32 ![] bcast_S_S32),
    TRef.binary (TRef.of (T := ⟨S32, .i32⟩) main_call2_v2) (TRef.of (T := ⟨S32, .i32⟩) main_call2_v12) (TRef.of (T := ⟨S32, .i32⟩) main_call2_v13) subi,
    TRef.ternary (TRef.of (T := ⟨S32, .i1⟩) main_call2_v11) (TRef.of (T := ⟨S32, .i32⟩) main_call2_v13) (TRef.of (T := ⟨S32, .i32⟩) main_call2_v2) (TRef.of (T := ⟨S32, .i32⟩) main_v19) select,
    nullary main_c_4 (constantI S_ 32 0#32),
    unary main_c_4 main_v20 (broadcastInDim S32 ![] bcast_S_S32 : (⟨S_, .i32⟩ : BufTy).Contents (Elt F) → (⟨S32, .i32⟩ : BufTy).Contents (Elt F)),
    binary main_v19 main_v20 main_v21 (cmpi .slt : (⟨S32, .i32⟩ : BufTy).Contents (Elt F) → (⟨S32, .i32⟩ : BufTy).Contents (Elt F) → (⟨S32, .i1⟩ : BufTy).Contents (Elt F)),
    nullary main_c_5 (constantI S_ 32 8#32),
    unary main_c_5 main_v22 (broadcastInDim S32 ![] bcast_S_S32 : (⟨S_, .i32⟩ : BufTy).Contents (Elt F) → (⟨S32, .i32⟩ : BufTy).Contents (Elt F)),
    binary main_v19 main_v22 main_v23 (addi : (⟨S32, .i32⟩ : BufTy).Contents (Elt F) → (⟨S32, .i32⟩ : BufTy).Contents (Elt F) → (⟨S32, .i32⟩ : BufTy).Contents (Elt F)),
    ternary main_v21 main_v23 main_v19 main_v24 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    unary main_v24 main_v25 (broadcastInDim S32x1 ![0] bcast_S32_S32x1_0 : (⟨S32, .i32⟩ : BufTy).Contents (Elt F) → (⟨S32x1, .i32⟩ : BufTy).Contents (Elt F)),
    binary main_arg3 main_v25 main_v26 ((fun x i => Host.gather gather_S8x16_S32x1_S32x16_1_0_n_n_0_1_116 x i) : (⟨S8x16, .i32⟩ : BufTy).Contents (Elt F) → (⟨S32x1, .i32⟩ : BufTy).Contents (Elt F) → (⟨S32x16, .i32⟩ : BufTy).Contents (Elt F)),
    nullary main_c_6 (constantI S_ 32 0#32),
    unary main_c_6 main_v27 (broadcastInDim S32 ![] bcast_S_S32 : (⟨S_, .i32⟩ : BufTy).Contents (Elt F) → (⟨S32, .i32⟩ : BufTy).Contents (Elt F)),
    binary main_v19 main_v27 main_v28 (cmpi .slt : (⟨S32, .i32⟩ : BufTy).Contents (Elt F) → (⟨S32, .i32⟩ : BufTy).Contents (Elt F) → (⟨S32, .i1⟩ : BufTy).Contents (Elt F)),
    nullary main_c_7 (constantI S_ 32 8#32),
    unary main_c_7 main_v29 (broadcastInDim S32 ![] bcast_S_S32 : (⟨S_, .i32⟩ : BufTy).Contents (Elt F) → (⟨S32, .i32⟩ : BufTy).Contents (Elt F)),
    binary main_v19 main_v29 main_v30 (addi : (⟨S32, .i32⟩ : BufTy).Contents (Elt F) → (⟨S32, .i32⟩ : BufTy).Contents (Elt F) → (⟨S32, .i32⟩ : BufTy).Contents (Elt F)),
    ternary main_v28 main_v30 main_v19 main_v31 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    unary main_v31 main_v32 (broadcastInDim S32x1 ![0] bcast_S32_S32x1_0 : (⟨S32, .i32⟩ : BufTy).Contents (Elt F) → (⟨S32x1, .i32⟩ : BufTy).Contents (Elt F)),
    binary main_v11 main_v32 main_v33 ((fun x i => Host.gather gather_S8x16_S32x1_S32x16_1_0_n_n_0_1_116 x i) : (⟨S8x16, .f32⟩ : BufTy).Contents (Elt F) → (⟨S32x1, .i32⟩ : BufTy).Contents (Elt F) → (⟨S32x16, .f32⟩ : BufTy).Contents (Elt F)),
    nullary main_c_8 (constantI S_ 32 0#32),
    unary main_c_8 main_v34 (broadcastInDim S32 ![] bcast_S_S32 : (⟨S_, .i32⟩ : BufTy).Contents (Elt F) → (⟨S32, .i32⟩ : BufTy).Contents (Elt F)),
    binary main_v19 main_v34 main_v35 (cmpi .slt : (⟨S32, .i32⟩ : BufTy).Contents (Elt F) → (⟨S32, .i32⟩ : BufTy).Contents (Elt F) → (⟨S32, .i1⟩ : BufTy).Contents (Elt F)),
    nullary main_c_9 (constantI S_ 32 8#32),
    unary main_c_9 main_v36 (broadcastInDim S32 ![] bcast_S_S32 : (⟨S_, .i32⟩ : BufTy).Contents (Elt F) → (⟨S32, .i32⟩ : BufTy).Contents (Elt F)),
    binary main_v19 main_v36 main_v37 (addi : (⟨S32, .i32⟩ : BufTy).Contents (Elt F) → (⟨S32, .i32⟩ : BufTy).Contents (Elt F) → (⟨S32, .i32⟩ : BufTy).Contents (Elt F)),
    ternary main_v35 main_v37 main_v19 main_v38 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    unary main_v38 main_v39 (broadcastInDim S32x1 ![0] bcast_S32_S32x1_0 : (⟨S32, .i32⟩ : BufTy).Contents (Elt F) → (⟨S32x1, .i32⟩ : BufTy).Contents (Elt F)),
    binary main_v17 main_v39 main_v40 ((fun x i => Host.gather gather_S8x16_S32x1_S32x16_1_0_n_n_0_1_116 x i) : (⟨S8x16, .i32⟩ : BufTy).Contents (Elt F) → (⟨S32x1, .i32⟩ : BufTy).Contents (Elt F) → (⟨S32x16, .i32⟩ : BufTy).Contents (Elt F)),
    unary main_arg0 main_v41 ((transpose S8x64x64x1024 [0, 2, 3, 1] · transposes_S8x1024x64x64_S8x64x64x1024_0_2_3_1) : (⟨S8x1024x64x64, .f32⟩ : BufTy).Contents (Elt F) → (⟨S8x64x64x1024, .f32⟩ : BufTy).Contents (Elt F)),
    reshape main_v41 main_v42 rfl shapeCasts_S8x64x64x1024_S32768x1024,
    reshape main_arg1 main_v43 rfl shapeCasts_S8x1024x64_S8192x64,
    reshape main_arg2 main_v44 rfl shapeCasts_S8x1024x64_S8192x64,
    binary main_v43 main_v44 main_v45 ((fun a b => concatenate S8192x128 1 [⟨S8192x64, a⟩, ⟨S8192x64, b⟩] concatenates_S8192x64_S8192x64_S8192x128_d1) : (⟨S8192x64, .f32⟩ : BufTy).Contents (Elt F) → (⟨S8192x64, .f32⟩ : BufTy).Contents (Elt F) → (⟨S8192x128, .f32⟩ : BufTy).Contents (Elt F)) ]

/-- The two operations of @main after the call: the rows laid back as the four-axis array. -/
def postOps : List (HloOp τ sig (Elt F)) :=
  [
    reshape main_v46 main_v47 rfl shapeCasts_S32768x1024_S8x64x64x1024,
    unary main_v47 main_v48 ((transpose S8x1024x64x64 [0, 3, 1, 2] · transposes_S8x64x64x1024_S8x1024x64x64_0_3_1_2) : (⟨S8x64x64x1024, .f32⟩ : BufTy).Contents (Elt F) → (⟨S8x1024x64x64, .f32⟩ : BufTy).Contents (Elt F)) ]

set_option maxRecDepth 16384 in
set_option maxHeartbeats 8000000 in
/-- The program is the operations before the call, the call, and the operations after it. -/
theorem main_eq (d : Dev nD) :
    main (F := F) d = (StableHlo.seq preOps >>= fun _ => sc.run d 0 >>= fun _ => StableHlo.seq postOps) := rfl

/-- The buffers the host operations may touch: the TensorCore's references. -/
def hostSet : Finset (DevRef τ sig) := tcRefs τ sig

theorem mem_hostSet (b : Ref sig .tc) : Proc.devRef (τ := τ) .tc b ∈ hostSet := devRef_mem_tcRefs b

set_option maxRecDepth 16384 in
theorem preOps_sub : (preOps : List (HloOp τ sig (Elt F))).Forall fun op => op.bufs ⊆ tcRefs τ sig :=
  ⟨unary_bufs_sub .., unary_bufs_sub .., unary_bufs_sub .., unary_bufs_sub .., binary_bufs_sub .., nullary_bufs_sub .., nullary_bufs_sub .., unary_bufs_sub .., binary_bufs_sub .., nullary_bufs_sub .., binary_bufs_sub .., unary_bufs_sub .., nullary_bufs_sub .., unary_bufs_sub .., ternary_bufs_sub .., nullary_bufs_sub .., binary_bufs_sub .., unary_bufs_sub .., unary_bufs_sub .., nullary_bufs_sub .., binary_bufs_sub .., nullary_bufs_sub .., unary_bufs_sub .., unary_bufs_sub .., ternary_bufs_sub .., unary_bufs_sub .., nullary_bufs_sub .., unary_bufs_sub .., nullary_bufs_sub .., unary_bufs_sub .., binary_bufs_sub .., unary_bufs_sub .., binary_bufs_sub .., nullary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., reshape_bufs_sub .., reshape_bufs_sub .., binary_bufs_sub ..⟩

theorem preOps_bufs : ∀ op ∈ (preOps : List (HloOp τ sig (Elt F))), op.bufs ⊆ hostSet :=
  List.forall_iff_forall_mem.1 preOps_sub

theorem postOps_sub : (postOps : List (HloOp τ sig (Elt F))).Forall fun op => op.bufs ⊆ tcRefs τ sig :=
  ⟨reshape_bufs_sub .., unary_bufs_sub ..⟩

theorem postOps_bufs : ∀ op ∈ (postOps : List (HloOp τ sig (Elt F))), op.bufs ⊆ hostSet :=
  List.forall_iff_forall_mem.1 postOps_sub

set_option maxRecDepth 16384 in
theorem preOps_freshAll : (preOps : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem preOps_fresh : ∀ op ∈ (preOps : List (HloOp τ sig (Elt F))), op.fresh = ∅ :=
  List.forall_iff_forall_mem.1 preOps_freshAll

theorem postOps_freshAll : (postOps : List (HloOp τ sig (Elt F))).Forall fun op => op.fresh = ∅ :=
  ⟨rfl, rfl⟩

theorem postOps_fresh : ∀ op ∈ (postOps : List (HloOp τ sig (Elt F))), op.fresh = ∅ :=
  List.forall_iff_forall_mem.1 postOps_freshAll

end Cert.KernelIdeal.Host

end
-- ==== Proof.LaunchKI3.lean ====
/-
  The launch of the kernel's one call, third part: @main on the TensorCore.

  @main is the host's operations before the call, the call, and the two after it. The operations before run over all the
  TensorCore's arrays held whole; the six arrays of the call are then taken out, split for the two SparseCores and
  handed over; what comes back is joined, the output rows at `Spec.rowsOf` of the five arrays read, and put back; the
  two operations after run; what is left to the claim is the four arguments at their launch contents and the result
  at `Spec.kerOut` of them. What the host's operations compute is taken here as stated facts (`HostVals`).
-/
import proofs.«210205_g8383776161859_cont_9to1_m_1272_27_alg».proof.Proof.LaunchKI2
import proofs.«210205_g8383776161859_cont_9to1_m_1272_27_alg».proof.Proof.HostKI

noncomputable section

namespace Cert.KernelIdeal.Launch

open Cert.KernelIdeal Cert.KernelIdeal.Gen Cert.KernelIdeal.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareTok shareDrop pointsTo_toks pointsTo_toks_split pointsTo_toks_join)

variable {F : FTy → Type}

local notation "𝕄" => MT nD τ sig (HIx 1) (Elt F) ℕ UU ℕ

open Idealize.ShloMosaic.StableHlo (held held_sub_split held_congr wp_seq)
open Cert.KernelIdeal.Host (preOps postOps hostSet mem_hostSet)

/-! ## The TensorCore's arrays -/

abbrev arg0' : DevRef τ sig := Proc.devRef .tc (main_arg0 : Ref sig .tc)
abbrev arg1' : DevRef τ sig := Proc.devRef .tc (main_arg1 : Ref sig .tc)
abbrev arg2' : DevRef τ sig := Proc.devRef .tc (main_arg2 : Ref sig .tc)
abbrev arg3' : DevRef τ sig := Proc.devRef .tc (main_arg3 : Ref sig .tc)
abbrev v42' : DevRef τ sig := Proc.devRef .tc (main_v42 : Ref sig .tc)
abbrev v45' : DevRef τ sig := Proc.devRef .tc (main_v45 : Ref sig .tc)
abbrev v26' : DevRef τ sig := Proc.devRef .tc (main_v26 : Ref sig .tc)
abbrev v33' : DevRef τ sig := Proc.devRef .tc (main_v33 : Ref sig .tc)
abbrev v40' : DevRef τ sig := Proc.devRef .tc (main_v40 : Ref sig .tc)
abbrev v46' : DevRef τ sig := Proc.devRef .tc (main_v46 : Ref sig .tc)
abbrev v48' : DevRef τ sig := Proc.devRef .tc (main_v48 : Ref sig .tc)

abbrev locA0 (d : Dev nD) : Loc nD τ sig := (SparseCore.T d).loc main_arg0
abbrev locA1 (d : Dev nD) : Loc nD τ sig := (SparseCore.T d).loc main_arg1
abbrev locA2 (d : Dev nD) : Loc nD τ sig := (SparseCore.T d).loc main_arg2
abbrev locA3 (d : Dev nD) : Loc nD τ sig := (SparseCore.T d).loc main_arg3
abbrev loc48 (d : Dev nD) : Loc nD τ sig := (SparseCore.T d).loc main_v48

/-- The six arrays of the call. -/
def S6 : Finset (DevRef τ sig) := {v42', v45', v26', v33', v40', v46'}
/-- The four arguments and the result. -/
def S5 : Finset (DevRef τ sig) := {arg0', arg1', arg2', arg3', v48'}

theorem S6_sub : S6 ⊆ hostSet := by
  intro b hb
  simp only [S6, Finset.mem_insert, Finset.mem_singleton] at hb
  rcases hb with rfl | rfl | rfl | rfl | rfl | rfl <;> exact mem_hostSet _
theorem S5_sub : S5 ⊆ hostSet := by
  intro b hb
  simp only [S5, Finset.mem_insert, Finset.mem_singleton] at hb
  rcases hb with rfl | rfl | rfl | rfl | rfl <;> exact mem_hostSet _

theorem held_S6 (d : Dev nD) (W : Valuation τ sig (Elt F)) :
    (held (T d) S6 W : sProp 𝕄)
      = iprop((loc42 d ↦{fullShare} W v42') ∗ (loc45 d ↦{fullShare} W v45') ∗ (loc26 d ↦{fullShare} W v26') ∗ (loc33 d ↦{fullShare} W v33')
        ∗ (loc40 d ↦{fullShare} W v40') ∗ (loc46 d ↦{fullShare} W v46')) := by
  unfold held S6
  rw [SparseCore.bigSep_insert' (by decide), SparseCore.bigSep_insert' (by decide), SparseCore.bigSep_insert' (by decide),
    SparseCore.bigSep_insert' (by decide), SparseCore.bigSep_insert' (by decide), bigSep_singleton]

theorem held_S5 (d : Dev nD) (W : Valuation τ sig (Elt F)) :
    (held (T d) S5 W : sProp 𝕄)
      = iprop((locA0 d ↦{fullShare} W arg0') ∗ (locA1 d ↦{fullShare} W arg1') ∗ (locA2 d ↦{fullShare} W arg2') ∗ (locA3 d ↦{fullShare} W arg3')
        ∗ (loc48 d ↦{fullShare} W v48')) := by
  unfold held S5
  rw [SparseCore.bigSep_insert' (by decide), SparseCore.bigSep_insert' (by decide), SparseCore.bigSep_insert' (by decide),
    SparseCore.bigSep_insert' (by decide), bigSep_singleton]

/-- No TensorCore array of this program is scoped. -/
theorem scopedRefs_eq : (Finset.univ.filter fun b : Ref sig .tc => b.isScoped) = ∅ := by decide

theorem unscoped_held (d : Dev nD) (W : Valuation τ sig (Elt F)) :
    (unscopedBufs d (fun b => W (Proc.devRef .tc b)) : sProp 𝕄) = held (T d) hostSet W := by
  unfold unscopedBufs held hostSet StableHlo.tcRefs
  rw [Finset.filter_not, scopedRefs_eq, Finset.sdiff_empty, bigSep_map]; rfl

/-! ## What the host's operations compute, as stated facts -/

variable [FloatOps F]

/-- The host's operations before the call lay out the five arrays the call reads and keep the arguments; the two
    after it lay the rows back and keep the arguments; the laid-out slot numbers and table rows are in range where
    the slot numbers are. -/
structure HostVals : Prop where
  pre_v42 : ∀ V : Valuation τ sig (Elt F), StableHlo.after preOps V v42' = Cert.Spec.m2Of (V arg0')
  pre_v45 : ∀ V : Valuation τ sig (Elt F), StableHlo.after preOps V v45' = Cert.Spec.kvOf (V arg1') (V arg2')
  pre_v26 : ∀ V : Valuation τ sig (Elt F), StableHlo.after preOps V v26' = Cert.Spec.nvecOf (V arg3')
  pre_v33 : ∀ V : Valuation τ sig (Elt F), StableHlo.after preOps V v33' = Cert.Spec.wvecOf (F := F) (V arg3')
  pre_v40 : ∀ V : Valuation τ sig (Elt F), StableHlo.after preOps V v40' = Cert.Spec.gvecOf (V arg3')
  pre_keep0 : ∀ V : Valuation τ sig (Elt F), StableHlo.after preOps V arg0' = V arg0'
  pre_keep1 : ∀ V : Valuation τ sig (Elt F), StableHlo.after preOps V arg1' = V arg1'
  pre_keep2 : ∀ V : Valuation τ sig (Elt F), StableHlo.after preOps V arg2' = V arg2'
  pre_keep3 : ∀ V : Valuation τ sig (Elt F), StableHlo.after preOps V arg3' = V arg3'
  post_v48 : ∀ W : Valuation τ sig (Elt F), StableHlo.after postOps W v48' = Cert.Spec.outOf (W v46')
  post_keep0 : ∀ W : Valuation τ sig (Elt F), StableHlo.after postOps W arg0' = W arg0'
  post_keep1 : ∀ W : Valuation τ sig (Elt F), StableHlo.after postOps W arg1' = W arg1'
  post_keep2 : ∀ W : Valuation τ sig (Elt F), StableHlo.after postOps W arg2' = W arg2'
  post_keep3 : ∀ W : Valuation τ sig (Elt F), StableHlo.after postOps W arg3' = W arg3'
  gvec_lt : ∀ idx : IVec Cert.Spec.SI 32, (∀ p, (idx p).toNat ≤ 1023) → ∀ p, (Cert.Spec.gvecOf idx p).toNat < 8192
  nvec_lt : ∀ idx : IVec Cert.Spec.SI 32, (∀ p, (idx p).toNat ≤ 1023) → ∀ p, (Cert.Spec.nvecOf idx p).toNat < 1024

/-! ## The contents along @main -/

variable (m : (ℓ : Loc nD τ sig) → Buf (Elt F) ℓ) (ρ : Dev nD → PrngReg)

/-- The launch contents; -/
def V0 (d : Dev nD) : Valuation τ sig (Elt F) := fun b => m (d, b)
/-- after the host's operations before the call; -/
def VA (d : Dev nD) : Valuation τ sig (Elt F) := StableHlo.after preOps (V0 m d)

abbrev A42 (d : Dev nD) : Buf (Elt F) (loc42 d) := VA m d v42'
abbrev A45 (d : Dev nD) : Buf (Elt F) (loc45 d) := VA m d v45'
abbrev A26 (d : Dev nD) : Buf (Elt F) (loc26 d) := VA m d v26'
abbrev A33 (d : Dev nD) : Buf (Elt F) (loc33 d) := VA m d v33'
abbrev A40 (d : Dev nD) : Buf (Elt F) (loc40 d) := VA m d v40'
abbrev f46 (d : Dev nD) : Buf (Elt F) (loc46 d) := VA m d v46'

/-- The rows the call leaves. -/
abbrev R (d : Dev nD) : Buf (Elt F) (loc46 d) := R46 (A42 m) (A45 m) (A26 m) (A33 m) (A40 m) d

/-- after the call: the output rows at what the workers left; -/
def VB (d : Dev nD) : Valuation τ sig (Elt F) := Function.update (VA m d) v46' (R m d)
/-- after the host's two operations after the call. -/
def VC (d : Dev nD) : Valuation τ sig (Elt F) := StableHlo.after postOps (VB m d)

theorem VB_v46 (d : Dev nD) : VB m d v46' = R m d := Function.update_self _ _ _
theorem VB_of_ne (d : Dev nD) {b : DevRef τ sig} (h : b ≠ v46') : VB m d b = VA m d b := Function.update_of_ne h _ _

/-- The payloads of the call, at the contents @main hands over. -/
abbrev PP : (K (F := F)).Pay (nD := nD) (Val := Elt F) (Name := ℕ) (U := UU) := P (A42 m) (A45 m) (A26 m) (A33 m) (A40 m) (f46 m)

/-- The six arrays back among the TensorCore's, the output rows at what the workers left. -/
theorem held_back (d : Dev nD) :
    iprop(((loc42 d ↦{fullShare} A42 m d) ∗ (loc45 d ↦{fullShare} A45 m d) ∗ (loc26 d ↦{fullShare} A26 m d) ∗ (loc33 d ↦{fullShare} A33 m d)
          ∗ (loc40 d ↦{fullShare} A40 m d) ∗ (loc46 d ↦{fullShare} R m d))
        ∗ (held (T d) (hostSet \ S6) (VA m d) : sProp 𝕄))
      ⊢ (held (T d) hostSet (VB m d) : sProp 𝕄) := by
  rw [held_sub_split (T d) S6_sub (VB m d), held_S6, VB_v46,
    VB_of_ne m d (show v42' ≠ v46' by decide), VB_of_ne m d (show v45' ≠ v46' by decide), VB_of_ne m d (show v26' ≠ v46' by decide),
    VB_of_ne m d (show v33' ≠ v46' by decide), VB_of_ne m d (show v40' ≠ v46' by decide),
    held_congr (T d) (S := hostSet \ S6) (V := VB m d) (V' := VA m d) fun b hb => VB_of_ne m d fun e => (Finset.mem_sdiff.mp hb).2 (by
      rw [e]; simp [S6])]

/-! ## What @main leaves the claim -/

abbrev FIN (d : Dev nD) : sProp 𝕄 :=
  iprop((locA0 d ↦{fullShare} m (locA0 d)) ∗ (locA1 d ↦{fullShare} m (locA1 d)) ∗ (locA2 d ↦{fullShare} m (locA2 d)) ∗ (locA3 d ↦{fullShare} m (locA3 d))
    ∗ (loc48 d ↦{fullShare} Cert.Spec.kerOut (F := F) (m (locA0 d)) (m (locA1 d)) (m (locA2 d)) (m (locA3 d))))

theorem VC_arg0 (hv : HostVals (F := F)) (d : Dev nD) : VC m d arg0' = m (locA0 d) := by
  unfold VC; rw [hv.post_keep0, VB_of_ne m d (show arg0' ≠ v46' by decide)]; unfold VA; rw [hv.pre_keep0]; rfl
theorem VC_arg1 (hv : HostVals (F := F)) (d : Dev nD) : VC m d arg1' = m (locA1 d) := by
  unfold VC; rw [hv.post_keep1, VB_of_ne m d (show arg1' ≠ v46' by decide)]; unfold VA; rw [hv.pre_keep1]; rfl
theorem VC_arg2 (hv : HostVals (F := F)) (d : Dev nD) : VC m d arg2' = m (locA2 d) := by
  unfold VC; rw [hv.post_keep2, VB_of_ne m d (show arg2' ≠ v46' by decide)]; unfold VA; rw [hv.pre_keep2]; rfl
theorem VC_arg3 (hv : HostVals (F := F)) (d : Dev nD) : VC m d arg3' = m (locA3 d) := by
  unfold VC; rw [hv.post_keep3, VB_of_ne m d (show arg3' ≠ v46' by decide)]; unfold VA; rw [hv.pre_keep3]; rfl
theorem VC_v48 (hv : HostVals (F := F)) (d : Dev nD) :
    VC m d v48' = Cert.Spec.kerOut (F := F) (m (locA0 d)) (m (locA1 d)) (m (locA2 d)) (m (locA3 d)) := by
  unfold VC; rw [hv.post_v48, VB_v46]
  show Cert.Spec.outOf (Cert.Spec.rowsOf (VA m d v42') (VA m d v45') (VA m d v26') (VA m d v33') (VA m d v40')) = _
  unfold VA; rw [hv.pre_v42, hv.pre_v45, hv.pre_v26, hv.pre_v33, hv.pre_v40]; rfl

theorem fin_of_held (hv : HostVals (F := F)) (d : Dev nD) : (held (T d) hostSet (VC m d) : sProp 𝕄) ⊢ FIN m d := by
  rw [held_sub_split (T d) S5_sub (VC m d), held_S5, VC_arg0 m hv, VC_arg1 m hv, VC_arg2 m hv, VC_arg3 m hv, VC_v48 m hv]
  exact sep_elim_left

/-- The in-range facts the workers' obligation asks of the laid-out vectors, from the slot numbers' range. -/
theorem A40_lt (hv : HostVals (F := F)) (hidx : ∀ (d : Dev nD) p, (m (locA3 d) p).toNat ≤ 1023) : ∀ d p, (A40 m d p).toNat < 8192 := by
  intro d
  show ∀ p, (VA m d v40' p).toNat < 8192
  unfold VA; rw [hv.pre_v40]; exact hv.gvec_lt _ (hidx d)
theorem A26_lt (hv : HostVals (F := F)) (hidx : ∀ (d : Dev nD) p, (m (locA3 d) p).toNat ≤ 1023) : ∀ d p, (A26 m d p).toNat < 1024 := by
  intro d
  show ∀ p, (VA m d v26' p).toNat < 1024
  unfold VA; rw [hv.pre_v26]; exact hv.nvec_lt _ (hidx d)

/-! ## @main -/

theorem main_eq' (d : Dev nD) :
    main (F := F) d = (StableHlo.seq preOps >>= fun _ => sc.run d 0 >>= fun _ => StableHlo.seq postOps >>= fun u => Pure.pure u) := by
  rw [Host.main_eq]; simp only [bind_pure]

set_option backward.isDefEq.respectTransparency.types false in
/-- @main on device `d`'s TensorCore. -/
theorem hmain (hv : HostVals (F := F)) (κ : GSem nD τ sig → ℕ) (d : Dev nD) :
    iprop((K (F := F)).ctx EH (PP m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [show (fun b : Ref sig .tc => m ((SparseCore.T d).loc b)) = (fun b => V0 m d (Proc.devRef .tc b)) from rfl, unscoped_held, main_eq']
  iintro ⟨#Hctx, Hst, ⟨Hb, Hheld, -, -⟩, -⟩
  -- the host's operations before the call
  iapply (wp_seq 𝒱 none Set.univ d hostSet (fun _ => sc.run d 0 >>= fun _ => StableHlo.seq postOps >>= fun u => Pure.pure u)
      preOps Host.preOps_bufs Host.preOps_fresh (V0 m d)) $$ [Hb Hheld]
  · isplitl [Hb]; · iexact Hb
    iexact Hheld
  iintro ⟨Hb, Hheld⟩
  rw [show StableHlo.after preOps (V0 m d) = VA m d from rfl]
  -- the call's six arrays out, split for the two SparseCores
  ihave Hh := (Entails.of_eq (held_sub_split (T d) S6_sub (VA m d))) $$ Hheld
  icases Hh with ⟨H6, Hrest⟩
  ihave H6' := (Entails.of_eq (held_S6 d (VA m d))) $$ H6
  ihave Hc := (call_split d (A42 m d) (A45 m d) (A26 m d) (A33 m d) (A40 m d) (f46 m d)) $$ H6'
  icases Hc with ⟨Hd45, Hcores⟩
  rw [wp_bind]
  iapply ((K (F := F)).wp_run (D (F := F)) 𝒱 (EH := EH) (P := PP m) κ d 0) $$ [Hst Hcores Hb Hrest Hd45]
  isplitr; · iexact Hctx
  isplitl [Hst]; · iexact Hst
  isplitl [Hcores]
  · rw [st0_eq]; iexact Hcores
  iintro ⟨Hst, Hdn⟩
  -- what comes back, joined and put back
  ihave Hdn' := (Entails.of_eq (dn0_eq (A42 m) (A45 m) (A26 m) (A33 m) (A40 m) (f46 m) d)) $$ Hdn
  ihave H6 := (call_join d (A42 m d) (A45 m d) (A26 m d) (A33 m d) (A40 m d) (R m d)) $$ [Hd45 Hdn']
  · isplitl [Hd45]; · iexact Hd45
    iexact Hdn'
  ihave Hheld := (held_back m d) $$ [H6 Hrest]
  · isplitl [H6]; · iexact H6
    iexact Hrest
  -- the host's two operations after the call
  iapply (wp_seq 𝒱 none Set.univ d hostSet (fun u => Pure.pure u) postOps Host.postOps_bufs Host.postOps_fresh (VB m d)) $$ [Hb Hheld]
  · isplitl [Hb]; · iexact Hb
    iexact Hheld
  iintro ⟨-, Hheld⟩
  rw [show StableHlo.after postOps (VB m d) = VC m d from rfl, wp_pure]; imodintro
  isplitl [Hst]; · iexact Hst
  iapply (fin_of_held m hv d); iexact Hheld

end Cert.KernelIdeal.Launch

end
-- ==== Proof.LaunchKI4.lean ====
/-
  The launch of the kernel's one call, last part: how the final memory reads the claim, and the run of the whole
  program: from the body's obligation and the host's stated facts, every weakly fair execution of the device's threads
  ends, nothing faulting, with the result at `Spec.kerOut` of the arguments and the arguments unchanged.
-/
import proofs.«210205_g8383776161859_cont_9to1_m_1272_27_alg».proof.Proof.LaunchKI3

noncomputable section

namespace Cert.KernelIdeal.Launch

open Cert.KernelIdeal Cert.KernelIdeal.Gen Cert.KernelIdeal.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareTok shareDrop pointsTo_toks pointsTo_toks_split pointsTo_toks_join)

variable {F : FTy → Type}

local notation "𝕄" => MT nD τ sig (HIx 1) (Elt F) ℕ UU ℕ

variable [FloatOps F]

variable (m : (ℓ : Loc nD τ sig) → Buf (Elt F) ℓ) (ρ : Dev nD → PrngReg)

def fq (d : Dev nD) (s' : Phys nD τ sig (Elt F)) : Prop :=
  s'.mem.mem (loc48 d) = Cert.Spec.kerOut (F := F) (m (locA0 d)) (m (locA1 d)) (m (locA2 d)) (m (locA3 d))
    ∧ s'.mem.mem (locA0 d) = m (locA0 d) ∧ s'.mem.mem (locA1 d) = m (locA1 d) ∧ s'.mem.mem (locA2 d) = m (locA2 d) ∧ s'.mem.mem (locA3 d) = m (locA3 d)

theorem hfin (d : Dev nD) (s' : Phys nD τ sig (Elt F)) : iprop(FIN m d ∗ SI s') ⊢ (⌜fq m d s'⌝ : sProp 𝕄) := by
  iintro ⟨⟨H0, H1, H2, H3, H48⟩, HSI⟩
  ihave H := (persistent_entails_right (SI_pointsTo_agree (st := s') (ℓ := locA0 d) (I := Finset.univ) (q := fullShare) (f := m (locA0 d)))) $$ [HSI H0]
  · isplitl [HSI] <;> iassumption
  icases H with ⟨%h0, HSI, -⟩
  ihave H := (persistent_entails_right (SI_pointsTo_agree (st := s') (ℓ := locA1 d) (I := Finset.univ) (q := fullShare) (f := m (locA1 d)))) $$ [HSI H1]
  · isplitl [HSI] <;> iassumption
  icases H with ⟨%h1, HSI, -⟩
  ihave H := (persistent_entails_right (SI_pointsTo_agree (st := s') (ℓ := locA2 d) (I := Finset.univ) (q := fullShare) (f := m (locA2 d)))) $$ [HSI H2]
  · isplitl [HSI] <;> iassumption
  icases H with ⟨%h2, HSI, -⟩
  ihave H := (persistent_entails_right (SI_pointsTo_agree (st := s') (ℓ := locA3 d) (I := Finset.univ) (q := fullShare) (f := m (locA3 d)))) $$ [HSI H3]
  · isplitl [HSI] <;> iassumption
  icases H with ⟨%h3, HSI, -⟩
  ihave H := (SI_pointsTo_agree (st := s') (ℓ := loc48 d) (I := Finset.univ) (q := fullShare)
    (f := Cert.Spec.kerOut (F := F) (m (locA0 d)) (m (locA1 d)) (m (locA2 d)) (m (locA3 d)))) $$ [HSI H48]
  · isplitl [HSI] <;> iassumption
  icases H with %h48
  ipureintro
  exact ⟨funext fun i => h48 i (Finset.mem_univ i), funext fun i => h0 i (Finset.mem_univ i), funext fun i => h1 i (Finset.mem_univ i),
    funext fun i => h2 i (Finset.mem_univ i), funext fun i => h3 i (Finset.mem_univ i)⟩

/-- The run of the whole program, the host's facts stated. -/
theorem run_main_of [∀ e, Nonempty (Elt F e)] (hv : HostVals (F := F)) (hbody : TileBody (F := F))
    (hidx : ∀ (c : Dev nD) p, (m ((c.tc : Thread nD τ).loc main_arg3) p).toNat ≤ 1023) :
    θ_run (Cert.KernelIdeal.defs (F := F)) (Cert.KernelIdeal.threads (F := F)) ⟨m, fun _ => 0, ρ⟩ (fun r => ∀ c : Dev nD,
      r.2.mem ((c.tc : Thread nD τ).loc main_v48) = Cert.Spec.kerOut (F := F) (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  SparseCore.Cfg.θ_run_sc (K := K (F := F)) (D := D (F := F)) (𝒱 := 𝒱) (EH := EH) (P := PP m) facts v₀
    (fun q hq => match q with | 0 => nomatch hq)
    (fun q _ => match q with
      | 0 => tileObl (A42 m) (A45 m) (A26 m) (A33 m) (A40 m) (f46 m) hbody (A40_lt m hv hidx) (A26_lt m hv hidx))
    (fun q _ => match q with | 0 => SparseCore.Cfg.VecSplit.of_plain (vecSplit (A42 m) (A45 m) (A26 m) (A33 m) (A40 m) (f46 m)))
    m ρ main (fun _ => iprop(emp)) (FIN m) (u₀ (F := F)) (sep_elim_left.trans (hu₀ (A42 m) (A45 m) (A26 m) (A33 m) (A40 m) (f46 m)))
    (hmain m ρ hv) (fq m) (hfin m) _ (fun _ h => h)

end Cert.KernelIdeal.Launch

end
-- ==== Proof.HostKI2.lean ====
/-
  The host's layouts read index by index: the memory re-laid as 32768 rows of 1024, the key and value vectors side by
  side as 8192 rows of 128, the rows laid back as the four-axis array; and the buffers the host operations keep.
-/
import proofs.«210205_g8383776161859_cont_9to1_m_1272_27_alg».proof.Proof.HostKI
import proofs.«210205_g8383776161859_cont_9to1_m_1272_27_alg».proof.Proof.Spec
import Idealize.ShloMosaic.Lib.ValueLayout

noncomputable section

namespace Cert.KernelIdeal.Host

open Cert.KernelIdeal Cert.KernelIdeal.Gen Idealize.ShloMosaic Idealize.ShloMosaic.TcCoe Idealize.SL.Sem Idealize.ShloMosaic.StableHlo
open Idealize.ShloMosaic.ValueIdx

variable {F : FTy → Type} [FloatOps F]

/-! ## The buffers the operations before the call keep -/

theorem pre_keep_arg0 (V : Valuation τ sig (Elt F)) :
    StableHlo.after preOps V (Proc.devRef .tc main_arg0) = V (Proc.devRef .tc main_arg0) := by
  unfold preOps; after_results_simp <;> rfl
theorem pre_keep_arg1 (V : Valuation τ sig (Elt F)) :
    StableHlo.after preOps V (Proc.devRef .tc main_arg1) = V (Proc.devRef .tc main_arg1) := by
  unfold preOps; after_results_simp <;> rfl
theorem pre_keep_arg2 (V : Valuation τ sig (Elt F)) :
    StableHlo.after preOps V (Proc.devRef .tc main_arg2) = V (Proc.devRef .tc main_arg2) := by
  unfold preOps; after_results_simp <;> rfl
theorem pre_keep_arg3 (V : Valuation τ sig (Elt F)) :
    StableHlo.after preOps V (Proc.devRef .tc main_arg3) = V (Proc.devRef .tc main_arg3) := by
  unfold preOps; after_results_simp <;> rfl
theorem pre_keep_v46 (V : Valuation τ sig (Elt F)) :
    StableHlo.after preOps V (Proc.devRef .tc main_v46) = V (Proc.devRef .tc main_v46) := by
  unfold preOps; after_results_simp <;> rfl
theorem pre_keep_v47 (V : Valuation τ sig (Elt F)) :
    StableHlo.after preOps V (Proc.devRef .tc main_v47) = V (Proc.devRef .tc main_v47) := by
  unfold preOps; after_results_simp <;> rfl
theorem pre_keep_v48 (V : Valuation τ sig (Elt F)) :
    StableHlo.after preOps V (Proc.devRef .tc main_v48) = V (Proc.devRef .tc main_v48) := by
  unfold preOps; after_results_simp <;> rfl

/-- The operations before the call write none of the arguments' buffers nor the three buffers after the call. -/
theorem pre_keep (V : Valuation τ sig (Elt F)) (r : Ref sig .tc)
    (hr : r ∈ [main_arg0, main_arg1, main_arg2, main_arg3, main_v46, main_v47, main_v48]) :
    StableHlo.after preOps V (Proc.devRef .tc r) = V (Proc.devRef .tc r) := by
  simp only [List.mem_cons, List.not_mem_nil, or_false] at hr
  rcases hr with rfl | rfl | rfl | rfl | rfl | rfl | rfl
  · exact pre_keep_arg0 V
  · exact pre_keep_arg1 V
  · exact pre_keep_arg2 V
  · exact pre_keep_arg3 V
  · exact pre_keep_v46 V
  · exact pre_keep_v47 V
  · exact pre_keep_v48 V

/-- The two operations after the call write none of the arguments' buffers. -/
theorem post_keep (W : Valuation τ sig (Elt F)) (r : Ref sig .tc) (hr : r ∈ [main_arg0, main_arg1, main_arg2, main_arg3]) :
    StableHlo.after postOps W (Proc.devRef .tc r) = W (Proc.devRef .tc r) := by
  simp only [List.mem_cons, List.not_mem_nil, or_false] at hr
  rcases hr with rfl | rfl | rfl | rfl <;> (unfold postOps; after_results_simp <;> rfl)

/-! ## The rows laid back -/

/-- What the two operations after the call leave in the result's buffer. -/
theorem post_v48_term (W : Valuation τ sig (Elt F)) :
    StableHlo.after postOps W (Proc.devRef .tc main_v48)
      = transpose S8x1024x64x64 [0, 3, 1, 2]
          (shapeCast S8x64x64x1024 (W (Proc.devRef .tc main_v46) : S32768x1024.Idx → Elt F .f32) shapeCasts_S32768x1024_S8x64x64x1024)
          transposes_S8x64x64x1024_S8x1024x64x64_0_3_1_2 := by
  unfold postOps; after_results_simp <;> rfl

/-- Rows cast to `[8, 64, 64, 1024]` and the last axis moved to second place: entry `(b, n, i, j)` is row
    `b·4096 + i·64 + j`, column `n`. -/
theorem outOf_eq (o2 : S32768x1024.Idx → Elt F .f32) :
    transpose S8x1024x64x64 [0, 3, 1, 2] (shapeCast S8x64x64x1024 o2 shapeCasts_S32768x1024_S8x64x64x1024)
      transposes_S8x64x64x1024_S8x1024x64x64_0_3_1_2 = Cert.Spec.outOf o2 := by
  funext p
  obtain ⟨b, n, i, j, rfl⟩ : ∃ (b : Fin 8) (n : Fin 1024) (i j : Fin 64), p = ix4 b n i j := ⟨p 0, p 1, p 2, p 3, eq_ix4 p⟩
  refine (transpose_apply _ _ _ _ (ix4 b i j n) ?_).trans ?_
  · intro c
    match c with
    | ⟨0, _⟩ => rfl
    | ⟨1, _⟩ => rfl
    | ⟨2, _⟩ => rfl
    | ⟨3, _⟩ => rfl
  have hb := b.isLt; have hi := i.isLt; have hj := j.isLt
  refine (shapeCast_apply _ _ _ (ix2 (⟨b.val * 4096 + i.val * 64 + j.val, by omega⟩ : Fin 32768) n) ?_).trans rfl
  rw [Shape.rowMajor_val_two, Shape.rowMajor_val_four]
  show (b.val * 4096 + i.val * 64 + j.val) * 1024 + n.val = ((b.val * 64 + i.val) * 64 + j.val) * 1024 + n.val
  omega

theorem post_v48 (W : Valuation τ sig (Elt F)) :
    StableHlo.after postOps W (Proc.devRef .tc main_v48) = Cert.Spec.outOf (W (Proc.devRef .tc main_v46)) :=
  (post_v48_term W).trans (outOf_eq _)

/-! ## The memory as rows -/

theorem pre_v42_term (V : Valuation τ sig (Elt F)) :
    StableHlo.after preOps V (Proc.devRef .tc main_v42)
      = shapeCast S32768x1024
          (transpose S8x64x64x1024 [0, 2, 3, 1] (V (Proc.devRef .tc main_arg0) : S8x1024x64x64.Idx → Elt F .f32)
            transposes_S8x1024x64x64_S8x64x64x1024_0_2_3_1) shapeCasts_S8x64x64x1024_S32768x1024 := by
  unfold preOps; after_results_simp <;> rfl

/-- The slot axis moved last and the first three axes merged: row `x`, column `n` is
    `M[x / 4096, n, x / 64 % 64, x % 64]`. -/
theorem m2Of_eq (M : S8x1024x64x64.Idx → Elt F .f32) :
    shapeCast S32768x1024 (transpose S8x64x64x1024 [0, 2, 3, 1] M transposes_S8x1024x64x64_S8x64x64x1024_0_2_3_1)
      shapeCasts_S8x64x64x1024_S32768x1024 = Cert.Spec.m2Of M := by
  funext p
  obtain ⟨x, n, rfl⟩ : ∃ (x : Fin 32768) (n : Fin 1024), p = ix2 x n := ⟨p 0, p 1, eq_ix2 p⟩
  have hx := x.isLt
  refine (shapeCast_apply _ _ _ (ix4 (⟨x.val / 4096, by omega⟩ : Fin 8) (⟨x.val / 64 % 64, by omega⟩ : Fin 64)
    (⟨x.val % 64, by omega⟩ : Fin 64) n) ?_).trans ?_
  · rw [Shape.rowMajor_val_two, Shape.rowMajor_val_four]
    show ((x.val / 4096 * 64 + x.val / 64 % 64) * 64 + x.val % 64) * 1024 + n.val = x.val * 1024 + n.val
    omega
  refine (transpose_apply _ _ _ _ (ix4 (⟨x.val / 4096, by omega⟩ : Fin 8) n (⟨x.val / 64 % 64, by omega⟩ : Fin 64)
    (⟨x.val % 64, by omega⟩ : Fin 64)) ?_).trans rfl
  intro c
  match c with
  | ⟨0, _⟩ => rfl
  | ⟨1, _⟩ => rfl
  | ⟨2, _⟩ => rfl
  | ⟨3, _⟩ => rfl

theorem pre_v42 (V : Valuation τ sig (Elt F)) :
    StableHlo.after preOps V (Proc.devRef .tc main_v42) = Cert.Spec.m2Of (V (Proc.devRef .tc main_arg0)) :=
  (pre_v42_term V).trans (m2Of_eq _)

/-! ## The key and value vectors side by side -/

theorem pre_v45_term (V : Valuation τ sig (Elt F)) :
    StableHlo.after preOps V (Proc.devRef .tc main_v45)
      = concatenate S8192x128 1
          [⟨S8192x64, shapeCast S8192x64 (V (Proc.devRef .tc main_arg1) : S8x1024x64.Idx → Elt F .f32) shapeCasts_S8x1024x64_S8192x64⟩,
           ⟨S8192x64, shapeCast S8192x64 (V (Proc.devRef .tc main_arg2) : S8x1024x64.Idx → Elt F .f32) shapeCasts_S8x1024x64_S8192x64⟩]
          concatenates_S8192x64_S8192x64_S8192x128_d1 := by
  unfold preOps; after_results_simp <;> rfl

/-- A `[8, 1024, 64]` array as 8192 rows of 64: row `s`, column `c` is entry `(s / 1024, s % 1024, c)`. -/
theorem rows64_apply (X : S8x1024x64.Idx → Elt F .f32) (s : Fin 8192) (c : Fin 64) :
    shapeCast S8192x64 X shapeCasts_S8x1024x64_S8192x64 (ix2 s c)
      = X (ix3 (⟨s.val / 1024, by omega⟩ : Fin 8) (⟨s.val % 1024, by omega⟩ : Fin 1024) c) := by
  have hs := s.isLt
  refine shapeCast_apply _ _ _ _ ?_
  rw [Shape.rowMajor_val_two, Shape.rowMajor_val_three]
  show (s.val / 1024 * 1024 + s.val % 1024) * 64 + c.val = s.val * 64 + c.val
  omega

theorem kvOf_eq (Mk Mv : S8x1024x64.Idx → Elt F .f32) :
    concatenate S8192x128 1
        [⟨S8192x64, shapeCast S8192x64 Mk shapeCasts_S8x1024x64_S8192x64⟩,
         ⟨S8192x64, shapeCast S8192x64 Mv shapeCasts_S8x1024x64_S8192x64⟩]
        concatenates_S8192x64_S8192x64_S8192x128_d1 = Cert.Spec.kvOf Mk Mv := by
  funext p
  obtain ⟨s, c, rfl⟩ : ∃ (s : Fin 8192) (c : Fin 128), p = ix2 s c := ⟨p 0, p 1, eq_ix2 p⟩
  show _ = Cert.Spec.kvAt Mk Mv s c
  unfold Cert.Spec.kvAt
  by_cases h : c.val < 64
  · rw [dif_pos h]
    refine (concatenate_pair_apply_left (t := S8192x128) (s₁ := S8192x64) (s₂ := S8192x64) (1 : Fin 2) _ _ _ (ix2 s c) rfl (ix2 s (⟨c.val, h⟩ : Fin 64)) ?_).trans
      (rows64_apply Mk s ⟨c.val, h⟩)
    intro b
    match b with
    | ⟨0, _⟩ => rfl
    | ⟨1, _⟩ => rfl
  · rw [dif_neg h]
    have hc := c.isLt
    refine (concatenate_pair_apply_right (t := S8192x128) (s₁ := S8192x64) (s₂ := S8192x64) (1 : Fin 2) _ _ _ (ix2 s c) rfl rfl (ix2 s (⟨c.val - 64, by omega⟩ : Fin 64)) ?_ ?_).trans
      (rows64_apply Mv s ⟨c.val - 64, by omega⟩)
    · intro b
      match b with
      | ⟨0, _⟩ => exact fun _ => rfl
      | ⟨1, _⟩ => exact fun hne => absurd rfl hne
    · show c.val - 64 + 64 = c.val
      omega

theorem pre_v45 (V : Valuation τ sig (Elt F)) :
    StableHlo.after preOps V (Proc.devRef .tc main_v45)
      = Cert.Spec.kvOf (V (Proc.devRef .tc main_arg1)) (V (Proc.devRef .tc main_arg2)) :=
  (pre_v45_term V).trans (kvOf_eq _ _)

end Cert.KernelIdeal.Host

end
-- ==== Proof.HostKI3.lean ====
/-
  The per-worker copies. Worker `w` of 32 serves batch entry `w / 4`: the host computes that number for each worker
  (the worker's number divided by four, rounded toward minus infinity, a negative result moved up by eight) and gathers
  whole rows of an `[8, 16]` array by it. Read index by index: the row index of worker `w` is `w / 4`, the gather of
  rows reads row `w / 4`, and so the workers' slot numbers and table rows are the batch entry's.
-/
import proofs.«210205_g8383776161859_cont_9to1_m_1272_27_alg».proof.Proof.HostKI
import proofs.«210205_g8383776161859_cont_9to1_m_1272_27_alg».proof.Proof.Spec
import Idealize.ShloMosaic.Lib.ValueLayout

noncomputable section

namespace Cert.KernelIdeal.Host

open Cert.KernelIdeal Cert.KernelIdeal.Gen Idealize.ShloMosaic Idealize.ShloMosaic.TcCoe Idealize.SL.Sem Idealize.ShloMosaic.StableHlo
open Idealize.ShloMosaic.ValueIdx

variable {F : FTy → Type} [FloatOps F]

/-- Worker numbers divided by four, rounded toward minus infinity: the quotient toward zero, one less where the signs
    differ and the division is inexact. -/
def q4 : IVec S32 32 :=
  let x : IVec S32 32 := iotaInDim S32 32 0
  let four : IVec S_ 32 := constantI S_ 32 4#32
  let d : IVec S32 32 := Host.divsi x (broadcastInDim S32 ![] bcast_S_S32 four)
  let differ : IVec S32 1 := cmpi .ne (signi x) (broadcastInDim S32 ![] bcast_S_S32 (signi four))
  let r : IVec S32 32 := Host.remsi x (broadcastInDim S32 ![] bcast_S_S32 four)
  let inexact : IVec S32 1 := cmpi .ne r (broadcastInDim S32 ![] bcast_S_S32 (constantI S_ 32 0#32))
  select (andi differ inexact) (subi d (broadcastInDim S32 ![] bcast_S_S32 (constantI S_ 32 1#32))) d

/-- The same, a negative entry moved up by eight, as a column: the start indices of the three gathers. -/
def rowOf : IVec S32x1 32 :=
  broadcastInDim S32x1 ![0] bcast_S32_S32x1_0
    (select (cmpi .slt q4 (broadcastInDim S32 ![] bcast_S_S32 (constantI S_ 32 0#32)))
      (addi q4 (broadcastInDim S32 ![] bcast_S_S32 (constantI S_ 32 8#32))) q4)

/-- Worker `w`'s start index is `w / 4`: thirty-two literal entries, none depending on an input. -/
theorem rowOf_apply : ∀ w : Fin 32, rowOf (ix2 w (0 : Fin 1)) = BitVec.ofNat 32 (w.val / 4) := by
  decide

/-- Read signed and clamped into the eight rows it is still `w / 4`. -/
theorem rowNat_eq : ∀ w : Fin 32, min (rowOf (ix2 w (0 : Fin 1))).toInt.toNat 7 = w.val / 4 := by
  decide

/-- The three gathers' dimension numbers: whole rows of an `[8, 16]` operand, one start index per result row. -/
abbrev GD : GatherDims S8x16 S32x1 S32x16 := gather_S8x16_S32x1_S32x16_1_0_n_n_0_1_116

/-- A gather of whole rows: entry `(r, k)` is the operand's row named by start index `r` (read signed, clamped into
    the eight rows), at column `k`. -/
theorem gather_rows_apply {α : Type} {w : Nat} (x : S8x16.Idx → α) (idx : IVec S32x1 w) (r : Fin 32) (k : Fin 16) :
    Host.gather GD x idx (ix2 r k)
      = x (ix2 (⟨min (idx (ix2 r (0 : Fin 1))).toInt.toNat 7, by omega⟩ : Fin 8) k) := by
  unfold Host.gather
  congr 1
  funext a
  refine Fin.ext ?_
  match a with
  | ⟨0, _⟩ =>
    show GD.start (ix2 r k) idx (0 : Fin 2) + GD.batchCoord (ix2 r k) (0 : Fin 2) + GD.offCoord (ix2 r k) (0 : Fin 2)
      = min (idx (ix2 r (0 : Fin 1))).toInt.toNat 7
    rw [GatherDims.batchCoord_eq_zero _ _ _ (show (0 : Fin 2) ∉ GD.operandBatchingDims from List.not_mem_nil),
      GatherDims.offCoord_eq_zero _ _ _ (fun h => ((GatherDims.mem_sKept _ _).mp h).1 (List.mem_singleton.mpr rfl))]
    simp only [Nat.add_zero]
    unfold GatherDims.start
    rw [dif_pos (show (0 : Fin 2) ∈ GD.startIndexMap from List.mem_singleton.mpr rfl)]
    have hsi : GD.siIdx (ix2 r k) ⟨List.idxOf (0 : Fin 2) GD.startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show GD.start (ix2 r k) idx (1 : Fin 2) + GD.batchCoord (ix2 r k) (1 : Fin 2) + GD.offCoord (ix2 r k) (1 : Fin 2) = k.val
    rw [GatherDims.batchCoord_eq_zero _ _ _ (show (1 : Fin 2) ∉ GD.operandBatchingDims from List.not_mem_nil)]
    unfold GatherDims.start
    rw [dif_neg (show (1 : Fin 2) ∉ GD.startIndexMap from by decide)]
    simp only [Nat.add_zero, Nat.zero_add]
    rfl

/-- Gathered by the workers' start indices, entry `(w, k)` is the operand's entry `(w / 4, k)`. -/
theorem gather_rowOf {α : Type} (x : S8x16.Idx → α) (w : Fin 32) (k : Fin 16) :
    Host.gather GD x rowOf (ix2 w k) = x (ix2 (Cert.Spec.batchOf w) k) :=
  (gather_rows_apply x rowOf w k).trans (congrArg (fun r : Fin 8 => x (ix2 r k)) (Fin.ext (rowNat_eq w)))

/-! ## The workers' slot numbers -/

theorem pre_v26_term (V : Valuation τ sig (Elt F)) :
    StableHlo.after preOps V (Proc.devRef .tc main_v26)
      = Host.gather GD (V (Proc.devRef .tc main_arg3) : S8x16.Idx → BitVec 32) rowOf := by
  unfold preOps; after_results_simp <;> rfl

theorem pre_v26 (V : Valuation τ sig (Elt F)) :
    StableHlo.after preOps V (Proc.devRef .tc main_v26) = Cert.Spec.nvecOf (V (Proc.devRef .tc main_arg3)) := by
  refine (pre_v26_term V).trans ?_
  funext p
  obtain ⟨w, k, rfl⟩ : ∃ (w : Fin 32) (k : Fin 16), p = ix2 w k := ⟨p 0, p 1, eq_ix2 p⟩
  exact gather_rowOf _ w k

/-! ## The workers' table rows -/

/-- Batch entry `b` times 1024, spread over the sixteen positions. -/
def rowBase : IVec S8x16 32 :=
  broadcastInDim S8x16 ![0, 1] bcast_S8x1_S8x16_0_1
    (muli (broadcastInDim S8x1 ![0] bcast_S8_S8x1_0 (iotaInDim S8 32 0))
      (broadcastInDim S8x1 ![] bcast_S_S8x1 (constantI S_ 32 1024#32)))

theorem rowBase_apply : ∀ (b : Fin 8) (k : Fin 16), rowBase (ix2 b k) = BitVec.ofNat 32 (b.val * 1024) := by
  decide

theorem pre_v40_term (V : Valuation τ sig (Elt F)) :
    StableHlo.after preOps V (Proc.devRef .tc main_v40)
      = Host.gather GD (addi rowBase (V (Proc.devRef .tc main_arg3) : S8x16.Idx → BitVec 32)) rowOf := by
  unfold preOps; after_results_simp <;> rfl

theorem pre_v40 (V : Valuation τ sig (Elt F)) :
    StableHlo.after preOps V (Proc.devRef .tc main_v40) = Cert.Spec.gvecOf (V (Proc.devRef .tc main_arg3)) := by
  refine (pre_v40_term V).trans ?_
  funext p
  obtain ⟨w, k, rfl⟩ : ∃ (w : Fin 32) (k : Fin 16), p = ix2 w k := ⟨p 0, p 1, eq_ix2 p⟩
  refine (gather_rowOf _ w k).trans ?_
  show IntOp.addi (rowBase (ix2 (Cert.Spec.batchOf w) k)) _ = _
  rw [rowBase_apply]
  rfl

end Cert.KernelIdeal.Host

end
-- ==== Proof.SpecRange.lean ====
/-
  Two range facts about the per-worker index vectors: with every slot number at most 1023, a worker's slot numbers are
  below 1024 and its table rows (batch entry times 1024 plus slot number) below 8192.
-/
import proofs.«210205_g8383776161859_cont_9to1_m_1272_27_alg».proof.Proof.Spec

namespace Cert.Spec

open Idealize.ShloMosaic Idealize.ShloMosaic.ValueIdx

/-- A worker's slot numbers are the batch entry's: below 1024 when every slot number is at most 1023. -/
theorem nvec_lt (idx : IVec SI 32) (h : ∀ p, (idx p).toNat ≤ 1023) : ∀ p, (nvecOf idx p).toNat < 1024 := by
  intro p
  have h1 := h (ix2 (batchOf (p 0)) (p 1))
  show (idx (ix2 (batchOf (p 0)) (p 1))).toNat < 1024
  omega

/-- A worker's table rows are below 8192: the batch entry is below 8 and the slot number at most 1023. -/
theorem gvec_lt (idx : IVec SI 32) (h : ∀ p, (idx p).toNat ≤ 1023) : ∀ p, (gvecOf idx p).toNat < 8192 := by
  intro p
  have h1 := h (ix2 (batchOf (p 0)) (p 1))
  have hb : (batchOf (p 0)).val < 8 := (batchOf (p 0)).isLt
  show (BitVec.ofNat 32 ((batchOf (p 0)).val * 1024) + idx (ix2 (batchOf (p 0)) (p 1))).toNat < 8192
  rw [BitVec.toNat_add, BitVec.toNat_ofNat]
  omega

end Cert.Spec
-- ==== Proof.LaunchKI5.lean ====
/-
  The run of the kernel's whole program from the body's obligation: the host's operations' values discharged from
  their own modules.
-/
import proofs.«210205_g8383776161859_cont_9to1_m_1272_27_alg».proof.Proof.LaunchKI4
import proofs.«210205_g8383776161859_cont_9to1_m_1272_27_alg».proof.Proof.HostKI2
import proofs.«210205_g8383776161859_cont_9to1_m_1272_27_alg».proof.Proof.HostKI3
import proofs.«210205_g8383776161859_cont_9to1_m_1272_27_alg».proof.Proof.SpecRange

noncomputable section

namespace Cert.KernelIdeal.Launch

open Cert.KernelIdeal Cert.KernelIdeal.Gen Cert.KernelIdeal.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareTok shareDrop pointsTo_toks pointsTo_toks_split pointsTo_toks_join)

variable {F : FTy → Type}

local notation "𝕄" => MT nD τ sig (HIx 1) (Elt F) ℕ UU ℕ

open Cert.KernelIdeal.Host (preOps postOps)

variable [FloatOps F]

/-- The host's facts, the weights' layout the one left stated. -/
theorem hostVals (hv33 : ∀ V : Valuation τ sig (Elt F), StableHlo.after preOps V v33' = Cert.Spec.wvecOf (F := F) (V arg3')) :
    HostVals (F := F) where
  pre_v42 := Host.pre_v42
  pre_v45 := Host.pre_v45
  pre_v26 := Host.pre_v26
  pre_v33 := hv33
  pre_v40 := Host.pre_v40
  pre_keep0 := Host.pre_keep_arg0
  pre_keep1 := Host.pre_keep_arg1
  pre_keep2 := Host.pre_keep_arg2
  pre_keep3 := Host.pre_keep_arg3
  post_v48 := Host.post_v48
  post_keep0 := fun W => Host.post_keep W main_arg0 (by simp)
  post_keep1 := fun W => Host.post_keep W main_arg1 (by simp)
  post_keep2 := fun W => Host.post_keep W main_arg2 (by simp)
  post_keep3 := fun W => Host.post_keep W main_arg3 (by simp)
  gvec_lt := Cert.Spec.gvec_lt
  nvec_lt := Cert.Spec.nvec_lt

/-- The run of the whole program. -/
theorem run_main33 [∀ e, Nonempty (Elt F e)]
    (hv33 : ∀ V : Valuation τ sig (Elt F), StableHlo.after preOps V v33' = Cert.Spec.wvecOf (F := F) (V arg3'))
    (hbody : Cert.KernelIdeal.Tile.TileBody (F := F)) (m : (ℓ : Loc nD τ sig) → Buf (Elt F) ℓ) (ρ : Dev nD → PrngReg)
    (hidx : ∀ (c : Dev nD) p, (m ((c.tc : Thread nD τ).loc main_arg3) p).toNat ≤ 1023) :
    θ_run (Cert.KernelIdeal.defs (F := F)) (Cert.KernelIdeal.threads (F := F)) ⟨m, fun _ => 0, ρ⟩ (fun r => ∀ c : Dev nD,
      r.2.mem ((c.tc : Thread nD τ).loc main_v48) = Cert.Spec.kerOut (F := F) (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_main_of m ρ (hostVals hv33) hbody hidx

end Cert.KernelIdeal.Launch

end
-- ==== Proof.RefValue.lean ====
/-
  The array code's program computes the array code's result.

  The program forms the products P[b, n, i, j] = M_k[b, n, i] · M_v[b, n, j] (a contraction over one axis of extent one),
  reads them at the slot numbers (for each position k of batch entry b the 64 × 64 matrix P[b, idx[b, k], ·, ·]: an index is
  first normalised — a negative one counts from the end —, out-of-range positions are masked to NaN, and the read itself clamps
  the index), pairs each position with its batch entry, (b, idx[b, k]), and adds every gathered matrix onto the memory M at
  its pair, matrix coordinates kept; repeated pairs accumulate, and over the extended reals the accumulation is the exact sum
  of the updates landing at an entry.

  Under the precondition 0 ≤ idx ≤ 1023 the normalisation is the identity, the mask is all ones and the clamp does nothing.
  So the update at position (b, k, i, j) is M_k[b, idx[b, k], i] · M_v[b, idx[b, k], j] and it lands at entry
  (b, idx[b, k], i, j). The updates landing at (b, n, i, j) are therefore those of the positions k with idx[b, k] = n, one
  each, and each is M_k[b, n, i] · M_v[b, n, j]: the sum over the landing update positions is the sum over k of that
  product where idx[b, k] = n and of zero elsewhere, which is Spec.refAt.

  Sections: the scatter's and the gather's dimension numbers read at explicit coordinates; words; the stages of the program
  at explicit coordinates; the index pairs; the result; the run.
-/
import proofs.«210205_g8383776161859_cont_9to1_m_1272_27_alg».proof.Defs
import proofs.«210205_g8383776161859_cont_9to1_m_1272_27_alg».proof.Proof.RefReadP
import proofs.«210205_g8383776161859_cont_9to1_m_1272_27_alg».proof.Proof.Spec
import Idealize.ShloMosaic.Lib.ValueIdx
import Idealize.ShloMosaic.Lib.Pipeline.Value
import Idealize.ShloMosaic.Lib.Affine
import Idealize.ShloMosaic.PureOps.Ideal.Laws

noncomputable section

namespace Cert.ReferenceIdeal.RefValue

open Cert.ReferenceIdeal Cert.ReferenceIdeal.Gen Idealize.ShloMosaic Idealize.ShloMosaic.ValueIdx Cert.ReferenceIdeal.ReadP
open Idealize.ShloMosaic.TcCoe Idealize.SL.Sem

/-! ### The dimension numbers at explicit coordinates -/

/-- The scatter's dimension numbers. -/
abbrev sd : ScatterDims S8x1024x64x64 S8x16x2 S8x16x64x64 := scatter_S8x1024x64x64_S8x16x2_S8x16x64x64_23_01_01_2

theorem sd_window0 (b : Fin 8) (k : Fin 16) (i j : Fin 64) : sd.window (ix4 b k i j) 0 = 0 := rfl
theorem sd_window1 (b : Fin 8) (k : Fin 16) (i j : Fin 64) : sd.window (ix4 b k i j) 1 = 0 := rfl
theorem sd_window2 (b : Fin 8) (k : Fin 16) (i j : Fin 64) : sd.window (ix4 b k i j) 2 = i.val := rfl
theorem sd_window3 (b : Fin 8) (k : Fin 16) (i j : Fin 64) : sd.window (ix4 b k i j) 3 = j.val := rfl

theorem sd_start0 (idx : IVec S8x16x2 32) (b : Fin 8) (k : Fin 16) (i j : Fin 64) :
    sd.start (ix4 b k i j) idx 0 = (idx (ix3 b k (0 : Fin 2))).toInt := by
  unfold ScatterDims.start
  rw [dif_pos (show (0 : Fin S8x1024x64x64.rank) ∈ sd.scatterDimsToOperandDims by decide)]
  congr 2
  funext a; refine Fin.ext ?_
  match a with
  | ⟨0, _⟩ => rfl
  | ⟨1, _⟩ => rfl
  | ⟨2, _⟩ => rfl

theorem sd_start1 (idx : IVec S8x16x2 32) (b : Fin 8) (k : Fin 16) (i j : Fin 64) :
    sd.start (ix4 b k i j) idx 1 = (idx (ix3 b k (1 : Fin 2))).toInt := by
  unfold ScatterDims.start
  rw [dif_pos (show (1 : Fin S8x1024x64x64.rank) ∈ sd.scatterDimsToOperandDims by decide)]
  congr 2
  funext a; refine Fin.ext ?_
  match a with
  | ⟨0, _⟩ => rfl
  | ⟨1, _⟩ => rfl
  | ⟨2, _⟩ => rfl

theorem sd_start2 (idx : IVec S8x16x2 32) (b : Fin 8) (k : Fin 16) (i j : Fin 64) :
    sd.start (ix4 b k i j) idx 2 = 0 := by
  unfold ScatterDims.start
  rw [dif_neg (show ¬ (2 : Fin S8x1024x64x64.rank) ∈ sd.scatterDimsToOperandDims by decide)]

theorem sd_start3 (idx : IVec S8x16x2 32) (b : Fin 8) (k : Fin 16) (i j : Fin 64) :
    sd.start (ix4 b k i j) idx 3 = 0 := by
  unfold ScatterDims.start
  rw [dif_neg (show ¬ (3 : Fin S8x1024x64x64.rank) ∈ sd.scatterDimsToOperandDims by decide)]

/-- Where update position (b, k, i, j) lands: at batch entry B and slot N, the two components of index pair (b, k), when
    both are inside the memory; the window coordinates are kept. -/
theorem sd_result (idx : IVec S8x16x2 32) (b : Fin 8) (k : Fin 16) (i j : Fin 64) (B : Fin 8) (N : Fin 1024)
    (hB : (idx (ix3 b k (0 : Fin 2))).toInt = (B.val : Int)) (hN : (idx (ix3 b k (1 : Fin 2))).toInt = (N.val : Int)) :
    sd.resultIdx? (ix4 b k i j) idx = some (ix4 B N i j) := by
  have e0 : sd.start (ix4 b k i j) idx 0 + (sd.window (ix4 b k i j) 0 : Int) = (B.val : Int) := by
    rw [sd_start0, sd_window0, hB]; simp
  have e1 : sd.start (ix4 b k i j) idx 1 + (sd.window (ix4 b k i j) 1 : Int) = (N.val : Int) := by
    rw [sd_start1, sd_window1, hN]; simp
  have e2 : sd.start (ix4 b k i j) idx 2 + (sd.window (ix4 b k i j) 2 : Int) = (i.val : Int) := by
    rw [sd_start2, sd_window2]; simp
  have e3 : sd.start (ix4 b k i j) idx 3 + (sd.window (ix4 b k i j) 3 : Int) = (j.val : Int) := by
    rw [sd_start3, sd_window3]; simp
  have H : ∀ a, 0 ≤ sd.start (ix4 b k i j) idx a + sd.window (ix4 b k i j) a
      ∧ sd.start (ix4 b k i j) idx a + sd.window (ix4 b k i j) a < S8x1024x64x64.size a := fun a =>
    match a with
    | ⟨0, _⟩ => by
      show 0 ≤ sd.start (ix4 b k i j) idx 0 + (sd.window (ix4 b k i j) 0 : Int) ∧ sd.start (ix4 b k i j) idx 0 + (sd.window (ix4 b k i j) 0 : Int) < (8 : Nat)
      rw [e0]; have := B.isLt; omega
    | ⟨1, _⟩ => by
      show 0 ≤ sd.start (ix4 b k i j) idx 1 + (sd.window (ix4 b k i j) 1 : Int) ∧ sd.start (ix4 b k i j) idx 1 + (sd.window (ix4 b k i j) 1 : Int) < (1024 : Nat)
      rw [e1]; have := N.isLt; omega
    | ⟨2, _⟩ => by
      show 0 ≤ sd.start (ix4 b k i j) idx 2 + (sd.window (ix4 b k i j) 2 : Int) ∧ sd.start (ix4 b k i j) idx 2 + (sd.window (ix4 b k i j) 2 : Int) < (64 : Nat)
      rw [e2]; have := i.isLt; omega
    | ⟨3, _⟩ => by
      show 0 ≤ sd.start (ix4 b k i j) idx 3 + (sd.window (ix4 b k i j) 3 : Int) ∧ sd.start (ix4 b k i j) idx 3 + (sd.window (ix4 b k i j) 3 : Int) < (64 : Nat)
      rw [e3]; have := j.isLt; omega
  unfold ScatterDims.resultIdx?
  rw [dif_pos H]
  congr 1
  funext a; refine Fin.ext ?_
  match a with
  | ⟨0, _⟩ =>
    show (sd.start (ix4 b k i j) idx 0 + (sd.window (ix4 b k i j) 0 : Int)).toNat = B.val
    rw [e0]; simp
  | ⟨1, _⟩ =>
    show (sd.start (ix4 b k i j) idx 1 + (sd.window (ix4 b k i j) 1 : Int)).toNat = N.val
    rw [e1]; simp
  | ⟨2, _⟩ =>
    show (sd.start (ix4 b k i j) idx 2 + (sd.window (ix4 b k i j) 2 : Int)).toNat = i.val
    rw [e2]; simp
  | ⟨3, _⟩ =>
    show (sd.start (ix4 b k i j) idx 3 + (sd.window (ix4 b k i j) 3 : Int)).toNat = j.val
    rw [e3]; simp

/-- The gather's dimension numbers. -/
abbrev gd : GatherDims S8x1024x64x64 S8x16x64x64x1 S8x16x64x64 := gather_S8x1024x64x64_S8x16x64x64x1_S8x16x64x64_n_1_023_023_1_4_1111

/-- The gather read at (b, k, i, j): the operand at slot idx[b, k, i, j, 0] (read signed, clamped into [0, 1023]) of batch
    entry b, at the same matrix coordinates. -/
theorem gd_apply {α : Type} (x : S8x1024x64x64.Idx → α) (idx : IVec S8x16x64x64x1 32) (b : Fin 8) (k : Fin 16) (i j : Fin 64) :
    Host.gather gd x idx (ix4 b k i j)
      = x (ix4 b (⟨min (idx (ix5 b k i j (0 : Fin 1))).toInt.toNat 1023, by omega⟩ : Fin 1024) i j) := by
  unfold Host.gather
  congr 1
  funext a
  refine Fin.ext ?_
  match a with
  | ⟨0, _⟩ =>
    show gd.start (ix4 b k i j) idx 0 + gd.batchCoord (ix4 b k i j) 0 + gd.offCoord (ix4 b k i j) 0 = b.val
    have hs : gd.start (ix4 b k i j) idx 0 = 0 := rfl
    have hb : gd.batchCoord (ix4 b k i j) 0 = b.val := rfl
    have ho : gd.offCoord (ix4 b k i j) 0 = 0 := rfl
    rw [hs, hb, ho]; omega
  | ⟨1, _⟩ =>
    show gd.start (ix4 b k i j) idx 1 + gd.batchCoord (ix4 b k i j) 1 + gd.offCoord (ix4 b k i j) 1 = _
    have hb : gd.batchCoord (ix4 b k i j) 1 = 0 := rfl
    have ho : gd.offCoord (ix4 b k i j) 1 = 0 := rfl
    rw [hb, ho]
    simp only [Nat.add_zero]
    unfold GatherDims.start
    rw [dif_pos (show (1 : Fin S8x1024x64x64.rank) ∈ gd.startIndexMap by decide)]
    have hsi : gd.siIdx (ix4 b k i j) ⟨List.idxOf (1 : Fin S8x1024x64x64.rank) gd.startIndexMap,
        List.idxOf_lt_length_iff.2 (by decide)⟩ = ix5 b k i j (0 : Fin 1) := by
      funext c; refine Fin.ext ?_
      match c with
      | ⟨0, _⟩ => rfl
      | ⟨1, _⟩ => rfl
      | ⟨2, _⟩ => rfl
      | ⟨3, _⟩ => rfl
      | ⟨4, _⟩ => rfl
    rw [hsi]
    rfl
  | ⟨2, _⟩ =>
    show gd.start (ix4 b k i j) idx 2 + gd.batchCoord (ix4 b k i j) 2 + gd.offCoord (ix4 b k i j) 2 = i.val
    have hs : gd.start (ix4 b k i j) idx 2 = 0 := rfl
    have hb : gd.batchCoord (ix4 b k i j) 2 = i.val := rfl
    have ho : gd.offCoord (ix4 b k i j) 2 = 0 := rfl
    rw [hs, hb, ho]; omega
  | ⟨3, _⟩ =>
    show gd.start (ix4 b k i j) idx 3 + gd.batchCoord (ix4 b k i j) 3 + gd.offCoord (ix4 b k i j) 3 = j.val
    have hs : gd.start (ix4 b k i j) idx 3 = 0 := rfl
    have hb : gd.batchCoord (ix4 b k i j) 3 = j.val := rfl
    have ho : gd.offCoord (ix4 b k i j) 3 = 0 := rfl
    rw [hs, hb, ho]; omega

/-! ### Words -/

/-- A word that is at most 1023 read unsigned is the same number read signed. -/
theorem toInt_of_le {x : BitVec 32} (hx : x.toNat ≤ 1023) : x.toInt = (x.toNat : Int) := by
  rw [BitVec.toInt_eq_toNat_cond, if_pos (by omega)]

/-- Index normalisation (a negative index counts from the end) leaves a non-negative index as it is. -/
theorem select_neg_self {x : BitVec 32} (hx : x.toNat ≤ 1023) (y : BitVec 32) :
    Scalar.select (IntOp.cmpi .slt x 0#32) y x = x := by
  unfold Scalar.select
  rw [if_neg]
  intro h
  have h1 := IntOp.cmpi_slt.mp h
  rw [toInt_of_le hx] at h1
  have h0 : (0#32 : BitVec 32).toInt = 0 := by decide
  omega

/-- An index between 0 and 1023 passes the range test. -/
theorem inRange_one {x : BitVec 32} (hx : x.toNat ≤ 1023) :
    IntOp.andi (IntOp.cmpi .sge x 0#32) (IntOp.cmpi .sle x 1023#32) = 1#1 := by
  have h0 : (0#32 : BitVec 32).toInt = 0 := by decide
  have h1 : (1023#32 : BitVec 32).toInt = 1023 := by decide
  refine IntOp.andi_eq_one.mpr ⟨IntOp.cmpi_sge.mpr ?_, IntOp.cmpi_sle.mpr ?_⟩
  · rw [toInt_of_le hx, h0]; omega
  · rw [toInt_of_le hx, h1]; omega

/-- A conjunction of ones, taken from one, is one. -/
theorem foldl_andi_ones {ι : Type} (f : ι → BitVec 1) (hf : ∀ n, f n = 1#1) :
    ∀ (l : List ι) (init : BitVec 1), l.foldl (fun r n => IntOp.andi r (f n)) init = init
  | [], _ => rfl
  | a :: l, init => by
    rw [List.foldl_cons, hf a, foldl_andi_ones f hf l]
    revert init; decide

/-! ### The index array, normalised -/

variable (x0 : (⟨S8x1024x64x64, .f32⟩ : BufTy).Contents (Elt Ideal)) (x1 x2 : (⟨S8x1024x64, .f32⟩ : BufTy).Contents (Elt Ideal))
  (x3 : (⟨S8x16, .i32⟩ : BufTy).Contents (Elt Ideal))

/-- The normalised broadcast index array holds the index array's own entries. -/
theorem norm4 (hidx : ∀ p, (x3 p).toNat ≤ 1023) (r : S8x16x64x64.Idx) :
    val_main_call0_v4 (F := Ideal) x3 r = x3 (idx_main_v3 (idx_main_v4 r)) := by
  rw [val_main_call0_v4_apply, val_main_call0_v1_apply, val_main_v4_apply, val_main_v3_apply]
  exact select_neg_self (hidx _) _

theorem norm5 (hidx : ∀ p, (x3 p).toNat ≤ 1023) (q : S8x16x64x64x1.Idx) :
    val_main_call0_v5 (F := Ideal) x3 q = x3 (idx_main_v3 (idx_main_v4 (idx_main_call0_v5 q))) := by
  rw [val_main_call0_v5_apply, norm4 x3 hidx]

/-- Every index passes the range test, so the mask is all ones. -/
theorem mask_one (hidx : ∀ p, (x3 p).toNat ≤ 1023) (r : S8x16x64x64.Idx) : val_main_call0_v12 (F := Ideal) x3 r = 1#1 := by
  unfold val_main_call0_v12
  rw [Host.reduce_eq_foldl]
  have hf : ∀ q, val_main_call0_v11 (F := Ideal) x3 q = 1#1 := fun q => by
    rw [val_main_call0_v11_apply, val_main_call0_v7_apply, val_main_call0_v10_apply, val_main_call0_v6_apply,
      val_main_call0_c_2_apply, val_main_call0_v9_apply, val_main_call0_v8_apply, val_main_call0_c_1_apply,
      norm5 x3 hidx]
    exact inRange_one (hidx _)
  rw [foldl_andi_ones _ hf]
  rfl

/-! ### The stages at explicit coordinates -/

theorem idx34 (b : Fin 8) (k : Fin 16) (i j : Fin 64) : idx_main_v3 (idx_main_v4 (ix4 b k i j)) = ix2 b k :=
  funext fun a => Fin.ext (by
    match a with
    | ⟨0, _⟩ => rfl
    | ⟨1, _⟩ => rfl)

theorem idx5 (b : Fin 8) (k : Fin 16) (i j : Fin 64) : idx_main_call0_v5 (ix5 b k i j (0 : Fin 1)) = ix4 b k i j :=
  funext fun a => Fin.ext (by
    have hb := b.isLt; have hk := k.isLt; have hi := i.isLt; have hj := j.isLt
    match a with
    | ⟨0, _⟩ => show ((((b.val * 16 + k.val) * 64 + i.val) * 64 + j.val) * 1 + 0) / 65536 = b.val; omega
    | ⟨1, _⟩ => show ((((b.val * 16 + k.val) * 64 + i.val) * 64 + j.val) * 1 + 0) / 4096 % 16 = k.val; omega
    | ⟨2, _⟩ => show ((((b.val * 16 + k.val) * 64 + i.val) * 64 + j.val) * 1 + 0) / 64 % 64 = i.val; omega
    | ⟨3, _⟩ => show ((((b.val * 16 + k.val) * 64 + i.val) * 64 + j.val) * 1 + 0) % 64 = j.val; omega)

/-- The reshaped, normalised index array at (b, k, i, j, 0) is idx[b, k]. -/
theorem norm5_at (hidx : ∀ p, (x3 p).toNat ≤ 1023) (b : Fin 8) (k : Fin 16) (i j : Fin 64) :
    val_main_call0_v5 (F := Ideal) x3 (ix5 b k i j (0 : Fin 1)) = x3 (ix2 b k) := by
  rw [norm5 x3 hidx, idx5, idx34]

/-- The slot number idx[b, k] as a slot of the memory. -/
def slot (hidx : ∀ p, (x3 p).toNat ≤ 1023) (b : Fin 8) (k : Fin 16) : Fin 1024 := ⟨(x3 (ix2 b k)).toNat, Nat.lt_succ_of_le (hidx _)⟩

/-- The product of key and value vectors, entry (b, n, i, j): one contracted axis of extent one. -/
theorem kv_at (b : Fin 8) (n : Fin 1024) (i j : Fin 64) :
    val_main_v2 (F := Ideal) x1 x2 (ix4 b n i j) = x1 (ix3 b n i) * x2 (ix3 b n j) := by
  have el : idx_main_v0 (lidx_main_v2 (ix4 b n i j) 0) = ix3 b n i := funext fun a => Fin.ext (by
    match a with
    | ⟨0, _⟩ => rfl
    | ⟨1, _⟩ => rfl
    | ⟨2, _⟩ => rfl)
  have er : idx_main_v1 (ridx_main_v2 (ix4 b n i j) 0) = ix3 b n j := funext fun a => Fin.ext (by
    match a with
    | ⟨0, _⟩ => rfl
    | ⟨1, _⟩ => rfl
    | ⟨2, _⟩ => rfl)
  rw [val_main_v2_apply, Fin.sum_univ_one, val_main_v0_apply, val_main_v1_apply, el, er]

/-- The gathered products: entry (b, k, i, j) is the product at slot idx[b, k]. -/
theorem gathered_at (hidx : ∀ p, (x3 p).toNat ≤ 1023) (b : Fin 8) (k : Fin 16) (i j : Fin 64) :
    val_main_call0_v13 (F := Ideal) x1 x2 x3 (ix4 b k i j)
      = x1 (ix3 b (slot x3 hidx b k) i) * x2 (ix3 b (slot x3 hidx b k) j) := by
  unfold val_main_call0_v13
  rw [gd_apply]
  have e : (⟨min (val_main_call0_v5 (F := Ideal) x3 (ix5 b k i j (0 : Fin 1))).toInt.toNat 1023, by omega⟩ : Fin 1024)
      = slot x3 hidx b k := Fin.ext (by
    show min (val_main_call0_v5 (F := Ideal) x3 (ix5 b k i j (0 : Fin 1))).toInt.toNat 1023 = (x3 (ix2 b k)).toNat
    rw [norm5_at x3 hidx, toInt_of_le (hidx _)]
    have := hidx (ix2 b k)
    omega)
  rw [e, kv_at]

/-- The updates: with the mask all ones they are the gathered products. -/
theorem upd_at (hidx : ∀ p, (x3 p).toNat ≤ 1023) (b : Fin 8) (k : Fin 16) (i j : Fin 64) :
    val_main_v5 (F := Ideal) x1 x2 x3 (ix4 b k i j)
      = x1 (ix3 b (slot x3 hidx b k) i) * x2 (ix3 b (slot x3 hidx b k) j) := by
  rw [val_main_v5_apply, mask_one x3 hidx, select_one, gathered_at x1 x2 x3 hidx]

/-! ### The index pairs -/

/-- Component 0 of index pair (b, k) is the batch entry b. -/
theorem pair0 (b : Fin 8) (k : Fin 16) :
    val_main_v21 (F := Ideal) x3 (ix3 b k (0 : Fin 2)) = BitVec.ofNat 32 b.val := by
  unfold val_main_v21
  refine (concatenate_pair_apply_left (2 : Fin S8x16x2.rank) (val_main_v19 (F := Ideal)) (val_main_v20 (F := Ideal) x3)
    concatenates_S8x16x1_S8x16x1_S8x16x2_d2 (ix3 b k (0 : Fin 2)) rfl (ix3 b k (0 : Fin 1))
    (fun a => match a with
      | ⟨0, _⟩ => rfl
      | ⟨1, _⟩ => rfl
      | ⟨2, _⟩ => rfl)).trans ?_
  rw [val_main_v19_apply, val_main_v18_apply, val_main_v12_apply, val_main_v9_apply, val_main_v8_apply, val_main_c_apply,
    val_main_v7_apply, val_main_v6_apply]
  have hb : (BitVec.ofNat 32 b.val).toNat ≤ 1023 := by
    rw [BitVec.toNat_ofNat]; have := b.isLt; omega
  exact select_neg_self hb _

/-- Component 1 of index pair (b, k) is the slot number idx[b, k]. -/
theorem pair1 (hidx : ∀ p, (x3 p).toNat ≤ 1023) (b : Fin 8) (k : Fin 16) :
    val_main_v21 (F := Ideal) x3 (ix3 b k (1 : Fin 2)) = x3 (ix2 b k) := by
  unfold val_main_v21
  refine (concatenate_pair_apply_right (2 : Fin S8x16x2.rank) (val_main_v19 (F := Ideal)) (val_main_v20 (F := Ideal) x3)
    concatenates_S8x16x1_S8x16x1_S8x16x2_d2 (ix3 b k (1 : Fin 2)) rfl rfl (ix3 b k (0 : Fin 1))
    (fun a ha => match a, ha with
      | ⟨0, _⟩, _ => rfl
      | ⟨1, _⟩, _ => rfl
      | ⟨2, _⟩, ha => (ha rfl).elim) rfl).trans ?_
  have e : idx_main_v20 (ix3 b k (0 : Fin 1)) = ix2 b k := funext fun a => Fin.ext (by
    match a with
    | ⟨0, _⟩ => rfl
    | ⟨1, _⟩ => rfl)
  rw [val_main_v20_apply, val_main_v17_apply, val_main_v14_apply, val_main_v13_apply, val_main_c_1_apply, e]
  exact select_neg_self (hidx _) _

/-- Under the program's index pairs, update position (b, k, i, j) lands at slot idx[b, k] of batch entry b, at matrix
    coordinates (i, j). -/
theorem lands (hidx : ∀ p, (x3 p).toNat ≤ 1023) (b : Fin 8) (k : Fin 16) (i j : Fin 64) :
    sd.resultIdx? (ix4 b k i j) (val_main_v21 (F := Ideal) x3) = some (ix4 b (slot x3 hidx b k) i j) := by
  have hb : (BitVec.ofNat 32 b.val).toNat = b.val := by
    rw [BitVec.toNat_ofNat]; have := b.isLt; omega
  refine sd_result _ b k i j b (slot x3 hidx b k) ?_ ?_
  · rw [pair0, toInt_of_le (by rw [hb]; have := b.isLt; omega), hb]
  · rw [pair1 x3 hidx, toInt_of_le (hidx _)]; rfl

/-! ### The result -/

/-- Entry (b, n, i, j) of the scatter-add: the memory's entry plus, for each position k whose slot number is n, the product
    of slot n's key and value entries. -/
theorem value_at (hidx : ∀ p, (x3 p).toNat ≤ 1023) (b : Fin 8) (n : Fin 1024) (i j : Fin 64) :
    val_main_v22 (F := Ideal) x0 x1 x2 x3 (ix4 b n i j) = Cert.Spec.refAt x0 x1 x2 x3 b n i j := by
  unfold val_main_v22 Cert.Spec.refAt
  simp only [Host.scatterAdd, Ideal.hostScatterAdd_def]
  unfold Ideal.hostScatterAdd
  congr 1
  rw [← Finset.sum_filter]
  symm
  refine Finset.sum_bij (fun k _ => ix4 b k i j) ?_ ?_ ?_ ?_
  · intro k hk
    have hq : (x3 (ix2 b k)).toNat = n.val := (Finset.mem_filter.mp hk).2
    have hs : slot x3 hidx b k = n := Fin.ext hq
    refine Finset.mem_filter.mpr ⟨Finset.mem_univ _, ?_⟩
    show sd.resultIdx? (ix4 b k i j) (val_main_v21 (F := Ideal) x3) = some (ix4 b n i j)
    rw [lands x3 hidx, hs]
  · intro k1 _ k2 _ h
    exact Fin.ext (congrArg (fun f : S8x16x64x64.Idx => (f 1).val) h)
  · intro p hp
    have hp2 : sd.resultIdx? p (val_main_v21 (F := Ideal) x3) = some (ix4 b n i j) := (Finset.mem_filter.mp hp).2
    obtain ⟨b', k', i', j', rfl⟩ : ∃ (b' : Fin 8) (k' : Fin 16) (i' j' : Fin 64), p = ix4 b' k' i' j' :=
      ⟨p 0, p 1, p 2, p 3, eq_ix4 p⟩
    rw [lands x3 hidx] at hp2
    have h4 := Option.some.inj hp2
    have hb : b' = b := Fin.ext (congrArg (fun f : S8x1024x64x64.Idx => (f 0).val) h4)
    have hn : (slot x3 hidx b' k').val = n.val := congrArg (fun f : S8x1024x64x64.Idx => (f 1).val) h4
    have hi : i' = i := Fin.ext (congrArg (fun f : S8x1024x64x64.Idx => (f 2).val) h4)
    have hj : j' = j := Fin.ext (congrArg (fun f : S8x1024x64x64.Idx => (f 3).val) h4)
    subst hb hi hj
    exact ⟨k', Finset.mem_filter.mpr ⟨Finset.mem_univ _, hn⟩, rfl⟩
  · intro k hk
    have hq : (x3 (ix2 b k)).toNat = n.val := (Finset.mem_filter.mp hk).2
    have hs : slot x3 hidx b k = n := Fin.ext hq
    rw [upd_at x1 x2 x3 hidx, hs]

/-- The reference's result is the array code's result, index by index. -/
theorem value_eq (hidx : ∀ p, (x3 p).toNat ≤ 1023) :
    val_main_v22 (F := Ideal) x0 x1 x2 x3 = Cert.Spec.refOut x0 x1 x2 x3 := by
  funext p
  obtain ⟨b, n, i, j, rfl⟩ : ∃ (b : Fin 8) (n : Fin 1024) (i j : Fin 64), p = ix4 b n i j :=
    ⟨p 0, p 1, p 2, p 3, eq_ix4 p⟩
  exact value_at x0 x1 x2 x3 hidx b n i j

/-! ### The run -/

/-- The composed term of the program's result is the array code's result of the arguments, when every slot number is
    between 0 and 1023. -/
theorem res_eq (m : (ℓ : Loc Cert.ReferenceIdeal.nD Cert.ReferenceIdeal.τ Cert.ReferenceIdeal.sig) → Buf (Elt Ideal) ℓ) (c : Dev Cert.ReferenceIdeal.nD)
    (hidx : ∀ p, (m ((c.tc : Thread Cert.ReferenceIdeal.nD Cert.ReferenceIdeal.τ).loc Cert.ReferenceIdeal.main_arg3) p).toNat ≤ 1023) :
    Cert.ReferenceIdeal.ValueP.res_main_v22 (F := Ideal) m c
      = Cert.Spec.refOut (m ((c.tc : Thread _ _).loc Cert.ReferenceIdeal.main_arg0)) (m ((c.tc : Thread _ _).loc Cert.ReferenceIdeal.main_arg1))
          (m ((c.tc : Thread _ _).loc Cert.ReferenceIdeal.main_arg2)) (m ((c.tc : Thread _ _).loc Cert.ReferenceIdeal.main_arg3)) :=
  (val_main_v22_eq (F := Ideal) m c).trans (value_eq _ _ _ _ hidx)

/-- Every weakly fair execution of the program terminates, faulting nowhere, with the arguments unchanged: the run with the
    result dropped. -/
theorem frame_ri [hReferenceIdeal : Cert.ReferenceIdeal.Facts] [hPre_input_domain : Cert.Pre_input_domain.Facts] :
    Cert.frame_ReferenceIdeal :=
  fun m ρ _ => (θ_run Cert.ReferenceIdeal.defs _ _).mono (fun _ h c => (h c).2)
    (Cert.ReferenceIdeal.ValueP.run (F := Ideal) m ρ)

end Cert.ReferenceIdeal.RefValue

end
-- ==== Proof.Algebra.lean ====
/-
  The kernel's route and the array code's statement give the same array.

  At entry (b, n, i, j) the kernel's row is x = b·4096 + i·64 + j; its worker x / 1024 serves batch entry b, and
  (x / 64) % 64 = i, x % 64 = j. Lane k of that worker fetches table row b·1024 + idx[b, k] (below 8192: nothing wraps),
  that is the key vector and the value vector of slot idx[b, k]. A left fold of conditional adds is the start value plus
  the sum of the landing lanes' contributions. Lane k lands in column n exactly when k is the first position holding
  its slot number and that number is n; among the sixteen positions at most one does, and its weight is the number of
  positions holding n. Over the reals (a · c) · v = c • (a · v), so that one lane's contribution is the sum of
  a · v over the positions holding n, which is what the array code adds.
-/
import proofs.«210205_g8383776161859_cont_9to1_m_1272_27_alg».proof.Proof.Spec
import Idealize.ShloMosaic.PureOps.Ideal.Laws

noncomputable section

namespace Cert.Spec

open Idealize.ShloMosaic Idealize.ShloMosaic.ValueIdx

/-! ## A fold of conditional adds is a sum -/

/-- Folding "add f k onto the accumulator when P k" over a list is the start value plus the sum of the selected terms. -/
theorem foldl_cond_add {A ι : Type*} [AddCommMonoid A] (P : ι → Prop) [DecidablePred P] (f : ι → A) (l : List ι) (a : A) :
    l.foldl (fun g k => if P k then g + f k else g) a = a + (l.map fun k => if P k then f k else 0).sum := by
  induction l generalizing a with
  | nil => simp
  | cons k l ih =>
    rw [List.foldl_cons, ih, List.map_cons, List.sum_cons]
    by_cases h : P k
    · simp only [h, if_true, add_assoc]
    · simp only [h, if_false, zero_add]

/-- The same over the sixteen lanes in ascending order. -/
theorem foldl_lanes_cond_add {A : Type*} [AddCommMonoid A] (P : Fin 16 → Prop) [DecidablePred P] (f : Fin 16 → A) (a : A) :
    (List.finRange 16).foldl (fun g k => if P k then g + f k else g) a = a + ∑ k : Fin 16, if P k then f k else 0 := by
  rw [foldl_cond_add, Fin.sum_univ_def]

/-! ## First occurrences among sixteen positions -/

/-- Among sixteen positions, summing "count of my value" • y over the FIRST positions whose value is c gives y once per
    position whose value is c: at most one first position holds c, and its count is the number of positions holding c. -/
theorem sum_first_occurrence {α A : Type*} [DecidableEq α] [AddCommMonoid A] (f : Fin 16 → α) (c : α) (y : A) :
    (∑ k : Fin 16, if (∀ l : Fin 16, l < k → f l ≠ f k) ∧ f k = c
        then (Finset.univ.filter fun l : Fin 16 => f l = f k).card • y else 0)
      = ∑ k : Fin 16, if f k = c then y else 0 := by
  rw [← Finset.sum_filter (s := Finset.univ) (p := fun k => f k = c), Finset.sum_const]
  by_cases hS : (Finset.univ.filter fun k : Fin 16 => f k = c).Nonempty
  · have hmem : f ((Finset.univ.filter fun k : Fin 16 => f k = c).min' hS) = c := by
      have := Finset.min'_mem _ hS
      simpa using this
    have hmin : ∀ l : Fin 16, f l = c → (Finset.univ.filter fun k : Fin 16 => f k = c).min' hS ≤ l :=
      fun l hl => Finset.min'_le _ l (by simp [hl])
    generalize (Finset.univ.filter fun k : Fin 16 => f k = c).min' hS = k0 at hmem hmin
    rw [Finset.sum_eq_single k0]
    · rw [if_pos ⟨fun l hl h => absurd (hmin l (h.trans hmem)) (not_le.mpr hl), hmem⟩, hmem]
    · intro k _ hk
      rw [if_neg]
      rintro ⟨hf, hc⟩
      exact hf k0 (lt_of_le_of_ne (hmin k hc) (Ne.symm hk)) (hmem.trans hc.symm)
    · intro h; exact absurd (Finset.mem_univ _) h
  · rw [Finset.not_nonempty_iff_eq_empty] at hS
    rw [hS, Finset.card_empty, zero_smul]
    apply Finset.sum_eq_zero
    intro k _
    rw [if_neg]
    rintro ⟨_, hc⟩
    have : k ∈ (Finset.univ.filter fun k : Fin 16 => f k = c) := by simp [hc]
    rw [hS] at this; exact absurd this (Finset.notMem_empty _)

/-! ## The real-number identity -/

/-- Over the reals, weighting the key entry by a count and multiplying by the value entry is the count-fold multiple
    of the product. -/
theorem weight_mul (ra rv : ℝ) (m : ℕ) :
    ((ra : ℝ) : EReal) * (((m : ℝ)) : EReal) * ((rv : ℝ) : EReal) = m • (((ra : ℝ) : EReal) * ((rv : ℝ) : EReal)) := by
  rw [← EReal.coe_mul, ← EReal.coe_mul, ← EReal.coe_mul, ← EReal.coe_nsmul]
  congr 1
  rw [nsmul_eq_mul]; ring

/-! ## Index arithmetic of the row layout -/

/-- Row b·4096 + i·64 + j of the re-laid memory, column n, is M[b, n, i, j]. -/
theorem m2At_row (M : SM.Idx → EReal) (b : Fin 8) (n : Fin 1024) (i j : Fin 64) (x : Fin 32768)
    (hx : x.val = b.val * 4096 + i.val * 64 + j.val) :
    m2At (F := Ideal) M x n = M (ix4 b n i j) := by
  unfold m2At
  congr 1
  funext a
  match a with
  | ⟨0, _⟩ => exact Fin.ext (by show x.val / 4096 = b.val; omega)
  | ⟨1, _⟩ => rfl
  | ⟨2, _⟩ => exact Fin.ext (by show x.val / 64 % 64 = i.val; omega)
  | ⟨3, _⟩ => exact Fin.ext (by show x.val % 64 = j.val; omega)

/-- Table row b·1024 + t, a column below 64: the key vector of slot t. -/
theorem kvAt_key (Mk Mv : SK.Idx → EReal) (b : Fin 8) (t : Fin 1024) (i : Fin 64) (s : Fin 8192) (c : Fin 128)
    (hs : s.val = b.val * 1024 + t.val) (hc : c.val = i.val) :
    kvAt (F := Ideal) Mk Mv s c = Mk (ix3 b t i) := by
  unfold kvAt
  rw [dif_pos (by omega)]
  congr 1
  funext a
  match a with
  | ⟨0, _⟩ => exact Fin.ext (by show s.val / 1024 = b.val; omega)
  | ⟨1, _⟩ => exact Fin.ext (by show s.val % 1024 = t.val; omega)
  | ⟨2, _⟩ => exact Fin.ext (by show c.val = i.val; omega)

/-- Table row b·1024 + t, column 64 + j: the value vector of slot t. -/
theorem kvAt_val (Mk Mv : SK.Idx → EReal) (b : Fin 8) (t : Fin 1024) (j : Fin 64) (s : Fin 8192) (c : Fin 128)
    (hs : s.val = b.val * 1024 + t.val) (hc : c.val = 64 + j.val) :
    kvAt (F := Ideal) Mk Mv s c = Mv (ix3 b t j) := by
  unfold kvAt
  rw [dif_neg (by omega)]
  congr 1
  funext a
  match a with
  | ⟨0, _⟩ => exact Fin.ext (by show s.val / 1024 = b.val; omega)
  | ⟨1, _⟩ => exact Fin.ext (by show s.val % 1024 = t.val; omega)
  | ⟨2, _⟩ => exact Fin.ext (by show c.val - 64 = j.val; omega)

/-- The table row a lane fetches: b·1024 + idx[b, k]; the sum stays below 8192, so neither the 32-bit add nor the
    reduction into the table's rows changes it. -/
theorem gRow_val (idx : IVec SI 32) (hidx : ∀ p, (idx p).toNat ≤ 1023) (w : Fin 32) (k : Fin 16) :
    (gRow (gvecOf idx) w k).val = (batchOf w).val * 1024 + (idx (ix2 (batchOf w) k)).toNat := by
  show (BitVec.ofNat 32 ((batchOf w).val * 1024) + idx (ix2 (batchOf w) k)).toNat % 8192 = _
  have h1 := hidx (ix2 (batchOf w) k)
  have h2 := (batchOf w).isLt
  rw [BitVec.toNat_add, BitVec.toNat_ofNat]
  omega

/-! ## The weights -/

theorem cntAt_pos (idx : IVec SI 32) (b : Fin 8) (k : Fin 16) : 1 ≤ cntAt idx b k :=
  Finset.card_pos.mpr ⟨k, by simp⟩

theorem cntAt_le (idx : IVec SI 32) (b : Fin 8) (k : Fin 16) : cntAt idx b k ≤ 16 := by
  unfold cntAt
  exact (Finset.card_filter_le _ _).trans (by simp)

/-- The integer weight read signed: the count at a first occurrence, zero at a repeat. -/
theorem wrowAt_toInt (idx : IVec SI 32) (b : Fin 8) (k : Fin 16) :
    (wrowAt idx b k).toInt = if firstAt idx b k then (cntAt idx b k : ℤ) else 0 := by
  unfold wrowAt
  have hle := cntAt_le idx b k
  split
  · rw [BitVec.toInt_eq_toNat_cond, BitVec.toNat_ofNat]
    have : cntAt idx b k % 2 ^ 32 = cntAt idx b k := Nat.mod_eq_of_lt (by omega)
    rw [this]
    split <;> omega
  · rfl

/-- A lane lands in column n exactly when it is the first position holding its slot number and that number is n. -/
theorem laneOn_iff (idx : IVec SI 32) (w : Fin 32) (n : Fin 1024) (k : Fin 16) :
    laneOn (F := Ideal) (nvecOf idx) (wvecOf (F := Ideal) idx) w n k
      ↔ firstAt idx (batchOf w) k ∧ (idx (ix2 (batchOf w) k)).toNat = n.val := by
  unfold laneOn
  show (Ideal.cmp .ogt (((wrowAt idx (batchOf w) k).toInt : ℝ) : EReal) (Ideal.ofBits .f32 0x00000000#32) = 1#1
      ∧ (idx (ix2 (batchOf w) k)).toNat = n.val) ↔ _
  rw [Ideal.ofBits_zero_f32, wrowAt_toInt]
  refine and_congr_left' ?_
  unfold Ideal.cmp
  by_cases hf : firstAt idx (batchOf w) k
  · have hp := cntAt_pos idx (batchOf w) k
    have hpos : 0 < cntAt idx (batchOf w) k := hp
    simp [hf, hpos]
  · simp [hf]

/-! ## A landing lane's contribution -/

/-- A lane of worker w whose slot number is n contributes to row b·4096 + i·64 + j the product of the slot's key entry
    i, the weight, and the slot's value entry j. -/
theorem laneVal_eq (Mk Mv : SK.Idx → EReal) (idx : IVec SI 32) (hidx : ∀ p, (idx p).toNat ≤ 1023)
    (b : Fin 8) (n : Fin 1024) (i j : Fin 64) (w : Fin 32) (x : Fin 32768) (k : Fin 16)
    (hw : batchOf w = b) (hx : x.val = b.val * 4096 + i.val * 64 + j.val) (hn : (idx (ix2 b k)).toNat = n.val) :
    laneVal (F := Ideal) (kvOf Mk Mv) (wvecOf (F := Ideal) idx) (gvecOf idx) w x k
      = Mk (ix3 b n i) * (((wrowAt idx b k).toInt : ℝ) : EReal) * Mv (ix3 b n j) := by
  subst hw
  have hg := gRow_val idx hidx w k
  rw [hn] at hg
  unfold laneVal
  show kvAt (F := Ideal) Mk Mv (gRow (gvecOf idx) w k) _ * (((wrowAt idx (batchOf w) k).toInt : ℝ) : EReal)
      * kvAt (F := Ideal) Mk Mv (gRow (gvecOf idx) w k) _ = _
  rw [kvAt_key Mk Mv (batchOf w) n i _ _ hg (by show x.val / 64 % 64 = i.val; omega),
    kvAt_val Mk Mv (batchOf w) n j _ _ hg (by show 64 + x.val % 64 = 64 + j.val; omega)]

/-! ## The kernel's result at an entry -/

/-- Entry (b, n, i, j) of the kernel's result: M[b, n, i, j] plus, for each first position holding slot number n,
    key entry · count · value entry. -/
theorem kerOut_apply (M : SM.Idx → EReal) (Mk Mv : SK.Idx → EReal) (idx : IVec SI 32) (hidx : ∀ p, (idx p).toNat ≤ 1023)
    (b : Fin 8) (n : Fin 1024) (i j : Fin 64) :
    kerOut (F := Ideal) M Mk Mv idx (ix4 b n i j)
      = M (ix4 b n i j) + ∑ k : Fin 16, if firstAt idx b k ∧ (idx (ix2 b k)).toNat = n.val
          then Mk (ix3 b n i) * (((cntAt idx b k : ℕ) : ℝ) : EReal) * Mv (ix3 b n j) else 0 := by
  have hxlt : b.val * 4096 + i.val * 64 + j.val < 32768 := by omega
  have hwlt : (b.val * 4096 + i.val * 64 + j.val) / 1024 < 32 := by omega
  have hw : batchOf ⟨(b.val * 4096 + i.val * 64 + j.val) / 1024, hwlt⟩ = b :=
    Fin.ext (by show (b.val * 4096 + i.val * 64 + j.val) / 1024 / 4 = b.val; omega)
  show rowAt (F := Ideal) (m2Of M) (kvOf Mk Mv) (nvecOf idx) (wvecOf (F := Ideal) idx) (gvecOf idx)
      ⟨b.val * 4096 + i.val * 64 + j.val, hxlt⟩ n = _
  unfold rowAt
  classical
  refine (foldl_lanes_cond_add _ _ _).trans ?_
  congr 1
  · exact m2At_row M b n i j _ rfl
  · refine Finset.sum_congr rfl fun k _ => ?_
    by_cases h : firstAt idx b k ∧ (idx (ix2 b k)).toNat = n.val
    · rw [if_pos h, if_pos ((laneOn_iff idx _ n k).mpr (by rw [hw]; exact h)),
        laneVal_eq Mk Mv idx hidx b n i j _ _ k hw rfl h.2, wrowAt_toInt, if_pos h.1]
      norm_cast
    · rw [if_neg h, if_neg (fun hl => h (by have := (laneOn_iff idx _ n k).mp hl; rwa [hw] at this))]

/-! ## The two results agree -/

/-- A slot number read as a natural is n exactly when the word is n's word. -/
theorem slot_eq_iff (v : BitVec 32) (n : Fin 1024) : v.toNat = n.val ↔ v = BitVec.ofNat 32 n.val := by
  constructor
  · intro h
    apply BitVec.eq_of_toNat_eq
    rw [BitVec.toNat_ofNat, h]
    have := n.isLt
    omega
  · intro h
    rw [h, BitVec.toNat_ofNat]
    have := n.isLt
    omega

theorem kerOut_eq_refOut (M : SM.Idx → EReal) (Mk Mv : SK.Idx → EReal) (idx : IVec SI 32)
    (hM : ∀ p, ∃ r : ℝ, M p = (r : EReal)) (hMk : ∀ p, ∃ r : ℝ, Mk p = (r : EReal)) (hMv : ∀ p, ∃ r : ℝ, Mv p = (r : EReal))
    (hidx : ∀ p, (idx p).toNat ≤ 1023) :
    kerOut (F := Ideal) M Mk Mv idx = refOut M Mk Mv idx := by
  funext p
  obtain ⟨b, n, i, j, rfl⟩ : ∃ (b : Fin 8) (n : Fin 1024) (i j : Fin 64), p = ix4 b n i j := ⟨p 0, p 1, p 2, p 3, eq_ix4 p⟩
  rw [kerOut_apply M Mk Mv idx hidx b n i j]
  show _ = refAt M Mk Mv idx b n i j
  unfold refAt
  congr 1
  obtain ⟨ra, ha⟩ := hMk (ix3 b n i)
  obtain ⟨rv, hv⟩ := hMv (ix3 b n j)
  rw [ha, hv]
  trans ∑ k : Fin 16, if idx (ix2 b k) = BitVec.ofNat 32 n.val then (ra : EReal) * (rv : EReal) else 0
  · rw [← sum_first_occurrence (fun k : Fin 16 => idx (ix2 b k)) (BitVec.ofNat 32 n.val) ((ra : EReal) * (rv : EReal))]
    refine Finset.sum_congr rfl fun k _ => ?_
    rw [weight_mul]
    exact if_congr (and_congr Iff.rfl (slot_eq_iff _ n)) rfl rfl
  · exact Finset.sum_congr rfl fun k _ => if_congr (slot_eq_iff _ n).symm rfl rfl

end Cert.Spec

end
-- ==== Proof.PreDecode.lean ====
/-
  From the precondition to the facts the proof uses.

  The precondition is the conjunction of four "all entries satisfy" tests: |M| < +inf, |M_k| < +inf, |M_v| < +inf, and
  0 ≤ idx ≤ 1023 (both comparisons signed). Each test is a reduction by "and" from 1 that came out 1, so every entry
  passed. For a slot number, 0 ≤ v signed says its top bit is clear, so it reads the same signed and unsigned, and
  v ≤ 1023 signed is then v ≤ 1023 as a natural. For an extended real x, max x (-x) < +inf excludes both infinities
  (at either of them the maximum is +inf), so x is a real number.
-/
import proofs.«210205_g8383776161859_cont_9to1_m_1272_27_alg».proof.Pre_input_domain
import proofs.«210205_g8383776161859_cont_9to1_m_1272_27_alg».proof.Proof.Gen.Pre_input_domain
import Idealize.ShloMosaic.Lib.ReduceAll
import Idealize.ShloMosaic.Lib.IdealHost
import Idealize.ShloMosaic.PureOps.Ideal.Laws

noncomputable section

namespace Cert.Proof.Pre

open Idealize.ShloMosaic Idealize.ShloMosaic.ValueIdx Cert.Pre_input_domain

/-- The rank-0 shape has one index. -/
instance : Subsingleton S_.Idx := ⟨fun a b => funext fun d => d.elim0⟩

/-- A 32-bit word that is at least 0 and at most 1023, both read signed, is at most 1023 read unsigned. -/
theorem toNat_le_of_signed (v : BitVec 32) (h0 : (0#32 : BitVec 32).toInt ≤ v.toInt)
    (h1 : v.toInt ≤ (1023#32 : BitVec 32).toInt) : v.toNat ≤ 1023 := by
  have e0 : (0#32 : BitVec 32).toInt = 0 := by decide
  have e1 : (1023#32 : BitVec 32).toInt = 1023 := by decide
  rw [e0] at h0; rw [e1] at h1
  have hv := BitVec.toInt_eq_toNat_cond v
  have hlt := v.isLt
  split at hv <;> omega

/-- An extended real whose absolute value is below +inf is a real number. -/
theorem real_of_abs_lt_inf (x : EReal)
    (h : Ideal.cmp .olt (max x (-x)) (Ideal.ofBits .f32 0x7F800000#32) = 1#1) : ∃ r : ℝ, x = (r : EReal) := by
  have hinf : Ideal.ofBits .f32 0x7F800000#32 = ⊤ := by simp [Ideal.ofBits, Ideal.ieee]
  rw [hinf] at h
  induction x using EReal.rec with
  | bot => simp [Ideal.cmp] at h
  | coe r => exact ⟨r, rfl⟩
  | top => simp [Ideal.cmp] at h

/-- Under the precondition every slot number is at most 1023 (at any float instance: the integer test does not
    depend on it). -/
theorem idx_le {F : FTy → Type} [FloatOps F] [Cert.Pre_input_domain.Facts]
    (M : FVec F S8x1024x64x64 .f32) (Mk Mv : FVec F S8x1024x64 .f32) (idx : IVec S8x16 32)
    (h : Cert.Pre_input_domain.fn (F := F) M Mk Mv idx = (fun _ => 1#1)) : ∀ p, (idx p).toNat ≤ 1023 := by
  intro p
  have h0 := congrFun h ix0
  dsimp only [fn, fn_part1] at h0
  obtain ⟨-, h19⟩ := IntOp.andi_eq_one.1 h0
  have h18 := Host.reduce_andi_all _ _ _ _ _ h19 p
  obtain ⟨h15, h17⟩ := IntOp.andi_eq_one.1 h18
  have h15' := IntOp.cmpi_sge.1 h15
  have h17' := IntOp.cmpi_sle.1 h17
  rw [broadcastInDim_scalar_apply] at h15' h17'
  exact toNat_le_of_signed (idx p) h15' h17'

/-- Under the precondition every entry of the three float arrays is a real number. -/
theorem real_of_pre [Cert.Pre_input_domain.Facts]
    (M : FVec Ideal S8x1024x64x64 .f32) (Mk Mv : FVec Ideal S8x1024x64 .f32) (idx : IVec S8x16 32)
    (h : Cert.Pre_input_domain.fn (F := Ideal) M Mk Mv idx = (fun _ => 1#1)) :
    (∀ p, ∃ r : ℝ, M p = (r : EReal)) ∧ (∀ p, ∃ r : ℝ, Mk p = (r : EReal)) ∧ (∀ p, ∃ r : ℝ, Mv p = (r : EReal)) := by
  have h0 := congrFun h ix0
  dsimp only [fn, fn_part1] at h0
  obtain ⟨h13, -⟩ := IntOp.andi_eq_one.1 h0
  obtain ⟨h8, h12⟩ := IntOp.andi_eq_one.1 h13
  obtain ⟨h3, h7⟩ := IntOp.andi_eq_one.1 h8
  refine ⟨fun p => ?_, fun p => ?_, fun p => ?_⟩
  · have e := Host.reduce_andi_all _ _ _ _ _ h3 p
    rw [cmpf_apply, broadcastInDim_scalar_apply] at e
    exact real_of_abs_lt_inf (M p) e
  · have e := Host.reduce_andi_all _ _ _ _ _ h7 p
    rw [cmpf_apply, broadcastInDim_scalar_apply] at e
    exact real_of_abs_lt_inf (Mk p) e
  · have e := Host.reduce_andi_all _ _ _ _ _ h12 p
    rw [cmpf_apply, broadcastInDim_scalar_apply] at e
    exact real_of_abs_lt_inf (Mv p) e

end Cert.Proof.Pre

end
-- ==== Proof.Claims.lean ====
/-
  The five claims, assembled.

  The array code's program ends with the array code's result refOut of its arguments (the reference's run). The kernel's
  program ends with kerOut of its arguments (the launch theorem, from the worker's obligation and the host's layouts). Under
  the precondition the float entries are real numbers and every slot number lies between 0 and 1023, and then
  kerOut = refOut: a weighted product at the first occurrence of a slot number, the weight the number of occurrences, is
  the sum of one product per occurrence. The two programs' results therefore agree, entry by entry, as extended reals.
  The three frames are the runs with the result dropped. The idealized kernel is the kernel's own text read over the
  extended reals (no operation was rewritten), so there is nothing to preserve.

  Stated here under what is proved in their own modules: the host's weight layout and the worker's obligation at the
  extended reals, and the word-level program's run.
-/
import proofs.«210205_g8383776161859_cont_9to1_m_1272_27_alg».proof.Defs
import proofs.«210205_g8383776161859_cont_9to1_m_1272_27_alg».proof.Proof.Gen.Kernel
import proofs.«210205_g8383776161859_cont_9to1_m_1272_27_alg».proof.Proof.Gen.KernelIdeal
import proofs.«210205_g8383776161859_cont_9to1_m_1272_27_alg».proof.Proof.Gen.ReferenceIdeal
import proofs.«210205_g8383776161859_cont_9to1_m_1272_27_alg».proof.Proof.Gen.Pre_input_domain
import proofs.«210205_g8383776161859_cont_9to1_m_1272_27_alg».proof.Proof.LaunchKI5
import proofs.«210205_g8383776161859_cont_9to1_m_1272_27_alg».proof.Proof.RefValue
import proofs.«210205_g8383776161859_cont_9to1_m_1272_27_alg».proof.Proof.Algebra
import proofs.«210205_g8383776161859_cont_9to1_m_1272_27_alg».proof.Proof.PreDecode

noncomputable section

namespace Cert.Proof.Claims

open Idealize.ShloMosaic Idealize.ShloMosaic.TcCoe Idealize.SL.Sem

/-- The host's weight layout, at the extended reals: the weights array the host hands the call is Spec.wvecOf of the
    slot numbers. -/
abbrev HostWeights : Prop :=
  ∀ V : Valuation Cert.KernelIdeal.τ Cert.KernelIdeal.sig (Elt Ideal),
    StableHlo.after Cert.KernelIdeal.Host.preOps V Cert.KernelIdeal.Launch.v33'
      = Cert.Spec.wvecOf (F := Ideal) (V Cert.KernelIdeal.Launch.arg3')

/-- The word-level program's run: from arguments whose slot numbers are at most 1023, it ends with the kernel's
    function of the arguments in its result and the arguments unchanged. -/
abbrev RunBits : Prop :=
  ∀ (m : (ℓ : Loc Cert.Kernel.nD Cert.Kernel.τ Cert.Kernel.sig) → Buf (Elt Bits) ℓ) (ρ : Dev Cert.Kernel.nD → PrngReg),
    (∀ (c : Dev Cert.Kernel.nD) p, (m ((c.tc : Thread Cert.Kernel.nD Cert.Kernel.τ).loc Cert.Kernel.main_arg3) p).toNat ≤ 1023) →
    θ_run (Cert.Kernel.defs (F := Bits)) (Cert.Kernel.threads (F := Bits)) ⟨m, fun _ => 0, ρ⟩ (fun r => ∀ c : Dev Cert.Kernel.nD,
      r.2.mem ((c.tc : Thread Cert.Kernel.nD Cert.Kernel.τ).loc Cert.Kernel.main_v48)
          = Cert.Spec.kerOut (F := Bits) (m ((c.tc : Thread Cert.Kernel.nD Cert.Kernel.τ).loc Cert.Kernel.main_arg0))
              (m ((c.tc : Thread Cert.Kernel.nD Cert.Kernel.τ).loc Cert.Kernel.main_arg1))
              (m ((c.tc : Thread Cert.Kernel.nD Cert.Kernel.τ).loc Cert.Kernel.main_arg2))
              (m ((c.tc : Thread Cert.Kernel.nD Cert.Kernel.τ).loc Cert.Kernel.main_arg3))
      ∧ r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

/-- The word-level program runs, and its arguments end unchanged. -/
theorem frame_p (runK : RunBits) : Cert.frame_Kernel :=
  fun m g hpre => (θ_run (Cert.Kernel.defs (F := Bits)) _ _).mono (fun _ h c => (h c).2)
    (runK m g fun c => Cert.Proof.Pre.idx_le (F := Bits) _ _ _ _ (hpre c))

/-- The idealized kernel's program runs, and its arguments end unchanged. -/
theorem frame_pi (hv33I : HostWeights) (hbodyI : Cert.KernelIdeal.Tile.TileBody (F := Ideal)) : Cert.frame_KernelIdeal :=
  fun m g hpre => (θ_run (Cert.KernelIdeal.defs (F := Ideal)) _ _).mono (fun _ h c => (h c).2)
    (Cert.KernelIdeal.Launch.run_main33 (F := Ideal) hv33I hbodyI m g
      fun c => Cert.Proof.Pre.idx_le (F := Ideal) _ _ _ _ (hpre c))

/-- The array code's program runs, and its arguments end unchanged. -/
theorem frame_ri : Cert.frame_ReferenceIdeal := Cert.ReferenceIdeal.RefValue.frame_ri

/-- No operation was rewritten. -/
theorem preserves : Cert.preserves_Kernel_KernelIdeal := trivial

/-- Over the extended reals the two programs, run from memories agreeing on the arguments, end with the same result. -/
theorem algebraic (hv33I : HostWeights) (hbodyI : Cert.KernelIdeal.Tile.TileBody (F := Ideal)) :
    Cert.algebraic_KernelIdeal_ReferenceIdeal := by
  intro m ρ m' ρ' hpre hagree
  have hidx : ∀ (c : Dev Cert.KernelIdeal.nD) p,
      (m ((c.tc : Thread Cert.KernelIdeal.nD Cert.KernelIdeal.τ).loc Cert.KernelIdeal.main_arg3) p).toNat ≤ 1023 :=
    fun c => Cert.Proof.Pre.idx_le (F := Ideal) _ _ _ _ (hpre c)
  refine ⟨fun c => Cert.Spec.kerOut (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Launch.run_main33 (F := Ideal) hv33I hbodyI m ρ hidx, ?_⟩
  refine (θ_run (Cert.ReferenceIdeal.defs (F := Ideal)) _ _).mono (fun _ h c => ⟨(h c).1.trans ?_, (h c).2⟩)
    (Cert.ReferenceIdeal.ValueP.run (F := Ideal) m' ρ')
  have hidx' : ∀ p, (m' ((c.tc : Thread Cert.ReferenceIdeal.nD Cert.ReferenceIdeal.τ).loc Cert.ReferenceIdeal.main_arg3) p).toNat ≤ 1023 := by
    rw [(hagree c).2.2.2]; exact hidx c
  obtain ⟨hM, hMk, hMv⟩ := Cert.Proof.Pre.real_of_pre _ _ _ _ (hpre c)
  rw [Cert.ReferenceIdeal.RefValue.res_eq m' c hidx', (hagree c).1, (hagree c).2.1, (hagree c).2.2.1, (hagree c).2.2.2]
  exact (Cert.Spec.kerOut_eq_refOut _ _ _ _ hM hMk hMv (hidx c)).symm

/-- Everything the certificate claims, from the three facts proved in their own modules. -/
theorem claim_of (hv33I : HostWeights) (hbodyI : Cert.KernelIdeal.Tile.TileBody (F := Ideal)) (runK : RunBits) : Cert.Claim :=
  ⟨Cert.Kernel.Gen.facts, Cert.KernelIdeal.Gen.facts, Cert.ReferenceIdeal.Gen.facts, Cert.Pre_input_domain.Gen.facts,
    frame_p runK, frame_pi hv33I hbodyI, frame_ri, preserves, algebraic hv33I hbodyI⟩

end Cert.Proof.Claims

end
-- ==== Proof.LibIntCount.lean ====
/-
  Counting with 32-bit integers.

  A reduce by integer addition into a result that has one index is the initial value plus the sum of every entry
  of the operand, the sum taken in the ring of words. A sum of the words 1 and 0 chosen by a predicate is the
  number of indices at which the predicate holds, as a word. A word made from a number below 2^31 reads back,
  signed, as that number, and it is the zero word exactly when the number is zero.
-/
import Idealize.ShloMosaic.PureOps.Reduce
import Mathlib.Data.BitVec
import Mathlib.Algebra.BigOperators.Ring.Finset

namespace Cert.Lib.IntCount

open Idealize.ShloMosaic

/-- Folding word addition over a finite set from `b` is `b` plus the sum over the set. -/
theorem fold_addi_eq_sum {ι : Type*} {w : ℕ} (S : Finset ι) (x : ι → BitVec w) (b : BitVec w) :
    S.fold IntOp.addi b x = b + ∑ i ∈ S, x i := by
  induction S using Finset.cons_induction with
  | empty => simp
  | cons a S ha ih =>
    rw [Finset.fold_cons, Finset.sum_cons, ih]
    show x a + (b + _) = b + (x a + _)
    exact add_left_comm _ _ _

/-- A reduce by integer addition into a result with a single index: the initial value plus the sum of all
    entries of the operand. -/
theorem reduce_addi_total {s t u : Shape} {axes : List (Fin s.rank)} [Subsingleton t.Idx] {w : ℕ}
    (x : s.Idx → BitVec w) (init : u.Idx → BitVec w) (h : s.ReducesTo axes t) (hu : 0 < u.numel) (j : t.Idx) :
    Host.reduce IntOp.addi x init h hu j = init (Shape.Idx.first hu) + ∑ i, x i := by
  rw [Host.reduce_eq_fold, Finset.filter_true_of_mem (fun i _ => Subsingleton.elim _ _), fold_addi_eq_sum]

/-- The sum of the words 1 (where `p` holds) and 0 (where it does not) is the number of indices where `p` holds. -/
theorem sum_indicator {ι : Type*} [Fintype ι] (p : ι → Prop) [DecidablePred p] :
    ∑ i, (if p i then (1#32 : BitVec 32) else 0#32) = BitVec.ofNat 32 (Finset.univ.filter p).card := by
  have h := Finset.sum_boole (R := BitVec 32) p Finset.univ
  rw [BitVec.natCast_eq_ofNat] at h
  exact h

/-- A number below 2^31, made a word, reads back signed as itself. -/
theorem toInt_ofNat_small (n : ℕ) (h : n < 2147483648) : (BitVec.ofNat 32 n).toInt = (n : ℤ) := by
  rw [BitVec.toInt_eq_toNat_cond, BitVec.toNat_ofNat]
  have e : n % 2 ^ 32 = n := Nat.mod_eq_of_lt (by omega)
  rw [e]
  split <;> omega

/-- A number below 2^32, made a word, is the zero word exactly when it is zero. -/
theorem ofNat_eq_zero_iff (n : ℕ) (h : n < 4294967296) : BitVec.ofNat 32 n = 0#32 ↔ n = 0 := by
  constructor
  · intro e
    have e' := congrArg BitVec.toNat e
    rw [BitVec.toNat_ofNat, Nat.mod_eq_of_lt (by omega)] at e'
    simpa using e'
  · rintro rfl; rfl

end Cert.Lib.IntCount
-- ==== Proof.HostKI4.lean ====
/-
  The weights. Position `k` of batch entry `b` weighs how many of the sixteen positions hold its slot number if no
  earlier position holds it, and zero otherwise. The host computes the pairwise equality of slot numbers, keeps the
  pairs whose second position is earlier, ors them along the second position and negates (no earlier equal position),
  sums the equalities along the second position (the count), selects, and converts to a float.
-/
import proofs.«210205_g8383776161859_cont_9to1_m_1272_27_alg».proof.Proof.HostKI3
import proofs.«210205_g8383776161859_cont_9to1_m_1272_27_alg».proof.Proof.LibIntCount

noncomputable section

namespace Cert.KernelIdeal.Host

open Cert.KernelIdeal Cert.KernelIdeal.Gen Idealize.ShloMosaic Idealize.ShloMosaic.TcCoe Idealize.SL.Sem Idealize.ShloMosaic.StableHlo
open Idealize.ShloMosaic.ValueIdx Cert.Lib.IntCount

variable {F : FTy → Type} [FloatOps F]
/-! ## The operations' terms -/

/-- `eq[b, k, l]`: positions `k` and `l` of batch entry `b` hold the same slot number. -/
def eqMask (idx : IVec S8x16 32) : IVec S8x16x16 1 :=
  cmpi .eq
    (broadcastInDim S8x16x16 ![0, 1, 2] bcast_S8x16x1_S8x16x16_0_1_2 (broadcastInDim S8x16x1 ![0, 1] bcast_S8x16_S8x16x1_0_1 idx))
    (broadcastInDim S8x16x16 ![0, 1, 2] bcast_S8x1x16_S8x16x16_0_1_2 (broadcastInDim S8x1x16 ![0, 2] bcast_S8x16_S8x1x16_0_2 idx))

/-- `below[k, l]`: `l ≤ k − 1`, the strictly lower triangle. -/
def below : IVec S16x16 1 :=
  cmpi .sge (addi (iotaInDim S16x16 32 0) (broadcastInDim S16x16 ![] bcast_S_S16x16 (constantI S_ 32 4294967295#32)))
    (iotaInDim S16x16 32 1)

/-- The equalities with an earlier position. -/
def earlier (idx : IVec S8x16 32) : IVec S8x16x16 1 :=
  select (broadcastInDim S8x16x16 ![1, 2] bcast_S16x16_S8x16x16_1_2 below) (eqMask idx)
    (broadcastInDim S8x16x16 ![] bcast_S_S8x16x16 (constantI S_ 1 0#1))

/-- No earlier position holds the same slot number. -/
def firstBit (idx : IVec S8x16 32) : IVec S8x16 1 :=
  noti (Host.reduce IntOp.ori (earlier idx) (constantI S_ 1 0#1) reducesTo_S8x16x16_S8x16_d2 h_S_)

/-- How many positions hold the same slot number, as a word. -/
def cntWord (idx : IVec S8x16 32) : IVec S8x16 32 :=
  Host.reduce IntOp.addi (extui 32 (eqMask idx) natLt_1_32) (constantI S_ 32 0#32) reducesTo_S8x16x16_S8x16_d2 h_S_

/-- The integer weight. -/
def wrow (idx : IVec S8x16 32) : IVec S8x16 32 :=
  select (firstBit idx) (cntWord idx) (broadcastInDim S8x16 ![] bcast_S_S8x16 (constantI S_ 32 0#32))

/-! ## The operations over their buffers directly

A called function's operations are stated over typed references, which move contents along the reference's type
equation; over literal references that transport is the identity, and the list below states each operation without it.
The two lists are equal, and the values are read off the second. -/

/-- The operations before the call, each over its buffers directly. -/
def preOpsP : List (HloOp τ sig (Elt F)) :=
  [
    unary main_arg3 main_v0 (broadcastInDim S8x16x1 ![0, 1] bcast_S8x16_S8x16x1_0_1 : (⟨S8x16, .i32⟩ : BufTy).Contents (Elt F) → (⟨S8x16x1, .i32⟩ : BufTy).Contents (Elt F)),
    unary main_arg3 main_v1 (broadcastInDim S8x1x16 ![0, 2] bcast_S8x16_S8x1x16_0_2 : (⟨S8x16, .i32⟩ : BufTy).Contents (Elt F) → (⟨S8x1x16, .i32⟩ : BufTy).Contents (Elt F)),
    unary main_v0 main_v2 (broadcastInDim S8x16x16 ![0, 1, 2] bcast_S8x16x1_S8x16x16_0_1_2 : (⟨S8x16x1, .i32⟩ : BufTy).Contents (Elt F) → (⟨S8x16x16, .i32⟩ : BufTy).Contents (Elt F)),
    unary main_v1 main_v3 (broadcastInDim S8x16x16 ![0, 1, 2] bcast_S8x1x16_S8x16x16_0_1_2 : (⟨S8x1x16, .i32⟩ : BufTy).Contents (Elt F) → (⟨S8x16x16, .i32⟩ : BufTy).Contents (Elt F)),
    binary main_v2 main_v3 main_v4 (cmpi .eq : (⟨S8x16x16, .i32⟩ : BufTy).Contents (Elt F) → (⟨S8x16x16, .i32⟩ : BufTy).Contents (Elt F) → (⟨S8x16x16, .i1⟩ : BufTy).Contents (Elt F)),
    nullary main_call0_v0 ((iotaInDim S16x16 32 0) : (⟨S16x16, .i32⟩ : BufTy).Contents (Elt F)),
    nullary main_call0_c ((constantI S_ 32 4294967295#32) : (⟨S_, .i32⟩ : BufTy).Contents (Elt F)),
    unary main_call0_c main_call0_v1 ((broadcastInDim S16x16 ![] bcast_S_S16x16) : (⟨S_, .i32⟩ : BufTy).Contents (Elt F) → (⟨S16x16, .i32⟩ : BufTy).Contents (Elt F)),
    binary main_call0_v0 main_call0_v1 main_call0_v2 (addi : (⟨S16x16, .i32⟩ : BufTy).Contents (Elt F) → (⟨S16x16, .i32⟩ : BufTy).Contents (Elt F) → (⟨S16x16, .i32⟩ : BufTy).Contents (Elt F)),
    nullary main_call0_v3 ((iotaInDim S16x16 32 1) : (⟨S16x16, .i32⟩ : BufTy).Contents (Elt F)),
    binary main_call0_v2 main_call0_v3 main_call0_v4 ((cmpi .sge) : (⟨S16x16, .i32⟩ : BufTy).Contents (Elt F) → (⟨S16x16, .i32⟩ : BufTy).Contents (Elt F) → (⟨S16x16, .i1⟩ : BufTy).Contents (Elt F)),
    unary main_call0_v4 main_call0_v5 ((broadcastInDim S8x16x16 ![1, 2] bcast_S16x16_S8x16x16_1_2) : (⟨S16x16, .i1⟩ : BufTy).Contents (Elt F) → (⟨S8x16x16, .i1⟩ : BufTy).Contents (Elt F)),
    nullary main_call0_c_0 ((constantI S_ 1 0#1) : (⟨S_, .i1⟩ : BufTy).Contents (Elt F)),
    unary main_call0_c_0 main_call0_v6 ((broadcastInDim S8x16x16 ![] bcast_S_S8x16x16) : (⟨S_, .i1⟩ : BufTy).Contents (Elt F) → (⟨S8x16x16, .i1⟩ : BufTy).Contents (Elt F)),
    ternary main_call0_v5 main_v4 main_call0_v6 main_v5 (select : (⟨S8x16x16, .i1⟩ : BufTy).Contents (Elt F) → (⟨S8x16x16, .i1⟩ : BufTy).Contents (Elt F) → (⟨S8x16x16, .i1⟩ : BufTy).Contents (Elt F) → (⟨S8x16x16, .i1⟩ : BufTy).Contents (Elt F)),
    nullary main_c (constantI S_ 1 0#1),
    binary main_v5 main_c main_v6 ((fun x v => Host.reduce IntOp.ori x v reducesTo_S8x16x16_S8x16_d2 h_S_) : (⟨S8x16x16, .i1⟩ : BufTy).Contents (Elt F) → (⟨S_, .i1⟩ : BufTy).Contents (Elt F) → (⟨S8x16, .i1⟩ : BufTy).Contents (Elt F)),
    unary main_v6 main_v7 (noti : (⟨S8x16, .i1⟩ : BufTy).Contents (Elt F) → (⟨S8x16, .i1⟩ : BufTy).Contents (Elt F)),
    unary main_v4 main_v8 ((extui 32 · natLt_1_32) : (⟨S8x16x16, .i1⟩ : BufTy).Contents (Elt F) → (⟨S8x16x16, .i32⟩ : BufTy).Contents (Elt F)),
    nullary main_c_0 (constantI S_ 32 0#32),
    binary main_v8 main_c_0 main_v9 ((fun x v => Host.reduce IntOp.addi x v reducesTo_S8x16x16_S8x16_d2 h_S_) : (⟨S8x16x16, .i32⟩ : BufTy).Contents (Elt F) → (⟨S_, .i32⟩ : BufTy).Contents (Elt F) → (⟨S8x16, .i32⟩ : BufTy).Contents (Elt F)),
    nullary main_c_1 (constantI S_ 32 0#32),
    unary main_c_1 main_call1_v0 (id : (⟨S_, .i32⟩ : BufTy).Contents (Elt F) → (⟨S_, .i32⟩ : BufTy).Contents (Elt F)),
    unary main_call1_v0 main_call1_v1 ((broadcastInDim S8x16 ![] bcast_S_S8x16) : (⟨S_, .i32⟩ : BufTy).Contents (Elt F) → (⟨S8x16, .i32⟩ : BufTy).Contents (Elt F)),
    ternary main_v7 main_v9 main_call1_v1 main_v10 (select : (⟨S8x16, .i1⟩ : BufTy).Contents (Elt F) → (⟨S8x16, .i32⟩ : BufTy).Contents (Elt F) → (⟨S8x16, .i32⟩ : BufTy).Contents (Elt F) → (⟨S8x16, .i32⟩ : BufTy).Contents (Elt F)),
    unary main_v10 main_v11 (sitofp .f32 : (⟨S8x16, .i32⟩ : BufTy).Contents (Elt F) → (⟨S8x16, .f32⟩ : BufTy).Contents (Elt F)),
    nullary main_v12 (iotaInDim S8 32 0),
    unary main_v12 main_v13 (broadcastInDim S8x1 ![0] bcast_S8_S8x1_0 : (⟨S8, .i32⟩ : BufTy).Contents (Elt F) → (⟨S8x1, .i32⟩ : BufTy).Contents (Elt F)),
    nullary main_c_2 (constantI S_ 32 1024#32),
    unary main_c_2 main_v14 (broadcastInDim S8x1 ![] bcast_S_S8x1 : (⟨S_, .i32⟩ : BufTy).Contents (Elt F) → (⟨S8x1, .i32⟩ : BufTy).Contents (Elt F)),
    binary main_v13 main_v14 main_v15 (muli : (⟨S8x1, .i32⟩ : BufTy).Contents (Elt F) → (⟨S8x1, .i32⟩ : BufTy).Contents (Elt F) → (⟨S8x1, .i32⟩ : BufTy).Contents (Elt F)),
    unary main_v15 main_v16 (broadcastInDim S8x16 ![0, 1] bcast_S8x1_S8x16_0_1 : (⟨S8x1, .i32⟩ : BufTy).Contents (Elt F) → (⟨S8x16, .i32⟩ : BufTy).Contents (Elt F)),
    binary main_v16 main_arg3 main_v17 (addi : (⟨S8x16, .i32⟩ : BufTy).Contents (Elt F) → (⟨S8x16, .i32⟩ : BufTy).Contents (Elt F) → (⟨S8x16, .i32⟩ : BufTy).Contents (Elt F)),
    nullary main_v18 (iotaInDim S32 32 0),
    nullary main_c_3 (constantI S_ 32 4#32),
    unary main_c_3 main_call2_v0 (id : (⟨S_, .i32⟩ : BufTy).Contents (Elt F) → (⟨S_, .i32⟩ : BufTy).Contents (Elt F)),
    unary main_call2_v0 main_call2_v1 ((broadcastInDim S32 ![] bcast_S_S32) : (⟨S_, .i32⟩ : BufTy).Contents (Elt F) → (⟨S32, .i32⟩ : BufTy).Contents (Elt F)),
    binary main_v18 main_call2_v1 main_call2_v2 (Host.divsi : (⟨S32, .i32⟩ : BufTy).Contents (Elt F) → (⟨S32, .i32⟩ : BufTy).Contents (Elt F) → (⟨S32, .i32⟩ : BufTy).Contents (Elt F)),
    unary main_v18 main_call2_v3 (signi : (⟨S32, .i32⟩ : BufTy).Contents (Elt F) → (⟨S32, .i32⟩ : BufTy).Contents (Elt F)),
    unary main_call2_v0 main_call2_v4 (signi : (⟨S_, .i32⟩ : BufTy).Contents (Elt F) → (⟨S_, .i32⟩ : BufTy).Contents (Elt F)),
    unary main_call2_v4 main_call2_v5 ((broadcastInDim S32 ![] bcast_S_S32) : (⟨S_, .i32⟩ : BufTy).Contents (Elt F) → (⟨S32, .i32⟩ : BufTy).Contents (Elt F)),
    binary main_call2_v3 main_call2_v5 main_call2_v6 ((cmpi .ne) : (⟨S32, .i32⟩ : BufTy).Contents (Elt F) → (⟨S32, .i32⟩ : BufTy).Contents (Elt F) → (⟨S32, .i1⟩ : BufTy).Contents (Elt F)),
    unary main_call2_v0 main_call2_v7 ((broadcastInDim S32 ![] bcast_S_S32) : (⟨S_, .i32⟩ : BufTy).Contents (Elt F) → (⟨S32, .i32⟩ : BufTy).Contents (Elt F)),
    binary main_v18 main_call2_v7 main_call2_v8 (Host.remsi : (⟨S32, .i32⟩ : BufTy).Contents (Elt F) → (⟨S32, .i32⟩ : BufTy).Contents (Elt F) → (⟨S32, .i32⟩ : BufTy).Contents (Elt F)),
    nullary main_call2_c ((constantI S_ 32 0#32) : (⟨S_, .i32⟩ : BufTy).Contents (Elt F)),
    unary main_call2_c main_call2_v9 ((broadcastInDim S32 ![] bcast_S_S32) : (⟨S_, .i32⟩ : BufTy).Contents (Elt F) → (⟨S32, .i32⟩ : BufTy).Contents (Elt F)),
    binary main_call2_v8 main_call2_v9 main_call2_v10 ((cmpi .ne) : (⟨S32, .i32⟩ : BufTy).Contents (Elt F) → (⟨S32, .i32⟩ : BufTy).Contents (Elt F) → (⟨S32, .i1⟩ : BufTy).Contents (Elt F)),
    binary main_call2_v6 main_call2_v10 main_call2_v11 (andi : (⟨S32, .i1⟩ : BufTy).Contents (Elt F) → (⟨S32, .i1⟩ : BufTy).Contents (Elt F) → (⟨S32, .i1⟩ : BufTy).Contents (Elt F)),
    nullary main_call2_c_0 ((constantI S_ 32 1#32) : (⟨S_, .i32⟩ : BufTy).Contents (Elt F)),
    unary main_call2_c_0 main_call2_v12 ((broadcastInDim S32 ![] bcast_S_S32) : (⟨S_, .i32⟩ : BufTy).Contents (Elt F) → (⟨S32, .i32⟩ : BufTy).Contents (Elt F)),
    binary main_call2_v2 main_call2_v12 main_call2_v13 (subi : (⟨S32, .i32⟩ : BufTy).Contents (Elt F) → (⟨S32, .i32⟩ : BufTy).Contents (Elt F) → (⟨S32, .i32⟩ : BufTy).Contents (Elt F)),
    ternary main_call2_v11 main_call2_v13 main_call2_v2 main_v19 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    nullary main_c_4 (constantI S_ 32 0#32),
    unary main_c_4 main_v20 (broadcastInDim S32 ![] bcast_S_S32 : (⟨S_, .i32⟩ : BufTy).Contents (Elt F) → (⟨S32, .i32⟩ : BufTy).Contents (Elt F)),
    binary main_v19 main_v20 main_v21 (cmpi .slt : (⟨S32, .i32⟩ : BufTy).Contents (Elt F) → (⟨S32, .i32⟩ : BufTy).Contents (Elt F) → (⟨S32, .i1⟩ : BufTy).Contents (Elt F)),
    nullary main_c_5 (constantI S_ 32 8#32),
    unary main_c_5 main_v22 (broadcastInDim S32 ![] bcast_S_S32 : (⟨S_, .i32⟩ : BufTy).Contents (Elt F) → (⟨S32, .i32⟩ : BufTy).Contents (Elt F)),
    binary main_v19 main_v22 main_v23 (addi : (⟨S32, .i32⟩ : BufTy).Contents (Elt F) → (⟨S32, .i32⟩ : BufTy).Contents (Elt F) → (⟨S32, .i32⟩ : BufTy).Contents (Elt F)),
    ternary main_v21 main_v23 main_v19 main_v24 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    unary main_v24 main_v25 (broadcastInDim S32x1 ![0] bcast_S32_S32x1_0 : (⟨S32, .i32⟩ : BufTy).Contents (Elt F) → (⟨S32x1, .i32⟩ : BufTy).Contents (Elt F)),
    binary main_arg3 main_v25 main_v26 ((fun x i => Host.gather gather_S8x16_S32x1_S32x16_1_0_n_n_0_1_116 x i) : (⟨S8x16, .i32⟩ : BufTy).Contents (Elt F) → (⟨S32x1, .i32⟩ : BufTy).Contents (Elt F) → (⟨S32x16, .i32⟩ : BufTy).Contents (Elt F)),
    nullary main_c_6 (constantI S_ 32 0#32),
    unary main_c_6 main_v27 (broadcastInDim S32 ![] bcast_S_S32 : (⟨S_, .i32⟩ : BufTy).Contents (Elt F) → (⟨S32, .i32⟩ : BufTy).Contents (Elt F)),
    binary main_v19 main_v27 main_v28 (cmpi .slt : (⟨S32, .i32⟩ : BufTy).Contents (Elt F) → (⟨S32, .i32⟩ : BufTy).Contents (Elt F) → (⟨S32, .i1⟩ : BufTy).Contents (Elt F)),
    nullary main_c_7 (constantI S_ 32 8#32),
    unary main_c_7 main_v29 (broadcastInDim S32 ![] bcast_S_S32 : (⟨S_, .i32⟩ : BufTy).Contents (Elt F) → (⟨S32, .i32⟩ : BufTy).Contents (Elt F)),
    binary main_v19 main_v29 main_v30 (addi : (⟨S32, .i32⟩ : BufTy).Contents (Elt F) → (⟨S32, .i32⟩ : BufTy).Contents (Elt F) → (⟨S32, .i32⟩ : BufTy).Contents (Elt F)),
    ternary main_v28 main_v30 main_v19 main_v31 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    unary main_v31 main_v32 (broadcastInDim S32x1 ![0] bcast_S32_S32x1_0 : (⟨S32, .i32⟩ : BufTy).Contents (Elt F) → (⟨S32x1, .i32⟩ : BufTy).Contents (Elt F)),
    binary main_v11 main_v32 main_v33 ((fun x i => Host.gather gather_S8x16_S32x1_S32x16_1_0_n_n_0_1_116 x i) : (⟨S8x16, .f32⟩ : BufTy).Contents (Elt F) → (⟨S32x1, .i32⟩ : BufTy).Contents (Elt F) → (⟨S32x16, .f32⟩ : BufTy).Contents (Elt F)),
    nullary main_c_8 (constantI S_ 32 0#32),
    unary main_c_8 main_v34 (broadcastInDim S32 ![] bcast_S_S32 : (⟨S_, .i32⟩ : BufTy).Contents (Elt F) → (⟨S32, .i32⟩ : BufTy).Contents (Elt F)),
    binary main_v19 main_v34 main_v35 (cmpi .slt : (⟨S32, .i32⟩ : BufTy).Contents (Elt F) → (⟨S32, .i32⟩ : BufTy).Contents (Elt F) → (⟨S32, .i1⟩ : BufTy).Contents (Elt F)),
    nullary main_c_9 (constantI S_ 32 8#32),
    unary main_c_9 main_v36 (broadcastInDim S32 ![] bcast_S_S32 : (⟨S_, .i32⟩ : BufTy).Contents (Elt F) → (⟨S32, .i32⟩ : BufTy).Contents (Elt F)),
    binary main_v19 main_v36 main_v37 (addi : (⟨S32, .i32⟩ : BufTy).Contents (Elt F) → (⟨S32, .i32⟩ : BufTy).Contents (Elt F) → (⟨S32, .i32⟩ : BufTy).Contents (Elt F)),
    ternary main_v35 main_v37 main_v19 main_v38 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    unary main_v38 main_v39 (broadcastInDim S32x1 ![0] bcast_S32_S32x1_0 : (⟨S32, .i32⟩ : BufTy).Contents (Elt F) → (⟨S32x1, .i32⟩ : BufTy).Contents (Elt F)),
    binary main_v17 main_v39 main_v40 ((fun x i => Host.gather gather_S8x16_S32x1_S32x16_1_0_n_n_0_1_116 x i) : (⟨S8x16, .i32⟩ : BufTy).Contents (Elt F) → (⟨S32x1, .i32⟩ : BufTy).Contents (Elt F) → (⟨S32x16, .i32⟩ : BufTy).Contents (Elt F)),
    unary main_arg0 main_v41 ((transpose S8x64x64x1024 [0, 2, 3, 1] · transposes_S8x1024x64x64_S8x64x64x1024_0_2_3_1) : (⟨S8x1024x64x64, .f32⟩ : BufTy).Contents (Elt F) → (⟨S8x64x64x1024, .f32⟩ : BufTy).Contents (Elt F)),
    reshape main_v41 main_v42 rfl shapeCasts_S8x64x64x1024_S32768x1024,
    reshape main_arg1 main_v43 rfl shapeCasts_S8x1024x64_S8192x64,
    reshape main_arg2 main_v44 rfl shapeCasts_S8x1024x64_S8192x64,
    binary main_v43 main_v44 main_v45 ((fun a b => concatenate S8192x128 1 [⟨S8192x64, a⟩, ⟨S8192x64, b⟩] concatenates_S8192x64_S8192x64_S8192x128_d1) : (⟨S8192x64, .f32⟩ : BufTy).Contents (Elt F) → (⟨S8192x64, .f32⟩ : BufTy).Contents (Elt F) → (⟨S8192x128, .f32⟩ : BufTy).Contents (Elt F)) ]

set_option maxRecDepth 16384 in
theorem preOps_eq : (preOps : List (HloOp τ sig (Elt F))) = preOpsP := rfl

theorem pre_v33_termP (V : Valuation τ sig (Elt F)) :
    StableHlo.after preOpsP V (Proc.devRef .tc main_v33)
      = Host.gather GD (sitofp .f32 (wrow (V (Proc.devRef .tc main_arg3) : S8x16.Idx → BitVec 32)) : S8x16.Idx → Elt F .f32) rowOf := by
  unfold preOpsP wrow firstBit cntWord earlier eqMask below
  after_results_simp <;> rfl

theorem pre_v33_term (V : Valuation τ sig (Elt F)) :
    StableHlo.after preOps V (Proc.devRef .tc main_v33)
      = Host.gather GD (sitofp .f32 (wrow (V (Proc.devRef .tc main_arg3) : S8x16.Idx → BitVec 32)) : S8x16.Idx → Elt F .f32) rowOf := by
  rw [preOps_eq]; exact pre_v33_termP V

/-! ## Read at an index -/

theorem noti_apply {s : Shape} {w : Nat} (x : IVec s w) (i : s.Idx) : noti x i = ~~~(x i) := rfl

theorem eqMask_apply (idx : IVec S8x16 32) (b : Fin 8) (k l : Fin 16) :
    eqMask idx (ix3 b k l) = IntOp.cmpi .eq (idx (ix2 b k)) (idx (ix2 b l)) := by
  have e1 : broadcastInDim S8x16x16 ![0, 1, 2] bcast_S8x16x1_S8x16x16_0_1_2
      (broadcastInDim S8x16x1 ![0, 1] bcast_S8x16_S8x16x1_0_1 idx) (ix3 b k l) = idx (ix2 b k) :=
    (broadcastInDim_apply _ _ _ (ix3 b k l) (ix3 b k (0 : Fin 1))
      (fun a => match a with | ⟨0, _⟩ => rfl | ⟨1, _⟩ => rfl | ⟨2, _⟩ => rfl)).trans
      (broadcastInDim_apply _ _ _ (ix3 b k (0 : Fin 1)) (ix2 b k) (fun a => match a with | ⟨0, _⟩ => rfl | ⟨1, _⟩ => rfl))
  have e2 : broadcastInDim S8x16x16 ![0, 1, 2] bcast_S8x1x16_S8x16x16_0_1_2
      (broadcastInDim S8x1x16 ![0, 2] bcast_S8x16_S8x1x16_0_2 idx) (ix3 b k l) = idx (ix2 b l) :=
    (broadcastInDim_apply _ _ _ (ix3 b k l) (ix3 b (0 : Fin 1) l)
      (fun a => match a with | ⟨0, _⟩ => rfl | ⟨1, _⟩ => rfl | ⟨2, _⟩ => rfl)).trans
      (broadcastInDim_apply _ _ _ (ix3 b (0 : Fin 1) l) (ix2 b l) (fun a => match a with | ⟨0, _⟩ => rfl | ⟨1, _⟩ => rfl))
  show IntOp.cmpi .eq _ _ = _
  rw [e1, e2]

theorem below_apply : ∀ k l : Fin 16, below (ix2 k l) = if l.val < k.val then 1#1 else 0#1 := by
  decide

theorem earlier_apply (idx : IVec S8x16 32) (b : Fin 8) (k l : Fin 16) :
    earlier idx (ix3 b k l) = if l.val < k.val then IntOp.cmpi .eq (idx (ix2 b k)) (idx (ix2 b l)) else 0#1 := by
  have e1 : broadcastInDim S8x16x16 ![1, 2] bcast_S16x16_S8x16x16_1_2 below (ix3 b k l) = below (ix2 k l) :=
    broadcastInDim_apply _ _ _ (ix3 b k l) (ix2 k l) (fun a => match a with | ⟨0, _⟩ => rfl | ⟨1, _⟩ => rfl)
  have e3 : broadcastInDim S8x16x16 ![] bcast_S_S8x16x16 (constantI S_ 1 0#1) (ix3 b k l) = 0#1 := rfl
  rw [earlier, select_apply, e1, e3, below_apply, eqMask_apply]
  split
  · exact select_one _ _
  · exact select_zero _ _

/-! ## The two reductions along the second position -/

/-- The reduction's shape fact in the form that names the indices over a result index. -/
theorem red2 : S8x16x16.Reduces [2] S8x16 := by decide

/-- Over result index `(b, k)`, the index with `l` on the reduced axis is `(b, k, l)`. -/
theorem lift_eq (b : Fin 8) (k l : Fin 16) : red2.lift (ix2 b k) l = ix3 b k l := by
  funext c
  refine Fin.ext ?_
  match c with
  | ⟨0, _⟩ => rfl
  | ⟨1, _⟩ => rfl
  | ⟨2, _⟩ => rfl

theorem bit_or_eq_one : ∀ x y : BitVec 1, IntOp.ori x y = 1#1 ↔ x = 1#1 ∨ y = 1#1 := by decide
theorem bit_not_eq_one : ∀ x : BitVec 1, ~~~x = 1#1 ↔ ¬ x = 1#1 := by decide

/-- An or of bits over a finite set is set exactly when one of them is. -/
theorem fold_ori_eq_one {ι : Type*} (S : Finset ι) (f : ι → BitVec 1) :
    S.fold IntOp.ori 0#1 f = 1#1 ↔ ∃ i ∈ S, f i = 1#1 := by
  induction S using Finset.cons_induction with
  | empty =>
    rw [Finset.fold_empty]
    constructor
    · intro h; exact absurd h (by decide)
    · rintro ⟨i, hi, _⟩; simp at hi
  | cons a S ha ih =>
    rw [Finset.fold_cons, bit_or_eq_one, ih]
    constructor
    · rintro (h | ⟨i, hi, h⟩)
      · exact ⟨a, Finset.mem_cons_self a S, h⟩
      · exact ⟨i, Finset.mem_cons.2 (Or.inr hi), h⟩
    · rintro ⟨i, hi, h⟩
      rcases Finset.mem_cons.1 hi with rfl | hi
      · exact Or.inl h
      · exact Or.inr ⟨i, hi, h⟩

/-- The equality comparison's bit is set exactly at equal words. -/
theorem cmpi_eq_one (x y : BitVec 32) : IntOp.cmpi .eq x y = 1#1 ↔ x = y := by
  show BitVec.ofBool (x == y) = 1#1 ↔ x = y
  by_cases h : x = y
  · subst h; rw [beq_self_eq_true]; exact ⟨fun _ => rfl, fun _ => rfl⟩
  · rw [beq_false_of_ne h]; exact ⟨fun e => absurd e (by decide), fun e => absurd e h⟩

/-- Widened to a word it is one at equal words and zero otherwise. -/
theorem setWidth_cmpi (x y : BitVec 32) : (IntOp.cmpi .eq x y).setWidth 32 = if x = y then 1#32 else 0#32 := by
  by_cases h : x = y
  · rw [if_pos h, (cmpi_eq_one x y).2 h]; rfl
  · rw [if_neg h, eq_zero_of_ne_one (mt (cmpi_eq_one x y).1 h)]; rfl

/-- Over result index `(b, k)`, some index of the reduced axis satisfies a condition exactly when some position does. -/
theorem exists_lift {β : Type} (g : S8x16x16.Idx → β) (c : β) (b : Fin 8) (k : Fin 16) :
    (∃ l ∈ (Finset.univ : Finset (Fin (S8x16x16.size 2))), (g ∘ red2.lift (ix2 b k)) l = c) ↔ ∃ l : Fin 16, g (ix3 b k l) = c := by
  constructor
  · rintro ⟨l, -, hl⟩
    exact ⟨l, (congrArg g (lift_eq b k l)).symm.trans hl⟩
  · rintro ⟨l, hl⟩
    exact ⟨l, Finset.mem_univ _, (congrArg g (lift_eq b k l)).trans hl⟩

/-- The or along the second position, read over the sixteen positions. -/
theorem or_earlier (idx : IVec S8x16 32) (b : Fin 8) (k : Fin 16) :
    Host.reduce IntOp.ori (earlier idx) (constantI S_ 1 0#1) reducesTo_S8x16x16_S8x16_d2 h_S_ (ix2 b k) = 1#1
      ↔ ∃ l : Fin 16, earlier idx (ix3 b k l) = 1#1 := by
  rw [Host.reduce_eq_fold_single IntOp.ori (earlier idx) (constantI S_ 1 0#1) reducesTo_S8x16x16_S8x16_d2 red2 h_S_ (ix2 b k),
    constantI_apply, fold_ori_eq_one]
  exact exists_lift (earlier idx) 1#1 b k

/-- The negated or is set exactly when no earlier position holds the same slot number. -/
theorem firstBit_eq_one (idx : IVec S8x16 32) (b : Fin 8) (k : Fin 16) :
    firstBit idx (ix2 b k) = 1#1 ↔ Cert.Spec.firstAt idx b k := by
  rw [firstBit, noti_apply, bit_not_eq_one, or_earlier]
  unfold Cert.Spec.firstAt
  constructor
  · intro h l hl he
    refine h ⟨l, ?_⟩
    rw [earlier_apply, if_pos (show l.val < k.val from hl)]
    exact (cmpi_eq_one _ _).2 he.symm
  · rintro h ⟨l, hl⟩
    rw [earlier_apply] at hl
    split at hl
    · next hlt => exact h l hlt ((cmpi_eq_one _ _).1 hl).symm
    · exact absurd hl (by decide)

/-- The sum along the second position, read over the sixteen positions. -/
theorem sum_eqMask (idx : IVec S8x16 32) (b : Fin 8) (k : Fin 16) :
    Host.reduce IntOp.addi (extui 32 (eqMask idx) natLt_1_32) (constantI S_ 32 0#32) reducesTo_S8x16x16_S8x16_d2 h_S_ (ix2 b k)
      = ∑ l : Fin 16, (eqMask idx (ix3 b k l)).setWidth 32 := by
  rw [Host.reduce_eq_fold_single IntOp.addi _ _ reducesTo_S8x16x16_S8x16_d2 red2 h_S_ (ix2 b k), constantI_apply,
    fold_addi_eq_sum, BitVec.zero_add]
  exact Finset.sum_congr rfl (fun l _ => congrArg (fun i => (eqMask idx i).setWidth 32) (lift_eq b k l))

/-- The sum of the widened equalities is the number of positions holding the same slot number. -/
theorem cntWord_apply (idx : IVec S8x16 32) (b : Fin 8) (k : Fin 16) :
    cntWord idx (ix2 b k) = BitVec.ofNat 32 (Cert.Spec.cntAt idx b k) := by
  rw [cntWord, sum_eqMask]
  have e : ∀ l : Fin 16, (eqMask idx (ix3 b k l)).setWidth 32
      = if idx (ix2 b l) = idx (ix2 b k) then 1#32 else 0#32 := fun l => by
    rw [eqMask_apply, setWidth_cmpi]
    exact if_congr eq_comm rfl rfl
  rw [Finset.sum_congr rfl (fun l _ => e l), sum_indicator]
  rfl

/-- The selected word is the integer weight. -/
theorem wrow_apply (idx : IVec S8x16 32) (b : Fin 8) (k : Fin 16) : wrow idx (ix2 b k) = Cert.Spec.wrowAt idx b k := by
  have e3 : broadcastInDim S8x16 ![] bcast_S_S8x16 (constantI S_ 32 0#32) (ix2 b k) = 0#32 := rfl
  rw [wrow, select_apply, e3]
  unfold Cert.Spec.wrowAt
  by_cases hf : Cert.Spec.firstAt idx b k
  · rw [(firstBit_eq_one idx b k).2 hf, select_one, cntWord_apply, if_pos hf]
  · rw [eq_zero_of_ne_one (mt (firstBit_eq_one idx b k).1 hf), select_zero, if_neg hf]

/-! ## The workers' weights -/

theorem pre_v33 (V : Valuation τ sig (Elt F)) :
    StableHlo.after preOps V (Proc.devRef .tc main_v33) = Cert.Spec.wvecOf (F := F) (V (Proc.devRef .tc main_arg3)) := by
  refine (pre_v33_term V).trans ?_
  funext p
  obtain ⟨w, k, rfl⟩ : ∃ (w : Fin 32) (k : Fin 16), p = ix2 w k := ⟨p 0, p 1, eq_ix2 p⟩
  refine (gather_rowOf _ w k).trans ?_
  rw [sitofp_apply, wrow_apply]
  rfl

end Cert.KernelIdeal.Host

end
-- ==== Proof.BodyDefs.lean ====
/-
  What the tile body's proof is written over: the subcore's own buffers and semaphores peeled out of what it owns; a
  chunk of 32 rows and a worker's row of a per-worker vector as the program slices them; the thirty-two chunks of a
  worker as "not yet reached" (`ge k`) and "done" (`lt k`); and the two scratch slots of the
  outer loop — per slot a copy in flight carrying its chunk, or the slot idle past the last chunk.
-/
import proofs.«210205_g8383776161859_cont_9to1_m_1272_27_alg».proof.Proof.TileDefs

noncomputable section

namespace Cert.KernelIdeal.Body

open Cert.KernelIdeal Cert.KernelIdeal.Gen Cert.KernelIdeal.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

abbrev cell (d : Dev nD) (c : Fin τ.nSC) (i : Fin τ.nSub) (s : DmaSem sig) : GSem nD τ sig := (V d c i, .dma s)

omit [FloatOps F] in
/-- The eight DMA semaphores the body uses are among the subcore's own: they are them, at zero, and the rest. -/
theorem ownSems0_eq (d : Dev nD) (c : Fin τ.nSC) (i : Fin τ.nSub) :
    (ownSems0 (V d c i) : sProp 𝕄)
      = iprop(semVal (cell d c i cc0_scratch6.sem) 0 ∗ semVal (cell d c i cc0_scratch7.sem) 0 ∗ semVal (cell d c i cc0_scratch8.sem) 0 ∗ semVal (cell d c i cc0_scratch9.sem) 0 ∗ semVal (cell d c i cc0_scratch10.sem) 0 ∗ semVal (cell d c i cc0_scoped0.sem) 0 ∗ semVal (cell d c i cc0_scoped1.sem) 0 ∗ semVal (cell d c i cc0_scoped2.sem) 0
          ∗ bigSep (((((((((ownCells (V d c i)).erase (cell d c i cc0_scratch6.sem)).erase (cell d c i cc0_scratch7.sem)).erase (cell d c i cc0_scratch8.sem)).erase (cell d c i cc0_scratch9.sem)).erase (cell d c i cc0_scratch10.sem)).erase (cell d c i cc0_scoped0.sem)).erase (cell d c i cc0_scoped1.sem)).erase (cell d c i cc0_scoped2.sem)) fun g => semVal g 0) := by
  unfold SparseCore.Cfg.ownSems0
  rw [SparseCore.bigSep_erase' ((mem_ownCells (g := (cell d c i cc0_scratch6.sem))).mpr ⟨rfl, by show (SemLoc.dma cc0_scratch6.sem : SemLoc sig).isScoped .scVector = true; decide⟩),
    SparseCore.bigSep_erase' (Finset.mem_erase.mpr ⟨fun e => absurd (Prod.mk.inj e).2 (by decide), (mem_ownCells (g := (cell d c i cc0_scratch7.sem))).mpr ⟨rfl, by show (SemLoc.dma cc0_scratch7.sem : SemLoc sig).isScoped .scVector = true; decide⟩⟩),
    SparseCore.bigSep_erase' (Finset.mem_erase.mpr ⟨fun e => absurd (Prod.mk.inj e).2 (by decide), Finset.mem_erase.mpr ⟨fun e => absurd (Prod.mk.inj e).2 (by decide), (mem_ownCells (g := (cell d c i cc0_scratch8.sem))).mpr ⟨rfl, by show (SemLoc.dma cc0_scratch8.sem : SemLoc sig).isScoped .scVector = true; decide⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (cell d c i cc0_scratch9.sem))).mpr ⟨rfl, by show (SemLoc.dma cc0_scratch9.sem : SemLoc sig).isScoped .scVector = true; decide⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (cell d c i cc0_scratch10.sem))).mpr ⟨rfl, by show (SemLoc.dma cc0_scratch10.sem : SemLoc sig).isScoped .scVector = true; decide⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (cell d c i cc0_scoped0.sem))).mpr ⟨rfl, by show (SemLoc.dma cc0_scoped0.sem : SemLoc sig).isScoped .scVector = true; decide⟩⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (cell d c i cc0_scoped1.sem))).mpr ⟨rfl, by show (SemLoc.dma cc0_scoped1.sem : SemLoc sig).isScoped .scVector = true; decide⟩⟩⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (cell d c i cc0_scoped2.sem))).mpr ⟨rfl, by show (SemLoc.dma cc0_scoped2.sem : SemLoc sig).isScoped .scVector = true; decide⟩⟩⟩⟩⟩⟩⟩⟩)]

omit [FloatOps F] in
/-- The six scratch buffers are among the subcore's own: they are them, at some contents, and the rest. -/
theorem ownBufs_eq (d : Dev nD) (c : Fin τ.nSC) (i : Fin τ.nSub) :
    (ownBufs (V d c i) : sProp 𝕄)
      = iprop((∃ f, (V d c i).loc cc0_scratch0 ↦{fullShare} f) ∗ (∃ f, (V d c i).loc cc0_scratch1 ↦{fullShare} f) ∗ (∃ f, (V d c i).loc cc0_scratch2 ↦{fullShare} f) ∗ (∃ f, (V d c i).loc cc0_scratch3 ↦{fullShare} f) ∗ (∃ f, (V d c i).loc cc0_scratch4 ↦{fullShare} f) ∗ (∃ f, (V d c i).loc cc0_scratch5 ↦{fullShare} f)
          ∗ bigSep (((((((ownRefs (τ := τ) (.scVector c i)).erase ((Proc.scVector c i).devRef cc0_scratch0)).erase ((Proc.scVector c i).devRef cc0_scratch1)).erase ((Proc.scVector c i).devRef cc0_scratch2)).erase ((Proc.scVector c i).devRef cc0_scratch3)).erase ((Proc.scVector c i).devRef cc0_scratch4)).erase ((Proc.scVector c i).devRef cc0_scratch5))
              fun b => iprop(∃ f, ((d, b) : Loc nD τ sig) ↦{fullShare} f)) := by
  unfold SparseCore.Cfg.ownBufs
  refine (SparseCore.bigSep_erase' (SparseCore.Cfg.mem_ownRefs_of_owner (p := Proc.scVector c i) (b := ((Proc.scVector c i).devRef cc0_scratch0)) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector c i) (b := ((Proc.scVector c i).devRef cc0_scratch1)) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector c i) (b := ((Proc.scVector c i).devRef cc0_scratch2)) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector c i) (b := ((Proc.scVector c i).devRef cc0_scratch3)) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector c i) (b := ((Proc.scVector c i).devRef cc0_scratch4)) rfl⟩⟩⟩⟩),
    SparseCore.bigSep_erase' (Finset.mem_erase.mpr ⟨fun e => absurd (Proc.devRef_injective _ e) (show (cc0_scratch5 : Ref sig .scVector) ≠ cc0_scratch4 by decide), Finset.mem_erase.mpr ⟨fun e => absurd (Proc.devRef_injective _ e) (show (cc0_scratch5 : Ref sig .scVector) ≠ cc0_scratch3 by decide), Finset.mem_erase.mpr ⟨fun e => absurd (Proc.devRef_injective _ e) (show (cc0_scratch5 : Ref sig .scVector) ≠ cc0_scratch2 by decide), Finset.mem_erase.mpr ⟨fun e => absurd (Proc.devRef_injective _ e) (show (cc0_scratch5 : Ref sig .scVector) ≠ cc0_scratch1 by decide), Finset.mem_erase.mpr ⟨fun e => absurd (Proc.devRef_injective _ e) (show (cc0_scratch5 : Ref sig .scVector) ≠ cc0_scratch0 by decide), SparseCore.Cfg.mem_ownRefs_of_owner (p := Proc.scVector c i) (b := ((Proc.scVector c i).devRef cc0_scratch5)) rfl⟩⟩⟩⟩⟩)]

/-! ## A chunk, as the program slices it -/

omit [FloatOps F] in
/-- A 32-row rectangle at row offset `32·c` is chunk `c` of the 1024. -/
theorem unit_eq_chunk (off : Fin 2 → Nat) (h : ∀ a, off a + S32x1024.size a ≤ S32768x1024.size a) (c : Fin 1024)
    (hoff : off = ![32 * c.val, 0]) : Rect.unit (s := S32768x1024) off S32x1024.size h = chunkRect c := by
  subst hoff
  unfold chunkRect Rect.part Rect.block
  congr 1 <;> funext a
  · match a with
    | 0 => simp [Shape.partIx, Shape.partSize]; omega
    | 1 => simp [Shape.partIx, Shape.partSize]
  · match a with
    | 0 => simp [Shape.partSize]
    | 1 => simp [Shape.partSize]

omit [FloatOps F] in
theorem set_slice42 (r : Rect S32768x1024) (hs : ∀ a, r.stride a = 1) (c : Fin 1024) (hr : r = chunkRect c) :
    (((Memref.whole main_v42_scv : Memref sig .scVector .hbm S32768x1024 .f32).slice r hs).view.set : Finset S32768x1024.Idx) = chunkSet c := by
  subst hr; rfl
omit [FloatOps F] in
theorem set_slice46 (r : Rect S32768x1024) (hs : ∀ a, r.stride a = 1) (c : Fin 1024) (hr : r = chunkRect c) :
    (((Memref.whole main_v46_scv : Memref sig .scVector .hbm S32768x1024 .f32).slice r hs).view.set : Finset S32768x1024.Idx) = chunkSet c := by
  subst hr
  show ((View.whole (main_v46_scv : Ref sig .scVector)).slice (chunkRect c)).set = ((View.whole (main_v42_scv : Ref sig .scVector)).slice (chunkRect c)).set
  rw [View.set_slice, View.set_slice]; rfl

/-! ## The chunks of a worker not yet reached, and those done -/

abbrev ge (k : ℕ) : Finset (Fin 32) := Finset.univ.filter fun g => k ≤ g.val
abbrev lt (k : ℕ) : Finset (Fin 32) := Finset.univ.filter fun g => g.val < k

theorem ge_zero : ge 0 = Finset.univ := by ext g; simp
theorem lt_zero : lt 0 = ∅ := by ext g; simp
theorem ge_top : ge 32 = ∅ := by ext g; simp
theorem lt_top : lt 32 = Finset.univ := by ext g; simp
theorem ge_succ (k : ℕ) (hk : k < 32) : ge k = insert (⟨k, hk⟩ : Fin 32) (ge (k + 1)) := by
  ext g; simp only [Finset.mem_filter, Finset.mem_univ, true_and, Finset.mem_insert, Fin.ext_iff]; omega
theorem not_mem_ge (k : ℕ) (hk : k < 32) : (⟨k, hk⟩ : Fin 32) ∉ ge (k + 1) := by simp
theorem lt_succ (k : ℕ) (hk : k < 32) : lt (k + 1) = insert (⟨k, hk⟩ : Fin 32) (lt k) := by
  ext g; simp only [Finset.mem_filter, Finset.mem_univ, true_and, Finset.mem_insert, Fin.ext_iff]; omega
theorem not_mem_lt (k : ℕ) (hk : k < 32) : (⟨k, hk⟩ : Fin 32) ∉ lt k := by simp

omit [FloatOps F] in
theorem bigSep_ge_succ (Φ : Fin 32 → sProp 𝕄) (k : ℕ) (hk : k < 32) : bigSep (ge k) Φ = iprop(Φ ⟨k, hk⟩ ∗ bigSep (ge (k + 1)) Φ) := by
  rw [ge_succ k hk, SparseCore.bigSep_insert' (not_mem_ge k hk)]
omit [FloatOps F] in
theorem bigSep_lt_succ (Φ : Fin 32 → sProp 𝕄) (k : ℕ) (hk : k < 32) : bigSep (lt (k + 1)) Φ = iprop(Φ ⟨k, hk⟩ ∗ bigSep (lt k) Φ) := by
  rw [lt_succ k hk, SparseCore.bigSep_insert' (not_mem_lt k hk)]

/-! ## The pieces a worker holds, through the program's own slices -/

section Pieces
variable (d : Dev nD) (L : grid0.Coords)

omit [FloatOps F] in
/-- Chunk `g` of the worker's rows of the re-laid memory, held through the program's own slice at row offset `off`. -/
theorem pts_in (off : Fin 2 → Nat) (h : ∀ a, off a + S32x1024.size a ≤ S32768x1024.size a) (g : Fin 32)
    (hoff : off = ![32 * (chunkOf (wid L) g).val, 0]) (f : Buf (Elt F) (loc42 d)) :
    ((((Memref.whole main_v42_scv : Memref sig .scVector .hbm S32768x1024 .f32).slice (Rect.unit (s := S32768x1024) off S32x1024.size h) (fun _ => rfl)).view.loc (V d (cV L) (jV L))
        ↦[((Memref.whole main_v42_scv : Memref sig .scVector .hbm S32768x1024 .f32).slice (Rect.unit (s := S32768x1024) off S32x1024.size h) (fun _ => rfl)).view.set]{fullShare} f) : sProp 𝕄)
      = (loc42 d ↦[chunkSet (chunkOf (wid L) g)]{fullShare} f) := by
  rw [set_slice42 _ _ _ (unit_eq_chunk off h _ hoff)]
omit [FloatOps F] in
theorem pts_out (off : Fin 2 → Nat) (h : ∀ a, off a + S32x1024.size a ≤ S32768x1024.size a) (g : Fin 32)
    (hoff : off = ![32 * (chunkOf (wid L) g).val, 0]) (f : Buf (Elt F) (loc46 d)) :
    ((((Memref.whole main_v46_scv : Memref sig .scVector .hbm S32768x1024 .f32).slice (Rect.unit (s := S32768x1024) off S32x1024.size h) (fun _ => rfl)).view.loc (V d (cV L) (jV L))
        ↦[((Memref.whole main_v46_scv : Memref sig .scVector .hbm S32768x1024 .f32).slice (Rect.unit (s := S32768x1024) off S32x1024.size h) (fun _ => rfl)).view.set]{fullShare} f) : sProp 𝕄)
      = (loc46 d ↦[chunkSet (chunkOf (wid L) g)]{fullShare} f) := by
  rw [set_slice46 _ _ _ (unit_eq_chunk off h _ hoff)]

omit [FloatOps F] in
theorem off1_chunk (r : Fin 2) : k0_off1 L (BitVec.ofNat 32 (32 * r.val)) = ![32 * (chunkOf (wid L) ⟨r.val, by omega⟩).val, 0] := by
  rw [k0_off1_eq]; simp only [chunkOf, wid]; congr 1; omega
omit [FloatOps F] in
theorem off3_chunk (t : Fin k0_t1_loop.trips) (ht : 2 * t.val < 32) : k0_off3 L t = ![32 * (chunkOf (wid L) ⟨2 * t.val, ht⟩).val, 0] := by
  rw [k0_off3_eq]; simp only [chunkOf, wid]; congr 1; omega

end Pieces

omit [FloatOps F] in
/-- The first two chunks out of all thirty-two. -/
theorem take2 (Φ : Fin 32 → sProp 𝕄) :
    bigSep Finset.univ Φ = iprop(Φ (0 : Fin 32) ∗ Φ (1 : Fin 32) ∗ bigSep (ge 2) Φ) := by
  have h := (congrArg (fun s => bigSep s Φ) ge_zero.symm).trans
    ((bigSep_ge_succ Φ 0 (by omega)).trans (congrArg (fun X => iprop(Φ (⟨0, by omega⟩ : Fin 32) ∗ X)) (bigSep_ge_succ Φ 1 (by omega))))
  exact h

section Start
variable (L : grid0.Coords)
omit [FloatOps F] in
theorem off1_chunk0 : k0_off1 L 0#32 = ![32 * (chunkOf (wid L) (0 : Fin 32)).val, 0] := off1_chunk L 0
omit [FloatOps F] in
theorem off1_chunk1 : k0_off1 L 32#32 = ![32 * (chunkOf (wid L) (1 : Fin 32)).val, 0] := off1_chunk L 1
end Start

/-! ## A worker's row of a per-worker vector, as the program slices and squeezes it -/

section Rows
variable (d : Dev nD) (L : grid0.Coords)

omit [FloatOps F] in
theorem unit_eq_wrow : Rect.unit (s := S32x16) (k0_off2 L) S1x16.size (k0_off2_inb L) = wrowRect (wid L) := by
  unfold wrowRect Rect.part Rect.block
  congr 1 <;> funext a
  · rw [k0_off2_eq]
    match a with
    | 0 => simp [Shape.partIx, Shape.partSize, wid]
    | 1 => simp [Shape.partIx, Shape.partSize]
  · match a with
    | 0 => simp [Shape.partSize]
    | 1 => simp [Shape.partSize]

abbrev rowNV : Memref sig .scVector .hbm S16 .i32 :=
  ((Memref.whole main_v26_scv : Memref sig .scVector .hbm S32x16 .i32).slice (Rect.unit (s := S32x16) (k0_off2 L) S1x16.size (k0_off2_inb L)) (fun _ => rfl)).squeeze S16 squeezes_S1x16_S16
abbrev rowWV : Memref sig .scVector .hbm S16 .f32 :=
  ((Memref.whole main_v33_scv : Memref sig .scVector .hbm S32x16 .f32).slice (Rect.unit (s := S32x16) (k0_off2 L) S1x16.size (k0_off2_inb L)) (fun _ => rfl)).squeeze S16 squeezes_S1x16_S16
abbrev rowGV : Memref sig .scVector .hbm S16 .i32 :=
  ((Memref.whole main_v40_scv : Memref sig .scVector .hbm S32x16 .i32).slice (Rect.unit (s := S32x16) (k0_off2 L) S1x16.size (k0_off2_inb L)) (fun _ => rfl)).squeeze S16 squeezes_S1x16_S16

omit [FloatOps F] in
theorem set_rowNV : (rowNV L).view.set = wrowSet (wid L) := by
  show (((Memref.whole main_v26_scv : Memref sig .scVector .hbm S32x16 .i32).view.slice (Rect.unit (s := S32x16) (k0_off2 L) S1x16.size (k0_off2_inb L))).reshape S16 squeezes_S1x16_S16.numel_eq).set
    = ((Memref.whole main_v26_scv : Memref sig .scVector .hbm S32x16 .i32).view.slice (wrowRect (wid L))).set
  rw [View.set_reshape]
  exact unit_eq_wrow L ▸ rfl
omit [FloatOps F] in
theorem set_rowWV : (rowWV L).view.set = wrowSet (wid L) := by
  show (((Memref.whole main_v33_scv : Memref sig .scVector .hbm S32x16 .f32).view.slice (Rect.unit (s := S32x16) (k0_off2 L) S1x16.size (k0_off2_inb L))).reshape S16 squeezes_S1x16_S16.numel_eq).set
    = ((Memref.whole main_v26_scv : Memref sig .scVector .hbm S32x16 .i32).view.slice (wrowRect (wid L))).set
  rw [View.set_reshape]
  exact unit_eq_wrow L ▸ rfl
omit [FloatOps F] in
theorem set_rowGV : (rowGV L).view.set = wrowSet (wid L) := by
  show (((Memref.whole main_v40_scv : Memref sig .scVector .hbm S32x16 .i32).view.slice (Rect.unit (s := S32x16) (k0_off2 L) S1x16.size (k0_off2_inb L))).reshape S16 squeezes_S1x16_S16.numel_eq).set
    = ((Memref.whole main_v26_scv : Memref sig .scVector .hbm S32x16 .i32).view.slice (wrowRect (wid L))).set
  rw [View.set_reshape]
  exact unit_eq_wrow L ▸ rfl

omit [FloatOps F] in
theorem pts_rowNV (f : Buf (Elt F) (loc26 d)) :
    ((rowNV L).view.loc (V d (cV L) (jV L)) ↦[(rowNV L).view.set]{fullShare} f : sProp 𝕄) = (loc26 d ↦[wrowSet (wid L)]{fullShare} f) := by
  rw [set_rowNV]
omit [FloatOps F] in
theorem pts_rowWV (f : Buf (Elt F) (loc33 d)) :
    ((rowWV L).view.loc (V d (cV L) (jV L)) ↦[(rowWV L).view.set]{fullShare} f : sProp 𝕄) = (loc33 d ↦[wrowSet (wid L)]{fullShare} f) := by
  rw [set_rowWV]
omit [FloatOps F] in
theorem pts_rowGV (f : Buf (Elt F) (loc40 d)) :
    ((rowGV L).view.loc (V d (cV L) (jV L)) ↦[(rowGV L).view.set]{fullShare} f : sProp 𝕄) = (loc40 d ↦[wrowSet (wid L)]{fullShare} f) := by
  rw [set_rowGV]

end Rows

section KV
variable (d : Dev nD) (L : grid0.Coords)

abbrev kvSl : Memref sig .scVector .hbm S8192x128 .f32 :=
  (Memref.whole main_v45_scv : Memref sig .scVector .hbm S8192x128 .f32).slice (Rect.unit (s := S8192x128) ![0, 0] S8192x128.size inb_S8192x128_S8192x128_0_0) (fun _ => rfl)

omit [FloatOps F] in
theorem set_kvSl : (kvSl.view.set : Finset S8192x128.Idx) = Finset.univ := by
  show ((View.whole (main_v45_scv : Ref sig .scVector)).slice (Rect.unit (s := S8192x128) ![0, 0] S8192x128.size inb_S8192x128_S8192x128_0_0)).set = Finset.univ
  rw [View.set_slice_whole]
  ext i
  simp only [Rect.mem_set_unit, Finset.mem_univ, iff_true]
  intro a
  match a with
  | 0 =>
    have h' : (i 0).val < 8192 := (i 0).isLt
    exact ⟨Nat.zero_le _, by show (i 0).val < 0 + 8192; omega⟩
  | 1 =>
    have h' : (i 1).val < 128 := (i 1).isLt
    exact ⟨Nat.zero_le _, by show (i 1).val < 0 + 128; omega⟩

omit [FloatOps F] in
/-- The key/value table, read whole through the program's slice at a share `q`. -/
theorem pts_kv (q : PosShare TreeShare) (f : Buf (Elt F) (loc45 d)) :
    ((kvSl.view.loc (V d (cV L) (jV L)) ↦[kvSl.view.set]{q} f : sProp 𝕄)) = (loc45 d ↦{q} f) := by
  rw [set_kvSl]
end KV

/-! ## The outer loop's invariant -/

section Inv
variable (d : Dev nD) (L : grid0.Coords) (q : PosShare TreeShare)
  (f42 : Buf (Elt F) (loc42 d)) (f45 : Buf (Elt F) (loc45 d)) (f26 : Buf (Elt F) (loc26 d)) (f33 : Buf (Elt F) (loc33 d))
  (f40 : Buf (Elt F) (loc40 d)) (f46 : Buf (Elt F) (loc46 d))
  (O : CellTallies nD τ sig (HIx 1)) (W : Waits sig (HIx 1))

/-- A 32 × 1024 scratch holds chunk `g` of the worker's rows of the re-laid memory. -/
def Landed (g : Fin 32) (c : Vec F S32x1024 .f32) : Prop :=
  ∀ (r : Fin 32) (n : Fin 1024), c (ValueIdx.ix2 r n) = f42 (ValueIdx.ix2 (⟨1024 * (wid L).val + 32 * g.val + r.val, by have := (wid L).isLt; omega⟩ : Fin 32768) n)

abbrev scrA : Loc nD τ sig := (Memref.whole cc0_scratch0 : Memref sig .scVector .vmem S32x1024 .f32).view.loc (V d (cV L) (jV L))
abbrev scrB : Loc nD τ sig := (Memref.whole cc0_scratch1 : Memref sig .scVector .vmem S32x1024 .f32).view.loc (V d (cV L) (jV L))

/-- Slot A before trip `t`: chunk `2t` in flight into the first scratch, or, past the last chunk, the scratch idle. -/
def slotA (t : ℕ) : sProp 𝕄 :=
  if h : 2 * t < 32 then
    Transfers.Flight countersEmb (V d (cV L) (jV L)) (SemLoc.dma cc0_scratch6.sem) (default : HIx 1) 1048576
      iprop((∃ c, ⌜Landed d L f42 ⟨2 * t, h⟩ c⌝ ∗ scrA d L ↦{fullShare} c) ∗ (loc42 d ↦[chunkSet (chunkOf (wid L) ⟨2 * t, h⟩)]{fullShare} f42))
  else iprop((∃ c, scrA d L ↦{fullShare} c) ∗ semVal (cell d (cV L) (jV L) cc0_scratch6.sem) 0)

/-- Slot B before trip `t`: chunk `2t + 1` in flight into the second scratch, or idle. -/
def slotB (t : ℕ) : sProp 𝕄 :=
  if h : 2 * t + 1 < 32 then
    Transfers.Flight countersEmb (V d (cV L) (jV L)) (SemLoc.dma cc0_scratch7.sem) (default : HIx 1) 1048576
      iprop((∃ c, ⌜Landed d L f42 ⟨2 * t + 1, h⟩ c⌝ ∗ scrB d L ↦{fullShare} c) ∗ (loc42 d ↦[chunkSet (chunkOf (wid L) ⟨2 * t + 1, h⟩)]{fullShare} f42))
  else iprop((∃ c, scrB d L ↦{fullShare} c) ∗ semVal (cell d (cV L) (jV L) cc0_scratch7.sem) 0)

end Inv

end Cert.KernelIdeal.Body

end
-- ==== Proof.Words.lean ====
/-
  The integer words of the worker's body, read as numbers.

  Worker (c, s) has number w = 16·c + s and owns rows 1024·w … 1024·w + 1023. Its body computes the first row
  1024·w as a 32-bit word; trip t of its sixteen trips handles two chunks of 32 rows, starting at rows
  1024·w + 64·t and 1024·w + 64·t + 32. A row x = b·4096 + i·64 + j has row digit (x / 64) % 64 = i (a shift by six places
  and a mask of six bits) and column digit x % 64 = j; a chunk's first row has column digit 0 or 32. The inner trips k of
  32 read table column 64 + (column digit) + k. None of these sums and products reaches 2 ^ 32, so the words are the
  numbers. The side conditions of the indexed loads and stores follow: a lane number is below 16, a table column below
  128, a chunk row below 32 and a slot number below 1024.
-/
import proofs.«210205_g8383776161859_cont_9to1_m_1272_27_alg».proof.KernelIdeal
import proofs.«210205_g8383776161859_cont_9to1_m_1272_27_alg».proof.Proof.Gen.KernelIdeal
import proofs.«210205_g8383776161859_cont_9to1_m_1272_27_alg».proof.Proof.TileDefs

noncomputable section

namespace Cert.KernelIdeal.Words

open Cert.KernelIdeal Cert.KernelIdeal.Gen Cert.KernelIdeal.Tile Idealize.ShloMosaic

/-! ### Words: the scalar operations read as numbers -/

theorem addi_toNat (x y : BitVec 32) : (Scalar.addi x y).toNat = (x.toNat + y.toNat) % 4294967296 := by
  show (x + y).toNat = _
  rw [BitVec.toNat_add]

theorem muli_toNat (x y : BitVec 32) : (Scalar.muli x y).toNat = (x.toNat * y.toNat) % 4294967296 := by
  show (x * y).toNat = _
  rw [BitVec.toNat_mul]

theorem lit_toNat (n : Nat) (h : n < 4294967296) : (BitVec.ofNat 32 n).toNat = n := by
  rw [BitVec.toNat_ofNat]; exact Nat.mod_eq_of_lt h

/-- Keeping the six low bits is the remainder by 64. -/
theorem andi63_toNat (x : BitVec 32) : (Scalar.andi x 63#32).toNat = x.toNat % 64 := by
  show (x &&& 63#32).toNat = _
  rw [BitVec.toNat_and]
  exact Nat.and_two_pow_sub_one_eq_mod x.toNat 6

/-- Shifting right by six places is the quotient by 64. -/
theorem shrui6_toNat (x : BitVec 32) : (Scalar.shrui x 6#32).toNat = x.toNat / 64 := by
  show (IntOp.shrui .scalar x 6#32).toNat = _
  unfold IntOp.shrui
  rw [if_pos (by decide), BitVec.ushiftRight_eq', BitVec.toNat_ushiftRight, Nat.shiftRight_eq_div_pow]
  rfl

/-- The induction variable of a loop from 0 by 1, at a trip below 2 ^ 32, is the trip's number. -/
theorem iv01_toNat (k : Nat) (hk : k < 4294967296) : (Scf.iv 0#32 1#32 k).toNat = k := by
  unfold Scf.iv
  rw [BitVec.toNat_add, BitVec.toNat_mul, lit_toNat k hk]
  show (0 + k * 1 % 4294967296) % 4294967296 = k
  omega

theorem t1_trips : k0_t1_loop.trips = 16 := by decide
theorem t2_trips : k0_t2_loop.trips = 32 := by decide
theorem t3_trips : k0_t3_loop.trips = 32 := by decide

/-! ### The first row of a worker, and of a trip's two chunks -/

/-- The first row of worker (L 0, L 1), as the body computes it. -/
def v2w (L : grid0.Coords) : BitVec 32 :=
  Scalar.muli (Scalar.addi (Scalar.muli (BitVec.ofNat 32 (L 0).val) 16#32) (BitVec.ofNat 32 (L 1).val)) 1024#32

/-- The first row of the first chunk of trip t. -/
def xA (L : grid0.Coords) (t : Fin k0_t1_loop.trips) : BitVec 32 :=
  Scalar.addi (v2w L) (Scalar.muli (Scalar.addi (Scalar.muli 2#32 (Scf.iv 0#32 1#32 t)) 0#32) 32#32)

/-- The first row of the second chunk of trip t. -/
def xB (L : grid0.Coords) (t : Fin k0_t1_loop.trips) : BitVec 32 :=
  Scalar.addi (v2w L) (Scalar.muli (Scalar.addi (Scalar.muli 2#32 (Scf.iv 0#32 1#32 t)) 1#32) 32#32)

theorem t1_lt (t : Fin k0_t1_loop.trips) : t.val < 16 := Nat.lt_of_lt_of_le t.isLt (Nat.le_of_eq t1_trips)
theorem t2_lt (k : Fin k0_t2_loop.trips) : k.val < 32 := Nat.lt_of_lt_of_le k.isLt (Nat.le_of_eq t2_trips)
theorem t3_lt (k : Fin k0_t3_loop.trips) : k.val < 32 := Nat.lt_of_lt_of_le k.isLt (Nat.le_of_eq t3_trips)

theorem wid_val (L : grid0.Coords) : (wid L).val = 16 * (L 0).val + (L 1).val := rfl

theorem v2w_toNat (L : grid0.Coords) : (v2w L).toNat = 1024 * (wid L).val := by
  have h0 : (L 0).val < 2 := (L 0).isLt
  have h1 : (L 1).val < 16 := (L 1).isLt
  unfold v2w
  rw [muli_toNat, addi_toNat, muli_toNat, lit_toNat (L 0).val (by omega), lit_toNat (L 1).val (by omega), wid_val]
  show (((L 0).val * 16 % 4294967296 + (L 1).val) % 4294967296 * 1024) % 4294967296 = 1024 * (16 * (L 0).val + (L 1).val)
  omega

theorem xA_toNat (L : grid0.Coords) (t : Fin k0_t1_loop.trips) : (xA L t).toNat = 1024 * (wid L).val + 64 * t.val := by
  have hw := (wid L).isLt
  have ht := t1_lt t
  unfold xA
  rw [addi_toNat, v2w_toNat, muli_toNat, addi_toNat, muli_toNat, iv01_toNat t.val (by omega)]
  show (1024 * (wid L).val + ((2 * t.val % 4294967296 + 0) % 4294967296 * 32) % 4294967296) % 4294967296 = _
  omega

theorem xB_toNat (L : grid0.Coords) (t : Fin k0_t1_loop.trips) : (xB L t).toNat = 1024 * (wid L).val + 64 * t.val + 32 := by
  have hw := (wid L).isLt
  have ht := t1_lt t
  unfold xB
  rw [addi_toNat, v2w_toNat, muli_toNat, addi_toNat, muli_toNat, iv01_toNat t.val (by omega)]
  show (1024 * (wid L).val + ((2 * t.val % 4294967296 + 1) % 4294967296 * 32) % 4294967296) % 4294967296 = _
  omega

/-! ### Row and column digits of a chunk's first row -/

theorem rowA (L : grid0.Coords) (t : Fin k0_t1_loop.trips) :
    (Scalar.andi (Scalar.shrui (xA L t) 6#32) 63#32).toNat = (1024 * (wid L).val + 64 * t.val) / 64 % 64 := by
  rw [andi63_toNat, shrui6_toNat, xA_toNat]

theorem colA (L : grid0.Coords) (t : Fin k0_t1_loop.trips) : (Scalar.andi (xA L t) 63#32).toNat = 0 := by
  rw [andi63_toNat, xA_toNat]; omega

theorem rowB (L : grid0.Coords) (t : Fin k0_t1_loop.trips) :
    (Scalar.andi (Scalar.shrui (xB L t) 6#32) 63#32).toNat = (1024 * (wid L).val + 64 * t.val + 32) / 64 % 64 := by
  rw [andi63_toNat, shrui6_toNat, xB_toNat]

theorem colB (L : grid0.Coords) (t : Fin k0_t1_loop.trips) : (Scalar.andi (xB L t) 63#32).toNat = 32 := by
  rw [andi63_toNat, xB_toNat]; omega

/-- The row digit is below 64 (so below the table's 128 columns). -/
theorem rowA_lt (L : grid0.Coords) (t : Fin k0_t1_loop.trips) : (Scalar.andi (Scalar.shrui (xA L t) 6#32) 63#32).toNat < 64 := by
  rw [andi63_toNat]; omega
theorem rowB_lt (L : grid0.Coords) (t : Fin k0_t1_loop.trips) : (Scalar.andi (Scalar.shrui (xB L t) 6#32) 63#32).toNat < 64 := by
  rw [andi63_toNat]; omega

/-! ### The inner loops' words -/

theorem iv_toNat2 (k : Fin k0_t2_loop.trips) : (Scf.iv 0#32 1#32 k).toNat = k.val :=
  iv01_toNat k.val (by have := t2_lt k; omega)
theorem iv_toNat3 (k : Fin k0_t3_loop.trips) : (Scf.iv 0#32 1#32 k).toNat = k.val :=
  iv01_toNat k.val (by have := t3_lt k; omega)

/-- The table column of inner trip k: 64, plus the column digit c, plus k. -/
theorem colw (c : BitVec 32) (hc : c.toNat < 64) (k : Nat) (hk : k < 32) :
    (Scalar.addi (Scalar.addi 64#32 c) (Scf.iv 0#32 1#32 k)).toNat = 64 + c.toNat + k := by
  rw [addi_toNat, addi_toNat, iv01_toNat k (by omega)]
  show ((64 + c.toNat) % 4294967296 + k) % 4294967296 = _
  omega

theorem colwA (L : grid0.Coords) (t : Fin k0_t1_loop.trips) (k : Fin k0_t2_loop.trips) :
    (Scalar.addi (Scalar.addi 64#32 (Scalar.andi (xA L t) 63#32)) (Scf.iv 0#32 1#32 k)).toNat = 64 + k.val := by
  rw [colw _ (by rw [colA]; omega) k.val (t2_lt k), colA]

theorem colwB (L : grid0.Coords) (t : Fin k0_t1_loop.trips) (k : Fin k0_t3_loop.trips) :
    (Scalar.addi (Scalar.addi 64#32 (Scalar.andi (xB L t) 63#32)) (Scf.iv 0#32 1#32 k)).toNat = 96 + k.val := by
  rw [colw _ (by rw [colB]; omega) k.val (t3_lt k), colB]

/-! ### The side conditions of the indexed loads and stores -/

/-- An indexed load of the 16 × 128 table at (lane, w): a lane number is below 16, the column w below 128. -/
theorem chk_row (h : S16.Iotas .scVector 32 [0]) (w : BitVec 32) (hw : w.toNat < 128) :
    k0_chk1 (iota .scVector S16 32 [0] h) (broadcast S16 w) := by
  unfold k0_chk1
  intro a x
  match a with
  | ⟨0, _⟩ =>
    have h16 : (x 0).val < 16 := (x 0).isLt
    show (BitVec.ofNat 32 (0 * 16 + (x 0).val)).toNat < 16
    rw [BitVec.toNat_ofNat]
    exact Nat.lt_of_le_of_lt (Nat.mod_le _ _) (by omega)
  | ⟨1, _⟩ =>
    show w.toNat < 128
    exact hw

theorem chk_row2 (h : S16.Iotas .scVector 32 [0]) (w : BitVec 32) (hw : w.toNat < 128) :
    k0_chk2 (iota .scVector S16 32 [0] h) (broadcast S16 w) := chk_row h w hw
theorem chk_row4 (h : S16.Iotas .scVector 32 [0]) (w : BitVec 32) (hw : w.toNat < 128) :
    k0_chk4 (iota .scVector S16 32 [0] h) (broadcast S16 w) := chk_row h w hw
theorem chk_row5 (h : S16.Iotas .scVector 32 [0]) (w : BitVec 32) (hw : w.toNat < 128) :
    k0_chk5 (iota .scVector S16 32 [0] h) (broadcast S16 w) := chk_row h w hw

/-- An indexed store into a 32 × 1024 chunk at (w, slot): the row w is below 32, a slot number below 1024. -/
theorem chk_store (v12 : IVec S16 32) (h12 : ∀ x, (v12 x).toNat < 1024) (w : BitVec 32) (hw : w.toNat < 32) :
    k0_chk3 v12 (broadcast S16 w) := by
  unfold k0_chk3
  intro a x
  match a with
  | ⟨0, _⟩ =>
    show w.toNat < 32
    exact hw
  | ⟨1, _⟩ =>
    show (v12 x).toNat < 1024
    exact h12 x

theorem chk_store6 (v12 : IVec S16 32) (h12 : ∀ x, (v12 x).toNat < 1024) (w : BitVec 32) (hw : w.toNat < 32) :
    k0_chk6 v12 (broadcast S16 w) := chk_store v12 h12 w hw

/-! The six conditions at the words the body passes. -/

theorem chk1_at (h : S16.Iotas .scVector 32 [0]) (L : grid0.Coords) (t : Fin k0_t1_loop.trips) :
    k0_chk1 (iota .scVector S16 32 [0] h) (broadcast S16 (Scalar.andi (Scalar.shrui (xA L t) 6#32) 63#32)) :=
  chk_row h _ (by have := rowA_lt L t; omega)

theorem chk4_at (h : S16.Iotas .scVector 32 [0]) (L : grid0.Coords) (t : Fin k0_t1_loop.trips) :
    k0_chk4 (iota .scVector S16 32 [0] h) (broadcast S16 (Scalar.andi (Scalar.shrui (xB L t) 6#32) 63#32)) :=
  chk_row4 h _ (by have := rowB_lt L t; omega)

theorem chk2_at (h : S16.Iotas .scVector 32 [0]) (L : grid0.Coords) (t : Fin k0_t1_loop.trips) (k : Fin k0_t2_loop.trips) :
    k0_chk2 (iota .scVector S16 32 [0] h)
      (broadcast S16 (Scalar.addi (Scalar.addi 64#32 (Scalar.andi (xA L t) 63#32)) (Scf.iv 0#32 1#32 k))) :=
  chk_row2 h _ (by rw [colwA]; have := t2_lt k; omega)

theorem chk5_at (h : S16.Iotas .scVector 32 [0]) (L : grid0.Coords) (t : Fin k0_t1_loop.trips) (k : Fin k0_t3_loop.trips) :
    k0_chk5 (iota .scVector S16 32 [0] h)
      (broadcast S16 (Scalar.addi (Scalar.addi 64#32 (Scalar.andi (xB L t) 63#32)) (Scf.iv 0#32 1#32 k))) :=
  chk_row5 h _ (by rw [colwB]; have := t3_lt k; omega)

theorem chk3_at (v12 : IVec S16 32) (h12 : ∀ x, (v12 x).toNat < 1024) (k : Fin k0_t2_loop.trips) :
    k0_chk3 v12 (broadcast S16 (Scf.iv 0#32 1#32 k)) :=
  chk_store v12 h12 _ (by rw [iv_toNat2]; exact t2_lt k)

theorem chk6_at (v12 : IVec S16 32) (h12 : ∀ x, (v12 x).toNat < 1024) (k : Fin k0_t3_loop.trips) :
    k0_chk6 v12 (broadcast S16 (Scf.iv 0#32 1#32 k)) :=
  chk_store6 v12 h12 _ (by rw [iv_toNat3]; exact t3_lt k)

end Cert.KernelIdeal.Words

end
-- ==== Proof.BodyFacts1.lean ====
/-
  Facts about what the tile body's copies land and what its two lane loads read.

  A copy whose source is a 32-row slice of the re-laid memory at row offset 32·(32·w + g) reads, at (r, n), the memory's
  entry (1024·w + 32·g + r, n): the slice places (r, n) at (offset + r, n). A whole-buffer write of a payload leaves
  the payload; a whole-buffer read reads the contents. A worker's row of a per-worker vector, sliced as a 1 × 16
  rectangle at row w and squeezed to sixteen lanes, places lane k at (w, k): the squeeze matches lane k with (0, k) by
  row-major position. A load of all sixteen lanes from offset 0 reads lane k at k.
-/
import proofs.«210205_g8383776161859_cont_9to1_m_1272_27_alg».proof.Proof.BodyDefs

noncomputable section

namespace Cert.KernelIdeal.Body

open Cert.KernelIdeal Cert.KernelIdeal.Gen Cert.KernelIdeal.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Facts
variable (d : Dev nD) (L : grid0.Coords)
  (f42 : Buf (Elt F) (loc42 d)) (f26 : Buf (Elt F) (loc26 d)) (f33 : Buf (Elt F) (loc33 d)) (f40 : Buf (Elt F) (loc40 d))

/-! ## Where a worker's row of a per-worker vector sits -/

omit [FloatOps F] in
/-- The squeeze matches lane k of sixteen with entry (0, k) of the 1 × 16 rectangle. -/
theorem squeeze_lane (h : S16.numel = S1x16.numel) (k : Fin 16) :
    Shape.reshapeEquiv h (ValueIdx.ix1 k : S16.Idx) = (ValueIdx.ix2 (0 : Fin 1) k : S1x16.Idx) :=
  Shape.reshapeEquiv_eq_of_rowMajor h (by
    rw [Shape.rowMajor_val_two, Shape.rowMajor_val_one]
    show 0 * 16 + k.val = k.val
    omega)

omit [FloatOps F] in
/-- The worker's 1 × 16 rectangle places (0, k) at (w, k). -/
theorem wrow_emb (k : Fin 16) :
    (Rect.unit (s := S32x16) (k0_off2 L) S1x16.size (k0_off2_inb L)).emb (ValueIdx.ix2 (0 : Fin 1) k : S1x16.Idx)
      = (ValueIdx.ix2 (wid L) k : S32x16.Idx) := by
  funext a
  apply Fin.ext
  rw [Rect.emb_apply]
  match a with
  | ⟨0, _⟩ =>
    show k0_off2 L 0 + 1 * 0 = 16 * (L 0).val + (L 1).val
    rw [k0_off2_eq]
    show (16 * (L 0).val + (L 1).val) + 1 * 0 = 16 * (L 0).val + (L 1).val
    omega
  | ⟨1, _⟩ =>
    show k0_off2 L 1 + 1 * k.val = k.val
    rw [k0_off2_eq]
    show 0 + 1 * k.val = k.val
    omega

omit [FloatOps F] in
theorem rowNV_emb (k : Fin 16) : (rowNV L).view.emb (ValueIdx.ix1 k) = (ValueIdx.ix2 (wid L) k : S32x16.Idx) := by
  show (Rect.unit (s := S32x16) (k0_off2 L) S1x16.size (k0_off2_inb L)).emb (Shape.reshapeEquiv squeezes_S1x16_S16.numel_eq (ValueIdx.ix1 k)) = _
  rw [squeeze_lane, wrow_emb]
omit [FloatOps F] in
theorem rowWV_emb (k : Fin 16) : (rowWV L).view.emb (ValueIdx.ix1 k) = (ValueIdx.ix2 (wid L) k : S32x16.Idx) := by
  show (Rect.unit (s := S32x16) (k0_off2 L) S1x16.size (k0_off2_inb L)).emb (Shape.reshapeEquiv squeezes_S1x16_S16.numel_eq (ValueIdx.ix1 k)) = _
  rw [squeeze_lane, wrow_emb]
omit [FloatOps F] in
theorem rowGV_emb (k : Fin 16) : (rowGV L).view.emb (ValueIdx.ix1 k) = (ValueIdx.ix2 (wid L) k : S32x16.Idx) := by
  show (Rect.unit (s := S32x16) (k0_off2 L) S1x16.size (k0_off2_inb L)).emb (Shape.reshapeEquiv squeezes_S1x16_S16.numel_eq (ValueIdx.ix1 k)) = _
  rw [squeeze_lane, wrow_emb]

/-! ## The table rows the indexed copy fetches are in range -/

theorem hin_of (hg : ∀ p, (f40 p).toNat < 8192) (be : Buf (Elt F) ((V d (cV L) (jV L)).loc cc0_scratch4)) (x : S16.Idx) :
    ((Memref.whole cc0_scratch4 : Memref sig .scVector .vmem S16 .i32).view.read (Elt F)
        (View.write (Elt F) (Memref.whole cc0_scratch4 : Memref sig .scVector .vmem S16 .i32).view be
          (ReadAs.same.apply (View.read (Elt F) (rowGV L).view f40)) Finset.univ) x).toNat
      < S8192x128.size gathers_S8192x128_S16x128.axis := by
  have e : View.write (Elt F) (Memref.whole cc0_scratch4 : Memref sig .scVector .vmem S16 .i32).view be
      (ReadAs.same.apply (View.read (Elt F) (rowGV L).view f40)) Finset.univ = View.read (Elt F) (rowGV L).view f40 :=
    View.write_whole_univ _ _ _
  rw [e]
  show ((View.read (Elt F) (rowGV L).view f40) x).toNat < 8192
  rw [View.read_apply]
  exact hg _

/-! ## The two vectors the body loads once -/

omit [FloatOps F] in
/-- A load of all sixteen lanes from offset 0 reads lane j at j. -/
theorem rS16_idx (j : S16.Idx) : (Rect.unit (s := S16) ![0] S16.size inb_S16_S16_0).toLoadRect.idx j = j := by
  funext a
  apply Fin.ext
  obtain rfl : a = 0 := Subsingleton.elim _ _
  show 0 + 1 * (j 0).val = (j 0).val
  omega

theorem nv_lane (bc : Buf (Elt F) ((V d (cV L) (jV L)).loc cc0_scratch2)) (k : Fin 16) :
    ((Memref.whole cc0_scratch2 : Memref sig .scVector .vmem S16 .i32).view.readAt (Elt F)
        (Rect.unit (s := S16) ![0] S16.size inb_S16_S16_0).toLoadRect
        (View.write (Elt F) (Memref.whole cc0_scratch2 : Memref sig .scVector .vmem S16 .i32).view bc
          (ReadAs.same.apply (View.read (Elt F) (rowNV L).view f26)) Finset.univ)) (ValueIdx.ix1 k)
      = f26 (ValueIdx.ix2 (wid L) k) := by
  have e : View.write (Elt F) (Memref.whole cc0_scratch2 : Memref sig .scVector .vmem S16 .i32).view bc
      (ReadAs.same.apply (View.read (Elt F) (rowNV L).view f26)) Finset.univ = View.read (Elt F) (rowNV L).view f26 :=
    View.write_whole_univ _ _ _
  rw [e, View.readAt_apply, rS16_idx]
  show View.read (Elt F) (rowNV L).view f26 (ValueIdx.ix1 k) = _
  rw [View.read_apply, rowNV_emb]
  rfl

theorem wv_lane (bd : Buf (Elt F) ((V d (cV L) (jV L)).loc cc0_scratch3)) (k : Fin 16) :
    ((Memref.whole cc0_scratch3 : Memref sig .scVector .vmem S16 .f32).view.readAt (Elt F)
        (Rect.unit (s := S16) ![0] S16.size inb_S16_S16_0).toLoadRect
        (View.write (Elt F) (Memref.whole cc0_scratch3 : Memref sig .scVector .vmem S16 .f32).view bd
          (ReadAs.same.apply (View.read (Elt F) (rowWV L).view f33)) Finset.univ)) (ValueIdx.ix1 k)
      = f33 (ValueIdx.ix2 (wid L) k) := by
  have e : View.write (Elt F) (Memref.whole cc0_scratch3 : Memref sig .scVector .vmem S16 .f32).view bd
      (ReadAs.same.apply (View.read (Elt F) (rowWV L).view f33)) Finset.univ = View.read (Elt F) (rowWV L).view f33 :=
    View.write_whole_univ _ _ _
  rw [e, View.readAt_apply, rS16_idx]
  show View.read (Elt F) (rowWV L).view f33 (ValueIdx.ix1 k) = _
  rw [View.read_apply, rowWV_emb]
  rfl

/-! ## What a chunk's copy lands -/

omit [FloatOps F] in
/-- The 32-row slice at row offset 32·(32·w + g) places (r, n) at (1024·w + 32·g + r, n). -/
theorem chunk_emb (off : Fin 2 → Nat) (h : ∀ a, off a + S32x1024.size a ≤ S32768x1024.size a) (g : Fin 32)
    (hoff : off = ![32 * (chunkOf (wid L) g).val, 0]) (r : Fin 32) (n : Fin 1024) :
    (Rect.unit (s := S32768x1024) off S32x1024.size h).emb (ValueIdx.ix2 r n : S32x1024.Idx)
      = (ValueIdx.ix2 (⟨1024 * (wid L).val + 32 * g.val + r.val, by have := (wid L).isLt; omega⟩ : Fin 32768) n : S32768x1024.Idx) := by
  subst hoff
  funext a
  apply Fin.ext
  rw [Rect.emb_apply]
  match a with
  | ⟨0, _⟩ =>
    show 32 * (chunkOf (wid L) g).val + 1 * r.val = 1024 * (wid L).val + 32 * g.val + r.val
    simp only [chunkOf]
    omega
  | ⟨1, _⟩ =>
    show 0 + 1 * n.val = n.val
    omega

theorem landed_of_copy (off : Fin 2 → Nat) (h : ∀ a, off a + S32x1024.size a ≤ S32768x1024.size a) (g : Fin 32)
    (hoff : off = ![32 * (chunkOf (wid L) g).val, 0]) :
    Landed d L f42 g (ReadAs.same.apply (View.read (Elt F)
      ((Memref.whole main_v42_scv : Memref sig .scVector .hbm S32768x1024 .f32).slice
        (Rect.unit (s := S32768x1024) off S32x1024.size h) (fun _ => rfl)).view f42)) := by
  intro r n
  show View.read (Elt F) ((Memref.whole main_v42_scv : Memref sig .scVector .hbm S32768x1024 .f32).slice
        (Rect.unit (s := S32768x1024) off S32x1024.size h) (fun _ => rfl)).view f42 (ValueIdx.ix2 r n) = _
  rw [View.read_apply]
  show f42 ((Rect.unit (s := S32768x1024) off S32x1024.size h).emb (ValueIdx.ix2 r n)) = _
  rw [chunk_emb L off h g hoff r n]

theorem flightA_restate (off : Fin 2 → Nat) (h : ∀ a, off a + S32x1024.size a ≤ S32768x1024.size a) (g : Fin 32)
    (hoff : off = ![32 * (chunkOf (wid L) g).val, 0]) (pa : Buf (Elt F) ((V d (cV L) (jV L)).loc cc0_scratch0)) :
    (iprop((scrA d L ↦{fullShare} View.write (Elt F) (Memref.whole cc0_scratch0 : Memref sig .scVector .vmem S32x1024 .f32).view pa
            (ReadAs.same.apply (View.read (Elt F) ((Memref.whole main_v42_scv : Memref sig .scVector .hbm S32768x1024 .f32).slice
              (Rect.unit (s := S32768x1024) off S32x1024.size h) (fun _ => rfl)).view f42)) Finset.univ)
        ∗ (((Memref.whole main_v42_scv : Memref sig .scVector .hbm S32768x1024 .f32).slice
              (Rect.unit (s := S32768x1024) off S32x1024.size h) (fun _ => rfl)).view.loc (V d (cV L) (jV L))
            ↦[((Memref.whole main_v42_scv : Memref sig .scVector .hbm S32768x1024 .f32).slice
              (Rect.unit (s := S32768x1024) off S32x1024.size h) (fun _ => rfl)).view.set]{fullShare} f42)) : sProp 𝕄)
      ⊢ iprop((∃ c, ⌜Landed d L f42 g c⌝ ∗ scrA d L ↦{fullShare} c) ∗ (loc42 d ↦[chunkSet (chunkOf (wid L) g)]{fullShare} f42)) := by
  have e : View.write (Elt F) (Memref.whole cc0_scratch0 : Memref sig .scVector .vmem S32x1024 .f32).view pa
      (ReadAs.same.apply (View.read (Elt F) ((Memref.whole main_v42_scv : Memref sig .scVector .hbm S32768x1024 .f32).slice
        (Rect.unit (s := S32768x1024) off S32x1024.size h) (fun _ => rfl)).view f42)) Finset.univ
      = ReadAs.same.apply (View.read (Elt F) ((Memref.whole main_v42_scv : Memref sig .scVector .hbm S32768x1024 .f32).slice
        (Rect.unit (s := S32768x1024) off S32x1024.size h) (fun _ => rfl)).view f42) :=
    View.write_whole_univ _ _ _
  rw [pts_in d L off h g hoff f42, e]
  iintro ⟨Hs, Hi⟩
  isplitl [Hs]
  · iexists _; isplitr; · ipureintro; exact landed_of_copy d L f42 off h g hoff
    iexact Hs
  · iexact Hi

theorem flightB_restate (off : Fin 2 → Nat) (h : ∀ a, off a + S32x1024.size a ≤ S32768x1024.size a) (g : Fin 32)
    (hoff : off = ![32 * (chunkOf (wid L) g).val, 0]) (pb : Buf (Elt F) ((V d (cV L) (jV L)).loc cc0_scratch1)) :
    (iprop((scrB d L ↦{fullShare} View.write (Elt F) (Memref.whole cc0_scratch1 : Memref sig .scVector .vmem S32x1024 .f32).view pb
            (ReadAs.same.apply (View.read (Elt F) ((Memref.whole main_v42_scv : Memref sig .scVector .hbm S32768x1024 .f32).slice
              (Rect.unit (s := S32768x1024) off S32x1024.size h) (fun _ => rfl)).view f42)) Finset.univ)
        ∗ (((Memref.whole main_v42_scv : Memref sig .scVector .hbm S32768x1024 .f32).slice
              (Rect.unit (s := S32768x1024) off S32x1024.size h) (fun _ => rfl)).view.loc (V d (cV L) (jV L))
            ↦[((Memref.whole main_v42_scv : Memref sig .scVector .hbm S32768x1024 .f32).slice
              (Rect.unit (s := S32768x1024) off S32x1024.size h) (fun _ => rfl)).view.set]{fullShare} f42)) : sProp 𝕄)
      ⊢ iprop((∃ c, ⌜Landed d L f42 g c⌝ ∗ scrB d L ↦{fullShare} c) ∗ (loc42 d ↦[chunkSet (chunkOf (wid L) g)]{fullShare} f42)) := by
  have e : View.write (Elt F) (Memref.whole cc0_scratch1 : Memref sig .scVector .vmem S32x1024 .f32).view pb
      (ReadAs.same.apply (View.read (Elt F) ((Memref.whole main_v42_scv : Memref sig .scVector .hbm S32768x1024 .f32).slice
        (Rect.unit (s := S32768x1024) off S32x1024.size h) (fun _ => rfl)).view f42)) Finset.univ
      = ReadAs.same.apply (View.read (Elt F) ((Memref.whole main_v42_scv : Memref sig .scVector .hbm S32768x1024 .f32).slice
        (Rect.unit (s := S32768x1024) off S32x1024.size h) (fun _ => rfl)).view f42) :=
    View.write_whole_univ _ _ _
  rw [pts_in d L off h g hoff f42, e]
  iintro ⟨Hs, Hi⟩
  isplitl [Hs]
  · iexists _; isplitr; · ipureintro; exact landed_of_copy d L f42 off h g hoff
    iexact Hs
  · iexact Hi

end Facts

end Cert.KernelIdeal.Body

end
-- ==== Proof.BodyFacts2.lean ====
/-
  Values in the worker's body: the table rows it fetched, and the product each lane adds.

  The worker copies, through its sixteen table-row numbers, sixteen rows of the key/value table into a 16 × 128 scratch:
  row k of the scratch is the table's row number gvec[w, k] (a number below 8192, so reducing it into the table's 8192 rows
  changes nothing). For a row x of the memory, lane k then reads the scratch at (k, (x / 64) % 64) — a key entry — and at
  (k, 64 + x % 64) — a value entry — and adds (key entry · weight[w, k]) · value entry: this is Spec.laneVal. The lane is
  masked by "its weight is positive", the first half of Spec.laneOn.
-/
import proofs.«210205_g8383776161859_cont_9to1_m_1272_27_alg».proof.Proof.BodyDefs
import proofs.«210205_g8383776161859_cont_9to1_m_1272_27_alg».proof.Proof.Words
import proofs.«210205_g8383776161859_cont_9to1_m_1272_27_alg».proof.Proof.Spec

noncomputable section

namespace Cert.KernelIdeal.Body

open Cert.KernelIdeal Cert.KernelIdeal.Gen Cert.KernelIdeal.Tile

open Idealize.ShloMosaic Idealize.ShloMosaic.ValueIdx
open Idealize.ShloMosaic.SparseCore (S V T)

variable {F : FTy → Type} [FloatOps F]

/-! ### The table rows a worker fetched -/

section Lanes
variable (d : Dev nD) (L : grid0.Coords) (f45 : Buf (Elt F) (loc45 d)) (f33 : Buf (Elt F) (loc33 d)) (f40 : Buf (Elt F) (loc40 d))

/-- The 16 × 128 scratch holds, in row k, the table row that lane k of the worker names. -/
def KVRows (kvc : Vec F S16x128 .f32) : Prop :=
  ∀ (k : Fin 16) (c : Fin 128), kvc (ix2 k c) = f45 (ix2 (Cert.Spec.gRow f40 (wid L) k) c)

/-- The lane numbers 0 … 15, read at lane k. -/
theorem iota_lane (hι : S16.Iotas .scVector 32 [0]) (k : Fin 16) : (iota .scVector S16 32 [0] hι (ix1 k)).toNat = k.val := by
  show (BitVec.ofNat 32 (0 * 16 + k.val)).toNat = k.val
  rw [BitVec.toNat_ofNat]
  have := k.isLt
  omega

/-- An indexed load of the scratch at (lane, w), read at lane k: the scratch at (k, w). -/
theorem idxAt_lane (hι : S16.Iotas .scVector 32 [0]) (w : BitVec 32) (c : Fin 128) (hw : w.toNat = c.val)
    (h : ∀ a x, ((![iota .scVector S16 32 [0] hι, broadcast S16 w] : Fin S16x128.rank → IVec S16 32) a x).toNat < S16x128.size a) (k : Fin 16) :
    idxAt (s := S16x128) ![iota .scVector S16 32 [0] hι, broadcast S16 w] h (ix1 k) = ix2 k c := by
  funext a
  refine Fin.ext ?_
  match a with
  | ⟨0, _⟩ => exact iota_lane hι k
  | ⟨1, _⟩ => exact hw

variable {d L f45 f33 f40}

/-- The product a lane adds is Spec.laneVal: (key entry · weight) · value entry, the key entry at column (x / 64) % 64 and
    the value entry at column 64 + x % 64 of the lane's table row. -/
theorem pay3_lane (kvc : Vec F S16x128 .f32) (hkv : KVRows d L f45 f40 kvc) (v13 : Vec F S16 .f32)
    (hv13 : ∀ k : Fin 16, v13 (ix1 k) = f33 (ix2 (wid L) k)) (hι : S16.Iotas .scVector 32 [0]) (rw cw : BitVec 32) (x : Fin 32768)
    (hr : rw.toNat = x.val / 64 % 64) (hc : cw.toNat = 64 + x.val % 64)
    (h1 : ∀ a y, ((![iota .scVector S16 32 [0] hι, broadcast S16 rw] : Fin S16x128.rank → IVec S16 32) a y).toNat < S16x128.size a)
    (h2 : ∀ a y, ((![iota .scVector S16 32 [0] hι, broadcast S16 cw] : Fin S16x128.rank → IVec S16 32) a y).toNat < S16x128.size a)
    (k : Fin 16) :
    k0_pay3 v13 (loadIdx kvc ![iota .scVector S16 32 [0] hι, broadcast S16 rw] h1)
        (loadIdx kvc ![iota .scVector S16 32 [0] hι, broadcast S16 cw] h2) (ix1 k)
      = Cert.Spec.laneVal f45 f33 f40 (wid L) x k := by
  have e1 := idxAt_lane hι rw (⟨x.val / 64 % 64, by omega⟩ : Fin 128) hr h1 k
  have e2 := idxAt_lane hι cw (⟨64 + x.val % 64, by omega⟩ : Fin 128) hc h2 k
  show FloatOps.mulf (FloatOps.mulf (kvc (idxAt _ h1 (ix1 k))) (v13 (ix1 k))) (kvc (idxAt _ h2 (ix1 k))) = _
  rw [e1, e2, hkv, hkv, hv13]
  rfl

theorem pay2_lane (kvc : Vec F S16x128 .f32) (hkv : KVRows d L f45 f40 kvc) (v13 : Vec F S16 .f32)
    (hv13 : ∀ k : Fin 16, v13 (ix1 k) = f33 (ix2 (wid L) k)) (hι : S16.Iotas .scVector 32 [0]) (rw cw : BitVec 32) (x : Fin 32768)
    (hr : rw.toNat = x.val / 64 % 64) (hc : cw.toNat = 64 + x.val % 64)
    (h1 : ∀ a y, ((![iota .scVector S16 32 [0] hι, broadcast S16 rw] : Fin S16x128.rank → IVec S16 32) a y).toNat < S16x128.size a)
    (h2 : ∀ a y, ((![iota .scVector S16 32 [0] hι, broadcast S16 cw] : Fin S16x128.rank → IVec S16 32) a y).toNat < S16x128.size a)
    (k : Fin 16) :
    k0_pay2 v13 (loadIdx kvc ![iota .scVector S16 32 [0] hι, broadcast S16 rw] h1)
        (loadIdx kvc ![iota .scVector S16 32 [0] hι, broadcast S16 cw] h2) (ix1 k)
      = Cert.Spec.laneVal f45 f33 f40 (wid L) x k :=
  pay3_lane kvc hkv v13 hv13 hι rw cw x hr hc h1 h2 k

/-- The mask of a lane: its weight is positive. -/
theorem pay1_lane (v13 : Vec F S16 .f32) (hv13 : ∀ k : Fin 16, v13 (ix1 k) = f33 (ix2 (wid L) k)) (k : Fin 16) :
    k0_pay1 v13 (ix1 k)
      = FloatOps.cmpf (F := F) (φ := .f32) .ogt (f33 (ix2 (wid L) k)) (Scalar.ofBits .f32 0x00000000#32) := by
  show FloatOps.cmpf (F := F) (φ := .f32) .ogt (v13 (ix1 k)) (Scalar.ofBits .f32 0x00000000#32) = _
  rw [hv13]

end Lanes

/-! ### What the indirect copy leaves in the 16 × 128 scratch -/

section Gather
variable (d : Dev nD) (L : grid0.Coords) (f45 : Buf (Elt F) (loc45 d)) (f40 : Buf (Elt F) (loc40 d))

/-- The table read through the program's whole-array slice is the table. -/
theorem read_kvSl (y : S8192x128.Idx) : View.read (Elt F) kvSl.view f45 y = f45 y := by
  have e : kvSl.view.emb y = y := by
    funext a; refine Fin.ext ?_
    match a with
    | ⟨0, _⟩ => show 0 + 1 * (y 0).val = (y 0).val; omega
    | ⟨1, _⟩ => show 0 + 1 * (y 1).val = (y 1).val; omega
  rw [View.read_apply, e]
  rfl

/-- The worker's row of the table-row numbers, read through the program's slice: entry k is the number for lane k. -/
theorem read_rowGV (k : Fin 16) : View.read (Elt F) (rowGV L).view f40 (ix1 k) = f40 (ix2 (wid L) k) := by
  have e : (rowGV L).view.emb (ix1 k) = ix2 (wid L) k := by
    have hq : Shape.reshapeEquiv (s := S1x16) (s' := S16) squeezes_S1x16_S16.numel_eq (ix1 k) = ix2 (0 : Fin 1) k :=
      Shape.reshapeEquiv_eq_of_rowMajor _ (by
        rw [Shape.rowMajor_val_two, Shape.rowMajor_val_one]
        show 0 * 16 + k.val = k.val
        omega)
    show (Rect.unit (s := S32x16) (k0_off2 L) S1x16.size (k0_off2_inb L)).emb
      (Shape.reshapeEquiv (s := S1x16) (s' := S16) squeezes_S1x16_S16.numel_eq (ix1 k)) = _
    rw [hq]
    have ho := k0_off2_eq L
    funext a; refine Fin.ext ?_
    match a with
    | ⟨0, _⟩ =>
      show k0_off2 L 0 + 1 * 0 = 16 * (L 0).val + (L 1).val
      rw [ho]; simp
    | ⟨1, _⟩ =>
      show k0_off2 L 1 + 1 * k.val = k.val
      rw [ho]; simp
  rw [View.read_apply, e]
  rfl

/-- Entry k of a list of sixteen words, in row-major order, is the word at lane k. -/
theorem rows_lane {o z : ℕ} (idx : S16.Idx → Elt F .i32) (hn : S16.numel = o) (h : ∀ x, (idx x).toNat < z) (k : Fin o)
    (hk : k.val < 16) : (SparseCore.rows idx hn h k).val = (idx (ix1 (⟨k.val, hk⟩ : Fin 16))).toNat := by
  unfold SparseCore.rows
  show (idx (S16.rowMajor.symm (k.cast hn.symm))).toNat = _
  congr 2
  refine (Equiv.symm_apply_eq _).mpr (Fin.ext ?_)
  rw [Shape.rowMajor_val_one]
  rfl

/-- Row k of what the indirect copy delivers is the table row that lane k's number names. -/
theorem kvrows_of_gather (hg : ∀ p, (f40 p).toNat < 8192)
    (be : (Memref.whole cc0_scratch4 : Memref sig .scVector .vmem S16 .i32).view.ty.Contents (Elt F))
    (hn5 : S16.numel = S16x128.size gathers_S8192x128_S16x128.axis')
    (hin : ∀ x, ((View.read (Elt F) (Memref.whole cc0_scratch4 : Memref sig .scVector .vmem S16 .i32).view
        (View.write (Elt F) (Memref.whole cc0_scratch4 : Memref sig .scVector .vmem S16 .i32).view be
          (ReadAs.same.apply (View.read (Elt F) (rowGV L).view f40)) Finset.univ)) x).toNat
        < S8192x128.size gathers_S8192x128_S16x128.axis) :
    KVRows d L f45 f40
      ((Memref.whole cc0_scratch5 : Memref sig .scVector .vmem S16x128 .f32).view.writes (Elt F)
        (Memref.whole cc0_scratch5 : Memref sig .scVector .vmem S16x128 .f32).view.junk
        [⟨Rect.whole cc0_scratch5.ty.shape,
          SparseCore.gatherPayload gathers_S8192x128_S16x128 (View.read (Elt F) kvSl.view f45)
            (SparseCore.rows (View.read (Elt F) (Memref.whole cc0_scratch4 : Memref sig .scVector .vmem S16 .i32).view
              (View.write (Elt F) (Memref.whole cc0_scratch4 : Memref sig .scVector .vmem S16 .i32).view be
                (ReadAs.same.apply (View.read (Elt F) (rowGV L).view f40)) Finset.univ)) hn5 hin)⟩]) := by
  intro k c
  have hread : View.read (Elt F) (Memref.whole cc0_scratch4 : Memref sig .scVector .vmem S16 .i32).view
      (View.write (Elt F) (Memref.whole cc0_scratch4 : Memref sig .scVector .vmem S16 .i32).view be
        (ReadAs.same.apply (View.read (Elt F) (rowGV L).view f40)) Finset.univ)
      = View.read (Elt F) (rowGV L).view f40 := View.read_write_univ _ _
  have h1 := View.read_writes_cons_emb (Memref.whole cc0_scratch5 : Memref sig .scVector .vmem S16x128 .f32).view
    (Memref.whole cc0_scratch5 : Memref sig .scVector .vmem S16x128 .f32).view.junk (Rect.whole cc0_scratch5.ty.shape)
    (SparseCore.gatherPayload gathers_S8192x128_S16x128 (View.read (Elt F) kvSl.view f45)
      (SparseCore.rows (View.read (Elt F) (Memref.whole cc0_scratch4 : Memref sig .scVector .vmem S16 .i32).view
        (View.write (Elt F) (Memref.whole cc0_scratch4 : Memref sig .scVector .vmem S16 .i32).view be
          (ReadAs.same.apply (View.read (Elt F) (rowGV L).view f40)) Finset.univ)) hn5 hin)) [] (ix2 k c)
  rw [Rect.emb_whole_apply] at h1
  refine h1.trans ?_
  unfold SparseCore.gatherPayload
  rw [read_kvSl]
  congr 1
  funext b; refine Fin.ext ?_
  match b with
  | ⟨0, _⟩ =>
    show (SparseCore.rows _ hn5 hin k).val = (f40 (ix2 (wid L) k)).toNat % 8192
    rw [rows_lane _ hn5 hin k k.isLt, hread, read_rowGV, Nat.mod_eq_of_lt (hg _)]
  | ⟨1, _⟩ => rfl

end Gather

end Cert.KernelIdeal.Body

end
-- ==== Proof.StoreIdx.lean ====
/-
  An indexed add-store of sixteen lanes, read entry by entry, and thirty-two of them composed.

  The store takes its lanes in ascending order; a lane whose mask bit is set replaces (or, with add, adds onto) the
  entry its index vectors name. Read at one entry j, that fold over whole arrays is a fold over the values at j: a lane
  touches j exactly when its bit is set and its indices are j's coordinates. For a 32 × 1024 scratch, a store whose row
  index is rl in every lane, whose column index in lane k is the lane's slot number, whose mask is "the lane's weight is
  positive" and whose values are the lanes' contributions is, in row rl, one row update (the fold of the landing
  lanes over what was there) and leaves every other row alone. Thirty-two such stores, row 0 to row 31, turn a block of
  32 landed rows into the 32 updated rows.
-/
import proofs.«210205_g8383776161859_cont_9to1_m_1272_27_alg».proof.Proof.Spec
import Idealize.ShloMosaic.PureOps.ShapeOps

noncomputable section

namespace Cert.Spec

open Idealize.ShloMosaic Idealize.ShloMosaic.ValueIdx

variable {F : FTy → Type} [FloatOps F]

/-! ## Folds -/

/-- A fold whose steps act on functions, read at one argument j, is the fold of the values at j, when each step's
    value at j depends only on the accumulator's value at j. -/
theorem foldl_apply_of_pointwise {α β ι : Type*} (step : (α → β) → ι → α → β) (stepj : β → ι → β) (j : α)
    (hs : ∀ g k, step g k j = stepj (g j) k) (l : List ι) (f : α → β) :
    l.foldl step f j = l.foldl stepj (f j) := by
  induction l generalizing f with
  | nil => rfl
  | cons k l ih => rw [List.foldl_cons, List.foldl_cons, ih, hs]

/-- A fold whose every step returns the accumulator returns the start value. -/
theorem foldl_of_fixed {β ι : Type*} (step : β → ι → β) (hs : ∀ c k, step c k = c) (l : List ι) (a : β) :
    l.foldl step a = a := by
  induction l with
  | nil => rfl
  | cons k l ih => rw [List.foldl_cons, hs, ih]

/-! ## The store at an entry -/

/-- An indexed store read at entry j: the lanes in ascending order, each lane whose mask bit is set and whose
    indices are j's coordinates replacing the value (or adding onto it). -/
theorem storeIdx_apply {s : Shape} {e : EltTy} {d : Fin 1 → Nat} (f : Vec F s e) (idxs : Fin s.rank → IVec ⟨1, d⟩ 32)
    (v : Vec F ⟨1, d⟩ e) (mask : IVec ⟨1, d⟩ 1) (add : Bool) (h : ∀ a x, (idxs a x).toNat < s.size a) (j : s.Idx) :
    storeIdx f idxs v mask add h j
      = (List.finRange (d 0)).foldl (fun g k =>
          if mask (Shape.ofLane k) = 1 ∧ (∀ a, (j a).val = (idxs a (Shape.ofLane k)).toNat)
          then (if add then Elt.idxAdd e g (v (Shape.ofLane k)) else v (Shape.ofLane k)) else g) (f j) := by
  unfold storeIdx
  refine foldl_apply_of_pointwise _ _ j (fun g k => ?_) _ f
  dsimp only
  by_cases hm : mask (Shape.ofLane k) = 1
  · by_cases hj : ∀ a, (j a).val = (idxs a (Shape.ofLane k)).toNat
    · have hji : idxAt idxs h (Shape.ofLane k) = j := funext fun a => Fin.ext (hj a).symm
      have hj' : ∀ a, (j a).val = (idxAt idxs h (Shape.ofLane k) a).val := hj
      rw [if_pos hm, if_pos hj', if_pos (And.intro hm hj), hji]
    · have hj' : ¬ ∀ a, (j a).val = (idxAt idxs h (Shape.ofLane k) a).val := hj
      rw [if_pos hm, if_neg hj', if_neg (fun hc => hj (And.right hc))]
  · rw [if_neg hm, if_neg (fun hc => hm hc.1)]

/-- Lane k of a sixteen-lane vector is the rank-one index with coordinate k. -/
theorem ofLane_eq_ix1 (k : Fin 16) : Shape.ofLane (d := ![16]) k = ix1 k := by
  funext a
  match a with
  | ⟨0, _⟩ => rfl

/-- The same for a sixteen-lane store, its lanes named by their coordinate. -/
theorem storeIdx16_apply {s : Shape} {e : EltTy} (f : Vec F s e) (idxs : Fin s.rank → IVec ⟨1, ![16]⟩ 32)
    (v : Vec F ⟨1, ![16]⟩ e) (mask : IVec ⟨1, ![16]⟩ 1) (add : Bool) (h : ∀ a x, (idxs a x).toNat < s.size a) (j : s.Idx) :
    storeIdx f idxs v mask add h j
      = (List.finRange 16).foldl (fun g (k : Fin 16) =>
          if mask (ix1 k) = 1 ∧ (∀ a, (j a).val = (idxs a (ix1 k)).toNat)
          then (if add then Elt.idxAdd e g (v (ix1 k)) else v (ix1 k)) else g) (f j) :=
  (storeIdx_apply f idxs v mask add h j).trans
    (congrArg (fun st => (List.finRange 16).foldl st (f j)) (funext fun g => funext fun k =>
      congrArg (fun x : (⟨1, ![16]⟩ : Shape).Idx =>
        if mask x = 1 ∧ (∀ a, (j a).val = (idxs a x).toNat) then (if add then Elt.idxAdd e g (v x) else v x) else g)
        (ofLane_eq_ix1 k)))

/-! ## One store on the 32 × 1024 scratch -/

open Classical in
/-- A row's update with its worker named: for a row x of worker w, the fold of w's landing lanes over what is there. -/
theorem rowAt_worker (m2 : Vec F SR .f32) (kv : Vec F SKV .f32) (nv : IVec SW 32) (wv : Vec F SW .f32) (gv : IVec SW 32)
    (x : Fin 32768) (n : Fin 1024) (w : Fin 32) (hw : x.val / 1024 = w.val) :
    rowAt m2 kv nv wv gv x n
      = (List.finRange 16).foldl (fun c k =>
          if laneOn (F := F) nv wv w n k then Elt.idxAdd (F := F) .f32 c (laneVal kv wv gv w x k) else c) (m2 (ix2 x n)) := by
  have e : (⟨x.val / 1024, by omega⟩ : Fin 32) = w := Fin.ext hw
  unfold rowAt
  rw [e]

/-- One add-store of sixteen lanes into the scratch whose row index is rl in every lane, whose column index in lane
    k is the lane's slot number, whose mask is "the lane's weight is positive" and whose values are the lanes'
    contributions to row 1024·w + 32·g + rl: row rl of the scratch, holding that row before, holds the updated row
    after, and every other row is unchanged. -/
theorem store_row (m2 : Vec F SR .f32) (kv : Vec F SKV .f32) (nv : IVec SW 32) (wv : Vec F SW .f32) (gv : IVec SW 32)
    (w g rl : Fin 32)
    (buf : Vec F ⟨2, ![32, 1024]⟩ .f32) (idxs : Fin 2 → IVec ⟨1, ![16]⟩ 32) (v : Vec F ⟨1, ![16]⟩ .f32) (mask : IVec ⟨1, ![16]⟩ 1)
    (h : ∀ a x, (idxs a x).toNat < (⟨2, ![32, 1024]⟩ : Shape).size a)
    (hrow : ∀ x, (idxs 0 x).toNat = rl.val) (hcol : ∀ k : Fin 16, idxs 1 (ix1 k) = nv (ix2 w k))
    (hv : ∀ k : Fin 16, v (ix1 k) = laneVal kv wv gv w (⟨1024 * w.val + 32 * g.val + rl.val, by omega⟩ : Fin 32768) k)
    (hmask : ∀ k : Fin 16, mask (ix1 k) = FloatOps.cmpf (F := F) (φ := .f32) .ogt (wv (ix2 w k)) (Scalar.ofBits .f32 0x00000000#32))
    (hbuf : ∀ n : Fin 1024, buf (ix2 rl n) = m2 (ix2 (⟨1024 * w.val + 32 * g.val + rl.val, by omega⟩ : Fin 32768) n)) :
    (∀ n : Fin 1024, storeIdx buf idxs v mask true h (ix2 rl n)
        = rowAt m2 kv nv wv gv (⟨1024 * w.val + 32 * g.val + rl.val, by omega⟩ : Fin 32768) n)
    ∧ (∀ (r : Fin 32) (n : Fin 1024), r ≠ rl → storeIdx buf idxs v mask true h (ix2 r n) = buf (ix2 r n)) := by
  constructor
  · intro n
    rw [storeIdx16_apply, hbuf n,
      rowAt_worker m2 kv nv wv gv _ n w (by show (1024 * w.val + 32 * g.val + rl.val) / 1024 = w.val; omega)]
    refine congrArg (fun st => (List.finRange 16).foldl st _) (funext fun c => funext fun k => ?_)
    have hc : (mask (ix1 k) = 1 ∧ ∀ a : Fin 2, ((ix2 rl n : (⟨2, ![32, 1024]⟩ : Shape).Idx) a).val = (idxs a (ix1 k)).toNat)
        ↔ laneOn (F := F) nv wv w n k := by
      unfold laneOn
      rw [hmask k]
      constructor
      · rintro ⟨h1, h2⟩
        refine ⟨h1, ?_⟩
        have h3 : n.val = (idxs 1 (ix1 k)).toNat := h2 1
        rw [hcol k] at h3
        exact h3.symm
      · rintro ⟨h1, h2⟩
        refine ⟨h1, fun a => ?_⟩
        match a with
        | ⟨0, _⟩ => exact (hrow (ix1 k)).symm
        | ⟨1, _⟩ =>
          show n.val = (idxs 1 (ix1 k)).toNat
          rw [hcol k]
          exact h2.symm
    rw [hv k]
    classical
    exact if_congr hc (if_pos rfl) rfl
  · intro r n hr
    rw [storeIdx16_apply]
    refine foldl_of_fixed _ (fun c k => if_neg ?_) _ _
    rintro ⟨-, h2⟩
    have h3 : r.val = (idxs 0 (ix1 k)).toNat := h2 0
    rw [hrow] at h3
    exact hr (Fin.ext h3)

/-! ## The thirty-two stores of a block of rows -/

/-- Starting from a scratch holding rows 1024·w + 32·g … + 31 as they landed, and storing row 0, row 1, … in turn,
    after k stores the first k rows of the scratch hold their updated rows and the rest are as they landed. -/
theorem store_rows (m2 : Vec F SR .f32) (kv : Vec F SKV .f32) (nv : IVec SW 32) (wv : Vec F SW .f32) (gv : IVec SW 32)
    (w g : Fin 32) (landed : Vec F ⟨2, ![32, 1024]⟩ .f32) (bufs : ℕ → Vec F ⟨2, ![32, 1024]⟩ .f32)
    (h0 : bufs 0 = landed)
    (hland : ∀ (r : Fin 32) (n : Fin 1024),
      landed (ix2 r n) = m2 (ix2 (⟨1024 * w.val + 32 * g.val + r.val, by omega⟩ : Fin 32768) n))
    (hstep : ∀ rl : Fin 32, ∃ (idxs : Fin 2 → IVec ⟨1, ![16]⟩ 32) (v : Vec F ⟨1, ![16]⟩ .f32) (mask : IVec ⟨1, ![16]⟩ 1)
        (h : ∀ a x, (idxs a x).toNat < (⟨2, ![32, 1024]⟩ : Shape).size a),
        (∀ x, (idxs 0 x).toNat = rl.val) ∧ (∀ k : Fin 16, idxs 1 (ix1 k) = nv (ix2 w k))
        ∧ (∀ k : Fin 16, v (ix1 k) = laneVal kv wv gv w (⟨1024 * w.val + 32 * g.val + rl.val, by omega⟩ : Fin 32768) k)
        ∧ (∀ k : Fin 16, mask (ix1 k)
            = FloatOps.cmpf (F := F) (φ := .f32) .ogt (wv (ix2 w k)) (Scalar.ofBits .f32 0x00000000#32))
        ∧ bufs (rl.val + 1) = storeIdx (bufs rl.val) idxs v mask true h) :
    ∀ k, k ≤ 32 → ∀ (r : Fin 32) (n : Fin 1024),
      bufs k (ix2 r n) = if r.val < k
        then rowAt m2 kv nv wv gv (⟨1024 * w.val + 32 * g.val + r.val, by omega⟩ : Fin 32768) n else landed (ix2 r n) := by
  intro k
  induction k with
  | zero =>
    intro _ r n
    rw [h0, if_neg (Nat.not_lt_zero _)]
  | succ k ih =>
    intro hk r n
    have ihk := ih (by omega)
    obtain ⟨idxs, v, mask, h, hrow, hcol, hv, hmask, hst⟩ := hstep ⟨k, by omega⟩
    have hbuf : ∀ n : Fin 1024, bufs k (ix2 (⟨k, by omega⟩ : Fin 32) n)
        = m2 (ix2 (⟨1024 * w.val + 32 * g.val + k, by omega⟩ : Fin 32768) n) := by
      intro n
      rw [ihk ⟨k, by omega⟩ n, if_neg (Nat.lt_irrefl k)]
      exact hland ⟨k, by omega⟩ n
    obtain ⟨hrl, hoth⟩ := store_row m2 kv nv wv gv w g ⟨k, by omega⟩ (bufs k) idxs v mask h hrow hcol hv hmask hbuf
    show bufs (k + 1) (ix2 r n) = _
    rw [hst]
    by_cases hr : r = ⟨k, by omega⟩
    · subst hr
      rw [hrl n, if_pos (Nat.lt_succ_self k)]
    · have hne : r.val ≠ k := fun hc => hr (Fin.ext hc)
      rw [hoth r n hr, ihk r n]
      by_cases hlt : r.val < k
      · rw [if_pos hlt, if_pos (by omega)]
      · rw [if_neg hlt, if_neg (by omega)]

/-- After all thirty-two stores every row of the scratch holds its updated row. -/
theorem store_rows_all (m2 : Vec F SR .f32) (kv : Vec F SKV .f32) (nv : IVec SW 32) (wv : Vec F SW .f32) (gv : IVec SW 32)
    (w g : Fin 32) (landed : Vec F ⟨2, ![32, 1024]⟩ .f32) (bufs : ℕ → Vec F ⟨2, ![32, 1024]⟩ .f32)
    (h0 : bufs 0 = landed)
    (hland : ∀ (r : Fin 32) (n : Fin 1024),
      landed (ix2 r n) = m2 (ix2 (⟨1024 * w.val + 32 * g.val + r.val, by omega⟩ : Fin 32768) n))
    (hstep : ∀ rl : Fin 32, ∃ (idxs : Fin 2 → IVec ⟨1, ![16]⟩ 32) (v : Vec F ⟨1, ![16]⟩ .f32) (mask : IVec ⟨1, ![16]⟩ 1)
        (h : ∀ a x, (idxs a x).toNat < (⟨2, ![32, 1024]⟩ : Shape).size a),
        (∀ x, (idxs 0 x).toNat = rl.val) ∧ (∀ k : Fin 16, idxs 1 (ix1 k) = nv (ix2 w k))
        ∧ (∀ k : Fin 16, v (ix1 k) = laneVal kv wv gv w (⟨1024 * w.val + 32 * g.val + rl.val, by omega⟩ : Fin 32768) k)
        ∧ (∀ k : Fin 16, mask (ix1 k)
            = FloatOps.cmpf (F := F) (φ := .f32) .ogt (wv (ix2 w k)) (Scalar.ofBits .f32 0x00000000#32))
        ∧ bufs (rl.val + 1) = storeIdx (bufs rl.val) idxs v mask true h)
    (r : Fin 32) (n : Fin 1024) :
    bufs 32 (ix2 r n) = rowAt m2 kv nv wv gv (⟨1024 * w.val + 32 * g.val + r.val, by omega⟩ : Fin 32768) n := by
  rw [store_rows m2 kv nv wv gv w g landed bufs h0 hland hstep 32 (le_refl _) r n, if_pos r.isLt]

end Cert.Spec

end
-- ==== Proof.BodyFacts3.lean ====
/-
  The inner loop of the tile body: thirty-two stores turn a landed chunk into its updated rows, and a finished chunk
  written out is the output's chunk.

  "Rows done up to rl": the first rl rows of the 32 × 1024 scratch hold their updated rows, the rest the rows of the
  re-laid memory as they landed. One trip stores row rl: a write of the whole scratch by the indexed add-store of the
  whole scratch read back, which changes row rl into its updated row and no other. A finished chunk copied out through
  the 32-row slice at row offset 32·(32·w + g) puts scratch entry (r, n) at (1024·w + 32·g + r, n), where the
  whole-array result has exactly that row's update.
-/
import proofs.«210205_g8383776161859_cont_9to1_m_1272_27_alg».proof.Proof.BodyDefs
import proofs.«210205_g8383776161859_cont_9to1_m_1272_27_alg».proof.Proof.BodyFacts1
import proofs.«210205_g8383776161859_cont_9to1_m_1272_27_alg».proof.Proof.StoreIdx
import Idealize.ShloMosaic.Lib.Writes

noncomputable section

namespace Cert.KernelIdeal.Body

open Cert.KernelIdeal Cert.KernelIdeal.Gen Cert.KernelIdeal.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Rows
variable (d : Dev nD) (L : grid0.Coords)
  (f42 : Buf (Elt F) (loc42 d)) (f45 : Buf (Elt F) (loc45 d)) (f26 : Buf (Elt F) (loc26 d)) (f33 : Buf (Elt F) (loc33 d))
  (f40 : Buf (Elt F) (loc40 d)) (f46 : Buf (Elt F) (loc46 d))

/-- The first rl rows of the scratch hold the updated rows of chunk g, the others the rows as they landed. -/
def RowsDone (g : Fin 32) (rl : ℕ) (c : Vec F S32x1024 .f32) : Prop :=
  ∀ (r : Fin 32) (n : Fin 1024), c (ValueIdx.ix2 r n)
    = if r.val < rl
      then Cert.Spec.rowAt (F := F) f42 f45 f26 f33 f40 (⟨1024 * (wid L).val + 32 * g.val + r.val, by have := (wid L).isLt; omega⟩ : Fin 32768) n
      else f42 (ValueIdx.ix2 (⟨1024 * (wid L).val + 32 * g.val + r.val, by have := (wid L).isLt; omega⟩ : Fin 32768) n)

theorem rowsDone_zero (g : Fin 32) (c : Vec F S32x1024 .f32) (h : Landed d L f42 g c) : RowsDone d L f42 f45 f26 f33 f40 g 0 c := by
  intro r n
  rw [if_neg (Nat.not_lt_zero _)]
  exact h r n

/-! ## One trip of the inner loop -/

/-- One store of row rl over a scratch whose rows are done up to rl: as a function of the scratch's contents. -/
theorem rowsDone_store (g rl : Fin 32) (c : Vec F S32x1024 .f32) (hc : RowsDone d L f42 f45 f26 f33 f40 g rl.val c)
    (idxs : Fin 2 → IVec S16 32) (v : Vec F S16 .f32) (mask : IVec S16 1) (h : ∀ a x, (idxs a x).toNat < S32x1024.size a)
    (hrow : ∀ x, (idxs 0 x).toNat = rl.val) (hcol : ∀ k : Fin 16, idxs 1 (ValueIdx.ix1 k) = f26 (ValueIdx.ix2 (wid L) k))
    (hv : ∀ k : Fin 16, v (ValueIdx.ix1 k) = Cert.Spec.laneVal f45 f33 f40 (wid L)
      (⟨1024 * (wid L).val + 32 * g.val + rl.val, by have := (wid L).isLt; omega⟩ : Fin 32768) k)
    (hmask : ∀ k : Fin 16, mask (ValueIdx.ix1 k)
      = FloatOps.cmpf (F := F) (φ := .f32) .ogt (f33 (ValueIdx.ix2 (wid L) k)) (Scalar.ofBits .f32 0x00000000#32)) :
    RowsDone d L f42 f45 f26 f33 f40 g (rl.val + 1) (storeIdx c idxs v mask true h) := by
  have hbuf : ∀ n : Fin 1024, c (ValueIdx.ix2 rl n)
      = f42 (ValueIdx.ix2 (⟨1024 * (wid L).val + 32 * g.val + rl.val, by have := (wid L).isLt; omega⟩ : Fin 32768) n) := by
    intro n
    rw [hc rl n, if_neg (Nat.lt_irrefl _)]
  obtain ⟨hrl, hoth⟩ := Cert.Spec.store_row (F := F) f42 f45 f26 f33 f40 (wid L) g rl c idxs v mask h hrow hcol hv hmask hbuf
  intro r n
  by_cases hr : r = rl
  · subst hr
    rw [hrl n, if_pos (Nat.lt_succ_self _)]
  · have hne : r.val ≠ rl.val := fun e => hr (Fin.ext e)
    rw [hoth r n hr, hc r n]
    by_cases hlt : r.val < rl.val
    · rw [if_pos hlt, if_pos (by omega)]
    · rw [if_neg hlt, if_neg (by omega)]

/-- A write of the whole first scratch reads back as the payload. -/
theorem writesA_apply (c : Vec F S32x1024 .f32) (w : S32x1024.Idx → Elt F .f32) (x : S32x1024.Idx) :
    (Memref.whole cc0_scratch0 : Memref sig .scVector .vmem S32x1024 .f32).view.writes (Elt F) c [⟨Rect.whole S32x1024, w⟩] x = w x := by
  have e := View.read_writes_whole (Memref.whole cc0_scratch0 : Memref sig .scVector .vmem S32x1024 .f32).view c w
  rw [View.read_whole] at e
  exact congrFun e x
/-- A write of the whole second scratch reads back as the payload. -/
theorem writesB_apply (c : Vec F S32x1024 .f32) (w : S32x1024.Idx → Elt F .f32) (x : S32x1024.Idx) :
    (Memref.whole cc0_scratch1 : Memref sig .scVector .vmem S32x1024 .f32).view.writes (Elt F) c [⟨Rect.whole S32x1024, w⟩] x = w x := by
  have e := View.read_writes_whole (Memref.whole cc0_scratch1 : Memref sig .scVector .vmem S32x1024 .f32).view c w
  rw [View.read_whole] at e
  exact congrFun e x

/-- A load of the whole first scratch reads its contents. -/
theorem readAtA_whole (c : Vec F S32x1024 .f32) :
    View.readAt (Elt F) (Memref.whole cc0_scratch0 : Memref sig .scVector .vmem S32x1024 .f32).view (LoadRect.whole S32x1024) c = c :=
  Memref.readAt_whole (Elt F) cc0_scratch0 c
theorem readAtB_whole (c : Vec F S32x1024 .f32) :
    View.readAt (Elt F) (Memref.whole cc0_scratch1 : Memref sig .scVector .vmem S32x1024 .f32).view (LoadRect.whole S32x1024) c = c :=
  Memref.readAt_whole (Elt F) cc0_scratch1 c

theorem rowsDone_stepA (g rl : Fin 32) (c : Vec F S32x1024 .f32) (hc : RowsDone d L f42 f45 f26 f33 f40 g rl.val c)
    (idxs : Fin 2 → IVec S16 32) (v : Vec F S16 .f32) (mask : IVec S16 1) (h : ∀ a x, (idxs a x).toNat < S32x1024.size a)
    (hrow : ∀ x, (idxs 0 x).toNat = rl.val) (hcol : ∀ k : Fin 16, idxs 1 (ValueIdx.ix1 k) = f26 (ValueIdx.ix2 (wid L) k))
    (hv : ∀ k : Fin 16, v (ValueIdx.ix1 k) = Cert.Spec.laneVal f45 f33 f40 (wid L)
      (⟨1024 * (wid L).val + 32 * g.val + rl.val, by have := (wid L).isLt; omega⟩ : Fin 32768) k)
    (hmask : ∀ k : Fin 16, mask (ValueIdx.ix1 k)
      = FloatOps.cmpf (F := F) (φ := .f32) .ogt (f33 (ValueIdx.ix2 (wid L) k)) (Scalar.ofBits .f32 0x00000000#32)) :
    RowsDone d L f42 f45 f26 f33 f40 g (rl.val + 1)
      ((Memref.whole cc0_scratch0 : Memref sig .scVector .vmem S32x1024 .f32).view.writes (Elt F) c
        [⟨Rect.whole S32x1024, storeIdx (View.readAt (Elt F) (Memref.whole cc0_scratch0 : Memref sig .scVector .vmem S32x1024 .f32).view
          (LoadRect.whole S32x1024) c) idxs v mask true h⟩]) := by
  have hs := rowsDone_store d L f42 f45 f26 f33 f40 g rl c hc idxs v mask h hrow hcol hv hmask
  intro r n
  rw [writesA_apply, readAtA_whole]
  exact hs r n

theorem rowsDone_stepB (g rl : Fin 32) (c : Vec F S32x1024 .f32) (hc : RowsDone d L f42 f45 f26 f33 f40 g rl.val c)
    (idxs : Fin 2 → IVec S16 32) (v : Vec F S16 .f32) (mask : IVec S16 1) (h : ∀ a x, (idxs a x).toNat < S32x1024.size a)
    (hrow : ∀ x, (idxs 0 x).toNat = rl.val) (hcol : ∀ k : Fin 16, idxs 1 (ValueIdx.ix1 k) = f26 (ValueIdx.ix2 (wid L) k))
    (hv : ∀ k : Fin 16, v (ValueIdx.ix1 k) = Cert.Spec.laneVal f45 f33 f40 (wid L)
      (⟨1024 * (wid L).val + 32 * g.val + rl.val, by have := (wid L).isLt; omega⟩ : Fin 32768) k)
    (hmask : ∀ k : Fin 16, mask (ValueIdx.ix1 k)
      = FloatOps.cmpf (F := F) (φ := .f32) .ogt (f33 (ValueIdx.ix2 (wid L) k)) (Scalar.ofBits .f32 0x00000000#32)) :
    RowsDone d L f42 f45 f26 f33 f40 g (rl.val + 1)
      ((Memref.whole cc0_scratch1 : Memref sig .scVector .vmem S32x1024 .f32).view.writes (Elt F) c
        [⟨Rect.whole S32x1024, storeIdx (View.readAt (Elt F) (Memref.whole cc0_scratch1 : Memref sig .scVector .vmem S32x1024 .f32).view
          (LoadRect.whole S32x1024) c) idxs v mask true h⟩]) := by
  have hs := rowsDone_store d L f42 f45 f26 f33 f40 g rl c hc idxs v mask h hrow hcol hv hmask
  intro r n
  rw [writesB_apply, readAtB_whole]
  exact hs r n

/-! ## A finished chunk written out -/

/-- A payload written through the 32-row slice of the output at row offset 32·(32·w + g), whose entry (r, n) is the
    updated row 1024·w + 32·g + r at column n, leaves the output's chunk at the whole-array result. -/
theorem out_piece_of (off : Fin 2 → Nat) (h : ∀ a, off a + S32x1024.size a ≤ S32768x1024.size a) (g : Fin 32)
    (hoff : off = ![32 * (chunkOf (wid L) g).val, 0]) (P : S32x1024.Idx → Elt F .f32)
    (hP : ∀ (r : Fin 32) (n : Fin 1024), P (ValueIdx.ix2 r n) = Cert.Spec.rowAt (F := F) f42 f45 f26 f33 f40
      (⟨1024 * (wid L).val + 32 * g.val + r.val, by have := (wid L).isLt; omega⟩ : Fin 32768) n) :
    ((((Memref.whole main_v46_scv : Memref sig .scVector .hbm S32768x1024 .f32).slice (Rect.unit (s := S32768x1024) off S32x1024.size h) (fun _ => rfl)).view.loc (V d (cV L) (jV L)) ↦[((Memref.whole main_v46_scv : Memref sig .scVector .hbm S32768x1024 .f32).slice (Rect.unit (s := S32768x1024) off S32x1024.size h) (fun _ => rfl)).view.set]{fullShare}
        ((Memref.whole main_v46_scv : Memref sig .scVector .hbm S32768x1024 .f32).slice (Rect.unit (s := S32768x1024) off S32x1024.size h) (fun _ => rfl)).view.writes (Elt F) f46 [⟨Rect.whole (Rect.unit (s := S32768x1024) off S32x1024.size h).shape, P⟩]) : sProp 𝕄)
      ⊢ (loc46 d ↦[chunkSet (chunkOf (wid L) g)]{fullShare} Cert.Spec.rowsOf (F := F) f42 f45 f26 f33 f40) := by
  rw [pts_out d L off h g hoff]
  refine Entails.of_eq (pointsTo_congr fun i hi => ?_)
  rw [← set_slice46 (Rect.unit (s := S32768x1024) off S32x1024.size h) (fun _ => rfl) _ (unit_eq_chunk off h _ hoff)] at hi
  obtain ⟨x, -, rfl⟩ := Finset.mem_map.mp hi
  obtain ⟨r, n, rfl⟩ : ∃ (r : Fin 32) (n : Fin 1024), x = ValueIdx.ix2 r n := ⟨x 0, x 1, ValueIdx.eq_ix2 x⟩
  have e := congrFun (View.read_writes_whole ((Memref.whole main_v46_scv : Memref sig .scVector .hbm S32768x1024 .f32).slice (Rect.unit (s := S32768x1024) off S32x1024.size h) (fun _ => rfl)).view f46 P) (ValueIdx.ix2 r n)
  rw [View.read_apply] at e
  rw [cast_eq] at e
  refine e.trans ?_
  rw [hP r n]
  show _ = Cert.Spec.rowsOf (F := F) f42 f45 f26 f33 f40
    ((Rect.unit (s := S32768x1024) off S32x1024.size h).emb (ValueIdx.ix2 r n))
  rw [chunk_emb L off h g hoff r n]
  rfl

theorem out_pieceA (off : Fin 2 → Nat) (h : ∀ a, off a + S32x1024.size a ≤ S32768x1024.size a) (g : Fin 32)
    (hoff : off = ![32 * (chunkOf (wid L) g).val, 0]) (cd : Vec F S32x1024 .f32) (hcd : RowsDone d L f42 f45 f26 f33 f40 g 32 cd) :
    ((((Memref.whole main_v46_scv : Memref sig .scVector .hbm S32768x1024 .f32).slice (Rect.unit (s := S32768x1024) off S32x1024.size h) (fun _ => rfl)).view.loc (V d (cV L) (jV L)) ↦[((Memref.whole main_v46_scv : Memref sig .scVector .hbm S32768x1024 .f32).slice (Rect.unit (s := S32768x1024) off S32x1024.size h) (fun _ => rfl)).view.set]{fullShare}
        ((Memref.whole main_v46_scv : Memref sig .scVector .hbm S32768x1024 .f32).slice (Rect.unit (s := S32768x1024) off S32x1024.size h) (fun _ => rfl)).view.writes (Elt F) f46 [⟨Rect.whole (Rect.unit (s := S32768x1024) off S32x1024.size h).shape,
          ReadAs.same.apply (View.read (Elt F) (Memref.whole cc0_scratch0 : Memref sig .scVector .vmem S32x1024 .f32).view cd)⟩]) : sProp 𝕄)
      ⊢ (loc46 d ↦[chunkSet (chunkOf (wid L) g)]{fullShare} Cert.Spec.rowsOf (F := F) f42 f45 f26 f33 f40) := by
  have e : ReadAs.same.apply (View.read (Elt F) (Memref.whole cc0_scratch0 : Memref sig .scVector .vmem S32x1024 .f32).view cd) = cd :=
    View.read_whole cc0_scratch0 cd
  rw [e]
  exact out_piece_of d L f42 f45 f26 f33 f40 f46 off h g hoff cd fun r n => (hcd r n).trans (if_pos r.isLt)

theorem out_pieceB (off : Fin 2 → Nat) (h : ∀ a, off a + S32x1024.size a ≤ S32768x1024.size a) (g : Fin 32)
    (hoff : off = ![32 * (chunkOf (wid L) g).val, 0]) (cd : Vec F S32x1024 .f32) (hcd : RowsDone d L f42 f45 f26 f33 f40 g 32 cd) :
    ((((Memref.whole main_v46_scv : Memref sig .scVector .hbm S32768x1024 .f32).slice (Rect.unit (s := S32768x1024) off S32x1024.size h) (fun _ => rfl)).view.loc (V d (cV L) (jV L)) ↦[((Memref.whole main_v46_scv : Memref sig .scVector .hbm S32768x1024 .f32).slice (Rect.unit (s := S32768x1024) off S32x1024.size h) (fun _ => rfl)).view.set]{fullShare}
        ((Memref.whole main_v46_scv : Memref sig .scVector .hbm S32768x1024 .f32).slice (Rect.unit (s := S32768x1024) off S32x1024.size h) (fun _ => rfl)).view.writes (Elt F) f46 [⟨Rect.whole (Rect.unit (s := S32768x1024) off S32x1024.size h).shape,
          ReadAs.same.apply (View.read (Elt F) (Memref.whole cc0_scratch1 : Memref sig .scVector .vmem S32x1024 .f32).view cd)⟩]) : sProp 𝕄)
      ⊢ (loc46 d ↦[chunkSet (chunkOf (wid L) g)]{fullShare} Cert.Spec.rowsOf (F := F) f42 f45 f26 f33 f40) := by
  have e : ReadAs.same.apply (View.read (Elt F) (Memref.whole cc0_scratch1 : Memref sig .scVector .vmem S32x1024 .f32).view cd) = cd :=
    View.read_whole cc0_scratch1 cd
  rw [e]
  exact out_piece_of d L f42 f45 f26 f33 f40 f46 off h g hoff cd fun r n => (hcd r n).trans (if_pos r.isLt)

end Rows

end Cert.KernelIdeal.Body

end
-- ==== Proof.BodyKI.lean ====
/-
  The obligation of one worker (`Tile.TileBody`), for the program `KernelIdeal` read at any float instance.

  A worker prefetches its first two chunks of 32 rows into two scratches, copies its row of the three per-worker
  vectors (slot numbers, weights, table rows), gathers the sixteen key/value rows its table rows name, and then, for
  each pair of chunks `2t`, `2t + 1`: waits for the chunk, adds to each of its 32 rows, lane by lane, the weighted
  product of the gathered key entry of the row's `i` and value entry of its `j` at the column the lane's slot number
  names (lanes of weight zero masked), writes the chunk out to its rows of the result, and prefetches chunk `2t + 2`
  (`2t + 3`) into the scratch just freed while any remain. The outer loop's invariant `inv2` holds, before trip `t`,
  each scratch slot with its copy in flight (`slotA`, `slotB`), the gathered rows, the input chunks from `2t + 2` on
  not yet fetched and those below `2t` given back, and the output chunks below `2t` written at the one whole-array
  function `Spec.rowsOf`; the inner loops' invariants (`innerA`, `innerB`) hold the scratch with its rows below the
  trip updated (`RowsDone`). `trip_stepA` / `trip_stepB` are one inner trip's effect on `RowsDone`, from the lane
  lemmas and the reading of the masked add-store at an index.
-/
import proofs.«210205_g8383776161859_cont_9to1_m_1272_27_alg».proof.Proof.BodyDefs
import proofs.«210205_g8383776161859_cont_9to1_m_1272_27_alg».proof.Proof.Words
import proofs.«210205_g8383776161859_cont_9to1_m_1272_27_alg».proof.Proof.BodyFacts1
import proofs.«210205_g8383776161859_cont_9to1_m_1272_27_alg».proof.Proof.BodyFacts2
import proofs.«210205_g8383776161859_cont_9to1_m_1272_27_alg».proof.Proof.BodyFacts3

noncomputable section

namespace Cert.KernelIdeal.Body

open Cert.KernelIdeal Cert.KernelIdeal.Gen Cert.KernelIdeal.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
open Cert.KernelIdeal.Words

section Inv2
variable (d : Dev nD) (L : grid0.Coords) (q : PosShare TreeShare)
  (f42 : Buf (Elt F) (loc42 d)) (f45 : Buf (Elt F) (loc45 d)) (f26 : Buf (Elt F) (loc26 d)) (f33 : Buf (Elt F) (loc33 d))
  (f40 : Buf (Elt F) (loc40 d)) (f46 : Buf (Elt F) (loc46 d))
  (O : CellTallies nD τ sig (HIx 1)) (W : Waits sig (HIx 1))
  (kvc : Buf (Elt F) ((V d (cV L) (jV L)).loc cc0_scratch5))

abbrev scrKV : Loc nD τ sig := (Memref.whole cc0_scratch5 : Memref sig .scVector .vmem S16x128 .f32).view.loc (V d (cV L) (jV L))

/-- Before trip `t`: the two slots; the gathered key/value rows; the input chunks from `2t + 2` on not yet fetched,
    those below `2t` given back; the output chunks below `2t` written, at the one whole-array function, the others
    untouched; the two write-out semaphores at zero; what the subcore owes unchanged but for waits at no index. -/
def inv2 (t : ℕ) (_ : PUnit) : sProp 𝕄 :=
  iprop(Transfers.MayWaits (V d (cV L) (jV L)) (none : HIx 1) O
    ∗ slotA d L f42 t ∗ slotB d L f42 t
    ∗ (scrKV d L ↦{fullShare} kvc)
    ∗ (bigSep (ge (2 * t + 2)) fun g => loc42 d ↦[chunkSet (chunkOf (wid L) g)]{fullShare} f42)
    ∗ (bigSep (lt (2 * t)) fun g => loc42 d ↦[chunkSet (chunkOf (wid L) g)]{fullShare} f42)
    ∗ (bigSep (lt (2 * t)) fun g => loc46 d ↦[chunkSet (chunkOf (wid L) g)]{fullShare} (Cert.Spec.rowsOf (F := F) f42 f45 f26 f33 f40))
    ∗ (bigSep (ge (2 * t)) fun g => loc46 d ↦[chunkSet (chunkOf (wid L) g)]{fullShare} f46)
    ∗ semVal (cell d (cV L) (jV L) cc0_scratch8.sem) 0 ∗ semVal (cell d (cV L) (jV L) cc0_scratch9.sem) 0
    ∗ ∃ W', ⌜∀ p ∈ W', p ∈ W ∨ p.2 = none⌝ ∗ owes (V d (cV L) (jV L)) O W')
end Inv2

section SlotLems
variable (d : Dev nD) (L : grid0.Coords) (f42 : Buf (Elt F) (loc42 d))
theorem slotA_lt (t : ℕ) (h : 2 * t < 32) : slotA d L f42 t =
    Transfers.Flight countersEmb (V d (cV L) (jV L)) (SemLoc.dma cc0_scratch6.sem) (default : HIx 1) 1048576
      iprop((∃ c, ⌜Landed d L f42 ⟨2 * t, h⟩ c⌝ ∗ scrA d L ↦{fullShare} c) ∗ (loc42 d ↦[chunkSet (chunkOf (wid L) ⟨2 * t, h⟩)]{fullShare} f42)) := by
  unfold slotA; exact dif_pos h
theorem slotA_ge (t : ℕ) (h : ¬ 2 * t < 32) : slotA d L f42 t = iprop((∃ c, scrA d L ↦{fullShare} c) ∗ semVal (cell d (cV L) (jV L) cc0_scratch6.sem) 0) := by
  unfold slotA; exact dif_neg h
theorem slotB_lt (t : ℕ) (h : 2 * t + 1 < 32) : slotB d L f42 t =
    Transfers.Flight countersEmb (V d (cV L) (jV L)) (SemLoc.dma cc0_scratch7.sem) (default : HIx 1) 1048576
      iprop((∃ c, ⌜Landed d L f42 ⟨2 * t + 1, h⟩ c⌝ ∗ scrB d L ↦{fullShare} c) ∗ (loc42 d ↦[chunkSet (chunkOf (wid L) ⟨2 * t + 1, h⟩)]{fullShare} f42)) := by
  unfold slotB; exact dif_pos h
theorem slotB_ge (t : ℕ) (h : ¬ 2 * t + 1 < 32) : slotB d L f42 t = iprop((∃ c, scrB d L ↦{fullShare} c) ∗ semVal (cell d (cV L) (jV L) cc0_scratch7.sem) 0) := by
  unfold slotB; exact dif_neg h
end SlotLems

section Inner
variable (d : Dev nD) (L : grid0.Coords)
  (f42 : Buf (Elt F) (loc42 d)) (f45 : Buf (Elt F) (loc45 d)) (f26 : Buf (Elt F) (loc26 d)) (f33 : Buf (Elt F) (loc33 d))
  (f40 : Buf (Elt F) (loc40 d))

/-- The inner loop's invariant, first scratch: the gathered rows; the scratch with its first `rl` rows updated. -/
def innerA (g : Fin 32) (kvc : Buf (Elt F) ((V d (cV L) (jV L)).loc cc0_scratch5)) (rl : ℕ) (_ : PUnit) : sProp 𝕄 :=
  iprop((View.loc (V d (cV L) (jV L)) (Memref.whole cc0_scratch5 : Memref sig .scVector .vmem S16x128 .f32).view ↦{fullShare} kvc)
    ∗ ∃ c, ⌜RowsDone d L f42 f45 f26 f33 f40 g rl c⌝ ∗ (View.loc (V d (cV L) (jV L)) (Memref.whole cc0_scratch0 : Memref sig .scVector .vmem S32x1024 .f32).view ↦{fullShare} c))
/-- The same for the second scratch. -/
def innerB (g : Fin 32) (kvc : Buf (Elt F) ((V d (cV L) (jV L)).loc cc0_scratch5)) (rl : ℕ) (_ : PUnit) : sProp 𝕄 :=
  iprop((View.loc (V d (cV L) (jV L)) (Memref.whole cc0_scratch5 : Memref sig .scVector .vmem S16x128 .f32).view ↦{fullShare} kvc)
    ∗ ∃ c, ⌜RowsDone d L f42 f45 f26 f33 f40 g rl c⌝ ∗ (View.loc (V d (cV L) (jV L)) (Memref.whole cc0_scratch1 : Memref sig .scVector .vmem S32x1024 .f32).view ↦{fullShare} c))

omit [FloatOps F] in
theorem off4_chunk0 (t : Fin k0_t1_loop.trips) (ht : 2 * t.val < 32) : k0_off4 L t 0#32 = ![32 * (chunkOf (wid L) ⟨2 * t.val, ht⟩).val, 0] := by
  have h := k0_off4_eq L t 0
  rw [show k0_off4 L t 0#32 = k0_off4 L t (BitVec.ofNat 32 (0 : Fin 2).val) from rfl, h]; simp only [chunkOf, wid]; congr 1; simp; omega
omit [FloatOps F] in
theorem off4_chunk1 (t : Fin k0_t1_loop.trips) (ht : 2 * t.val + 1 < 32) : k0_off4 L t 1#32 = ![32 * (chunkOf (wid L) ⟨2 * t.val + 1, ht⟩).val, 0] := by
  have h := k0_off4_eq L t 1
  rw [show k0_off4 L t 1#32 = k0_off4 L t (BitVec.ofNat 32 (1 : Fin 2).val) from rfl, h]; simp only [chunkOf, wid]; congr 1; simp; omega
omit [FloatOps F] in
theorem off5_chunk (t : Fin k0_t1_loop.trips) (ht : 2 * t.val + 2 < 32) : k0_off5 L t = ![32 * (chunkOf (wid L) ⟨2 * t.val + 2, ht⟩).val, 0] := by
  rw [k0_off5_eq]; simp only [chunkOf, wid]; congr 1; omega
omit [FloatOps F] in
theorem off6_chunk (t : Fin k0_t1_loop.trips) (ht : 2 * t.val + 1 < 32) : k0_off6 L t = ![32 * (chunkOf (wid L) ⟨2 * t.val + 1, ht⟩).val, 0] := by
  rw [k0_off6_eq]; simp only [chunkOf, wid]; congr 1; omega
omit [FloatOps F] in
theorem off7_chunk (t : Fin k0_t1_loop.trips) (ht : 2 * t.val + 3 < 32) : k0_off7 L t = ![32 * (chunkOf (wid L) ⟨2 * t.val + 3, ht⟩).val, 0] := by
  rw [k0_off7_eq]; simp only [chunkOf, wid]; congr 1; omega
end Inner

section Misc
theorem cond1_iff : ∀ k : Fin k0_t1_loop.trips, (k0_cond1 k = 1#1) ↔ k.val < 15 := by decide
theorem cond2_iff : ∀ k : Fin k0_t1_loop.trips, (k0_cond2 k = 1#1) ↔ k.val < 15 := by decide
theorem ge_congr {a b : ℕ} (h : a = b) : ge a = ge b := by rw [h]
theorem lt_congr {a b : ℕ} (h : a = b) : lt a = lt b := by rw [h]
theorem ge_of_le (k : ℕ) (hk : 32 ≤ k) : ge k = ∅ := by ext g; simp; omega
end Misc

section SetLems
omit [FloatOps F] in
theorem lt_two (Φ : Fin 32 → sProp 𝕄) (k : ℕ) (h0 : 2 * k < 32) (h1 : 2 * k + 1 < 32) :
    iprop(bigSep (lt (2 * k)) Φ ∗ Φ ⟨2 * k, h0⟩ ∗ Φ ⟨2 * k + 1, h1⟩) ⊢ bigSep (lt (2 * (k + 1))) Φ := by
  rw [lt_congr (show 2 * (k + 1) = 2 * k + 1 + 1 by omega), bigSep_lt_succ Φ (2 * k + 1) h1, bigSep_lt_succ Φ (2 * k) h0]
  iintro ⟨H, Ha, Hb⟩
  isplitl [Hb]; · iexact Hb
  isplitl [Ha]; · iexact Ha
  iexact H
omit [FloatOps F] in
theorem ge_shift (Φ : Fin 32 → sProp 𝕄) (a b : ℕ) (h : a = b) : bigSep (ge a) Φ ⊢ bigSep (ge b) Φ := by
  subst h; exact Entails.of_eq rfl
omit [FloatOps F] in
theorem ge_shift_empty (Φ : Fin 32 → sProp 𝕄) (a b : ℕ) (ha : 32 ≤ a) (hb : 32 ≤ b) : bigSep (ge a) Φ ⊢ bigSep (ge b) Φ := by
  rw [ge_of_le a ha, ge_of_le b hb]
omit [FloatOps F] in
theorem lt_all (Φ : Fin 32 → sProp 𝕄) (a : ℕ) (ha : a = 32) : bigSep (lt a) Φ ⊢ bigSep Finset.univ Φ := by
  subst ha; rw [lt_top]
omit [FloatOps F] in
theorem lt_none (Φ : Fin 32 → sProp 𝕄) (a : ℕ) (ha : a = 0) : (iprop(emp) : sProp 𝕄) ⊢ bigSep (lt a) Φ := by
  subst ha; rw [lt_zero, bigSep_empty]; exact Entails.of_eq rfl
end SetLems

section OffLems
variable (L : grid0.Coords)
omit [FloatOps F] in
theorem off5_chunk' (t : Fin k0_t1_loop.trips) (ht : 2 * (t.val + 1) < 32) : k0_off5 L t = ![32 * (chunkOf (wid L) ⟨2 * (t.val + 1), ht⟩).val, 0] := by
  rw [k0_off5_eq]; simp only [chunkOf, wid]; congr 1; omega
omit [FloatOps F] in
theorem off7_chunk2 (t : Fin k0_t1_loop.trips) (ht : 2 * t.val + 2 + 1 < 32) : k0_off7 L t = ![32 * (chunkOf (wid L) ⟨2 * t.val + 2 + 1, ht⟩).val, 0] := by
  rw [k0_off7_eq]; simp only [chunkOf, wid]; congr 1; omega
omit [FloatOps F] in
theorem off7_chunk' (t : Fin k0_t1_loop.trips) (ht : 2 * (t.val + 1) + 1 < 32) : k0_off7 L t = ![32 * (chunkOf (wid L) ⟨2 * (t.val + 1) + 1, ht⟩).val, 0] := by
  rw [k0_off7_eq]; simp only [chunkOf, wid]; congr 1; omega
end OffLems

section TripLems
variable (d : Dev nD) (L : grid0.Coords)
  (f42 : Buf (Elt F) (loc42 d)) (f45 : Buf (Elt F) (loc45 d)) (f26 : Buf (Elt F) (loc26 d)) (f33 : Buf (Elt F) (loc33 d))
  (f40 : Buf (Elt F) (loc40 d))

theorem trip_stepA (k : Fin k0_t1_loop.trips) (hk : 2 * k.val < 32) (rl : Fin k0_t2_loop.trips) (c : Vec F S32x1024 .f32)
    (hc : RowsDone d L f42 f45 f26 f33 f40 ⟨2 * k.val, hk⟩ rl.val c)
    (v12 : IVec S16 32) (hv12 : ∀ kk : Fin 16, v12 (ValueIdx.ix1 kk) = f26 (ValueIdx.ix2 (wid L) kk))
    (v13 : Vec F S16 .f32) (hv13 : ∀ kk : Fin 16, v13 (ValueIdx.ix1 kk) = f33 (ValueIdx.ix2 (wid L) kk))
    (z1 z2 : Vec F S16x128 .f32) (hz1 : KVRows d L f45 f40 z1) (hz2 : KVRows d L f45 f40 z2)
    (hι : S16.Iotas .scVector 32 [0])
    (h1 : ∀ a y, ((![iota .scVector S16 32 [0] hι, broadcast S16 (Scalar.andi (Scalar.shrui (xA L k) 6#32) 63#32)] : Fin S16x128.rank → IVec S16 32) a y).toNat < S16x128.size a)
    (h2 : ∀ a y, ((![iota .scVector S16 32 [0] hι, broadcast S16 (Scalar.addi (Scalar.addi 64#32 (Scalar.andi (xA L k) 63#32)) (Scf.iv 0#32 1#32 rl))] : Fin S16x128.rank → IVec S16 32) a y).toNat < S16x128.size a)
    (h : ∀ a x, ((![broadcast S16 (Scf.iv 0#32 1#32 rl), v12] : Fin 2 → IVec S16 32) a x).toNat < S32x1024.size a) :
    RowsDone d L f42 f45 f26 f33 f40 ⟨2 * k.val, hk⟩ (rl.val + 1)
      ((Memref.whole cc0_scratch0 : Memref sig .scVector .vmem S32x1024 .f32).view.writes (Elt F) c [⟨Rect.whole S32x1024,
          storeIdx (View.readAt (Elt F) (Memref.whole cc0_scratch0 : Memref sig .scVector .vmem S32x1024 .f32).view (LoadRect.whole S32x1024) c)
            ![broadcast S16 (Scf.iv 0#32 1#32 rl), v12]
            (k0_pay3 v13 (loadIdx z1 ![iota .scVector S16 32 [0] hι, broadcast S16 (Scalar.andi (Scalar.shrui (xA L k) 6#32) 63#32)] h1)
                        (loadIdx z2 ![iota .scVector S16 32 [0] hι, broadcast S16 (Scalar.addi (Scalar.addi 64#32 (Scalar.andi (xA L k) 63#32)) (Scf.iv 0#32 1#32 rl))] h2))
            (k0_pay1 v13) true h⟩]) := by
  have hz : z2 = z1 := by
    funext j
    obtain ⟨p, q, rfl⟩ : ∃ (p : Fin 16) (q : Fin 128), j = ValueIdx.ix2 p q := ⟨j 0, j 1, ValueIdx.eq_ix2 j⟩
    exact (hz2 p q).trans (hz1 p q).symm
  subst hz
  have hkk := Words.t1_lt k
  have hrl := Words.t2_lt rl
  have hw := (wid L).isLt
  refine rowsDone_stepA d L f42 f45 f26 f33 f40 ⟨2 * k.val, hk⟩ ⟨rl.val, hrl⟩ c hc _ _ _ h (fun x => Words.iv_toNat2 rl) hv12 (fun kk => ?_) (fun kk => pay1_lane v13 hv13 kk)
  refine pay3_lane z2 hz2 v13 hv13 hι _ _ _ ?_ ?_ h1 h2 kk
  · rw [Words.rowA]; show _ = (1024 * (wid L).val + 32 * (2 * k.val) + rl.val) / 64 % 64; omega
  · rw [Words.colwA]; show _ = 64 + (1024 * (wid L).val + 32 * (2 * k.val) + rl.val) % 64; omega

theorem trip_stepB (k : Fin k0_t1_loop.trips) (hk : 2 * k.val + 1 < 32) (rl : Fin k0_t3_loop.trips) (c : Vec F S32x1024 .f32)
    (hc : RowsDone d L f42 f45 f26 f33 f40 ⟨2 * k.val + 1, hk⟩ rl.val c)
    (v12 : IVec S16 32) (hv12 : ∀ kk : Fin 16, v12 (ValueIdx.ix1 kk) = f26 (ValueIdx.ix2 (wid L) kk))
    (v13 : Vec F S16 .f32) (hv13 : ∀ kk : Fin 16, v13 (ValueIdx.ix1 kk) = f33 (ValueIdx.ix2 (wid L) kk))
    (z1 z2 : Vec F S16x128 .f32) (hz1 : KVRows d L f45 f40 z1) (hz2 : KVRows d L f45 f40 z2)
    (hι : S16.Iotas .scVector 32 [0])
    (h1 : ∀ a y, ((![iota .scVector S16 32 [0] hι, broadcast S16 (Scalar.andi (Scalar.shrui (xB L k) 6#32) 63#32)] : Fin S16x128.rank → IVec S16 32) a y).toNat < S16x128.size a)
    (h2 : ∀ a y, ((![iota .scVector S16 32 [0] hι, broadcast S16 (Scalar.addi (Scalar.addi 64#32 (Scalar.andi (xB L k) 63#32)) (Scf.iv 0#32 1#32 rl))] : Fin S16x128.rank → IVec S16 32) a y).toNat < S16x128.size a)
    (h : ∀ a x, ((![broadcast S16 (Scf.iv 0#32 1#32 rl), v12] : Fin 2 → IVec S16 32) a x).toNat < S32x1024.size a) :
    RowsDone d L f42 f45 f26 f33 f40 ⟨2 * k.val + 1, hk⟩ (rl.val + 1)
      ((Memref.whole cc0_scratch1 : Memref sig .scVector .vmem S32x1024 .f32).view.writes (Elt F) c [⟨Rect.whole S32x1024,
          storeIdx (View.readAt (Elt F) (Memref.whole cc0_scratch1 : Memref sig .scVector .vmem S32x1024 .f32).view (LoadRect.whole S32x1024) c)
            ![broadcast S16 (Scf.iv 0#32 1#32 rl), v12]
            (k0_pay2 v13 (loadIdx z1 ![iota .scVector S16 32 [0] hι, broadcast S16 (Scalar.andi (Scalar.shrui (xB L k) 6#32) 63#32)] h1)
                        (loadIdx z2 ![iota .scVector S16 32 [0] hι, broadcast S16 (Scalar.addi (Scalar.addi 64#32 (Scalar.andi (xB L k) 63#32)) (Scf.iv 0#32 1#32 rl))] h2))
            (k0_pay1 v13) true h⟩]) := by
  have hz : z2 = z1 := by
    funext j
    obtain ⟨p, q, rfl⟩ : ∃ (p : Fin 16) (q : Fin 128), j = ValueIdx.ix2 p q := ⟨j 0, j 1, ValueIdx.eq_ix2 j⟩
    exact (hz2 p q).trans (hz1 p q).symm
  subst hz
  have hkk := Words.t1_lt k
  have hrl := Words.t3_lt rl
  have hw := (wid L).isLt
  refine rowsDone_stepB d L f42 f45 f26 f33 f40 ⟨2 * k.val + 1, hk⟩ ⟨rl.val, hrl⟩ c hc _ _ _ h (fun x => Words.iv_toNat3 rl) hv12 (fun kk => ?_) (fun kk => pay1_lane v13 hv13 kk)
  refine pay2_lane z2 hz2 v13 hv13 hι _ _ _ ?_ ?_ h1 h2 kk
  · rw [Words.rowB]; show _ = (1024 * (wid L).val + 32 * (2 * k.val + 1) + rl.val) / 64 % 64; omega
  · rw [Words.colwB]; show _ = 64 + (1024 * (wid L).val + 32 * (2 * k.val + 1) + rl.val) % 64; omega

end TripLems

set_option maxHeartbeats 40000000 in
theorem tile_body : Tile.TileBody (F := F) := by
  intro hF d L q f42 f45 f26 f33 f40 f46 hg hn O W hO
  simp only [cc0__sc_body_eq_skeleton]; unfold cc0__sc_body_skel
  simp only [k0_part2_eq_skeleton]; unfold k0_part2_skel
  unfold Tile.tileIn
  rw [(K (F := F)).scopedBufs_V hF d (cV L) (jV L), SparseCore.Cfg.scopedSems0_V (Val := Elt F) d (cV L) (jV L), ownBufs_eq, ownSems0_eq]
  iintro ⟨#Hlv, -, ⟨HM, HKV, HNV, HWV, HGV, HOUT⟩, ⟨⟨%ba, HbA⟩, ⟨%bb, HbB⟩, ⟨%bc, HbC⟩, ⟨%bd, HbD⟩, ⟨%be, HbE⟩, ⟨%bf, HbF⟩, Hbufs⟩,
    ⟨HsA, HsB, HsC, HsD, HsG, HpA, HpB, HpC, Hsems⟩, HO⟩
  ihave Hmw := ((K (F := F)).mayWaits_none (thr := V d (cV L) (jV L)) hO) $$ Hlv
  ihave HMx := (Entails.of_eq (take2 (F := F) _)) $$ HM
  icases HMx with ⟨HcA, HcB, HM⟩
  ihave HcAx := (Entails.of_eq (pts_in (F := F) d L (k0_off1 L 0#32) (k0_off1_inb L 0) (0 : Fin 32) (off1_chunk0 L) f42).symm) $$ HcA
  ihave HcBx := (Entails.of_eq (pts_in (F := F) d L (k0_off1 L 32#32) (k0_off1_inb L 1) (1 : Fin 32) (off1_chunk1 L) f42).symm) $$ HcB
  ihave HbAx := (Entails.of_eq (show ((((Memref.whole cc0_scratch0 : Memref sig .scVector .vmem S32x1024 .f32).view.loc (V d (cV L) (jV L)) ↦{fullShare} ba) : sProp 𝕄) = ((V d (cV L) (jV L)).loc cc0_scratch0 ↦{fullShare} ba)) from rfl).symm) $$ HbA
  ihave HbBx := (Entails.of_eq (show ((((Memref.whole cc0_scratch1 : Memref sig .scVector .vmem S32x1024 .f32).view.loc (V d (cV L) (jV L)) ↦{fullShare} bb) : sProp 𝕄) = ((V d (cV L) (jV L)).loc cc0_scratch1 ↦{fullShare} bb)) from rfl).symm) $$ HbB
  ihave HbCx := (Entails.of_eq (show ((((Memref.whole cc0_scratch2 : Memref sig .scVector .vmem S16 .i32).view.loc (V d (cV L) (jV L)) ↦{fullShare} bc) : sProp 𝕄) = ((V d (cV L) (jV L)).loc cc0_scratch2 ↦{fullShare} bc)) from rfl).symm) $$ HbC
  ihave HbDx := (Entails.of_eq (show ((((Memref.whole cc0_scratch3 : Memref sig .scVector .vmem S16 .f32).view.loc (V d (cV L) (jV L)) ↦{fullShare} bd) : sProp 𝕄) = ((V d (cV L) (jV L)).loc cc0_scratch3 ↦{fullShare} bd)) from rfl).symm) $$ HbD
  ihave HbEx := (Entails.of_eq (show ((((Memref.whole cc0_scratch4 : Memref sig .scVector .vmem S16 .i32).view.loc (V d (cV L) (jV L)) ↦{fullShare} be) : sProp 𝕄) = ((V d (cV L) (jV L)).loc cc0_scratch4 ↦{fullShare} be)) from rfl).symm) $$ HbE
  ihave HbFx := (Entails.of_eq (show ((((Memref.whole cc0_scratch5 : Memref sig .scVector .vmem S16x128 .f32).view.loc (V d (cV L) (jV L)) ↦{fullShare} bf) : sProp 𝕄) = ((V d (cV L) (jV L)).loc cc0_scratch5 ↦{fullShare} bf)) from rfl).symm) $$ HbF
  ihave HNVx := (Entails.of_eq (pts_rowNV (F := F) d L f26).symm) $$ HNV
  ihave HWVx := (Entails.of_eq (pts_rowWV (F := F) d L f33).symm) $$ HWV
  ihave HGVx := (Entails.of_eq (pts_rowGV (F := F) d L f40).symm) $$ HGV
  ihave HKVx := (Entails.of_eq (pts_kv (F := F) d L q f45).symm) $$ HKV
  sl_exec
  have hin : ∀ x, ((Memref.whole cc0_scratch4 : Memref sig .scVector .vmem S16 .i32).view.read (Elt F)
      (View.write (Elt F) (Memref.whole cc0_scratch4 : Memref sig .scVector .vmem S16 .i32).view be (tile_body.sl.dma0_4 d L f40) Finset.univ) x).toNat
      < S8192x128.size gathers_S8192x128_S16x128.axis := fun x => hin_of d L f40 hg be x
  sl_exec
  have hA := flightA_restate d L f42 (k0_off1 L 0#32) (k0_off1_inb L 0) (⟨2 * 0, by omega⟩ : Fin 32) (off1_chunk0 L) ba
  have hB := flightB_restate d L f42 (k0_off1 L 32#32) (k0_off1_inb L 1) (⟨2 * 0 + 1, by omega⟩ : Fin 32) (off1_chunk1 L) bb
  ihave HfA := (Transfers.Flight_mono countersEmb (V d (cV L) (jV L)) hA) $$ [HsA]
  · iexact HsA
  ihave HfB := (Transfers.Flight_mono countersEmb (V d (cV L) (jV L)) hB) $$ [HsB]
  · iexact HsB
  have hv12 : ∀ kk : Fin 16, (tile_body.sl.v12 d L f26 bc) (ValueIdx.ix1 kk) = f26 (ValueIdx.ix2 (wid L) kk) := fun kk => nv_lane d L f26 bc kk
  have hv13 : ∀ kk : Fin 16, (tile_body.sl.v13 d L f33 bd) (ValueIdx.ix1 kk) = f33 (ValueIdx.ix2 (wid L) kk) := fun kk => wv_lane d L f33 bd kk
  have h12 : ∀ x, ((tile_body.sl.v12 d L f26 bc : IVec S16 32) x).toNat < 1024 := by
    intro x
    obtain ⟨kk, rfl⟩ : ∃ kk : Fin 16, x = ValueIdx.ix1 kk := ⟨x 0, ValueIdx.eq_ix1 x⟩
    rw [hv12 kk]; exact hn _
  have hkvAll : ∀ z : Vec F S16x128 .f32, z = (Memref.whole cc0_scratch5 : Memref sig .scVector .vmem S16x128 .f32).view.readAt (Elt F) (LoadRect.whole S16x128) ((Memref.whole cc0_scratch5 : Memref sig .scVector .vmem S16x128 .f32).view.writes (Elt F) (Memref.whole cc0_scratch5 : Memref sig .scVector .vmem S16x128 .f32).view.junk [⟨Rect.whole cc0_scratch5.ty.shape, tile_body.sl.gather0 d L f45 f40 be hin⟩]) → KVRows d L f45 f40 z := by
    intro z hz; subst hz
    have e : (Memref.whole cc0_scratch5 : Memref sig .scVector .vmem S16x128 .f32).view.readAt (Elt F) (LoadRect.whole S16x128) ((Memref.whole cc0_scratch5 : Memref sig .scVector .vmem S16x128 .f32).view.writes (Elt F) (Memref.whole cc0_scratch5 : Memref sig .scVector .vmem S16x128 .f32).view.junk [⟨Rect.whole cc0_scratch5.ty.shape, tile_body.sl.gather0 d L f45 f40 be hin⟩]) = ((Memref.whole cc0_scratch5 : Memref sig .scVector .vmem S16x128 .f32).view.writes (Elt F) (Memref.whole cc0_scratch5 : Memref sig .scVector .vmem S16x128 .f32).view.junk [⟨Rect.whole cc0_scratch5.ty.shape, tile_body.sl.gather0 d L f45 f40 be hin⟩]) :=
      Memref.readAt_whole _ _ _
    rw [e]
    exact kvrows_of_gather d L f45 f40 hg be _ hin
  sl_for (inv2 d L f42 f45 f26 f33 f40 f46 O W ((Memref.whole cc0_scratch5 : Memref sig .scVector .vmem S16x128 .f32).view.writes (Elt F) (Memref.whole cc0_scratch5 : Memref sig .scVector .vmem S16x128 .f32).view.junk [⟨Rect.whole cc0_scratch5.ty.shape, tile_body.sl.gather0 d L f45 f40 be hin⟩])) $$ [Hmw HfA HfB HbFx HM HOUT HsC HsD HO]
  case region =>
    intro k _
    have hk : k.val < 16 := Words.t1_lt k
    have h2k : 2 * k.val < 32 := by omega
    have h2k1 : 2 * k.val + 1 < 32 := by omega
    unfold inv2
    rw [slotA_lt d L f42 k.val h2k, slotB_lt d L f42 k.val h2k1]
    unfold scrA scrB scrKV
    iintro ⟨#Hmw, HA, HB, Hkv, Hge, Hlt, Hdone, Hout, HsC, HsD, %W', %hW', HO⟩
    have c1 := Words.chk1_at iota_S16_d0_w32_scVector L k
    have c4 := Words.chk4_at iota_S16_d0_w32_scVector L k
    sl_exec
    rw [SparseCore.vectorLoadIdx_bind (V d (cV L) (jV L))]
    sl_exec
    icases HA_dst with ⟨%ca, %hca, HcA⟩
    sl_for (innerA d L f42 f45 f26 f33 f40 (⟨2 * k.val, h2k⟩ : Fin 32) ((Memref.whole cc0_scratch5 : Memref sig .scVector .vmem S16x128 .f32).view.writes (Elt F) (Memref.whole cc0_scratch5 : Memref sig .scVector .vmem S16x128 .f32).view.junk [⟨Rect.whole cc0_scratch5.ty.shape, tile_body.sl.gather0 d L f45 f40 be hin⟩])) $$ [Hkv HcA]
    case region =>
      intro rl _
      unfold innerA
      iintro ⟨Hkv, %c, %hc, Hc⟩
      have cc1 := Words.chk2_at iota_S16_d0_w32_scVector L k rl
      have cc2 := Words.chk3_at (tile_body.sl.v12 d L f26 bc) h12 rl
      sl_exec
      rw [SparseCore.vectorLoadIdx_bind (V d (cV L) (jV L))]
      sl_exec
      rw [SparseCore.vectorStoreIdx_bind (V d (cV L) (jV L))]
      sl_exec
      sl_step
      isplitl [Hkv]; · iexact Hkv
      iexists _; isplitr
      rotate_left
      · iexact Hc
      · ipureintro
        exact trip_stepA d L f42 f45 f26 f33 f40 k h2k rl c hc _ hv12 _ hv13 _ _ (hkvAll _ rfl) (hkvAll _ rfl) _ _ _ _
    · unfold innerA
      isplitl [Hkv]; · iexact Hkv
      iexists ca; isplitr
      · ipureintro; exact rowsDone_zero d L f42 f45 f26 f33 f40 _ ca hca
      iexact HcA
    iintro %_ HI
    unfold innerA
    icases HI with ⟨Hkv, %cd, %hcd, HcA⟩
    ihave Houtx := (Entails.of_eq (bigSep_ge_succ (F := F) _ (2 * k.val) h2k)) $$ Hout
    icases Houtx with ⟨Hop, Hout⟩
    ihave Hopx := (Entails.of_eq (pts_out (F := F) d L (k0_off4 L k 0#32) (k0_off4_inb L k 0) _ (off4_chunk0 L k h2k) f46).symm) $$ Hop
    sl_exec
    by_cases h15 : k.val < 15
    · have k0_h1 : k0_cond1 k = 1#1 := (cond1_iff k).mpr h15
      have k0_h2 : k0_cond2 k = 1#1 := (cond2_iff k).mpr h15
      have h2k2 : 2 * k.val + 2 < 32 := by omega
      have h2k3 : 2 * k.val + 2 + 1 < 32 := by omega
      have h2n : 2 * (k.val + 1) < 32 := by omega
      have h2n1 : 2 * (k.val + 1) + 1 < 32 := by omega
      ihave Hgex := (Entails.of_eq (bigSep_ge_succ (F := F) _ (2 * k.val + 2) h2k2)) $$ Hge
      icases Hgex with ⟨Hnp, Hge⟩
      ihave Hnpx := (Entails.of_eq (pts_in (F := F) d L (k0_off5 L k) (k0_off5_inb L k k0_h1) _ (off5_chunk L k h2k2) f42).symm) $$ Hnp
      sl_exec
      rw [SparseCore.vectorLoadIdx_bind (V d (cV L) (jV L))]
      sl_exec
      icases HB_dst with ⟨%cb, %hcb, HcB⟩
      sl_for (innerB d L f42 f45 f26 f33 f40 (⟨2 * k.val + 1, h2k1⟩ : Fin 32) ((Memref.whole cc0_scratch5 : Memref sig .scVector .vmem S16x128 .f32).view.writes (Elt F) (Memref.whole cc0_scratch5 : Memref sig .scVector .vmem S16x128 .f32).view.junk [⟨Rect.whole cc0_scratch5.ty.shape, tile_body.sl.gather0 d L f45 f40 be hin⟩])) $$ [Hkv HcB]
      case region =>
        intro rl _
        unfold innerB
        iintro ⟨Hkv, %c, %hc, Hc⟩
        have cc1 := Words.chk5_at iota_S16_d0_w32_scVector L k rl
        have cc2 := Words.chk6_at (tile_body.sl.v12 d L f26 bc) h12 rl
        sl_exec
        rw [SparseCore.vectorLoadIdx_bind (V d (cV L) (jV L))]
        sl_exec
        rw [SparseCore.vectorStoreIdx_bind (V d (cV L) (jV L))]
        sl_exec
        sl_step
        isplitl [Hkv]; · iexact Hkv
        iexists _; isplitr
        rotate_left
        · iexact Hc
        · ipureintro
          exact trip_stepB d L f42 f45 f26 f33 f40 k h2k1 rl c hc _ hv12 _ hv13 _ _ (hkvAll _ rfl) (hkvAll _ rfl) _ _ _ _
      · unfold innerB
        isplitl [Hkv]; · iexact Hkv
        iexists cb; isplitr
        · ipureintro; exact rowsDone_zero d L f42 f45 f26 f33 f40 _ cb hcb
        iexact HcB
      iintro %_ HJ
      unfold innerB
      icases HJ with ⟨Hkv, %ce, %hce, HcB⟩
      ihave Houty := (Entails.of_eq (bigSep_ge_succ (F := F) _ (2 * k.val + 1) h2k1)) $$ Hout
      icases Houty with ⟨Hoq, Hout⟩
      ihave Hoqx := (Entails.of_eq (pts_out (F := F) d L (k0_off6 L k) (k0_off6_inb L k) _ (off6_chunk L k h2k1) f46).symm) $$ Hoq
      sl_exec
      ihave Hgey := (Entails.of_eq (bigSep_ge_succ (F := F) _ (2 * k.val + 2 + 1) h2k3)) $$ Hge
      icases Hgey with ⟨Hnq, Hge⟩
      ihave Hnqx := (Entails.of_eq (pts_in (F := F) d L (k0_off7 L k) (k0_off7_inb L k k0_h2) _ (off7_chunk2 L k h2k3) f42).symm) $$ Hnq
      sl_exec
      sl_step
      rw [slotA_lt d L f42 (k.val + 1) h2n, slotB_lt d L f42 (k.val + 1) h2n1]
      have hcd32 : RowsDone d L f42 f45 f26 f33 f40 ⟨2 * k.val, h2k⟩ 32 cd := by
        have h := hcd; rw [show Scf.trips k0_t2_loop.lb k0_t2_loop.ub k0_t2_loop.st = 32 from Words.t2_trips] at h; exact h
      have hce32 : RowsDone d L f42 f45 f26 f33 f40 ⟨2 * k.val + 1, h2k1⟩ 32 ce := by
        have h := hce; rw [show Scf.trips k0_t3_loop.lb k0_t3_loop.ub k0_t3_loop.st = 32 from Words.t3_trips] at h; exact h
      ihave HpA := (out_pieceA d L f42 f45 f26 f33 f40 f46 (k0_off4 L k 0#32) (k0_off4_inb L k 0) ⟨2 * k.val, h2k⟩ (off4_chunk0 L k h2k) cd hcd32) $$ [Hopx]
      · iexact Hopx
      ihave HpB := (out_pieceB d L f42 f45 f26 f33 f40 f46 (k0_off6 L k) (k0_off6_inb L k) ⟨2 * k.val + 1, h2k1⟩ (off6_chunk L k h2k1) ce hce32) $$ [Hoqx]
      · iexact Hoqx
      isplitr; · iexact Hmw
      isplitl [HA]
      · iapply (Transfers.Flight_mono countersEmb (V d (cV L) (jV L)) (flightA_restate d L f42 (k0_off5 L k) (k0_off5_inb L k k0_h1) (⟨2 * (k.val + 1), h2n⟩ : Fin 32) (off5_chunk' L k h2n) cd)); iexact HA
      isplitl [HB]
      · iapply (Transfers.Flight_mono countersEmb (V d (cV L) (jV L)) (flightB_restate d L f42 (k0_off7 L k) (k0_off7_inb L k k0_h2) (⟨2 * (k.val + 1) + 1, h2n1⟩ : Fin 32) (off7_chunk' L k h2n1) ce)); iexact HB
      isplitl [Hkv]; · iexact Hkv
      isplitl [Hge]; · iapply (ge_shift (F := F) _ (2 * k.val + 2 + 1 + 1) (2 * (k.val + 1) + 2) (by omega)); iexact Hge
      isplitl [Hlt HA_src HB_src]
      · iapply (lt_two (F := F) _ k.val h2k h2k1)
        isplitl [Hlt]; · iexact Hlt
        isplitl [HA_src]; · iexact HA_src
        iexact HB_src
      isplitl [Hdone HpA HpB]
      · iapply (lt_two (F := F) _ k.val h2k h2k1)
        isplitl [Hdone]; · iexact Hdone
        isplitl [HpA]; · iexact HpA
        iexact HpB
      isplitl [Hout]; · iapply (ge_shift (F := F) _ (2 * k.val + 1 + 1) (2 * (k.val + 1)) (by omega)); iexact Hout
      isplitl [HsC]; · iexact HsC
      isplitl [HsD]; · iexact HsD
      iexists _; isplitr
      rotate_left
      · iexact HO
      · ipureintro; intro p hp
        simp only [Finset.mem_insert] at hp
        rcases hp with rfl | rfl | rfl | rfl | hp
        · exact .inr rfl
        · exact .inr rfl
        · exact .inr rfl
        · exact .inr rfl
        · exact hW' p hp
    · have k0_h1 : ¬ k0_cond1 k = 1#1 := fun h => h15 ((cond1_iff k).mp h)
      have k0_h2 : ¬ k0_cond2 k = 1#1 := fun h => h15 ((cond2_iff k).mp h)
      sl_exec
      rw [SparseCore.vectorLoadIdx_bind (V d (cV L) (jV L))]
      sl_exec
      icases HB_dst with ⟨%cb, %hcb, HcB⟩
      sl_for (innerB d L f42 f45 f26 f33 f40 (⟨2 * k.val + 1, h2k1⟩ : Fin 32) ((Memref.whole cc0_scratch5 : Memref sig .scVector .vmem S16x128 .f32).view.writes (Elt F) (Memref.whole cc0_scratch5 : Memref sig .scVector .vmem S16x128 .f32).view.junk [⟨Rect.whole cc0_scratch5.ty.shape, tile_body.sl.gather0 d L f45 f40 be hin⟩])) $$ [Hkv HcB]
      case region =>
        intro rl _
        unfold innerB
        iintro ⟨Hkv, %c, %hc, Hc⟩
        have cc1 := Words.chk5_at iota_S16_d0_w32_scVector L k rl
        have cc2 := Words.chk6_at (tile_body.sl.v12 d L f26 bc) h12 rl
        sl_exec
        rw [SparseCore.vectorLoadIdx_bind (V d (cV L) (jV L))]
        sl_exec
        rw [SparseCore.vectorStoreIdx_bind (V d (cV L) (jV L))]
        sl_exec
        sl_step
        isplitl [Hkv]; · iexact Hkv
        iexists _; isplitr
        rotate_left
        · iexact Hc
        · ipureintro
          exact trip_stepB d L f42 f45 f26 f33 f40 k h2k1 rl c hc _ hv12 _ hv13 _ _ (hkvAll _ rfl) (hkvAll _ rfl) _ _ _ _
      · unfold innerB
        isplitl [Hkv]; · iexact Hkv
        iexists cb; isplitr
        · ipureintro; exact rowsDone_zero d L f42 f45 f26 f33 f40 _ cb hcb
        iexact HcB
      iintro %_ HJ
      unfold innerB
      icases HJ with ⟨Hkv, %ce, %hce, HcB⟩
      ihave Houty := (Entails.of_eq (bigSep_ge_succ (F := F) _ (2 * k.val + 1) h2k1)) $$ Hout
      icases Houty with ⟨Hoq, Hout⟩
      ihave Hoqx := (Entails.of_eq (pts_out (F := F) d L (k0_off6 L k) (k0_off6_inb L k) _ (off6_chunk L k h2k1) f46).symm) $$ Hoq
      sl_exec
      sl_step
      rw [slotA_ge d L f42 (k.val + 1) (by omega), slotB_ge d L f42 (k.val + 1) (by omega)]
      unfold scrA scrB
      have hcd32 : RowsDone d L f42 f45 f26 f33 f40 ⟨2 * k.val, h2k⟩ 32 cd := by
        have h := hcd; rw [show Scf.trips k0_t2_loop.lb k0_t2_loop.ub k0_t2_loop.st = 32 from Words.t2_trips] at h; exact h
      have hce32 : RowsDone d L f42 f45 f26 f33 f40 ⟨2 * k.val + 1, h2k1⟩ 32 ce := by
        have h := hce; rw [show Scf.trips k0_t3_loop.lb k0_t3_loop.ub k0_t3_loop.st = 32 from Words.t3_trips] at h; exact h
      ihave HpA := (out_pieceA d L f42 f45 f26 f33 f40 f46 (k0_off4 L k 0#32) (k0_off4_inb L k 0) ⟨2 * k.val, h2k⟩ (off4_chunk0 L k h2k) cd hcd32) $$ [Hopx]
      · iexact Hopx
      ihave HpB := (out_pieceB d L f42 f45 f26 f33 f40 f46 (k0_off6 L k) (k0_off6_inb L k) ⟨2 * k.val + 1, h2k1⟩ (off6_chunk L k h2k1) ce hce32) $$ [Hoqx]
      · iexact Hoqx
      isplitr; · iexact Hmw
      isplitl [HcA HA]
      · isplitl [HcA]; · iexists _; iexact HcA
        iexact HA
      isplitl [HcB HB]
      · isplitl [HcB]; · iexists _; iexact HcB
        iexact HB
      isplitl [Hkv]; · iexact Hkv
      isplitl [Hge]; · iapply (ge_shift_empty (F := F) _ (2 * k.val + 2) (2 * (k.val + 1) + 2) (by omega) (by omega)); iexact Hge
      isplitl [Hlt HA_src HB_src]
      · iapply (lt_two (F := F) _ k.val h2k h2k1)
        isplitl [Hlt]; · iexact Hlt
        isplitl [HA_src]; · iexact HA_src
        iexact HB_src
      isplitl [Hdone HpA HpB]
      · iapply (lt_two (F := F) _ k.val h2k h2k1)
        isplitl [Hdone]; · iexact Hdone
        isplitl [HpA]; · iexact HpA
        iexact HpB
      isplitl [Hout]; · iapply (ge_shift (F := F) _ (2 * k.val + 1 + 1) (2 * (k.val + 1)) (by omega)); iexact Hout
      isplitl [HsC]; · iexact HsC
      isplitl [HsD]; · iexact HsD
      iexists _; isplitr
      rotate_left
      · iexact HO
      · ipureintro; intro p hp
        simp only [Finset.mem_insert] at hp
        rcases hp with rfl | rfl | rfl | rfl | hp
        · exact .inr rfl
        · exact .inr rfl
        · exact .inr rfl
        · exact .inr rfl
        · exact hW' p hp
  · unfold inv2
    rw [slotA_lt d L f42 0 (by omega), slotB_lt d L f42 0 (by omega)]
    isplitr; · iexact Hmw
    isplitl [HfA]; · iexact HfA
    isplitl [HfB]; · iexact HfB
    isplitl [HbFx]; · iexact HbFx
    isplitl [HM]; · iexact HM
    isplitr; · iapply (lt_none (F := F) _ _ (by omega)); iempintro
    isplitr; · iapply (lt_none (F := F) _ _ (by omega)); iempintro
    isplitl [HOUT]; · iapply (Entails.of_eq (congrArg (fun s => bigSep s _) (ge_zero.symm.trans (ge_congr (show 0 = 2 * 0 by omega))))); iexact HOUT
    isplitl [HsC]; · iexact HsC
    isplitl [HsD]; · iexact HsD
    iexists _; isplitr
    rotate_left
    · iexact HO
    · ipureintro; intro p hp
      simp only [Finset.mem_insert] at hp
      rcases hp with rfl | rfl | rfl | rfl | hp
      · exact .inr rfl
      · exact .inr rfl
      · exact .inr rfl
      · exact .inr rfl
      · exact .inl hp
  iintro %_ HI
  unfold inv2
  have ht : Scf.trips k0_t1_loop.lb k0_t1_loop.ub k0_t1_loop.st = 16 := Words.t1_trips
  icases HI with ⟨-, HA, HB, Hkv, -, Hlt, Hdone, -, HsC, HsD, %W', %hW', HO⟩
  ihave HAx := (Entails.of_eq (slotA_ge d L f42 _ (by rw [ht]; omega))) $$ HA
  icases HAx with ⟨⟨%ca, HcA⟩, HsA⟩
  ihave HBx := (Entails.of_eq (slotB_ge d L f42 _ (by rw [ht]; omega))) $$ HB
  icases HBx with ⟨⟨%cb, HcB⟩, HsB⟩
  sl_exec
  sl_step
  unfold Tile.tileOut
  isplitl [Hlt HKVx HNVx HWVx HGVx Hdone]
  · isplitl [Hlt]; · iapply (lt_all (F := F) _ (2 * Scf.trips k0_t1_loop.lb k0_t1_loop.ub k0_t1_loop.st) (by rw [ht])); iexact Hlt
    isplitl [HKVx]; · iapply (Entails.of_eq (pts_kv (F := F) d L q f45)); iexact HKVx
    isplitl [HNVx]; · iapply (Entails.of_eq (pts_rowNV (F := F) d L f26)); iexact HNVx
    isplitl [HWVx]; · iapply (Entails.of_eq (pts_rowWV (F := F) d L f33)); iexact HWVx
    isplitl [HGVx]; · iapply (Entails.of_eq (pts_rowGV (F := F) d L f40)); iexact HGVx
    iapply (lt_all (F := F) _ (2 * Scf.trips k0_t1_loop.lb k0_t1_loop.ub k0_t1_loop.st) (by rw [ht])); iexact Hdone
  isplitl [HcA HcB HbCx HbDx HbEx Hkv Hbufs]
  · isplitl [HcA]; · iexists _; iexact HcA
    isplitl [HcB]; · iexists _; iexact HcB
    isplitl [HbCx]; · iexists _; iexact HbCx
    isplitl [HbDx]; · iexists _; iexact HbDx
    isplitl [HbEx]; · iexists _; iexact HbEx
    isplitl [Hkv]; · iexists _; iexact Hkv
    iexact Hbufs
  isplitl [HsA HsB HsC HsD HsG HpA HpB HpC Hsems]
  · isplitl [HsA]; · iexact HsA
    isplitl [HsB]; · iexact HsB
    isplitl [HsC]; · iexact HsC
    isplitl [HsD]; · iexact HsD
    isplitl [HsG]; · iexact HsG
    isplitl [HpA]; · iexact HpA
    isplitl [HpB]; · iexact HpB
    isplitl [HpC]; · iexact HpC
    iexact Hsems
  iexists W'; isplitr
  · ipureintro; exact hW'
  iexact HO

end Cert.KernelIdeal.Body

end
-- ==== Proof.TileDefsK.lean ====
/-
  What the tile obligation and the launch meet at, for the program `Kernel` read at any float instance `F`.

  The call runs on 32 vector subcores. Subcore `(c, s)` is worker `w = 16·c + s`; it owns rows `1024·w … 1024·w + 1023`
  of the re-laid memory (32768 rows of 1024) and of the output, in 32 chunks of 32 rows (chunk `32·w + g` of 1024), row
  `w` of each of the three per-worker vectors (slot numbers, weights, table rows), and reads the key/value table, which
  all workers share, through a read share. `tileIn` is what a worker is handed, `tileOut` what it hands back: the same,
  with its output rows at `Spec.rowsOf` of the five arrays it read. `TileBody` is the obligation: from `tileIn`, the
  subcore's scratch and semaphores, the kernel's body runs to its end and leaves `tileOut`.
-/
import proofs.«210205_g8383776161859_cont_9to1_m_1272_27_alg».proof.Kernel
import proofs.«210205_g8383776161859_cont_9to1_m_1272_27_alg».proof.Proof.Gen.Kernel
import proofs.«210205_g8383776161859_cont_9to1_m_1272_27_alg».proof.Proof.Gen.Kernel.Skeleton
import proofs.«210205_g8383776161859_cont_9to1_m_1272_27_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic

noncomputable section

namespace Cert.Kernel.Tile

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays of the call, as locations of device `d` -/

abbrev loc42 (d : Dev nD) : Loc nD τ sig := (SparseCore.T d).loc main_v42   -- the re-laid memory, 32768 × 1024
abbrev loc45 (d : Dev nD) : Loc nD τ sig := (SparseCore.T d).loc main_v45   -- the key/value table, 8192 × 128
abbrev loc26 (d : Dev nD) : Loc nD τ sig := (SparseCore.T d).loc main_v26   -- per worker: the slot numbers
abbrev loc33 (d : Dev nD) : Loc nD τ sig := (SparseCore.T d).loc main_v33   -- per worker: the weights
abbrev loc40 (d : Dev nD) : Loc nD τ sig := (SparseCore.T d).loc main_v40   -- per worker: the table rows
abbrev loc46 (d : Dev nD) : Loc nD τ sig := (SparseCore.T d).loc main_v46   -- the output rows, 32768 × 1024

/-! ## Workers, chunks, rows -/

abbrev cV (L : grid0.Coords) : Fin τ.nSC := (L 0).castLE hcore0
abbrev jV (L : grid0.Coords) : Fin τ.nSub := (L 1).castLE hsub0

theorem bound_zero : grid0.bound 0 = 2 := rfl
theorem bound_one : grid0.bound 1 = 16 := rfl

/-- The worker number of subcore `(L 0, L 1)`. -/
def wid (L : grid0.Coords) : Fin 32 := ⟨16 * (L 0).val + (L 1).val, by
  have h0 : (L 0).val < 2 := (L 0).isLt
  have h1 : (L 1).val < 16 := (L 1).isLt
  omega⟩

/-- Chunk `g` of worker `w`, among the 1024 chunks of 32 rows. -/
def chunkOf (w g : Fin 32) : Fin 1024 := ⟨32 * w.val + g.val, by omega⟩

theorem hdivC : 1024 ∣ S32768x1024.size 0 := ⟨32, rfl⟩
abbrev chunkRect (c : Fin 1024) : Rect S32768x1024 := Rect.part (s := S32768x1024) (a₀ := 0) hdivC c
abbrev chunkSet (c : Fin 1024) : Finset S32768x1024.Idx :=
  ((Memref.whole main_v42_scv : Memref sig .scVector .hbm S32768x1024 .f32).view.slice (chunkRect c)).set

theorem hdivW : 32 ∣ S32x16.size 0 := ⟨1, rfl⟩
abbrev wrowRect (w : Fin 32) : Rect S32x16 := Rect.part (s := S32x16) (a₀ := 0) hdivW w
abbrev wrowSet (w : Fin 32) : Finset S32x16.Idx :=
  ((Memref.whole main_v26_scv : Memref sig .scVector .hbm S32x16 .i32).view.slice (wrowRect w)).set

/-! ## What a worker is handed and hands back -/

variable [FloatOps F]

def tileIn (d : Dev nD) (w : Fin 32) (q : PosShare TreeShare)
    (f42 : Buf (Elt F) (loc42 d)) (f45 : Buf (Elt F) (loc45 d)) (f26 : Buf (Elt F) (loc26 d)) (f33 : Buf (Elt F) (loc33 d))
    (f40 : Buf (Elt F) (loc40 d)) (f46 : Buf (Elt F) (loc46 d)) : sProp 𝕄 :=
  iprop((bigSep Finset.univ fun g : Fin 32 => loc42 d ↦[chunkSet (chunkOf w g)]{fullShare} f42)
    ∗ (loc45 d ↦{q} f45)
    ∗ (loc26 d ↦[wrowSet w]{fullShare} f26) ∗ (loc33 d ↦[wrowSet w]{fullShare} f33) ∗ (loc40 d ↦[wrowSet w]{fullShare} f40)
    ∗ (bigSep Finset.univ fun g : Fin 32 => loc46 d ↦[chunkSet (chunkOf w g)]{fullShare} f46))

def tileOut (d : Dev nD) (w : Fin 32) (q : PosShare TreeShare)
    (f42 : Buf (Elt F) (loc42 d)) (f45 : Buf (Elt F) (loc45 d)) (f26 : Buf (Elt F) (loc26 d)) (f33 : Buf (Elt F) (loc33 d))
    (f40 : Buf (Elt F) (loc40 d)) : sProp 𝕄 :=
  iprop((bigSep Finset.univ fun g : Fin 32 => loc42 d ↦[chunkSet (chunkOf w g)]{fullShare} f42)
    ∗ (loc45 d ↦{q} f45)
    ∗ (loc26 d ↦[wrowSet w]{fullShare} f26) ∗ (loc33 d ↦[wrowSet w]{fullShare} f33) ∗ (loc40 d ↦[wrowSet w]{fullShare} f40)
    ∗ (bigSep Finset.univ fun g : Fin 32 => loc46 d ↦[chunkSet (chunkOf w g)]{fullShare} (Cert.Spec.rowsOf (F := F) f42 f45 f26 f33 f40)))

/-- The obligation of one worker: from its share of the arrays, its scratch and its semaphores, the kernel's body runs
    to its end, nothing faulting, and its output rows hold `Spec.rowsOf`. Asked of the arrays: every table row number
    below 8192 and every slot number below 1024 (what makes the indexed copy and the indexed stores in range). -/
def TileBody : Prop :=
  ∀ (_ : (K (F := F)).Facts) (d : Dev nD) (L : grid0.Coords) (q : PosShare TreeShare)
    (f42 : Buf (Elt F) (loc42 d)) (f45 : Buf (Elt F) (loc45 d)) (f26 : Buf (Elt F) (loc26 d)) (f33 : Buf (Elt F) (loc33 d))
    (f40 : Buf (Elt F) (loc40 d)) (f46 : Buf (Elt F) (loc46 d))
    (_ : ∀ p, (f40 p).toNat < 8192) (_ : ∀ p, (f26 p).toNat < 1024)
    (O : CellTallies nD τ sig (HIx 1)) (W : Waits sig (HIx 1)) (_ : ∀ g, O g none = 0),
    iprop(levAts (K (F := F)).L (K (F := F)).lev ∗ emp ∗ tileIn d (wid L) q f42 f45 f26 f33 f40 f46
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_body L (Memref.whole main_v42_scv) (Memref.isWhole_whole _) (Memref.whole main_v45_scv) (Memref.isWhole_whole _)
            (Memref.whole main_v26_scv) (Memref.isWhole_whole _) (Memref.whole main_v33_scv) (Memref.isWhole_whole _)
            (Memref.whole main_v40_scv) (Memref.isWhole_whole _) (Memref.whole main_v46_scv) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            cc0_scratch6 cc0_scratch7 cc0_scratch8 cc0_scratch9 cc0_scratch10 cc0_scoped0 cc0_scoped1 cc0_scoped2)
          fun _ => iprop(tileOut d (wid L) q f42 f45 f26 f33 f40 ∗ scopedBufs (V d (cV L) (jV L)) ∗ scopedSems0 (V d (cV L) (jV L))
            ∗ ∃ W', ⌜∀ p ∈ W', p ∈ W ∨ p.2 = none⌝ ∗ owes (V d (cV L) (jV L)) O W')

end Cert.Kernel.Tile

end
-- ==== Proof.BodyDefsK.lean ====
/-
  What the tile body's proof is written over: the subcore's own buffers and semaphores peeled out of what it owns; a
  chunk of 32 rows and a worker's row of a per-worker vector as the program slices them; the thirty-two chunks of a
  worker as "not yet reached" (`ge k`) and "done" (`lt k`); and the two scratch slots of the
  outer loop — per slot a copy in flight carrying its chunk, or the slot idle past the last chunk.
-/
import proofs.«210205_g8383776161859_cont_9to1_m_1272_27_alg».proof.Proof.TileDefsK

noncomputable section

namespace Cert.Kernel.Body

open Cert.Kernel Cert.Kernel.Gen Cert.Kernel.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

abbrev cell (d : Dev nD) (c : Fin τ.nSC) (i : Fin τ.nSub) (s : DmaSem sig) : GSem nD τ sig := (V d c i, .dma s)

omit [FloatOps F] in
/-- The eight DMA semaphores the body uses are among the subcore's own: they are them, at zero, and the rest. -/
theorem ownSems0_eq (d : Dev nD) (c : Fin τ.nSC) (i : Fin τ.nSub) :
    (ownSems0 (V d c i) : sProp 𝕄)
      = iprop(semVal (cell d c i cc0_scratch6.sem) 0 ∗ semVal (cell d c i cc0_scratch7.sem) 0 ∗ semVal (cell d c i cc0_scratch8.sem) 0 ∗ semVal (cell d c i cc0_scratch9.sem) 0 ∗ semVal (cell d c i cc0_scratch10.sem) 0 ∗ semVal (cell d c i cc0_scoped0.sem) 0 ∗ semVal (cell d c i cc0_scoped1.sem) 0 ∗ semVal (cell d c i cc0_scoped2.sem) 0
          ∗ bigSep (((((((((ownCells (V d c i)).erase (cell d c i cc0_scratch6.sem)).erase (cell d c i cc0_scratch7.sem)).erase (cell d c i cc0_scratch8.sem)).erase (cell d c i cc0_scratch9.sem)).erase (cell d c i cc0_scratch10.sem)).erase (cell d c i cc0_scoped0.sem)).erase (cell d c i cc0_scoped1.sem)).erase (cell d c i cc0_scoped2.sem)) fun g => semVal g 0) := by
  unfold SparseCore.Cfg.ownSems0
  rw [SparseCore.bigSep_erase' ((mem_ownCells (g := (cell d c i cc0_scratch6.sem))).mpr ⟨rfl, by show (SemLoc.dma cc0_scratch6.sem : SemLoc sig).isScoped .scVector = true; decide⟩),
    SparseCore.bigSep_erase' (Finset.mem_erase.mpr ⟨fun e => absurd (Prod.mk.inj e).2 (by decide), (mem_ownCells (g := (cell d c i cc0_scratch7.sem))).mpr ⟨rfl, by show (SemLoc.dma cc0_scratch7.sem : SemLoc sig).isScoped .scVector = true; decide⟩⟩),
    SparseCore.bigSep_erase' (Finset.mem_erase.mpr ⟨fun e => absurd (Prod.mk.inj e).2 (by decide), Finset.mem_erase.mpr ⟨fun e => absurd (Prod.mk.inj e).2 (by decide), (mem_ownCells (g := (cell d c i cc0_scratch8.sem))).mpr ⟨rfl, by show (SemLoc.dma cc0_scratch8.sem : SemLoc sig).isScoped .scVector = true; decide⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (cell d c i cc0_scratch9.sem))).mpr ⟨rfl, by show (SemLoc.dma cc0_scratch9.sem : SemLoc sig).isScoped .scVector = true; decide⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (cell d c i cc0_scratch10.sem))).mpr ⟨rfl, by show (SemLoc.dma cc0_scratch10.sem : SemLoc sig).isScoped .scVector = true; decide⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (cell d c i cc0_scoped0.sem))).mpr ⟨rfl, by show (SemLoc.dma cc0_scoped0.sem : SemLoc sig).isScoped .scVector = true; decide⟩⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (cell d c i cc0_scoped1.sem))).mpr ⟨rfl, by show (SemLoc.dma cc0_scoped1.sem : SemLoc sig).isScoped .scVector = true; decide⟩⟩⟩⟩⟩⟩⟩),
    SparseCore.bigSep_erase' (Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), Finset.mem_erase.mpr ⟨fun e => absurd (Prod.mk.inj e).2 (by decide), (mem_ownCells (g := (cell d c i cc0_scoped2.sem))).mpr ⟨rfl, by show (SemLoc.dma cc0_scoped2.sem : SemLoc sig).isScoped .scVector = true; decide⟩⟩⟩⟩⟩⟩⟩⟩)]

omit [FloatOps F] in
/-- The six scratch buffers are among the subcore's own: they are them, at some contents, and the rest. -/
theorem ownBufs_eq (d : Dev nD) (c : Fin τ.nSC) (i : Fin τ.nSub) :
    (ownBufs (V d c i) : sProp 𝕄)
      = iprop((∃ f, (V d c i).loc cc0_scratch0 ↦{fullShare} f) ∗ (∃ f, (V d c i).loc cc0_scratch1 ↦{fullShare} f) ∗ (∃ f, (V d c i).loc cc0_scratch2 ↦{fullShare} f) ∗ (∃ f, (V d c i).loc cc0_scratch3 ↦{fullShare} f) ∗ (∃ f, (V d c i).loc cc0_scratch4 ↦{fullShare} f) ∗ (∃ f, (V d c i).loc cc0_scratch5 ↦{fullShare} f)
          ∗ bigSep (((((((ownRefs (τ := τ) (.scVector c i)).erase ((Proc.scVector c i).devRef cc0_scratch0)).erase ((Proc.scVector c i).devRef cc0_scratch1)).erase ((Proc.scVector c i).devRef cc0_scratch2)).erase ((Proc.scVector c i).devRef cc0_scratch3)).erase ((Proc.scVector c i).devRef cc0_scratch4)).erase ((Proc.scVector c i).devRef cc0_scratch5))
              fun b => iprop(∃ f, ((d, b) : Loc nD τ sig) ↦{fullShare} f)) := by
  unfold SparseCore.Cfg.ownBufs
  refine (SparseCore.bigSep_erase' (SparseCore.Cfg.mem_ownRefs_of_owner (p := Proc.scVector c i) (b := ((Proc.scVector c i).devRef cc0_scratch0)) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector c i) (b := ((Proc.scVector c i).devRef cc0_scratch1)) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector c i) (b := ((Proc.scVector c i).devRef cc0_scratch2)) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector c i) (b := ((Proc.scVector c i).devRef cc0_scratch3)) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector c i) (b := ((Proc.scVector c i).devRef cc0_scratch4)) rfl⟩⟩⟩⟩),
    SparseCore.bigSep_erase' (Finset.mem_erase.mpr ⟨fun e => absurd (Proc.devRef_injective _ e) (show (cc0_scratch5 : Ref sig .scVector) ≠ cc0_scratch4 by decide), Finset.mem_erase.mpr ⟨fun e => absurd (Proc.devRef_injective _ e) (show (cc0_scratch5 : Ref sig .scVector) ≠ cc0_scratch3 by decide), Finset.mem_erase.mpr ⟨fun e => absurd (Proc.devRef_injective _ e) (show (cc0_scratch5 : Ref sig .scVector) ≠ cc0_scratch2 by decide), Finset.mem_erase.mpr ⟨fun e => absurd (Proc.devRef_injective _ e) (show (cc0_scratch5 : Ref sig .scVector) ≠ cc0_scratch1 by decide), Finset.mem_erase.mpr ⟨fun e => absurd (Proc.devRef_injective _ e) (show (cc0_scratch5 : Ref sig .scVector) ≠ cc0_scratch0 by decide), SparseCore.Cfg.mem_ownRefs_of_owner (p := Proc.scVector c i) (b := ((Proc.scVector c i).devRef cc0_scratch5)) rfl⟩⟩⟩⟩⟩)]

/-! ## A chunk, as the program slices it -/

omit [FloatOps F] in
/-- A 32-row rectangle at row offset `32·c` is chunk `c` of the 1024. -/
theorem unit_eq_chunk (off : Fin 2 → Nat) (h : ∀ a, off a + S32x1024.size a ≤ S32768x1024.size a) (c : Fin 1024)
    (hoff : off = ![32 * c.val, 0]) : Rect.unit (s := S32768x1024) off S32x1024.size h = chunkRect c := by
  subst hoff
  unfold chunkRect Rect.part Rect.block
  congr 1 <;> funext a
  · match a with
    | 0 => simp [Shape.partIx, Shape.partSize]; omega
    | 1 => simp [Shape.partIx, Shape.partSize]
  · match a with
    | 0 => simp [Shape.partSize]
    | 1 => simp [Shape.partSize]

omit [FloatOps F] in
theorem set_slice42 (r : Rect S32768x1024) (hs : ∀ a, r.stride a = 1) (c : Fin 1024) (hr : r = chunkRect c) :
    (((Memref.whole main_v42_scv : Memref sig .scVector .hbm S32768x1024 .f32).slice r hs).view.set : Finset S32768x1024.Idx) = chunkSet c := by
  subst hr; rfl
omit [FloatOps F] in
theorem set_slice46 (r : Rect S32768x1024) (hs : ∀ a, r.stride a = 1) (c : Fin 1024) (hr : r = chunkRect c) :
    (((Memref.whole main_v46_scv : Memref sig .scVector .hbm S32768x1024 .f32).slice r hs).view.set : Finset S32768x1024.Idx) = chunkSet c := by
  subst hr
  show ((View.whole (main_v46_scv : Ref sig .scVector)).slice (chunkRect c)).set = ((View.whole (main_v42_scv : Ref sig .scVector)).slice (chunkRect c)).set
  rw [View.set_slice, View.set_slice]; rfl

/-! ## The chunks of a worker not yet reached, and those done -/

abbrev ge (k : ℕ) : Finset (Fin 32) := Finset.univ.filter fun g => k ≤ g.val
abbrev lt (k : ℕ) : Finset (Fin 32) := Finset.univ.filter fun g => g.val < k

theorem ge_zero : ge 0 = Finset.univ := by ext g; simp
theorem lt_zero : lt 0 = ∅ := by ext g; simp
theorem ge_top : ge 32 = ∅ := by ext g; simp
theorem lt_top : lt 32 = Finset.univ := by ext g; simp
theorem ge_succ (k : ℕ) (hk : k < 32) : ge k = insert (⟨k, hk⟩ : Fin 32) (ge (k + 1)) := by
  ext g; simp only [Finset.mem_filter, Finset.mem_univ, true_and, Finset.mem_insert, Fin.ext_iff]; omega
theorem not_mem_ge (k : ℕ) (hk : k < 32) : (⟨k, hk⟩ : Fin 32) ∉ ge (k + 1) := by simp
theorem lt_succ (k : ℕ) (hk : k < 32) : lt (k + 1) = insert (⟨k, hk⟩ : Fin 32) (lt k) := by
  ext g; simp only [Finset.mem_filter, Finset.mem_univ, true_and, Finset.mem_insert, Fin.ext_iff]; omega
theorem not_mem_lt (k : ℕ) (hk : k < 32) : (⟨k, hk⟩ : Fin 32) ∉ lt k := by simp

omit [FloatOps F] in
theorem bigSep_ge_succ (Φ : Fin 32 → sProp 𝕄) (k : ℕ) (hk : k < 32) : bigSep (ge k) Φ = iprop(Φ ⟨k, hk⟩ ∗ bigSep (ge (k + 1)) Φ) := by
  rw [ge_succ k hk, SparseCore.bigSep_insert' (not_mem_ge k hk)]
omit [FloatOps F] in
theorem bigSep_lt_succ (Φ : Fin 32 → sProp 𝕄) (k : ℕ) (hk : k < 32) : bigSep (lt (k + 1)) Φ = iprop(Φ ⟨k, hk⟩ ∗ bigSep (lt k) Φ) := by
  rw [lt_succ k hk, SparseCore.bigSep_insert' (not_mem_lt k hk)]

/-! ## The pieces a worker holds, through the program's own slices -/

section Pieces
variable (d : Dev nD) (L : grid0.Coords)

omit [FloatOps F] in
/-- Chunk `g` of the worker's rows of the re-laid memory, held through the program's own slice at row offset `off`. -/
theorem pts_in (off : Fin 2 → Nat) (h : ∀ a, off a + S32x1024.size a ≤ S32768x1024.size a) (g : Fin 32)
    (hoff : off = ![32 * (chunkOf (wid L) g).val, 0]) (f : Buf (Elt F) (loc42 d)) :
    ((((Memref.whole main_v42_scv : Memref sig .scVector .hbm S32768x1024 .f32).slice (Rect.unit (s := S32768x1024) off S32x1024.size h) (fun _ => rfl)).view.loc (V d (cV L) (jV L))
        ↦[((Memref.whole main_v42_scv : Memref sig .scVector .hbm S32768x1024 .f32).slice (Rect.unit (s := S32768x1024) off S32x1024.size h) (fun _ => rfl)).view.set]{fullShare} f) : sProp 𝕄)
      = (loc42 d ↦[chunkSet (chunkOf (wid L) g)]{fullShare} f) := by
  rw [set_slice42 _ _ _ (unit_eq_chunk off h _ hoff)]
omit [FloatOps F] in
theorem pts_out (off : Fin 2 → Nat) (h : ∀ a, off a + S32x1024.size a ≤ S32768x1024.size a) (g : Fin 32)
    (hoff : off = ![32 * (chunkOf (wid L) g).val, 0]) (f : Buf (Elt F) (loc46 d)) :
    ((((Memref.whole main_v46_scv : Memref sig .scVector .hbm S32768x1024 .f32).slice (Rect.unit (s := S32768x1024) off S32x1024.size h) (fun _ => rfl)).view.loc (V d (cV L) (jV L))
        ↦[((Memref.whole main_v46_scv : Memref sig .scVector .hbm S32768x1024 .f32).slice (Rect.unit (s := S32768x1024) off S32x1024.size h) (fun _ => rfl)).view.set]{fullShare} f) : sProp 𝕄)
      = (loc46 d ↦[chunkSet (chunkOf (wid L) g)]{fullShare} f) := by
  rw [set_slice46 _ _ _ (unit_eq_chunk off h _ hoff)]

omit [FloatOps F] in
theorem off1_chunk (r : Fin 2) : k0_off1 L (BitVec.ofNat 32 (32 * r.val)) = ![32 * (chunkOf (wid L) ⟨r.val, by omega⟩).val, 0] := by
  rw [k0_off1_eq]; simp only [chunkOf, wid]; congr 1; omega
omit [FloatOps F] in
theorem off3_chunk (t : Fin k0_t1_loop.trips) (ht : 2 * t.val < 32) : k0_off3 L t = ![32 * (chunkOf (wid L) ⟨2 * t.val, ht⟩).val, 0] := by
  rw [k0_off3_eq]; simp only [chunkOf, wid]; congr 1; omega

end Pieces

omit [FloatOps F] in
/-- The first two chunks out of all thirty-two. -/
theorem take2 (Φ : Fin 32 → sProp 𝕄) :
    bigSep Finset.univ Φ = iprop(Φ (0 : Fin 32) ∗ Φ (1 : Fin 32) ∗ bigSep (ge 2) Φ) := by
  have h := (congrArg (fun s => bigSep s Φ) ge_zero.symm).trans
    ((bigSep_ge_succ Φ 0 (by omega)).trans (congrArg (fun X => iprop(Φ (⟨0, by omega⟩ : Fin 32) ∗ X)) (bigSep_ge_succ Φ 1 (by omega))))
  exact h

section Start
variable (L : grid0.Coords)
omit [FloatOps F] in
theorem off1_chunk0 : k0_off1 L 0#32 = ![32 * (chunkOf (wid L) (0 : Fin 32)).val, 0] := off1_chunk L 0
omit [FloatOps F] in
theorem off1_chunk1 : k0_off1 L 32#32 = ![32 * (chunkOf (wid L) (1 : Fin 32)).val, 0] := off1_chunk L 1
end Start

/-! ## A worker's row of a per-worker vector, as the program slices and squeezes it -/

section Rows
variable (d : Dev nD) (L : grid0.Coords)

omit [FloatOps F] in
theorem unit_eq_wrow : Rect.unit (s := S32x16) (k0_off2 L) S1x16.size (k0_off2_inb L) = wrowRect (wid L) := by
  unfold wrowRect Rect.part Rect.block
  congr 1 <;> funext a
  · rw [k0_off2_eq]
    match a with
    | 0 => simp [Shape.partIx, Shape.partSize, wid]
    | 1 => simp [Shape.partIx, Shape.partSize]
  · match a with
    | 0 => simp [Shape.partSize]
    | 1 => simp [Shape.partSize]

abbrev rowNV : Memref sig .scVector .hbm S16 .i32 :=
  ((Memref.whole main_v26_scv : Memref sig .scVector .hbm S32x16 .i32).slice (Rect.unit (s := S32x16) (k0_off2 L) S1x16.size (k0_off2_inb L)) (fun _ => rfl)).squeeze S16 squeezes_S1x16_S16
abbrev rowWV : Memref sig .scVector .hbm S16 .f32 :=
  ((Memref.whole main_v33_scv : Memref sig .scVector .hbm S32x16 .f32).slice (Rect.unit (s := S32x16) (k0_off2 L) S1x16.size (k0_off2_inb L)) (fun _ => rfl)).squeeze S16 squeezes_S1x16_S16
abbrev rowGV : Memref sig .scVector .hbm S16 .i32 :=
  ((Memref.whole main_v40_scv : Memref sig .scVector .hbm S32x16 .i32).slice (Rect.unit (s := S32x16) (k0_off2 L) S1x16.size (k0_off2_inb L)) (fun _ => rfl)).squeeze S16 squeezes_S1x16_S16

omit [FloatOps F] in
theorem set_rowNV : (rowNV L).view.set = wrowSet (wid L) := by
  show (((Memref.whole main_v26_scv : Memref sig .scVector .hbm S32x16 .i32).view.slice (Rect.unit (s := S32x16) (k0_off2 L) S1x16.size (k0_off2_inb L))).reshape S16 squeezes_S1x16_S16.numel_eq).set
    = ((Memref.whole main_v26_scv : Memref sig .scVector .hbm S32x16 .i32).view.slice (wrowRect (wid L))).set
  rw [View.set_reshape]
  exact unit_eq_wrow L ▸ rfl
omit [FloatOps F] in
theorem set_rowWV : (rowWV L).view.set = wrowSet (wid L) := by
  show (((Memref.whole main_v33_scv : Memref sig .scVector .hbm S32x16 .f32).view.slice (Rect.unit (s := S32x16) (k0_off2 L) S1x16.size (k0_off2_inb L))).reshape S16 squeezes_S1x16_S16.numel_eq).set
    = ((Memref.whole main_v26_scv : Memref sig .scVector .hbm S32x16 .i32).view.slice (wrowRect (wid L))).set
  rw [View.set_reshape]
  exact unit_eq_wrow L ▸ rfl
omit [FloatOps F] in
theorem set_rowGV : (rowGV L).view.set = wrowSet (wid L) := by
  show (((Memref.whole main_v40_scv : Memref sig .scVector .hbm S32x16 .i32).view.slice (Rect.unit (s := S32x16) (k0_off2 L) S1x16.size (k0_off2_inb L))).reshape S16 squeezes_S1x16_S16.numel_eq).set
    = ((Memref.whole main_v26_scv : Memref sig .scVector .hbm S32x16 .i32).view.slice (wrowRect (wid L))).set
  rw [View.set_reshape]
  exact unit_eq_wrow L ▸ rfl

omit [FloatOps F] in
theorem pts_rowNV (f : Buf (Elt F) (loc26 d)) :
    ((rowNV L).view.loc (V d (cV L) (jV L)) ↦[(rowNV L).view.set]{fullShare} f : sProp 𝕄) = (loc26 d ↦[wrowSet (wid L)]{fullShare} f) := by
  rw [set_rowNV]
omit [FloatOps F] in
theorem pts_rowWV (f : Buf (Elt F) (loc33 d)) :
    ((rowWV L).view.loc (V d (cV L) (jV L)) ↦[(rowWV L).view.set]{fullShare} f : sProp 𝕄) = (loc33 d ↦[wrowSet (wid L)]{fullShare} f) := by
  rw [set_rowWV]
omit [FloatOps F] in
theorem pts_rowGV (f : Buf (Elt F) (loc40 d)) :
    ((rowGV L).view.loc (V d (cV L) (jV L)) ↦[(rowGV L).view.set]{fullShare} f : sProp 𝕄) = (loc40 d ↦[wrowSet (wid L)]{fullShare} f) := by
  rw [set_rowGV]

end Rows

section KV
variable (d : Dev nD) (L : grid0.Coords)

abbrev kvSl : Memref sig .scVector .hbm S8192x128 .f32 :=
  (Memref.whole main_v45_scv : Memref sig .scVector .hbm S8192x128 .f32).slice (Rect.unit (s := S8192x128) ![0, 0] S8192x128.size inb_S8192x128_S8192x128_0_0) (fun _ => rfl)

omit [FloatOps F] in
theorem set_kvSl : (kvSl.view.set : Finset S8192x128.Idx) = Finset.univ := by
  show ((View.whole (main_v45_scv : Ref sig .scVector)).slice (Rect.unit (s := S8192x128) ![0, 0] S8192x128.size inb_S8192x128_S8192x128_0_0)).set = Finset.univ
  rw [View.set_slice_whole]
  ext i
  simp only [Rect.mem_set_unit, Finset.mem_univ, iff_true]
  intro a
  match a with
  | 0 =>
    have h' : (i 0).val < 8192 := (i 0).isLt
    exact ⟨Nat.zero_le _, by show (i 0).val < 0 + 8192; omega⟩
  | 1 =>
    have h' : (i 1).val < 128 := (i 1).isLt
    exact ⟨Nat.zero_le _, by show (i 1).val < 0 + 128; omega⟩

omit [FloatOps F] in
/-- The key/value table, read whole through the program's slice at a share `q`. -/
theorem pts_kv (q : PosShare TreeShare) (f : Buf (Elt F) (loc45 d)) :
    ((kvSl.view.loc (V d (cV L) (jV L)) ↦[kvSl.view.set]{q} f : sProp 𝕄)) = (loc45 d ↦{q} f) := by
  rw [set_kvSl]
end KV

/-! ## The outer loop's invariant -/

section Inv
variable (d : Dev nD) (L : grid0.Coords) (q : PosShare TreeShare)
  (f42 : Buf (Elt F) (loc42 d)) (f45 : Buf (Elt F) (loc45 d)) (f26 : Buf (Elt F) (loc26 d)) (f33 : Buf (Elt F) (loc33 d))
  (f40 : Buf (Elt F) (loc40 d)) (f46 : Buf (Elt F) (loc46 d))
  (O : CellTallies nD τ sig (HIx 1)) (W : Waits sig (HIx 1))

/-- A 32 × 1024 scratch holds chunk `g` of the worker's rows of the re-laid memory. -/
def Landed (g : Fin 32) (c : Vec F S32x1024 .f32) : Prop :=
  ∀ (r : Fin 32) (n : Fin 1024), c (ValueIdx.ix2 r n) = f42 (ValueIdx.ix2 (⟨1024 * (wid L).val + 32 * g.val + r.val, by have := (wid L).isLt; omega⟩ : Fin 32768) n)

abbrev scrA : Loc nD τ sig := (Memref.whole cc0_scratch0 : Memref sig .scVector .vmem S32x1024 .f32).view.loc (V d (cV L) (jV L))
abbrev scrB : Loc nD τ sig := (Memref.whole cc0_scratch1 : Memref sig .scVector .vmem S32x1024 .f32).view.loc (V d (cV L) (jV L))

/-- Slot A before trip `t`: chunk `2t` in flight into the first scratch, or, past the last chunk, the scratch idle. -/
def slotA (t : ℕ) : sProp 𝕄 :=
  if h : 2 * t < 32 then
    Transfers.Flight countersEmb (V d (cV L) (jV L)) (SemLoc.dma cc0_scratch6.sem) (default : HIx 1) 1048576
      iprop((∃ c, ⌜Landed d L f42 ⟨2 * t, h⟩ c⌝ ∗ scrA d L ↦{fullShare} c) ∗ (loc42 d ↦[chunkSet (chunkOf (wid L) ⟨2 * t, h⟩)]{fullShare} f42))
  else iprop((∃ c, scrA d L ↦{fullShare} c) ∗ semVal (cell d (cV L) (jV L) cc0_scratch6.sem) 0)

/-- Slot B before trip `t`: chunk `2t + 1` in flight into the second scratch, or idle. -/
def slotB (t : ℕ) : sProp 𝕄 :=
  if h : 2 * t + 1 < 32 then
    Transfers.Flight countersEmb (V d (cV L) (jV L)) (SemLoc.dma cc0_scratch7.sem) (default : HIx 1) 1048576
      iprop((∃ c, ⌜Landed d L f42 ⟨2 * t + 1, h⟩ c⌝ ∗ scrB d L ↦{fullShare} c) ∗ (loc42 d ↦[chunkSet (chunkOf (wid L) ⟨2 * t + 1, h⟩)]{fullShare} f42))
  else iprop((∃ c, scrB d L ↦{fullShare} c) ∗ semVal (cell d (cV L) (jV L) cc0_scratch7.sem) 0)

end Inv

end Cert.Kernel.Body

end
-- ==== Proof.WordsK.lean ====
/-
  The integer words of the worker's body, read as numbers.

  Worker (c, s) has number w = 16·c + s and owns rows 1024·w … 1024·w + 1023. Its body computes the first row
  1024·w as a 32-bit word; trip t of its sixteen trips handles two chunks of 32 rows, starting at rows
  1024·w + 64·t and 1024·w + 64·t + 32. A row x = b·4096 + i·64 + j has row digit (x / 64) % 64 = i (a shift by six places
  and a mask of six bits) and column digit x % 64 = j; a chunk's first row has column digit 0 or 32. The inner trips k of
  32 read table column 64 + (column digit) + k. None of these sums and products reaches 2 ^ 32, so the words are the
  numbers. The side conditions of the indexed loads and stores follow: a lane number is below 16, a table column below
  128, a chunk row below 32 and a slot number below 1024.
-/
import proofs.«210205_g8383776161859_cont_9to1_m_1272_27_alg».proof.Kernel
import proofs.«210205_g8383776161859_cont_9to1_m_1272_27_alg».proof.Proof.Gen.Kernel
import proofs.«210205_g8383776161859_cont_9to1_m_1272_27_alg».proof.Proof.TileDefsK

noncomputable section

namespace Cert.Kernel.Words

open Cert.Kernel Cert.Kernel.Gen Cert.Kernel.Tile Idealize.ShloMosaic

/-! ### Words: the scalar operations read as numbers -/

theorem addi_toNat (x y : BitVec 32) : (Scalar.addi x y).toNat = (x.toNat + y.toNat) % 4294967296 := by
  show (x + y).toNat = _
  rw [BitVec.toNat_add]

theorem muli_toNat (x y : BitVec 32) : (Scalar.muli x y).toNat = (x.toNat * y.toNat) % 4294967296 := by
  show (x * y).toNat = _
  rw [BitVec.toNat_mul]

theorem lit_toNat (n : Nat) (h : n < 4294967296) : (BitVec.ofNat 32 n).toNat = n := by
  rw [BitVec.toNat_ofNat]; exact Nat.mod_eq_of_lt h

/-- Keeping the six low bits is the remainder by 64. -/
theorem andi63_toNat (x : BitVec 32) : (Scalar.andi x 63#32).toNat = x.toNat % 64 := by
  show (x &&& 63#32).toNat = _
  rw [BitVec.toNat_and]
  exact Nat.and_two_pow_sub_one_eq_mod x.toNat 6

/-- Shifting right by six places is the quotient by 64. -/
theorem shrui6_toNat (x : BitVec 32) : (Scalar.shrui x 6#32).toNat = x.toNat / 64 := by
  show (IntOp.shrui .scalar x 6#32).toNat = _
  unfold IntOp.shrui
  rw [if_pos (by decide), BitVec.ushiftRight_eq', BitVec.toNat_ushiftRight, Nat.shiftRight_eq_div_pow]
  rfl

/-- The induction variable of a loop from 0 by 1, at a trip below 2 ^ 32, is the trip's number. -/
theorem iv01_toNat (k : Nat) (hk : k < 4294967296) : (Scf.iv 0#32 1#32 k).toNat = k := by
  unfold Scf.iv
  rw [BitVec.toNat_add, BitVec.toNat_mul, lit_toNat k hk]
  show (0 + k * 1 % 4294967296) % 4294967296 = k
  omega

theorem t1_trips : k0_t1_loop.trips = 16 := by decide
theorem t2_trips : k0_t2_loop.trips = 32 := by decide
theorem t3_trips : k0_t3_loop.trips = 32 := by decide

/-! ### The first row of a worker, and of a trip's two chunks -/

/-- The first row of worker (L 0, L 1), as the body computes it. -/
def v2w (L : grid0.Coords) : BitVec 32 :=
  Scalar.muli (Scalar.addi (Scalar.muli (BitVec.ofNat 32 (L 0).val) 16#32) (BitVec.ofNat 32 (L 1).val)) 1024#32

/-- The first row of the first chunk of trip t. -/
def xA (L : grid0.Coords) (t : Fin k0_t1_loop.trips) : BitVec 32 :=
  Scalar.addi (v2w L) (Scalar.muli (Scalar.addi (Scalar.muli 2#32 (Scf.iv 0#32 1#32 t)) 0#32) 32#32)

/-- The first row of the second chunk of trip t. -/
def xB (L : grid0.Coords) (t : Fin k0_t1_loop.trips) : BitVec 32 :=
  Scalar.addi (v2w L) (Scalar.muli (Scalar.addi (Scalar.muli 2#32 (Scf.iv 0#32 1#32 t)) 1#32) 32#32)

theorem t1_lt (t : Fin k0_t1_loop.trips) : t.val < 16 := Nat.lt_of_lt_of_le t.isLt (Nat.le_of_eq t1_trips)
theorem t2_lt (k : Fin k0_t2_loop.trips) : k.val < 32 := Nat.lt_of_lt_of_le k.isLt (Nat.le_of_eq t2_trips)
theorem t3_lt (k : Fin k0_t3_loop.trips) : k.val < 32 := Nat.lt_of_lt_of_le k.isLt (Nat.le_of_eq t3_trips)

theorem wid_val (L : grid0.Coords) : (wid L).val = 16 * (L 0).val + (L 1).val := rfl

theorem v2w_toNat (L : grid0.Coords) : (v2w L).toNat = 1024 * (wid L).val := by
  have h0 : (L 0).val < 2 := (L 0).isLt
  have h1 : (L 1).val < 16 := (L 1).isLt
  unfold v2w
  rw [muli_toNat, addi_toNat, muli_toNat, lit_toNat (L 0).val (by omega), lit_toNat (L 1).val (by omega), wid_val]
  show (((L 0).val * 16 % 4294967296 + (L 1).val) % 4294967296 * 1024) % 4294967296 = 1024 * (16 * (L 0).val + (L 1).val)
  omega

theorem xA_toNat (L : grid0.Coords) (t : Fin k0_t1_loop.trips) : (xA L t).toNat = 1024 * (wid L).val + 64 * t.val := by
  have hw := (wid L).isLt
  have ht := t1_lt t
  unfold xA
  rw [addi_toNat, v2w_toNat, muli_toNat, addi_toNat, muli_toNat, iv01_toNat t.val (by omega)]
  show (1024 * (wid L).val + ((2 * t.val % 4294967296 + 0) % 4294967296 * 32) % 4294967296) % 4294967296 = _
  omega

theorem xB_toNat (L : grid0.Coords) (t : Fin k0_t1_loop.trips) : (xB L t).toNat = 1024 * (wid L).val + 64 * t.val + 32 := by
  have hw := (wid L).isLt
  have ht := t1_lt t
  unfold xB
  rw [addi_toNat, v2w_toNat, muli_toNat, addi_toNat, muli_toNat, iv01_toNat t.val (by omega)]
  show (1024 * (wid L).val + ((2 * t.val % 4294967296 + 1) % 4294967296 * 32) % 4294967296) % 4294967296 = _
  omega

/-! ### Row and column digits of a chunk's first row -/

theorem rowA (L : grid0.Coords) (t : Fin k0_t1_loop.trips) :
    (Scalar.andi (Scalar.shrui (xA L t) 6#32) 63#32).toNat = (1024 * (wid L).val + 64 * t.val) / 64 % 64 := by
  rw [andi63_toNat, shrui6_toNat, xA_toNat]

theorem colA (L : grid0.Coords) (t : Fin k0_t1_loop.trips) : (Scalar.andi (xA L t) 63#32).toNat = 0 := by
  rw [andi63_toNat, xA_toNat]; omega

theorem rowB (L : grid0.Coords) (t : Fin k0_t1_loop.trips) :
    (Scalar.andi (Scalar.shrui (xB L t) 6#32) 63#32).toNat = (1024 * (wid L).val + 64 * t.val + 32) / 64 % 64 := by
  rw [andi63_toNat, shrui6_toNat, xB_toNat]

theorem colB (L : grid0.Coords) (t : Fin k0_t1_loop.trips) : (Scalar.andi (xB L t) 63#32).toNat = 32 := by
  rw [andi63_toNat, xB_toNat]; omega

/-- The row digit is below 64 (so below the table's 128 columns). -/
theorem rowA_lt (L : grid0.Coords) (t : Fin k0_t1_loop.trips) : (Scalar.andi (Scalar.shrui (xA L t) 6#32) 63#32).toNat < 64 := by
  rw [andi63_toNat]; omega
theorem rowB_lt (L : grid0.Coords) (t : Fin k0_t1_loop.trips) : (Scalar.andi (Scalar.shrui (xB L t) 6#32) 63#32).toNat < 64 := by
  rw [andi63_toNat]; omega

/-! ### The inner loops' words -/

theorem iv_toNat2 (k : Fin k0_t2_loop.trips) : (Scf.iv 0#32 1#32 k).toNat = k.val :=
  iv01_toNat k.val (by have := t2_lt k; omega)
theorem iv_toNat3 (k : Fin k0_t3_loop.trips) : (Scf.iv 0#32 1#32 k).toNat = k.val :=
  iv01_toNat k.val (by have := t3_lt k; omega)

/-- The table column of inner trip k: 64, plus the column digit c, plus k. -/
theorem colw (c : BitVec 32) (hc : c.toNat < 64) (k : Nat) (hk : k < 32) :
    (Scalar.addi (Scalar.addi 64#32 c) (Scf.iv 0#32 1#32 k)).toNat = 64 + c.toNat + k := by
  rw [addi_toNat, addi_toNat, iv01_toNat k (by omega)]
  show ((64 + c.toNat) % 4294967296 + k) % 4294967296 = _
  omega

theorem colwA (L : grid0.Coords) (t : Fin k0_t1_loop.trips) (k : Fin k0_t2_loop.trips) :
    (Scalar.addi (Scalar.addi 64#32 (Scalar.andi (xA L t) 63#32)) (Scf.iv 0#32 1#32 k)).toNat = 64 + k.val := by
  rw [colw _ (by rw [colA]; omega) k.val (t2_lt k), colA]

theorem colwB (L : grid0.Coords) (t : Fin k0_t1_loop.trips) (k : Fin k0_t3_loop.trips) :
    (Scalar.addi (Scalar.addi 64#32 (Scalar.andi (xB L t) 63#32)) (Scf.iv 0#32 1#32 k)).toNat = 96 + k.val := by
  rw [colw _ (by rw [colB]; omega) k.val (t3_lt k), colB]

/-! ### The side conditions of the indexed loads and stores -/

/-- An indexed load of the 16 × 128 table at (lane, w): a lane number is below 16, the column w below 128. -/
theorem chk_row (h : S16.Iotas .scVector 32 [0]) (w : BitVec 32) (hw : w.toNat < 128) :
    k0_chk1 (iota .scVector S16 32 [0] h) (broadcast S16 w) := by
  unfold k0_chk1
  intro a x
  match a with
  | ⟨0, _⟩ =>
    have h16 : (x 0).val < 16 := (x 0).isLt
    show (BitVec.ofNat 32 (0 * 16 + (x 0).val)).toNat < 16
    rw [BitVec.toNat_ofNat]
    exact Nat.lt_of_le_of_lt (Nat.mod_le _ _) (by omega)
  | ⟨1, _⟩ =>
    show w.toNat < 128
    exact hw

theorem chk_row2 (h : S16.Iotas .scVector 32 [0]) (w : BitVec 32) (hw : w.toNat < 128) :
    k0_chk2 (iota .scVector S16 32 [0] h) (broadcast S16 w) := chk_row h w hw
theorem chk_row4 (h : S16.Iotas .scVector 32 [0]) (w : BitVec 32) (hw : w.toNat < 128) :
    k0_chk4 (iota .scVector S16 32 [0] h) (broadcast S16 w) := chk_row h w hw
theorem chk_row5 (h : S16.Iotas .scVector 32 [0]) (w : BitVec 32) (hw : w.toNat < 128) :
    k0_chk5 (iota .scVector S16 32 [0] h) (broadcast S16 w) := chk_row h w hw

/-- An indexed store into a 32 × 1024 chunk at (w, slot): the row w is below 32, a slot number below 1024. -/
theorem chk_store (v12 : IVec S16 32) (h12 : ∀ x, (v12 x).toNat < 1024) (w : BitVec 32) (hw : w.toNat < 32) :
    k0_chk3 v12 (broadcast S16 w) := by
  unfold k0_chk3
  intro a x
  match a with
  | ⟨0, _⟩ =>
    show w.toNat < 32
    exact hw
  | ⟨1, _⟩ =>
    show (v12 x).toNat < 1024
    exact h12 x

theorem chk_store6 (v12 : IVec S16 32) (h12 : ∀ x, (v12 x).toNat < 1024) (w : BitVec 32) (hw : w.toNat < 32) :
    k0_chk6 v12 (broadcast S16 w) := chk_store v12 h12 w hw

/-! The six conditions at the words the body passes. -/

theorem chk1_at (h : S16.Iotas .scVector 32 [0]) (L : grid0.Coords) (t : Fin k0_t1_loop.trips) :
    k0_chk1 (iota .scVector S16 32 [0] h) (broadcast S16 (Scalar.andi (Scalar.shrui (xA L t) 6#32) 63#32)) :=
  chk_row h _ (by have := rowA_lt L t; omega)

theorem chk4_at (h : S16.Iotas .scVector 32 [0]) (L : grid0.Coords) (t : Fin k0_t1_loop.trips) :
    k0_chk4 (iota .scVector S16 32 [0] h) (broadcast S16 (Scalar.andi (Scalar.shrui (xB L t) 6#32) 63#32)) :=
  chk_row4 h _ (by have := rowB_lt L t; omega)

theorem chk2_at (h : S16.Iotas .scVector 32 [0]) (L : grid0.Coords) (t : Fin k0_t1_loop.trips) (k : Fin k0_t2_loop.trips) :
    k0_chk2 (iota .scVector S16 32 [0] h)
      (broadcast S16 (Scalar.addi (Scalar.addi 64#32 (Scalar.andi (xA L t) 63#32)) (Scf.iv 0#32 1#32 k))) :=
  chk_row2 h _ (by rw [colwA]; have := t2_lt k; omega)

theorem chk5_at (h : S16.Iotas .scVector 32 [0]) (L : grid0.Coords) (t : Fin k0_t1_loop.trips) (k : Fin k0_t3_loop.trips) :
    k0_chk5 (iota .scVector S16 32 [0] h)
      (broadcast S16 (Scalar.addi (Scalar.addi 64#32 (Scalar.andi (xB L t) 63#32)) (Scf.iv 0#32 1#32 k))) :=
  chk_row5 h _ (by rw [colwB]; have := t3_lt k; omega)

theorem chk3_at (v12 : IVec S16 32) (h12 : ∀ x, (v12 x).toNat < 1024) (k : Fin k0_t2_loop.trips) :
    k0_chk3 v12 (broadcast S16 (Scf.iv 0#32 1#32 k)) :=
  chk_store v12 h12 _ (by rw [iv_toNat2]; exact t2_lt k)

theorem chk6_at (v12 : IVec S16 32) (h12 : ∀ x, (v12 x).toNat < 1024) (k : Fin k0_t3_loop.trips) :
    k0_chk6 v12 (broadcast S16 (Scf.iv 0#32 1#32 k)) :=
  chk_store6 v12 h12 _ (by rw [iv_toNat3]; exact t3_lt k)

end Cert.Kernel.Words

end
-- ==== Proof.BodyFacts1K.lean ====
/-
  Facts about what the tile body's copies land and what its two lane loads read.

  A copy whose source is a 32-row slice of the re-laid memory at row offset 32·(32·w + g) reads, at (r, n), the memory's
  entry (1024·w + 32·g + r, n): the slice places (r, n) at (offset + r, n). A whole-buffer write of a payload leaves
  the payload; a whole-buffer read reads the contents. A worker's row of a per-worker vector, sliced as a 1 × 16
  rectangle at row w and squeezed to sixteen lanes, places lane k at (w, k): the squeeze matches lane k with (0, k) by
  row-major position. A load of all sixteen lanes from offset 0 reads lane k at k.
-/
import proofs.«210205_g8383776161859_cont_9to1_m_1272_27_alg».proof.Proof.BodyDefsK

noncomputable section

namespace Cert.Kernel.Body

open Cert.Kernel Cert.Kernel.Gen Cert.Kernel.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Facts
variable (d : Dev nD) (L : grid0.Coords)
  (f42 : Buf (Elt F) (loc42 d)) (f26 : Buf (Elt F) (loc26 d)) (f33 : Buf (Elt F) (loc33 d)) (f40 : Buf (Elt F) (loc40 d))

/-! ## Where a worker's row of a per-worker vector sits -/

omit [FloatOps F] in
/-- The squeeze matches lane k of sixteen with entry (0, k) of the 1 × 16 rectangle. -/
theorem squeeze_lane (h : S16.numel = S1x16.numel) (k : Fin 16) :
    Shape.reshapeEquiv h (ValueIdx.ix1 k : S16.Idx) = (ValueIdx.ix2 (0 : Fin 1) k : S1x16.Idx) :=
  Shape.reshapeEquiv_eq_of_rowMajor h (by
    rw [Shape.rowMajor_val_two, Shape.rowMajor_val_one]
    show 0 * 16 + k.val = k.val
    omega)

omit [FloatOps F] in
/-- The worker's 1 × 16 rectangle places (0, k) at (w, k). -/
theorem wrow_emb (k : Fin 16) :
    (Rect.unit (s := S32x16) (k0_off2 L) S1x16.size (k0_off2_inb L)).emb (ValueIdx.ix2 (0 : Fin 1) k : S1x16.Idx)
      = (ValueIdx.ix2 (wid L) k : S32x16.Idx) := by
  funext a
  apply Fin.ext
  rw [Rect.emb_apply]
  match a with
  | ⟨0, _⟩ =>
    show k0_off2 L 0 + 1 * 0 = 16 * (L 0).val + (L 1).val
    rw [k0_off2_eq]
    show (16 * (L 0).val + (L 1).val) + 1 * 0 = 16 * (L 0).val + (L 1).val
    omega
  | ⟨1, _⟩ =>
    show k0_off2 L 1 + 1 * k.val = k.val
    rw [k0_off2_eq]
    show 0 + 1 * k.val = k.val
    omega

omit [FloatOps F] in
theorem rowNV_emb (k : Fin 16) : (rowNV L).view.emb (ValueIdx.ix1 k) = (ValueIdx.ix2 (wid L) k : S32x16.Idx) := by
  show (Rect.unit (s := S32x16) (k0_off2 L) S1x16.size (k0_off2_inb L)).emb (Shape.reshapeEquiv squeezes_S1x16_S16.numel_eq (ValueIdx.ix1 k)) = _
  rw [squeeze_lane, wrow_emb]
omit [FloatOps F] in
theorem rowWV_emb (k : Fin 16) : (rowWV L).view.emb (ValueIdx.ix1 k) = (ValueIdx.ix2 (wid L) k : S32x16.Idx) := by
  show (Rect.unit (s := S32x16) (k0_off2 L) S1x16.size (k0_off2_inb L)).emb (Shape.reshapeEquiv squeezes_S1x16_S16.numel_eq (ValueIdx.ix1 k)) = _
  rw [squeeze_lane, wrow_emb]
omit [FloatOps F] in
theorem rowGV_emb (k : Fin 16) : (rowGV L).view.emb (ValueIdx.ix1 k) = (ValueIdx.ix2 (wid L) k : S32x16.Idx) := by
  show (Rect.unit (s := S32x16) (k0_off2 L) S1x16.size (k0_off2_inb L)).emb (Shape.reshapeEquiv squeezes_S1x16_S16.numel_eq (ValueIdx.ix1 k)) = _
  rw [squeeze_lane, wrow_emb]

/-! ## The table rows the indexed copy fetches are in range -/

theorem hin_of (hg : ∀ p, (f40 p).toNat < 8192) (be : Buf (Elt F) ((V d (cV L) (jV L)).loc cc0_scratch4)) (x : S16.Idx) :
    ((Memref.whole cc0_scratch4 : Memref sig .scVector .vmem S16 .i32).view.read (Elt F)
        (View.write (Elt F) (Memref.whole cc0_scratch4 : Memref sig .scVector .vmem S16 .i32).view be
          (ReadAs.same.apply (View.read (Elt F) (rowGV L).view f40)) Finset.univ) x).toNat
      < S8192x128.size gathers_S8192x128_S16x128.axis := by
  have e : View.write (Elt F) (Memref.whole cc0_scratch4 : Memref sig .scVector .vmem S16 .i32).view be
      (ReadAs.same.apply (View.read (Elt F) (rowGV L).view f40)) Finset.univ = View.read (Elt F) (rowGV L).view f40 :=
    View.write_whole_univ _ _ _
  rw [e]
  show ((View.read (Elt F) (rowGV L).view f40) x).toNat < 8192
  rw [View.read_apply]
  exact hg _

/-! ## The two vectors the body loads once -/

omit [FloatOps F] in
/-- A load of all sixteen lanes from offset 0 reads lane j at j. -/
theorem rS16_idx (j : S16.Idx) : (Rect.unit (s := S16) ![0] S16.size inb_S16_S16_0).toLoadRect.idx j = j := by
  funext a
  apply Fin.ext
  obtain rfl : a = 0 := Subsingleton.elim _ _
  show 0 + 1 * (j 0).val = (j 0).val
  omega

theorem nv_lane (bc : Buf (Elt F) ((V d (cV L) (jV L)).loc cc0_scratch2)) (k : Fin 16) :
    ((Memref.whole cc0_scratch2 : Memref sig .scVector .vmem S16 .i32).view.readAt (Elt F)
        (Rect.unit (s := S16) ![0] S16.size inb_S16_S16_0).toLoadRect
        (View.write (Elt F) (Memref.whole cc0_scratch2 : Memref sig .scVector .vmem S16 .i32).view bc
          (ReadAs.same.apply (View.read (Elt F) (rowNV L).view f26)) Finset.univ)) (ValueIdx.ix1 k)
      = f26 (ValueIdx.ix2 (wid L) k) := by
  have e : View.write (Elt F) (Memref.whole cc0_scratch2 : Memref sig .scVector .vmem S16 .i32).view bc
      (ReadAs.same.apply (View.read (Elt F) (rowNV L).view f26)) Finset.univ = View.read (Elt F) (rowNV L).view f26 :=
    View.write_whole_univ _ _ _
  rw [e, View.readAt_apply, rS16_idx]
  show View.read (Elt F) (rowNV L).view f26 (ValueIdx.ix1 k) = _
  rw [View.read_apply, rowNV_emb]
  rfl

theorem wv_lane (bd : Buf (Elt F) ((V d (cV L) (jV L)).loc cc0_scratch3)) (k : Fin 16) :
    ((Memref.whole cc0_scratch3 : Memref sig .scVector .vmem S16 .f32).view.readAt (Elt F)
        (Rect.unit (s := S16) ![0] S16.size inb_S16_S16_0).toLoadRect
        (View.write (Elt F) (Memref.whole cc0_scratch3 : Memref sig .scVector .vmem S16 .f32).view bd
          (ReadAs.same.apply (View.read (Elt F) (rowWV L).view f33)) Finset.univ)) (ValueIdx.ix1 k)
      = f33 (ValueIdx.ix2 (wid L) k) := by
  have e : View.write (Elt F) (Memref.whole cc0_scratch3 : Memref sig .scVector .vmem S16 .f32).view bd
      (ReadAs.same.apply (View.read (Elt F) (rowWV L).view f33)) Finset.univ = View.read (Elt F) (rowWV L).view f33 :=
    View.write_whole_univ _ _ _
  rw [e, View.readAt_apply, rS16_idx]
  show View.read (Elt F) (rowWV L).view f33 (ValueIdx.ix1 k) = _
  rw [View.read_apply, rowWV_emb]
  rfl

/-! ## What a chunk's copy lands -/

omit [FloatOps F] in
/-- The 32-row slice at row offset 32·(32·w + g) places (r, n) at (1024·w + 32·g + r, n). -/
theorem chunk_emb (off : Fin 2 → Nat) (h : ∀ a, off a + S32x1024.size a ≤ S32768x1024.size a) (g : Fin 32)
    (hoff : off = ![32 * (chunkOf (wid L) g).val, 0]) (r : Fin 32) (n : Fin 1024) :
    (Rect.unit (s := S32768x1024) off S32x1024.size h).emb (ValueIdx.ix2 r n : S32x1024.Idx)
      = (ValueIdx.ix2 (⟨1024 * (wid L).val + 32 * g.val + r.val, by have := (wid L).isLt; omega⟩ : Fin 32768) n : S32768x1024.Idx) := by
  subst hoff
  funext a
  apply Fin.ext
  rw [Rect.emb_apply]
  match a with
  | ⟨0, _⟩ =>
    show 32 * (chunkOf (wid L) g).val + 1 * r.val = 1024 * (wid L).val + 32 * g.val + r.val
    simp only [chunkOf]
    omega
  | ⟨1, _⟩ =>
    show 0 + 1 * n.val = n.val
    omega

theorem landed_of_copy (off : Fin 2 → Nat) (h : ∀ a, off a + S32x1024.size a ≤ S32768x1024.size a) (g : Fin 32)
    (hoff : off = ![32 * (chunkOf (wid L) g).val, 0]) :
    Landed d L f42 g (ReadAs.same.apply (View.read (Elt F)
      ((Memref.whole main_v42_scv : Memref sig .scVector .hbm S32768x1024 .f32).slice
        (Rect.unit (s := S32768x1024) off S32x1024.size h) (fun _ => rfl)).view f42)) := by
  intro r n
  show View.read (Elt F) ((Memref.whole main_v42_scv : Memref sig .scVector .hbm S32768x1024 .f32).slice
        (Rect.unit (s := S32768x1024) off S32x1024.size h) (fun _ => rfl)).view f42 (ValueIdx.ix2 r n) = _
  rw [View.read_apply]
  show f42 ((Rect.unit (s := S32768x1024) off S32x1024.size h).emb (ValueIdx.ix2 r n)) = _
  rw [chunk_emb L off h g hoff r n]

theorem flightA_restate (off : Fin 2 → Nat) (h : ∀ a, off a + S32x1024.size a ≤ S32768x1024.size a) (g : Fin 32)
    (hoff : off = ![32 * (chunkOf (wid L) g).val, 0]) (pa : Buf (Elt F) ((V d (cV L) (jV L)).loc cc0_scratch0)) :
    (iprop((scrA d L ↦{fullShare} View.write (Elt F) (Memref.whole cc0_scratch0 : Memref sig .scVector .vmem S32x1024 .f32).view pa
            (ReadAs.same.apply (View.read (Elt F) ((Memref.whole main_v42_scv : Memref sig .scVector .hbm S32768x1024 .f32).slice
              (Rect.unit (s := S32768x1024) off S32x1024.size h) (fun _ => rfl)).view f42)) Finset.univ)
        ∗ (((Memref.whole main_v42_scv : Memref sig .scVector .hbm S32768x1024 .f32).slice
              (Rect.unit (s := S32768x1024) off S32x1024.size h) (fun _ => rfl)).view.loc (V d (cV L) (jV L))
            ↦[((Memref.whole main_v42_scv : Memref sig .scVector .hbm S32768x1024 .f32).slice
              (Rect.unit (s := S32768x1024) off S32x1024.size h) (fun _ => rfl)).view.set]{fullShare} f42)) : sProp 𝕄)
      ⊢ iprop((∃ c, ⌜Landed d L f42 g c⌝ ∗ scrA d L ↦{fullShare} c) ∗ (loc42 d ↦[chunkSet (chunkOf (wid L) g)]{fullShare} f42)) := by
  have e : View.write (Elt F) (Memref.whole cc0_scratch0 : Memref sig .scVector .vmem S32x1024 .f32).view pa
      (ReadAs.same.apply (View.read (Elt F) ((Memref.whole main_v42_scv : Memref sig .scVector .hbm S32768x1024 .f32).slice
        (Rect.unit (s := S32768x1024) off S32x1024.size h) (fun _ => rfl)).view f42)) Finset.univ
      = ReadAs.same.apply (View.read (Elt F) ((Memref.whole main_v42_scv : Memref sig .scVector .hbm S32768x1024 .f32).slice
        (Rect.unit (s := S32768x1024) off S32x1024.size h) (fun _ => rfl)).view f42) :=
    View.write_whole_univ _ _ _
  rw [pts_in d L off h g hoff f42, e]
  iintro ⟨Hs, Hi⟩
  isplitl [Hs]
  · iexists _; isplitr; · ipureintro; exact landed_of_copy d L f42 off h g hoff
    iexact Hs
  · iexact Hi

theorem flightB_restate (off : Fin 2 → Nat) (h : ∀ a, off a + S32x1024.size a ≤ S32768x1024.size a) (g : Fin 32)
    (hoff : off = ![32 * (chunkOf (wid L) g).val, 0]) (pb : Buf (Elt F) ((V d (cV L) (jV L)).loc cc0_scratch1)) :
    (iprop((scrB d L ↦{fullShare} View.write (Elt F) (Memref.whole cc0_scratch1 : Memref sig .scVector .vmem S32x1024 .f32).view pb
            (ReadAs.same.apply (View.read (Elt F) ((Memref.whole main_v42_scv : Memref sig .scVector .hbm S32768x1024 .f32).slice
              (Rect.unit (s := S32768x1024) off S32x1024.size h) (fun _ => rfl)).view f42)) Finset.univ)
        ∗ (((Memref.whole main_v42_scv : Memref sig .scVector .hbm S32768x1024 .f32).slice
              (Rect.unit (s := S32768x1024) off S32x1024.size h) (fun _ => rfl)).view.loc (V d (cV L) (jV L))
            ↦[((Memref.whole main_v42_scv : Memref sig .scVector .hbm S32768x1024 .f32).slice
              (Rect.unit (s := S32768x1024) off S32x1024.size h) (fun _ => rfl)).view.set]{fullShare} f42)) : sProp 𝕄)
      ⊢ iprop((∃ c, ⌜Landed d L f42 g c⌝ ∗ scrB d L ↦{fullShare} c) ∗ (loc42 d ↦[chunkSet (chunkOf (wid L) g)]{fullShare} f42)) := by
  have e : View.write (Elt F) (Memref.whole cc0_scratch1 : Memref sig .scVector .vmem S32x1024 .f32).view pb
      (ReadAs.same.apply (View.read (Elt F) ((Memref.whole main_v42_scv : Memref sig .scVector .hbm S32768x1024 .f32).slice
        (Rect.unit (s := S32768x1024) off S32x1024.size h) (fun _ => rfl)).view f42)) Finset.univ
      = ReadAs.same.apply (View.read (Elt F) ((Memref.whole main_v42_scv : Memref sig .scVector .hbm S32768x1024 .f32).slice
        (Rect.unit (s := S32768x1024) off S32x1024.size h) (fun _ => rfl)).view f42) :=
    View.write_whole_univ _ _ _
  rw [pts_in d L off h g hoff f42, e]
  iintro ⟨Hs, Hi⟩
  isplitl [Hs]
  · iexists _; isplitr; · ipureintro; exact landed_of_copy d L f42 off h g hoff
    iexact Hs
  · iexact Hi

end Facts

end Cert.Kernel.Body

end
-- ==== Proof.BodyFacts2K.lean ====
/-
  Values in the worker's body: the table rows it fetched, and the product each lane adds.

  The worker copies, through its sixteen table-row numbers, sixteen rows of the key/value table into a 16 × 128 scratch:
  row k of the scratch is the table's row number gvec[w, k] (a number below 8192, so reducing it into the table's 8192 rows
  changes nothing). For a row x of the memory, lane k then reads the scratch at (k, (x / 64) % 64) — a key entry — and at
  (k, 64 + x % 64) — a value entry — and adds (key entry · weight[w, k]) · value entry: this is Spec.laneVal. The lane is
  masked by "its weight is positive", the first half of Spec.laneOn.
-/
import proofs.«210205_g8383776161859_cont_9to1_m_1272_27_alg».proof.Proof.BodyDefsK
import proofs.«210205_g8383776161859_cont_9to1_m_1272_27_alg».proof.Proof.WordsK
import proofs.«210205_g8383776161859_cont_9to1_m_1272_27_alg».proof.Proof.Spec

noncomputable section

namespace Cert.Kernel.Body

open Cert.Kernel Cert.Kernel.Gen Cert.Kernel.Tile

open Idealize.ShloMosaic Idealize.ShloMosaic.ValueIdx
open Idealize.ShloMosaic.SparseCore (S V T)

variable {F : FTy → Type} [FloatOps F]

/-! ### The table rows a worker fetched -/

section Lanes
variable (d : Dev nD) (L : grid0.Coords) (f45 : Buf (Elt F) (loc45 d)) (f33 : Buf (Elt F) (loc33 d)) (f40 : Buf (Elt F) (loc40 d))

/-- The 16 × 128 scratch holds, in row k, the table row that lane k of the worker names. -/
def KVRows (kvc : Vec F S16x128 .f32) : Prop :=
  ∀ (k : Fin 16) (c : Fin 128), kvc (ix2 k c) = f45 (ix2 (Cert.Spec.gRow f40 (wid L) k) c)

/-- The lane numbers 0 … 15, read at lane k. -/
theorem iota_lane (hι : S16.Iotas .scVector 32 [0]) (k : Fin 16) : (iota .scVector S16 32 [0] hι (ix1 k)).toNat = k.val := by
  show (BitVec.ofNat 32 (0 * 16 + k.val)).toNat = k.val
  rw [BitVec.toNat_ofNat]
  have := k.isLt
  omega

/-- An indexed load of the scratch at (lane, w), read at lane k: the scratch at (k, w). -/
theorem idxAt_lane (hι : S16.Iotas .scVector 32 [0]) (w : BitVec 32) (c : Fin 128) (hw : w.toNat = c.val)
    (h : ∀ a x, ((![iota .scVector S16 32 [0] hι, broadcast S16 w] : Fin S16x128.rank → IVec S16 32) a x).toNat < S16x128.size a) (k : Fin 16) :
    idxAt (s := S16x128) ![iota .scVector S16 32 [0] hι, broadcast S16 w] h (ix1 k) = ix2 k c := by
  funext a
  refine Fin.ext ?_
  match a with
  | ⟨0, _⟩ => exact iota_lane hι k
  | ⟨1, _⟩ => exact hw

variable {d L f45 f33 f40}

/-- The product a lane adds is Spec.laneVal: (key entry · weight) · value entry, the key entry at column (x / 64) % 64 and
    the value entry at column 64 + x % 64 of the lane's table row. -/
theorem pay3_lane (kvc : Vec F S16x128 .f32) (hkv : KVRows d L f45 f40 kvc) (v13 : Vec F S16 .f32)
    (hv13 : ∀ k : Fin 16, v13 (ix1 k) = f33 (ix2 (wid L) k)) (hι : S16.Iotas .scVector 32 [0]) (rw cw : BitVec 32) (x : Fin 32768)
    (hr : rw.toNat = x.val / 64 % 64) (hc : cw.toNat = 64 + x.val % 64)
    (h1 : ∀ a y, ((![iota .scVector S16 32 [0] hι, broadcast S16 rw] : Fin S16x128.rank → IVec S16 32) a y).toNat < S16x128.size a)
    (h2 : ∀ a y, ((![iota .scVector S16 32 [0] hι, broadcast S16 cw] : Fin S16x128.rank → IVec S16 32) a y).toNat < S16x128.size a)
    (k : Fin 16) :
    k0_pay3 v13 (loadIdx kvc ![iota .scVector S16 32 [0] hι, broadcast S16 rw] h1)
        (loadIdx kvc ![iota .scVector S16 32 [0] hι, broadcast S16 cw] h2) (ix1 k)
      = Cert.Spec.laneVal f45 f33 f40 (wid L) x k := by
  have e1 := idxAt_lane hι rw (⟨x.val / 64 % 64, by omega⟩ : Fin 128) hr h1 k
  have e2 := idxAt_lane hι cw (⟨64 + x.val % 64, by omega⟩ : Fin 128) hc h2 k
  show FloatOps.mulf (FloatOps.mulf (kvc (idxAt _ h1 (ix1 k))) (v13 (ix1 k))) (kvc (idxAt _ h2 (ix1 k))) = _
  rw [e1, e2, hkv, hkv, hv13]
  rfl

theorem pay2_lane (kvc : Vec F S16x128 .f32) (hkv : KVRows d L f45 f40 kvc) (v13 : Vec F S16 .f32)
    (hv13 : ∀ k : Fin 16, v13 (ix1 k) = f33 (ix2 (wid L) k)) (hι : S16.Iotas .scVector 32 [0]) (rw cw : BitVec 32) (x : Fin 32768)
    (hr : rw.toNat = x.val / 64 % 64) (hc : cw.toNat = 64 + x.val % 64)
    (h1 : ∀ a y, ((![iota .scVector S16 32 [0] hι, broadcast S16 rw] : Fin S16x128.rank → IVec S16 32) a y).toNat < S16x128.size a)
    (h2 : ∀ a y, ((![iota .scVector S16 32 [0] hι, broadcast S16 cw] : Fin S16x128.rank → IVec S16 32) a y).toNat < S16x128.size a)
    (k : Fin 16) :
    k0_pay2 v13 (loadIdx kvc ![iota .scVector S16 32 [0] hι, broadcast S16 rw] h1)
        (loadIdx kvc ![iota .scVector S16 32 [0] hι, broadcast S16 cw] h2) (ix1 k)
      = Cert.Spec.laneVal f45 f33 f40 (wid L) x k :=
  pay3_lane kvc hkv v13 hv13 hι rw cw x hr hc h1 h2 k

/-- The mask of a lane: its weight is positive. -/
theorem pay1_lane (v13 : Vec F S16 .f32) (hv13 : ∀ k : Fin 16, v13 (ix1 k) = f33 (ix2 (wid L) k)) (k : Fin 16) :
    k0_pay1 v13 (ix1 k)
      = FloatOps.cmpf (F := F) (φ := .f32) .ogt (f33 (ix2 (wid L) k)) (Scalar.ofBits .f32 0x00000000#32) := by
  show FloatOps.cmpf (F := F) (φ := .f32) .ogt (v13 (ix1 k)) (Scalar.ofBits .f32 0x00000000#32) = _
  rw [hv13]

end Lanes

/-! ### What the indirect copy leaves in the 16 × 128 scratch -/

section Gather
variable (d : Dev nD) (L : grid0.Coords) (f45 : Buf (Elt F) (loc45 d)) (f40 : Buf (Elt F) (loc40 d))

/-- The table read through the program's whole-array slice is the table. -/
theorem read_kvSl (y : S8192x128.Idx) : View.read (Elt F) kvSl.view f45 y = f45 y := by
  have e : kvSl.view.emb y = y := by
    funext a; refine Fin.ext ?_
    match a with
    | ⟨0, _⟩ => show 0 + 1 * (y 0).val = (y 0).val; omega
    | ⟨1, _⟩ => show 0 + 1 * (y 1).val = (y 1).val; omega
  rw [View.read_apply, e]
  rfl

/-- The worker's row of the table-row numbers, read through the program's slice: entry k is the number for lane k. -/
theorem read_rowGV (k : Fin 16) : View.read (Elt F) (rowGV L).view f40 (ix1 k) = f40 (ix2 (wid L) k) := by
  have e : (rowGV L).view.emb (ix1 k) = ix2 (wid L) k := by
    have hq : Shape.reshapeEquiv (s := S1x16) (s' := S16) squeezes_S1x16_S16.numel_eq (ix1 k) = ix2 (0 : Fin 1) k :=
      Shape.reshapeEquiv_eq_of_rowMajor _ (by
        rw [Shape.rowMajor_val_two, Shape.rowMajor_val_one]
        show 0 * 16 + k.val = k.val
        omega)
    show (Rect.unit (s := S32x16) (k0_off2 L) S1x16.size (k0_off2_inb L)).emb
      (Shape.reshapeEquiv (s := S1x16) (s' := S16) squeezes_S1x16_S16.numel_eq (ix1 k)) = _
    rw [hq]
    have ho := k0_off2_eq L
    funext a; refine Fin.ext ?_
    match a with
    | ⟨0, _⟩ =>
      show k0_off2 L 0 + 1 * 0 = 16 * (L 0).val + (L 1).val
      rw [ho]; simp
    | ⟨1, _⟩ =>
      show k0_off2 L 1 + 1 * k.val = k.val
      rw [ho]; simp
  rw [View.read_apply, e]
  rfl

/-- Entry k of a list of sixteen words, in row-major order, is the word at lane k. -/
theorem rows_lane {o z : ℕ} (idx : S16.Idx → Elt F .i32) (hn : S16.numel = o) (h : ∀ x, (idx x).toNat < z) (k : Fin o)
    (hk : k.val < 16) : (SparseCore.rows idx hn h k).val = (idx (ix1 (⟨k.val, hk⟩ : Fin 16))).toNat := by
  unfold SparseCore.rows
  show (idx (S16.rowMajor.symm (k.cast hn.symm))).toNat = _
  congr 2
  refine (Equiv.symm_apply_eq _).mpr (Fin.ext ?_)
  rw [Shape.rowMajor_val_one]
  rfl

/-- Row k of what the indirect copy delivers is the table row that lane k's number names. -/
theorem kvrows_of_gather (hg : ∀ p, (f40 p).toNat < 8192)
    (be : (Memref.whole cc0_scratch4 : Memref sig .scVector .vmem S16 .i32).view.ty.Contents (Elt F))
    (hn5 : S16.numel = S16x128.size gathers_S8192x128_S16x128.axis')
    (hin : ∀ x, ((View.read (Elt F) (Memref.whole cc0_scratch4 : Memref sig .scVector .vmem S16 .i32).view
        (View.write (Elt F) (Memref.whole cc0_scratch4 : Memref sig .scVector .vmem S16 .i32).view be
          (ReadAs.same.apply (View.read (Elt F) (rowGV L).view f40)) Finset.univ)) x).toNat
        < S8192x128.size gathers_S8192x128_S16x128.axis) :
    KVRows d L f45 f40
      ((Memref.whole cc0_scratch5 : Memref sig .scVector .vmem S16x128 .f32).view.writes (Elt F)
        (Memref.whole cc0_scratch5 : Memref sig .scVector .vmem S16x128 .f32).view.junk
        [⟨Rect.whole cc0_scratch5.ty.shape,
          SparseCore.gatherPayload gathers_S8192x128_S16x128 (View.read (Elt F) kvSl.view f45)
            (SparseCore.rows (View.read (Elt F) (Memref.whole cc0_scratch4 : Memref sig .scVector .vmem S16 .i32).view
              (View.write (Elt F) (Memref.whole cc0_scratch4 : Memref sig .scVector .vmem S16 .i32).view be
                (ReadAs.same.apply (View.read (Elt F) (rowGV L).view f40)) Finset.univ)) hn5 hin)⟩]) := by
  intro k c
  have hread : View.read (Elt F) (Memref.whole cc0_scratch4 : Memref sig .scVector .vmem S16 .i32).view
      (View.write (Elt F) (Memref.whole cc0_scratch4 : Memref sig .scVector .vmem S16 .i32).view be
        (ReadAs.same.apply (View.read (Elt F) (rowGV L).view f40)) Finset.univ)
      = View.read (Elt F) (rowGV L).view f40 := View.read_write_univ _ _
  have h1 := View.read_writes_cons_emb (Memref.whole cc0_scratch5 : Memref sig .scVector .vmem S16x128 .f32).view
    (Memref.whole cc0_scratch5 : Memref sig .scVector .vmem S16x128 .f32).view.junk (Rect.whole cc0_scratch5.ty.shape)
    (SparseCore.gatherPayload gathers_S8192x128_S16x128 (View.read (Elt F) kvSl.view f45)
      (SparseCore.rows (View.read (Elt F) (Memref.whole cc0_scratch4 : Memref sig .scVector .vmem S16 .i32).view
        (View.write (Elt F) (Memref.whole cc0_scratch4 : Memref sig .scVector .vmem S16 .i32).view be
          (ReadAs.same.apply (View.read (Elt F) (rowGV L).view f40)) Finset.univ)) hn5 hin)) [] (ix2 k c)
  rw [Rect.emb_whole_apply] at h1
  refine h1.trans ?_
  unfold SparseCore.gatherPayload
  rw [read_kvSl]
  congr 1
  funext b; refine Fin.ext ?_
  match b with
  | ⟨0, _⟩ =>
    show (SparseCore.rows _ hn5 hin k).val = (f40 (ix2 (wid L) k)).toNat % 8192
    rw [rows_lane _ hn5 hin k k.isLt, hread, read_rowGV, Nat.mod_eq_of_lt (hg _)]
  | ⟨1, _⟩ => rfl

end Gather

end Cert.Kernel.Body

end
-- ==== Proof.BodyFacts3K.lean ====
/-
  The inner loop of the tile body: thirty-two stores turn a landed chunk into its updated rows, and a finished chunk
  written out is the output's chunk.

  "Rows done up to rl": the first rl rows of the 32 × 1024 scratch hold their updated rows, the rest the rows of the
  re-laid memory as they landed. One trip stores row rl: a write of the whole scratch by the indexed add-store of the
  whole scratch read back, which changes row rl into its updated row and no other. A finished chunk copied out through
  the 32-row slice at row offset 32·(32·w + g) puts scratch entry (r, n) at (1024·w + 32·g + r, n), where the
  whole-array result has exactly that row's update.
-/
import proofs.«210205_g8383776161859_cont_9to1_m_1272_27_alg».proof.Proof.BodyDefsK
import proofs.«210205_g8383776161859_cont_9to1_m_1272_27_alg».proof.Proof.BodyFacts1K
import proofs.«210205_g8383776161859_cont_9to1_m_1272_27_alg».proof.Proof.StoreIdx
import Idealize.ShloMosaic.Lib.Writes

noncomputable section

namespace Cert.Kernel.Body

open Cert.Kernel Cert.Kernel.Gen Cert.Kernel.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Rows
variable (d : Dev nD) (L : grid0.Coords)
  (f42 : Buf (Elt F) (loc42 d)) (f45 : Buf (Elt F) (loc45 d)) (f26 : Buf (Elt F) (loc26 d)) (f33 : Buf (Elt F) (loc33 d))
  (f40 : Buf (Elt F) (loc40 d)) (f46 : Buf (Elt F) (loc46 d))

/-- The first rl rows of the scratch hold the updated rows of chunk g, the others the rows as they landed. -/
def RowsDone (g : Fin 32) (rl : ℕ) (c : Vec F S32x1024 .f32) : Prop :=
  ∀ (r : Fin 32) (n : Fin 1024), c (ValueIdx.ix2 r n)
    = if r.val < rl
      then Cert.Spec.rowAt (F := F) f42 f45 f26 f33 f40 (⟨1024 * (wid L).val + 32 * g.val + r.val, by have := (wid L).isLt; omega⟩ : Fin 32768) n
      else f42 (ValueIdx.ix2 (⟨1024 * (wid L).val + 32 * g.val + r.val, by have := (wid L).isLt; omega⟩ : Fin 32768) n)

theorem rowsDone_zero (g : Fin 32) (c : Vec F S32x1024 .f32) (h : Landed d L f42 g c) : RowsDone d L f42 f45 f26 f33 f40 g 0 c := by
  intro r n
  rw [if_neg (Nat.not_lt_zero _)]
  exact h r n

/-! ## One trip of the inner loop -/

/-- One store of row rl over a scratch whose rows are done up to rl: as a function of the scratch's contents. -/
theorem rowsDone_store (g rl : Fin 32) (c : Vec F S32x1024 .f32) (hc : RowsDone d L f42 f45 f26 f33 f40 g rl.val c)
    (idxs : Fin 2 → IVec S16 32) (v : Vec F S16 .f32) (mask : IVec S16 1) (h : ∀ a x, (idxs a x).toNat < S32x1024.size a)
    (hrow : ∀ x, (idxs 0 x).toNat = rl.val) (hcol : ∀ k : Fin 16, idxs 1 (ValueIdx.ix1 k) = f26 (ValueIdx.ix2 (wid L) k))
    (hv : ∀ k : Fin 16, v (ValueIdx.ix1 k) = Cert.Spec.laneVal f45 f33 f40 (wid L)
      (⟨1024 * (wid L).val + 32 * g.val + rl.val, by have := (wid L).isLt; omega⟩ : Fin 32768) k)
    (hmask : ∀ k : Fin 16, mask (ValueIdx.ix1 k)
      = FloatOps.cmpf (F := F) (φ := .f32) .ogt (f33 (ValueIdx.ix2 (wid L) k)) (Scalar.ofBits .f32 0x00000000#32)) :
    RowsDone d L f42 f45 f26 f33 f40 g (rl.val + 1) (storeIdx c idxs v mask true h) := by
  have hbuf : ∀ n : Fin 1024, c (ValueIdx.ix2 rl n)
      = f42 (ValueIdx.ix2 (⟨1024 * (wid L).val + 32 * g.val + rl.val, by have := (wid L).isLt; omega⟩ : Fin 32768) n) := by
    intro n
    rw [hc rl n, if_neg (Nat.lt_irrefl _)]
  obtain ⟨hrl, hoth⟩ := Cert.Spec.store_row (F := F) f42 f45 f26 f33 f40 (wid L) g rl c idxs v mask h hrow hcol hv hmask hbuf
  intro r n
  by_cases hr : r = rl
  · subst hr
    rw [hrl n, if_pos (Nat.lt_succ_self _)]
  · have hne : r.val ≠ rl.val := fun e => hr (Fin.ext e)
    rw [hoth r n hr, hc r n]
    by_cases hlt : r.val < rl.val
    · rw [if_pos hlt, if_pos (by omega)]
    · rw [if_neg hlt, if_neg (by omega)]

/-- A write of the whole first scratch reads back as the payload. -/
theorem writesA_apply (c : Vec F S32x1024 .f32) (w : S32x1024.Idx → Elt F .f32) (x : S32x1024.Idx) :
    (Memref.whole cc0_scratch0 : Memref sig .scVector .vmem S32x1024 .f32).view.writes (Elt F) c [⟨Rect.whole S32x1024, w⟩] x = w x := by
  have e := View.read_writes_whole (Memref.whole cc0_scratch0 : Memref sig .scVector .vmem S32x1024 .f32).view c w
  rw [View.read_whole] at e
  exact congrFun e x
/-- A write of the whole second scratch reads back as the payload. -/
theorem writesB_apply (c : Vec F S32x1024 .f32) (w : S32x1024.Idx → Elt F .f32) (x : S32x1024.Idx) :
    (Memref.whole cc0_scratch1 : Memref sig .scVector .vmem S32x1024 .f32).view.writes (Elt F) c [⟨Rect.whole S32x1024, w⟩] x = w x := by
  have e := View.read_writes_whole (Memref.whole cc0_scratch1 : Memref sig .scVector .vmem S32x1024 .f32).view c w
  rw [View.read_whole] at e
  exact congrFun e x

/-- A load of the whole first scratch reads its contents. -/
theorem readAtA_whole (c : Vec F S32x1024 .f32) :
    View.readAt (Elt F) (Memref.whole cc0_scratch0 : Memref sig .scVector .vmem S32x1024 .f32).view (LoadRect.whole S32x1024) c = c :=
  Memref.readAt_whole (Elt F) cc0_scratch0 c
theorem readAtB_whole (c : Vec F S32x1024 .f32) :
    View.readAt (Elt F) (Memref.whole cc0_scratch1 : Memref sig .scVector .vmem S32x1024 .f32).view (LoadRect.whole S32x1024) c = c :=
  Memref.readAt_whole (Elt F) cc0_scratch1 c

theorem rowsDone_stepA (g rl : Fin 32) (c : Vec F S32x1024 .f32) (hc : RowsDone d L f42 f45 f26 f33 f40 g rl.val c)
    (idxs : Fin 2 → IVec S16 32) (v : Vec F S16 .f32) (mask : IVec S16 1) (h : ∀ a x, (idxs a x).toNat < S32x1024.size a)
    (hrow : ∀ x, (idxs 0 x).toNat = rl.val) (hcol : ∀ k : Fin 16, idxs 1 (ValueIdx.ix1 k) = f26 (ValueIdx.ix2 (wid L) k))
    (hv : ∀ k : Fin 16, v (ValueIdx.ix1 k) = Cert.Spec.laneVal f45 f33 f40 (wid L)
      (⟨1024 * (wid L).val + 32 * g.val + rl.val, by have := (wid L).isLt; omega⟩ : Fin 32768) k)
    (hmask : ∀ k : Fin 16, mask (ValueIdx.ix1 k)
      = FloatOps.cmpf (F := F) (φ := .f32) .ogt (f33 (ValueIdx.ix2 (wid L) k)) (Scalar.ofBits .f32 0x00000000#32)) :
    RowsDone d L f42 f45 f26 f33 f40 g (rl.val + 1)
      ((Memref.whole cc0_scratch0 : Memref sig .scVector .vmem S32x1024 .f32).view.writes (Elt F) c
        [⟨Rect.whole S32x1024, storeIdx (View.readAt (Elt F) (Memref.whole cc0_scratch0 : Memref sig .scVector .vmem S32x1024 .f32).view
          (LoadRect.whole S32x1024) c) idxs v mask true h⟩]) := by
  have hs := rowsDone_store d L f42 f45 f26 f33 f40 g rl c hc idxs v mask h hrow hcol hv hmask
  intro r n
  rw [writesA_apply, readAtA_whole]
  exact hs r n

theorem rowsDone_stepB (g rl : Fin 32) (c : Vec F S32x1024 .f32) (hc : RowsDone d L f42 f45 f26 f33 f40 g rl.val c)
    (idxs : Fin 2 → IVec S16 32) (v : Vec F S16 .f32) (mask : IVec S16 1) (h : ∀ a x, (idxs a x).toNat < S32x1024.size a)
    (hrow : ∀ x, (idxs 0 x).toNat = rl.val) (hcol : ∀ k : Fin 16, idxs 1 (ValueIdx.ix1 k) = f26 (ValueIdx.ix2 (wid L) k))
    (hv : ∀ k : Fin 16, v (ValueIdx.ix1 k) = Cert.Spec.laneVal f45 f33 f40 (wid L)
      (⟨1024 * (wid L).val + 32 * g.val + rl.val, by have := (wid L).isLt; omega⟩ : Fin 32768) k)
    (hmask : ∀ k : Fin 16, mask (ValueIdx.ix1 k)
      = FloatOps.cmpf (F := F) (φ := .f32) .ogt (f33 (ValueIdx.ix2 (wid L) k)) (Scalar.ofBits .f32 0x00000000#32)) :
    RowsDone d L f42 f45 f26 f33 f40 g (rl.val + 1)
      ((Memref.whole cc0_scratch1 : Memref sig .scVector .vmem S32x1024 .f32).view.writes (Elt F) c
        [⟨Rect.whole S32x1024, storeIdx (View.readAt (Elt F) (Memref.whole cc0_scratch1 : Memref sig .scVector .vmem S32x1024 .f32).view
          (LoadRect.whole S32x1024) c) idxs v mask true h⟩]) := by
  have hs := rowsDone_store d L f42 f45 f26 f33 f40 g rl c hc idxs v mask h hrow hcol hv hmask
  intro r n
  rw [writesB_apply, readAtB_whole]
  exact hs r n

/-! ## A finished chunk written out -/

/-- A payload written through the 32-row slice of the output at row offset 32·(32·w + g), whose entry (r, n) is the
    updated row 1024·w + 32·g + r at column n, leaves the output's chunk at the whole-array result. -/
theorem out_piece_of (off : Fin 2 → Nat) (h : ∀ a, off a + S32x1024.size a ≤ S32768x1024.size a) (g : Fin 32)
    (hoff : off = ![32 * (chunkOf (wid L) g).val, 0]) (P : S32x1024.Idx → Elt F .f32)
    (hP : ∀ (r : Fin 32) (n : Fin 1024), P (ValueIdx.ix2 r n) = Cert.Spec.rowAt (F := F) f42 f45 f26 f33 f40
      (⟨1024 * (wid L).val + 32 * g.val + r.val, by have := (wid L).isLt; omega⟩ : Fin 32768) n) :
    ((((Memref.whole main_v46_scv : Memref sig .scVector .hbm S32768x1024 .f32).slice (Rect.unit (s := S32768x1024) off S32x1024.size h) (fun _ => rfl)).view.loc (V d (cV L) (jV L)) ↦[((Memref.whole main_v46_scv : Memref sig .scVector .hbm S32768x1024 .f32).slice (Rect.unit (s := S32768x1024) off S32x1024.size h) (fun _ => rfl)).view.set]{fullShare}
        ((Memref.whole main_v46_scv : Memref sig .scVector .hbm S32768x1024 .f32).slice (Rect.unit (s := S32768x1024) off S32x1024.size h) (fun _ => rfl)).view.writes (Elt F) f46 [⟨Rect.whole (Rect.unit (s := S32768x1024) off S32x1024.size h).shape, P⟩]) : sProp 𝕄)
      ⊢ (loc46 d ↦[chunkSet (chunkOf (wid L) g)]{fullShare} Cert.Spec.rowsOf (F := F) f42 f45 f26 f33 f40) := by
  rw [pts_out d L off h g hoff]
  refine Entails.of_eq (pointsTo_congr fun i hi => ?_)
  rw [← set_slice46 (Rect.unit (s := S32768x1024) off S32x1024.size h) (fun _ => rfl) _ (unit_eq_chunk off h _ hoff)] at hi
  obtain ⟨x, -, rfl⟩ := Finset.mem_map.mp hi
  obtain ⟨r, n, rfl⟩ : ∃ (r : Fin 32) (n : Fin 1024), x = ValueIdx.ix2 r n := ⟨x 0, x 1, ValueIdx.eq_ix2 x⟩
  have e := congrFun (View.read_writes_whole ((Memref.whole main_v46_scv : Memref sig .scVector .hbm S32768x1024 .f32).slice (Rect.unit (s := S32768x1024) off S32x1024.size h) (fun _ => rfl)).view f46 P) (ValueIdx.ix2 r n)
  rw [View.read_apply] at e
  rw [cast_eq] at e
  refine e.trans ?_
  rw [hP r n]
  show _ = Cert.Spec.rowsOf (F := F) f42 f45 f26 f33 f40
    ((Rect.unit (s := S32768x1024) off S32x1024.size h).emb (ValueIdx.ix2 r n))
  rw [chunk_emb L off h g hoff r n]
  rfl

theorem out_pieceA (off : Fin 2 → Nat) (h : ∀ a, off a + S32x1024.size a ≤ S32768x1024.size a) (g : Fin 32)
    (hoff : off = ![32 * (chunkOf (wid L) g).val, 0]) (cd : Vec F S32x1024 .f32) (hcd : RowsDone d L f42 f45 f26 f33 f40 g 32 cd) :
    ((((Memref.whole main_v46_scv : Memref sig .scVector .hbm S32768x1024 .f32).slice (Rect.unit (s := S32768x1024) off S32x1024.size h) (fun _ => rfl)).view.loc (V d (cV L) (jV L)) ↦[((Memref.whole main_v46_scv : Memref sig .scVector .hbm S32768x1024 .f32).slice (Rect.unit (s := S32768x1024) off S32x1024.size h) (fun _ => rfl)).view.set]{fullShare}
        ((Memref.whole main_v46_scv : Memref sig .scVector .hbm S32768x1024 .f32).slice (Rect.unit (s := S32768x1024) off S32x1024.size h) (fun _ => rfl)).view.writes (Elt F) f46 [⟨Rect.whole (Rect.unit (s := S32768x1024) off S32x1024.size h).shape,
          ReadAs.same.apply (View.read (Elt F) (Memref.whole cc0_scratch0 : Memref sig .scVector .vmem S32x1024 .f32).view cd)⟩]) : sProp 𝕄)
      ⊢ (loc46 d ↦[chunkSet (chunkOf (wid L) g)]{fullShare} Cert.Spec.rowsOf (F := F) f42 f45 f26 f33 f40) := by
  have e : ReadAs.same.apply (View.read (Elt F) (Memref.whole cc0_scratch0 : Memref sig .scVector .vmem S32x1024 .f32).view cd) = cd :=
    View.read_whole cc0_scratch0 cd
  rw [e]
  exact out_piece_of d L f42 f45 f26 f33 f40 f46 off h g hoff cd fun r n => (hcd r n).trans (if_pos r.isLt)

theorem out_pieceB (off : Fin 2 → Nat) (h : ∀ a, off a + S32x1024.size a ≤ S32768x1024.size a) (g : Fin 32)
    (hoff : off = ![32 * (chunkOf (wid L) g).val, 0]) (cd : Vec F S32x1024 .f32) (hcd : RowsDone d L f42 f45 f26 f33 f40 g 32 cd) :
    ((((Memref.whole main_v46_scv : Memref sig .scVector .hbm S32768x1024 .f32).slice (Rect.unit (s := S32768x1024) off S32x1024.size h) (fun _ => rfl)).view.loc (V d (cV L) (jV L)) ↦[((Memref.whole main_v46_scv : Memref sig .scVector .hbm S32768x1024 .f32).slice (Rect.unit (s := S32768x1024) off S32x1024.size h) (fun _ => rfl)).view.set]{fullShare}
        ((Memref.whole main_v46_scv : Memref sig .scVector .hbm S32768x1024 .f32).slice (Rect.unit (s := S32768x1024) off S32x1024.size h) (fun _ => rfl)).view.writes (Elt F) f46 [⟨Rect.whole (Rect.unit (s := S32768x1024) off S32x1024.size h).shape,
          ReadAs.same.apply (View.read (Elt F) (Memref.whole cc0_scratch1 : Memref sig .scVector .vmem S32x1024 .f32).view cd)⟩]) : sProp 𝕄)
      ⊢ (loc46 d ↦[chunkSet (chunkOf (wid L) g)]{fullShare} Cert.Spec.rowsOf (F := F) f42 f45 f26 f33 f40) := by
  have e : ReadAs.same.apply (View.read (Elt F) (Memref.whole cc0_scratch1 : Memref sig .scVector .vmem S32x1024 .f32).view cd) = cd :=
    View.read_whole cc0_scratch1 cd
  rw [e]
  exact out_piece_of d L f42 f45 f26 f33 f40 f46 off h g hoff cd fun r n => (hcd r n).trans (if_pos r.isLt)

end Rows

end Cert.Kernel.Body

end
-- ==== Proof.BodyK.lean ====
/-
  The obligation of one worker (`Tile.TileBody`), for the program `Kernel` read at any float instance.

  A worker prefetches its first two chunks of 32 rows into two scratches, copies its row of the three per-worker
  vectors (slot numbers, weights, table rows), gathers the sixteen key/value rows its table rows name, and then, for
  each pair of chunks `2t`, `2t + 1`: waits for the chunk, adds to each of its 32 rows, lane by lane, the weighted
  product of the gathered key entry of the row's `i` and value entry of its `j` at the column the lane's slot number
  names (lanes of weight zero masked), writes the chunk out to its rows of the result, and prefetches chunk `2t + 2`
  (`2t + 3`) into the scratch just freed while any remain. The outer loop's invariant `inv2` holds, before trip `t`,
  each scratch slot with its copy in flight (`slotA`, `slotB`), the gathered rows, the input chunks from `2t + 2` on
  not yet fetched and those below `2t` given back, and the output chunks below `2t` written at the one whole-array
  function `Spec.rowsOf`; the inner loops' invariants (`innerA`, `innerB`) hold the scratch with its rows below the
  trip updated (`RowsDone`). `trip_stepA` / `trip_stepB` are one inner trip's effect on `RowsDone`, from the lane
  lemmas and the reading of the masked add-store at an index.
-/
import proofs.«210205_g8383776161859_cont_9to1_m_1272_27_alg».proof.Proof.BodyDefsK
import proofs.«210205_g8383776161859_cont_9to1_m_1272_27_alg».proof.Proof.WordsK
import proofs.«210205_g8383776161859_cont_9to1_m_1272_27_alg».proof.Proof.BodyFacts1K
import proofs.«210205_g8383776161859_cont_9to1_m_1272_27_alg».proof.Proof.BodyFacts2K
import proofs.«210205_g8383776161859_cont_9to1_m_1272_27_alg».proof.Proof.BodyFacts3K

noncomputable section

namespace Cert.Kernel.Body

open Cert.Kernel Cert.Kernel.Gen Cert.Kernel.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
open Cert.Kernel.Words

section Inv2
variable (d : Dev nD) (L : grid0.Coords) (q : PosShare TreeShare)
  (f42 : Buf (Elt F) (loc42 d)) (f45 : Buf (Elt F) (loc45 d)) (f26 : Buf (Elt F) (loc26 d)) (f33 : Buf (Elt F) (loc33 d))
  (f40 : Buf (Elt F) (loc40 d)) (f46 : Buf (Elt F) (loc46 d))
  (O : CellTallies nD τ sig (HIx 1)) (W : Waits sig (HIx 1))
  (kvc : Buf (Elt F) ((V d (cV L) (jV L)).loc cc0_scratch5))

abbrev scrKV : Loc nD τ sig := (Memref.whole cc0_scratch5 : Memref sig .scVector .vmem S16x128 .f32).view.loc (V d (cV L) (jV L))

/-- Before trip `t`: the two slots; the gathered key/value rows; the input chunks from `2t + 2` on not yet fetched,
    those below `2t` given back; the output chunks below `2t` written, at the one whole-array function, the others
    untouched; the two write-out semaphores at zero; what the subcore owes unchanged but for waits at no index. -/
def inv2 (t : ℕ) (_ : PUnit) : sProp 𝕄 :=
  iprop(Transfers.MayWaits (V d (cV L) (jV L)) (none : HIx 1) O
    ∗ slotA d L f42 t ∗ slotB d L f42 t
    ∗ (scrKV d L ↦{fullShare} kvc)
    ∗ (bigSep (ge (2 * t + 2)) fun g => loc42 d ↦[chunkSet (chunkOf (wid L) g)]{fullShare} f42)
    ∗ (bigSep (lt (2 * t)) fun g => loc42 d ↦[chunkSet (chunkOf (wid L) g)]{fullShare} f42)
    ∗ (bigSep (lt (2 * t)) fun g => loc46 d ↦[chunkSet (chunkOf (wid L) g)]{fullShare} (Cert.Spec.rowsOf (F := F) f42 f45 f26 f33 f40))
    ∗ (bigSep (ge (2 * t)) fun g => loc46 d ↦[chunkSet (chunkOf (wid L) g)]{fullShare} f46)
    ∗ semVal (cell d (cV L) (jV L) cc0_scratch8.sem) 0 ∗ semVal (cell d (cV L) (jV L) cc0_scratch9.sem) 0
    ∗ ∃ W', ⌜∀ p ∈ W', p ∈ W ∨ p.2 = none⌝ ∗ owes (V d (cV L) (jV L)) O W')
end Inv2

section SlotLems
variable (d : Dev nD) (L : grid0.Coords) (f42 : Buf (Elt F) (loc42 d))
theorem slotA_lt (t : ℕ) (h : 2 * t < 32) : slotA d L f42 t =
    Transfers.Flight countersEmb (V d (cV L) (jV L)) (SemLoc.dma cc0_scratch6.sem) (default : HIx 1) 1048576
      iprop((∃ c, ⌜Landed d L f42 ⟨2 * t, h⟩ c⌝ ∗ scrA d L ↦{fullShare} c) ∗ (loc42 d ↦[chunkSet (chunkOf (wid L) ⟨2 * t, h⟩)]{fullShare} f42)) := by
  unfold slotA; exact dif_pos h
theorem slotA_ge (t : ℕ) (h : ¬ 2 * t < 32) : slotA d L f42 t = iprop((∃ c, scrA d L ↦{fullShare} c) ∗ semVal (cell d (cV L) (jV L) cc0_scratch6.sem) 0) := by
  unfold slotA; exact dif_neg h
theorem slotB_lt (t : ℕ) (h : 2 * t + 1 < 32) : slotB d L f42 t =
    Transfers.Flight countersEmb (V d (cV L) (jV L)) (SemLoc.dma cc0_scratch7.sem) (default : HIx 1) 1048576
      iprop((∃ c, ⌜Landed d L f42 ⟨2 * t + 1, h⟩ c⌝ ∗ scrB d L ↦{fullShare} c) ∗ (loc42 d ↦[chunkSet (chunkOf (wid L) ⟨2 * t + 1, h⟩)]{fullShare} f42)) := by
  unfold slotB; exact dif_pos h
theorem slotB_ge (t : ℕ) (h : ¬ 2 * t + 1 < 32) : slotB d L f42 t = iprop((∃ c, scrB d L ↦{fullShare} c) ∗ semVal (cell d (cV L) (jV L) cc0_scratch7.sem) 0) := by
  unfold slotB; exact dif_neg h
end SlotLems

section Inner
variable (d : Dev nD) (L : grid0.Coords)
  (f42 : Buf (Elt F) (loc42 d)) (f45 : Buf (Elt F) (loc45 d)) (f26 : Buf (Elt F) (loc26 d)) (f33 : Buf (Elt F) (loc33 d))
  (f40 : Buf (Elt F) (loc40 d))

/-- The inner loop's invariant, first scratch: the gathered rows; the scratch with its first `rl` rows updated. -/
def innerA (g : Fin 32) (kvc : Buf (Elt F) ((V d (cV L) (jV L)).loc cc0_scratch5)) (rl : ℕ) (_ : PUnit) : sProp 𝕄 :=
  iprop((View.loc (V d (cV L) (jV L)) (Memref.whole cc0_scratch5 : Memref sig .scVector .vmem S16x128 .f32).view ↦{fullShare} kvc)
    ∗ ∃ c, ⌜RowsDone d L f42 f45 f26 f33 f40 g rl c⌝ ∗ (View.loc (V d (cV L) (jV L)) (Memref.whole cc0_scratch0 : Memref sig .scVector .vmem S32x1024 .f32).view ↦{fullShare} c))
/-- The same for the second scratch. -/
def innerB (g : Fin 32) (kvc : Buf (Elt F) ((V d (cV L) (jV L)).loc cc0_scratch5)) (rl : ℕ) (_ : PUnit) : sProp 𝕄 :=
  iprop((View.loc (V d (cV L) (jV L)) (Memref.whole cc0_scratch5 : Memref sig .scVector .vmem S16x128 .f32).view ↦{fullShare} kvc)
    ∗ ∃ c, ⌜RowsDone d L f42 f45 f26 f33 f40 g rl c⌝ ∗ (View.loc (V d (cV L) (jV L)) (Memref.whole cc0_scratch1 : Memref sig .scVector .vmem S32x1024 .f32).view ↦{fullShare} c))

omit [FloatOps F] in
theorem off4_chunk0 (t : Fin k0_t1_loop.trips) (ht : 2 * t.val < 32) : k0_off4 L t 0#32 = ![32 * (chunkOf (wid L) ⟨2 * t.val, ht⟩).val, 0] := by
  have h := k0_off4_eq L t 0
  rw [show k0_off4 L t 0#32 = k0_off4 L t (BitVec.ofNat 32 (0 : Fin 2).val) from rfl, h]; simp only [chunkOf, wid]; congr 1; simp; omega
omit [FloatOps F] in
theorem off4_chunk1 (t : Fin k0_t1_loop.trips) (ht : 2 * t.val + 1 < 32) : k0_off4 L t 1#32 = ![32 * (chunkOf (wid L) ⟨2 * t.val + 1, ht⟩).val, 0] := by
  have h := k0_off4_eq L t 1
  rw [show k0_off4 L t 1#32 = k0_off4 L t (BitVec.ofNat 32 (1 : Fin 2).val) from rfl, h]; simp only [chunkOf, wid]; congr 1; simp; omega
omit [FloatOps F] in
theorem off5_chunk (t : Fin k0_t1_loop.trips) (ht : 2 * t.val + 2 < 32) : k0_off5 L t = ![32 * (chunkOf (wid L) ⟨2 * t.val + 2, ht⟩).val, 0] := by
  rw [k0_off5_eq]; simp only [chunkOf, wid]; congr 1; omega
omit [FloatOps F] in
theorem off6_chunk (t : Fin k0_t1_loop.trips) (ht : 2 * t.val + 1 < 32) : k0_off6 L t = ![32 * (chunkOf (wid L) ⟨2 * t.val + 1, ht⟩).val, 0] := by
  rw [k0_off6_eq]; simp only [chunkOf, wid]; congr 1; omega
omit [FloatOps F] in
theorem off7_chunk (t : Fin k0_t1_loop.trips) (ht : 2 * t.val + 3 < 32) : k0_off7 L t = ![32 * (chunkOf (wid L) ⟨2 * t.val + 3, ht⟩).val, 0] := by
  rw [k0_off7_eq]; simp only [chunkOf, wid]; congr 1; omega
end Inner

section Misc
theorem cond1_iff : ∀ k : Fin k0_t1_loop.trips, (k0_cond1 k = 1#1) ↔ k.val < 15 := by decide
theorem cond2_iff : ∀ k : Fin k0_t1_loop.trips, (k0_cond2 k = 1#1) ↔ k.val < 15 := by decide
theorem ge_congr {a b : ℕ} (h : a = b) : ge a = ge b := by rw [h]
theorem lt_congr {a b : ℕ} (h : a = b) : lt a = lt b := by rw [h]
theorem ge_of_le (k : ℕ) (hk : 32 ≤ k) : ge k = ∅ := by ext g; simp; omega
end Misc

section SetLems
omit [FloatOps F] in
theorem lt_two (Φ : Fin 32 → sProp 𝕄) (k : ℕ) (h0 : 2 * k < 32) (h1 : 2 * k + 1 < 32) :
    iprop(bigSep (lt (2 * k)) Φ ∗ Φ ⟨2 * k, h0⟩ ∗ Φ ⟨2 * k + 1, h1⟩) ⊢ bigSep (lt (2 * (k + 1))) Φ := by
  rw [lt_congr (show 2 * (k + 1) = 2 * k + 1 + 1 by omega), bigSep_lt_succ Φ (2 * k + 1) h1, bigSep_lt_succ Φ (2 * k) h0]
  iintro ⟨H, Ha, Hb⟩
  isplitl [Hb]; · iexact Hb
  isplitl [Ha]; · iexact Ha
  iexact H
omit [FloatOps F] in
theorem ge_shift (Φ : Fin 32 → sProp 𝕄) (a b : ℕ) (h : a = b) : bigSep (ge a) Φ ⊢ bigSep (ge b) Φ := by
  subst h; exact Entails.of_eq rfl
omit [FloatOps F] in
theorem ge_shift_empty (Φ : Fin 32 → sProp 𝕄) (a b : ℕ) (ha : 32 ≤ a) (hb : 32 ≤ b) : bigSep (ge a) Φ ⊢ bigSep (ge b) Φ := by
  rw [ge_of_le a ha, ge_of_le b hb]
omit [FloatOps F] in
theorem lt_all (Φ : Fin 32 → sProp 𝕄) (a : ℕ) (ha : a = 32) : bigSep (lt a) Φ ⊢ bigSep Finset.univ Φ := by
  subst ha; rw [lt_top]
omit [FloatOps F] in
theorem lt_none (Φ : Fin 32 → sProp 𝕄) (a : ℕ) (ha : a = 0) : (iprop(emp) : sProp 𝕄) ⊢ bigSep (lt a) Φ := by
  subst ha; rw [lt_zero, bigSep_empty]; exact Entails.of_eq rfl
end SetLems

section OffLems
variable (L : grid0.Coords)
omit [FloatOps F] in
theorem off5_chunk' (t : Fin k0_t1_loop.trips) (ht : 2 * (t.val + 1) < 32) : k0_off5 L t = ![32 * (chunkOf (wid L) ⟨2 * (t.val + 1), ht⟩).val, 0] := by
  rw [k0_off5_eq]; simp only [chunkOf, wid]; congr 1; omega
omit [FloatOps F] in
theorem off7_chunk2 (t : Fin k0_t1_loop.trips) (ht : 2 * t.val + 2 + 1 < 32) : k0_off7 L t = ![32 * (chunkOf (wid L) ⟨2 * t.val + 2 + 1, ht⟩).val, 0] := by
  rw [k0_off7_eq]; simp only [chunkOf, wid]; congr 1; omega
omit [FloatOps F] in
theorem off7_chunk' (t : Fin k0_t1_loop.trips) (ht : 2 * (t.val + 1) + 1 < 32) : k0_off7 L t = ![32 * (chunkOf (wid L) ⟨2 * (t.val + 1) + 1, ht⟩).val, 0] := by
  rw [k0_off7_eq]; simp only [chunkOf, wid]; congr 1; omega
end OffLems

section TripLems
variable (d : Dev nD) (L : grid0.Coords)
  (f42 : Buf (Elt F) (loc42 d)) (f45 : Buf (Elt F) (loc45 d)) (f26 : Buf (Elt F) (loc26 d)) (f33 : Buf (Elt F) (loc33 d))
  (f40 : Buf (Elt F) (loc40 d))

theorem trip_stepA (k : Fin k0_t1_loop.trips) (hk : 2 * k.val < 32) (rl : Fin k0_t2_loop.trips) (c : Vec F S32x1024 .f32)
    (hc : RowsDone d L f42 f45 f26 f33 f40 ⟨2 * k.val, hk⟩ rl.val c)
    (v12 : IVec S16 32) (hv12 : ∀ kk : Fin 16, v12 (ValueIdx.ix1 kk) = f26 (ValueIdx.ix2 (wid L) kk))
    (v13 : Vec F S16 .f32) (hv13 : ∀ kk : Fin 16, v13 (ValueIdx.ix1 kk) = f33 (ValueIdx.ix2 (wid L) kk))
    (z1 z2 : Vec F S16x128 .f32) (hz1 : KVRows d L f45 f40 z1) (hz2 : KVRows d L f45 f40 z2)
    (hι : S16.Iotas .scVector 32 [0])
    (h1 : ∀ a y, ((![iota .scVector S16 32 [0] hι, broadcast S16 (Scalar.andi (Scalar.shrui (xA L k) 6#32) 63#32)] : Fin S16x128.rank → IVec S16 32) a y).toNat < S16x128.size a)
    (h2 : ∀ a y, ((![iota .scVector S16 32 [0] hι, broadcast S16 (Scalar.addi (Scalar.addi 64#32 (Scalar.andi (xA L k) 63#32)) (Scf.iv 0#32 1#32 rl))] : Fin S16x128.rank → IVec S16 32) a y).toNat < S16x128.size a)
    (h : ∀ a x, ((![broadcast S16 (Scf.iv 0#32 1#32 rl), v12] : Fin 2 → IVec S16 32) a x).toNat < S32x1024.size a) :
    RowsDone d L f42 f45 f26 f33 f40 ⟨2 * k.val, hk⟩ (rl.val + 1)
      ((Memref.whole cc0_scratch0 : Memref sig .scVector .vmem S32x1024 .f32).view.writes (Elt F) c [⟨Rect.whole S32x1024,
          storeIdx (View.readAt (Elt F) (Memref.whole cc0_scratch0 : Memref sig .scVector .vmem S32x1024 .f32).view (LoadRect.whole S32x1024) c)
            ![broadcast S16 (Scf.iv 0#32 1#32 rl), v12]
            (k0_pay3 v13 (loadIdx z1 ![iota .scVector S16 32 [0] hι, broadcast S16 (Scalar.andi (Scalar.shrui (xA L k) 6#32) 63#32)] h1)
                        (loadIdx z2 ![iota .scVector S16 32 [0] hι, broadcast S16 (Scalar.addi (Scalar.addi 64#32 (Scalar.andi (xA L k) 63#32)) (Scf.iv 0#32 1#32 rl))] h2))
            (k0_pay1 v13) true h⟩]) := by
  have hz : z2 = z1 := by
    funext j
    obtain ⟨p, q, rfl⟩ : ∃ (p : Fin 16) (q : Fin 128), j = ValueIdx.ix2 p q := ⟨j 0, j 1, ValueIdx.eq_ix2 j⟩
    exact (hz2 p q).trans (hz1 p q).symm
  subst hz
  have hkk := Words.t1_lt k
  have hrl := Words.t2_lt rl
  have hw := (wid L).isLt
  refine rowsDone_stepA d L f42 f45 f26 f33 f40 ⟨2 * k.val, hk⟩ ⟨rl.val, hrl⟩ c hc _ _ _ h (fun x => Words.iv_toNat2 rl) hv12 (fun kk => ?_) (fun kk => pay1_lane v13 hv13 kk)
  refine pay3_lane z2 hz2 v13 hv13 hι _ _ _ ?_ ?_ h1 h2 kk
  · rw [Words.rowA]; show _ = (1024 * (wid L).val + 32 * (2 * k.val) + rl.val) / 64 % 64; omega
  · rw [Words.colwA]; show _ = 64 + (1024 * (wid L).val + 32 * (2 * k.val) + rl.val) % 64; omega

theorem trip_stepB (k : Fin k0_t1_loop.trips) (hk : 2 * k.val + 1 < 32) (rl : Fin k0_t3_loop.trips) (c : Vec F S32x1024 .f32)
    (hc : RowsDone d L f42 f45 f26 f33 f40 ⟨2 * k.val + 1, hk⟩ rl.val c)
    (v12 : IVec S16 32) (hv12 : ∀ kk : Fin 16, v12 (ValueIdx.ix1 kk) = f26 (ValueIdx.ix2 (wid L) kk))
    (v13 : Vec F S16 .f32) (hv13 : ∀ kk : Fin 16, v13 (ValueIdx.ix1 kk) = f33 (ValueIdx.ix2 (wid L) kk))
    (z1 z2 : Vec F S16x128 .f32) (hz1 : KVRows d L f45 f40 z1) (hz2 : KVRows d L f45 f40 z2)
    (hι : S16.Iotas .scVector 32 [0])
    (h1 : ∀ a y, ((![iota .scVector S16 32 [0] hι, broadcast S16 (Scalar.andi (Scalar.shrui (xB L k) 6#32) 63#32)] : Fin S16x128.rank → IVec S16 32) a y).toNat < S16x128.size a)
    (h2 : ∀ a y, ((![iota .scVector S16 32 [0] hι, broadcast S16 (Scalar.addi (Scalar.addi 64#32 (Scalar.andi (xB L k) 63#32)) (Scf.iv 0#32 1#32 rl))] : Fin S16x128.rank → IVec S16 32) a y).toNat < S16x128.size a)
    (h : ∀ a x, ((![broadcast S16 (Scf.iv 0#32 1#32 rl), v12] : Fin 2 → IVec S16 32) a x).toNat < S32x1024.size a) :
    RowsDone d L f42 f45 f26 f33 f40 ⟨2 * k.val + 1, hk⟩ (rl.val + 1)
      ((Memref.whole cc0_scratch1 : Memref sig .scVector .vmem S32x1024 .f32).view.writes (Elt F) c [⟨Rect.whole S32x1024,
          storeIdx (View.readAt (Elt F) (Memref.whole cc0_scratch1 : Memref sig .scVector .vmem S32x1024 .f32).view (LoadRect.whole S32x1024) c)
            ![broadcast S16 (Scf.iv 0#32 1#32 rl), v12]
            (k0_pay2 v13 (loadIdx z1 ![iota .scVector S16 32 [0] hι, broadcast S16 (Scalar.andi (Scalar.shrui (xB L k) 6#32) 63#32)] h1)
                        (loadIdx z2 ![iota .scVector S16 32 [0] hι, broadcast S16 (Scalar.addi (Scalar.addi 64#32 (Scalar.andi (xB L k) 63#32)) (Scf.iv 0#32 1#32 rl))] h2))
            (k0_pay1 v13) true h⟩]) := by
  have hz : z2 = z1 := by
    funext j
    obtain ⟨p, q, rfl⟩ : ∃ (p : Fin 16) (q : Fin 128), j = ValueIdx.ix2 p q := ⟨j 0, j 1, ValueIdx.eq_ix2 j⟩
    exact (hz2 p q).trans (hz1 p q).symm
  subst hz
  have hkk := Words.t1_lt k
  have hrl := Words.t3_lt rl
  have hw := (wid L).isLt
  refine rowsDone_stepB d L f42 f45 f26 f33 f40 ⟨2 * k.val + 1, hk⟩ ⟨rl.val, hrl⟩ c hc _ _ _ h (fun x => Words.iv_toNat3 rl) hv12 (fun kk => ?_) (fun kk => pay1_lane v13 hv13 kk)
  refine pay2_lane z2 hz2 v13 hv13 hι _ _ _ ?_ ?_ h1 h2 kk
  · rw [Words.rowB]; show _ = (1024 * (wid L).val + 32 * (2 * k.val + 1) + rl.val) / 64 % 64; omega
  · rw [Words.colwB]; show _ = 64 + (1024 * (wid L).val + 32 * (2 * k.val + 1) + rl.val) % 64; omega

end TripLems

set_option maxHeartbeats 40000000 in
theorem tile_body : Tile.TileBody (F := F) := by
  intro hF d L q f42 f45 f26 f33 f40 f46 hg hn O W hO
  simp only [cc0__sc_body_eq_skeleton]; unfold cc0__sc_body_skel
  simp only [k0_part2_eq_skeleton]; unfold k0_part2_skel
  unfold Tile.tileIn
  rw [(K (F := F)).scopedBufs_V hF d (cV L) (jV L), SparseCore.Cfg.scopedSems0_V (Val := Elt F) d (cV L) (jV L), ownBufs_eq, ownSems0_eq]
  iintro ⟨#Hlv, -, ⟨HM, HKV, HNV, HWV, HGV, HOUT⟩, ⟨⟨%ba, HbA⟩, ⟨%bb, HbB⟩, ⟨%bc, HbC⟩, ⟨%bd, HbD⟩, ⟨%be, HbE⟩, ⟨%bf, HbF⟩, Hbufs⟩,
    ⟨HsA, HsB, HsC, HsD, HsG, HpA, HpB, HpC, Hsems⟩, HO⟩
  ihave Hmw := ((K (F := F)).mayWaits_none (thr := V d (cV L) (jV L)) hO) $$ Hlv
  ihave HMx := (Entails.of_eq (take2 (F := F) _)) $$ HM
  icases HMx with ⟨HcA, HcB, HM⟩
  ihave HcAx := (Entails.of_eq (pts_in (F := F) d L (k0_off1 L 0#32) (k0_off1_inb L 0) (0 : Fin 32) (off1_chunk0 L) f42).symm) $$ HcA
  ihave HcBx := (Entails.of_eq (pts_in (F := F) d L (k0_off1 L 32#32) (k0_off1_inb L 1) (1 : Fin 32) (off1_chunk1 L) f42).symm) $$ HcB
  ihave HbAx := (Entails.of_eq (show ((((Memref.whole cc0_scratch0 : Memref sig .scVector .vmem S32x1024 .f32).view.loc (V d (cV L) (jV L)) ↦{fullShare} ba) : sProp 𝕄) = ((V d (cV L) (jV L)).loc cc0_scratch0 ↦{fullShare} ba)) from rfl).symm) $$ HbA
  ihave HbBx := (Entails.of_eq (show ((((Memref.whole cc0_scratch1 : Memref sig .scVector .vmem S32x1024 .f32).view.loc (V d (cV L) (jV L)) ↦{fullShare} bb) : sProp 𝕄) = ((V d (cV L) (jV L)).loc cc0_scratch1 ↦{fullShare} bb)) from rfl).symm) $$ HbB
  ihave HbCx := (Entails.of_eq (show ((((Memref.whole cc0_scratch2 : Memref sig .scVector .vmem S16 .i32).view.loc (V d (cV L) (jV L)) ↦{fullShare} bc) : sProp 𝕄) = ((V d (cV L) (jV L)).loc cc0_scratch2 ↦{fullShare} bc)) from rfl).symm) $$ HbC
  ihave HbDx := (Entails.of_eq (show ((((Memref.whole cc0_scratch3 : Memref sig .scVector .vmem S16 .f32).view.loc (V d (cV L) (jV L)) ↦{fullShare} bd) : sProp 𝕄) = ((V d (cV L) (jV L)).loc cc0_scratch3 ↦{fullShare} bd)) from rfl).symm) $$ HbD
  ihave HbEx := (Entails.of_eq (show ((((Memref.whole cc0_scratch4 : Memref sig .scVector .vmem S16 .i32).view.loc (V d (cV L) (jV L)) ↦{fullShare} be) : sProp 𝕄) = ((V d (cV L) (jV L)).loc cc0_scratch4 ↦{fullShare} be)) from rfl).symm) $$ HbE
  ihave HbFx := (Entails.of_eq (show ((((Memref.whole cc0_scratch5 : Memref sig .scVector .vmem S16x128 .f32).view.loc (V d (cV L) (jV L)) ↦{fullShare} bf) : sProp 𝕄) = ((V d (cV L) (jV L)).loc cc0_scratch5 ↦{fullShare} bf)) from rfl).symm) $$ HbF
  ihave HNVx := (Entails.of_eq (pts_rowNV (F := F) d L f26).symm) $$ HNV
  ihave HWVx := (Entails.of_eq (pts_rowWV (F := F) d L f33).symm) $$ HWV
  ihave HGVx := (Entails.of_eq (pts_rowGV (F := F) d L f40).symm) $$ HGV
  ihave HKVx := (Entails.of_eq (pts_kv (F := F) d L q f45).symm) $$ HKV
  sl_exec
  have hin : ∀ x, ((Memref.whole cc0_scratch4 : Memref sig .scVector .vmem S16 .i32).view.read (Elt F)
      (View.write (Elt F) (Memref.whole cc0_scratch4 : Memref sig .scVector .vmem S16 .i32).view be (tile_body.sl.dma0_4 d L f40) Finset.univ) x).toNat
      < S8192x128.size gathers_S8192x128_S16x128.axis := fun x => hin_of d L f40 hg be x
  sl_exec
  have hA := flightA_restate d L f42 (k0_off1 L 0#32) (k0_off1_inb L 0) (⟨2 * 0, by omega⟩ : Fin 32) (off1_chunk0 L) ba
  have hB := flightB_restate d L f42 (k0_off1 L 32#32) (k0_off1_inb L 1) (⟨2 * 0 + 1, by omega⟩ : Fin 32) (off1_chunk1 L) bb
  ihave HfA := (Transfers.Flight_mono countersEmb (V d (cV L) (jV L)) hA) $$ [HsA]
  · iexact HsA
  ihave HfB := (Transfers.Flight_mono countersEmb (V d (cV L) (jV L)) hB) $$ [HsB]
  · iexact HsB
  have hv12 : ∀ kk : Fin 16, (tile_body.sl.v12 d L f26 bc) (ValueIdx.ix1 kk) = f26 (ValueIdx.ix2 (wid L) kk) := fun kk => nv_lane d L f26 bc kk
  have hv13 : ∀ kk : Fin 16, (tile_body.sl.v13 d L f33 bd) (ValueIdx.ix1 kk) = f33 (ValueIdx.ix2 (wid L) kk) := fun kk => wv_lane d L f33 bd kk
  have h12 : ∀ x, ((tile_body.sl.v12 d L f26 bc : IVec S16 32) x).toNat < 1024 := by
    intro x
    obtain ⟨kk, rfl⟩ : ∃ kk : Fin 16, x = ValueIdx.ix1 kk := ⟨x 0, ValueIdx.eq_ix1 x⟩
    rw [hv12 kk]; exact hn _
  have hkvAll : ∀ z : Vec F S16x128 .f32, z = (Memref.whole cc0_scratch5 : Memref sig .scVector .vmem S16x128 .f32).view.readAt (Elt F) (LoadRect.whole S16x128) ((Memref.whole cc0_scratch5 : Memref sig .scVector .vmem S16x128 .f32).view.writes (Elt F) (Memref.whole cc0_scratch5 : Memref sig .scVector .vmem S16x128 .f32).view.junk [⟨Rect.whole cc0_scratch5.ty.shape, tile_body.sl.gather0 d L f45 f40 be hin⟩]) → KVRows d L f45 f40 z := by
    intro z hz; subst hz
    have e : (Memref.whole cc0_scratch5 : Memref sig .scVector .vmem S16x128 .f32).view.readAt (Elt F) (LoadRect.whole S16x128) ((Memref.whole cc0_scratch5 : Memref sig .scVector .vmem S16x128 .f32).view.writes (Elt F) (Memref.whole cc0_scratch5 : Memref sig .scVector .vmem S16x128 .f32).view.junk [⟨Rect.whole cc0_scratch5.ty.shape, tile_body.sl.gather0 d L f45 f40 be hin⟩]) = ((Memref.whole cc0_scratch5 : Memref sig .scVector .vmem S16x128 .f32).view.writes (Elt F) (Memref.whole cc0_scratch5 : Memref sig .scVector .vmem S16x128 .f32).view.junk [⟨Rect.whole cc0_scratch5.ty.shape, tile_body.sl.gather0 d L f45 f40 be hin⟩]) :=
      Memref.readAt_whole _ _ _
    rw [e]
    exact kvrows_of_gather d L f45 f40 hg be _ hin
  sl_for (inv2 d L f42 f45 f26 f33 f40 f46 O W ((Memref.whole cc0_scratch5 : Memref sig .scVector .vmem S16x128 .f32).view.writes (Elt F) (Memref.whole cc0_scratch5 : Memref sig .scVector .vmem S16x128 .f32).view.junk [⟨Rect.whole cc0_scratch5.ty.shape, tile_body.sl.gather0 d L f45 f40 be hin⟩])) $$ [Hmw HfA HfB HbFx HM HOUT HsC HsD HO]
  case region =>
    intro k _
    have hk : k.val < 16 := Words.t1_lt k
    have h2k : 2 * k.val < 32 := by omega
    have h2k1 : 2 * k.val + 1 < 32 := by omega
    unfold inv2
    rw [slotA_lt d L f42 k.val h2k, slotB_lt d L f42 k.val h2k1]
    unfold scrA scrB scrKV
    iintro ⟨#Hmw, HA, HB, Hkv, Hge, Hlt, Hdone, Hout, HsC, HsD, %W', %hW', HO⟩
    have c1 := Words.chk1_at iota_S16_d0_w32_scVector L k
    have c4 := Words.chk4_at iota_S16_d0_w32_scVector L k
    sl_exec
    rw [SparseCore.vectorLoadIdx_bind (V d (cV L) (jV L))]
    sl_exec
    icases HA_dst with ⟨%ca, %hca, HcA⟩
    sl_for (innerA d L f42 f45 f26 f33 f40 (⟨2 * k.val, h2k⟩ : Fin 32) ((Memref.whole cc0_scratch5 : Memref sig .scVector .vmem S16x128 .f32).view.writes (Elt F) (Memref.whole cc0_scratch5 : Memref sig .scVector .vmem S16x128 .f32).view.junk [⟨Rect.whole cc0_scratch5.ty.shape, tile_body.sl.gather0 d L f45 f40 be hin⟩])) $$ [Hkv HcA]
    case region =>
      intro rl _
      unfold innerA
      iintro ⟨Hkv, %c, %hc, Hc⟩
      have cc1 := Words.chk2_at iota_S16_d0_w32_scVector L k rl
      have cc2 := Words.chk3_at (tile_body.sl.v12 d L f26 bc) h12 rl
      sl_exec
      rw [SparseCore.vectorLoadIdx_bind (V d (cV L) (jV L))]
      sl_exec
      rw [SparseCore.vectorStoreIdx_bind (V d (cV L) (jV L))]
      sl_exec
      sl_step
      isplitl [Hkv]; · iexact Hkv
      iexists _; isplitr
      rotate_left
      · iexact Hc
      · ipureintro
        exact trip_stepA d L f42 f45 f26 f33 f40 k h2k rl c hc _ hv12 _ hv13 _ _ (hkvAll _ rfl) (hkvAll _ rfl) _ _ _ _
    · unfold innerA
      isplitl [Hkv]; · iexact Hkv
      iexists ca; isplitr
      · ipureintro; exact rowsDone_zero d L f42 f45 f26 f33 f40 _ ca hca
      iexact HcA
    iintro %_ HI
    unfold innerA
    icases HI with ⟨Hkv, %cd, %hcd, HcA⟩
    ihave Houtx := (Entails.of_eq (bigSep_ge_succ (F := F) _ (2 * k.val) h2k)) $$ Hout
    icases Houtx with ⟨Hop, Hout⟩
    ihave Hopx := (Entails.of_eq (pts_out (F := F) d L (k0_off4 L k 0#32) (k0_off4_inb L k 0) _ (off4_chunk0 L k h2k) f46).symm) $$ Hop
    sl_exec
    by_cases h15 : k.val < 15
    · have k0_h1 : k0_cond1 k = 1#1 := (cond1_iff k).mpr h15
      have k0_h2 : k0_cond2 k = 1#1 := (cond2_iff k).mpr h15
      have h2k2 : 2 * k.val + 2 < 32 := by omega
      have h2k3 : 2 * k.val + 2 + 1 < 32 := by omega
      have h2n : 2 * (k.val + 1) < 32 := by omega
      have h2n1 : 2 * (k.val + 1) + 1 < 32 := by omega
      ihave Hgex := (Entails.of_eq (bigSep_ge_succ (F := F) _ (2 * k.val + 2) h2k2)) $$ Hge
      icases Hgex with ⟨Hnp, Hge⟩
      ihave Hnpx := (Entails.of_eq (pts_in (F := F) d L (k0_off5 L k) (k0_off5_inb L k k0_h1) _ (off5_chunk L k h2k2) f42).symm) $$ Hnp
      sl_exec
      rw [SparseCore.vectorLoadIdx_bind (V d (cV L) (jV L))]
      sl_exec
      icases HB_dst with ⟨%cb, %hcb, HcB⟩
      sl_for (innerB d L f42 f45 f26 f33 f40 (⟨2 * k.val + 1, h2k1⟩ : Fin 32) ((Memref.whole cc0_scratch5 : Memref sig .scVector .vmem S16x128 .f32).view.writes (Elt F) (Memref.whole cc0_scratch5 : Memref sig .scVector .vmem S16x128 .f32).view.junk [⟨Rect.whole cc0_scratch5.ty.shape, tile_body.sl.gather0 d L f45 f40 be hin⟩])) $$ [Hkv HcB]
      case region =>
        intro rl _
        unfold innerB
        iintro ⟨Hkv, %c, %hc, Hc⟩
        have cc1 := Words.chk5_at iota_S16_d0_w32_scVector L k rl
        have cc2 := Words.chk6_at (tile_body.sl.v12 d L f26 bc) h12 rl
        sl_exec
        rw [SparseCore.vectorLoadIdx_bind (V d (cV L) (jV L))]
        sl_exec
        rw [SparseCore.vectorStoreIdx_bind (V d (cV L) (jV L))]
        sl_exec
        sl_step
        isplitl [Hkv]; · iexact Hkv
        iexists _; isplitr
        rotate_left
        · iexact Hc
        · ipureintro
          exact trip_stepB d L f42 f45 f26 f33 f40 k h2k1 rl c hc _ hv12 _ hv13 _ _ (hkvAll _ rfl) (hkvAll _ rfl) _ _ _ _
      · unfold innerB
        isplitl [Hkv]; · iexact Hkv
        iexists cb; isplitr
        · ipureintro; exact rowsDone_zero d L f42 f45 f26 f33 f40 _ cb hcb
        iexact HcB
      iintro %_ HJ
      unfold innerB
      icases HJ with ⟨Hkv, %ce, %hce, HcB⟩
      ihave Houty := (Entails.of_eq (bigSep_ge_succ (F := F) _ (2 * k.val + 1) h2k1)) $$ Hout
      icases Houty with ⟨Hoq, Hout⟩
      ihave Hoqx := (Entails.of_eq (pts_out (F := F) d L (k0_off6 L k) (k0_off6_inb L k) _ (off6_chunk L k h2k1) f46).symm) $$ Hoq
      sl_exec
      ihave Hgey := (Entails.of_eq (bigSep_ge_succ (F := F) _ (2 * k.val + 2 + 1) h2k3)) $$ Hge
      icases Hgey with ⟨Hnq, Hge⟩
      ihave Hnqx := (Entails.of_eq (pts_in (F := F) d L (k0_off7 L k) (k0_off7_inb L k k0_h2) _ (off7_chunk2 L k h2k3) f42).symm) $$ Hnq
      sl_exec
      sl_step
      rw [slotA_lt d L f42 (k.val + 1) h2n, slotB_lt d L f42 (k.val + 1) h2n1]
      have hcd32 : RowsDone d L f42 f45 f26 f33 f40 ⟨2 * k.val, h2k⟩ 32 cd := by
        have h := hcd; rw [show Scf.trips k0_t2_loop.lb k0_t2_loop.ub k0_t2_loop.st = 32 from Words.t2_trips] at h; exact h
      have hce32 : RowsDone d L f42 f45 f26 f33 f40 ⟨2 * k.val + 1, h2k1⟩ 32 ce := by
        have h := hce; rw [show Scf.trips k0_t3_loop.lb k0_t3_loop.ub k0_t3_loop.st = 32 from Words.t3_trips] at h; exact h
      ihave HpA := (out_pieceA d L f42 f45 f26 f33 f40 f46 (k0_off4 L k 0#32) (k0_off4_inb L k 0) ⟨2 * k.val, h2k⟩ (off4_chunk0 L k h2k) cd hcd32) $$ [Hopx]
      · iexact Hopx
      ihave HpB := (out_pieceB d L f42 f45 f26 f33 f40 f46 (k0_off6 L k) (k0_off6_inb L k) ⟨2 * k.val + 1, h2k1⟩ (off6_chunk L k h2k1) ce hce32) $$ [Hoqx]
      · iexact Hoqx
      isplitr; · iexact Hmw
      isplitl [HA]
      · iapply (Transfers.Flight_mono countersEmb (V d (cV L) (jV L)) (flightA_restate d L f42 (k0_off5 L k) (k0_off5_inb L k k0_h1) (⟨2 * (k.val + 1), h2n⟩ : Fin 32) (off5_chunk' L k h2n) cd)); iexact HA
      isplitl [HB]
      · iapply (Transfers.Flight_mono countersEmb (V d (cV L) (jV L)) (flightB_restate d L f42 (k0_off7 L k) (k0_off7_inb L k k0_h2) (⟨2 * (k.val + 1) + 1, h2n1⟩ : Fin 32) (off7_chunk' L k h2n1) ce)); iexact HB
      isplitl [Hkv]; · iexact Hkv
      isplitl [Hge]; · iapply (ge_shift (F := F) _ (2 * k.val + 2 + 1 + 1) (2 * (k.val + 1) + 2) (by omega)); iexact Hge
      isplitl [Hlt HA_src HB_src]
      · iapply (lt_two (F := F) _ k.val h2k h2k1)
        isplitl [Hlt]; · iexact Hlt
        isplitl [HA_src]; · iexact HA_src
        iexact HB_src
      isplitl [Hdone HpA HpB]
      · iapply (lt_two (F := F) _ k.val h2k h2k1)
        isplitl [Hdone]; · iexact Hdone
        isplitl [HpA]; · iexact HpA
        iexact HpB
      isplitl [Hout]; · iapply (ge_shift (F := F) _ (2 * k.val + 1 + 1) (2 * (k.val + 1)) (by omega)); iexact Hout
      isplitl [HsC]; · iexact HsC
      isplitl [HsD]; · iexact HsD
      iexists _; isplitr
      rotate_left
      · iexact HO
      · ipureintro; intro p hp
        simp only [Finset.mem_insert] at hp
        rcases hp with rfl | rfl | rfl | rfl | hp
        · exact .inr rfl
        · exact .inr rfl
        · exact .inr rfl
        · exact .inr rfl
        · exact hW' p hp
    · have k0_h1 : ¬ k0_cond1 k = 1#1 := fun h => h15 ((cond1_iff k).mp h)
      have k0_h2 : ¬ k0_cond2 k = 1#1 := fun h => h15 ((cond2_iff k).mp h)
      sl_exec
      rw [SparseCore.vectorLoadIdx_bind (V d (cV L) (jV L))]
      sl_exec
      icases HB_dst with ⟨%cb, %hcb, HcB⟩
      sl_for (innerB d L f42 f45 f26 f33 f40 (⟨2 * k.val + 1, h2k1⟩ : Fin 32) ((Memref.whole cc0_scratch5 : Memref sig .scVector .vmem S16x128 .f32).view.writes (Elt F) (Memref.whole cc0_scratch5 : Memref sig .scVector .vmem S16x128 .f32).view.junk [⟨Rect.whole cc0_scratch5.ty.shape, tile_body.sl.gather0 d L f45 f40 be hin⟩])) $$ [Hkv HcB]
      case region =>
        intro rl _
        unfold innerB
        iintro ⟨Hkv, %c, %hc, Hc⟩
        have cc1 := Words.chk5_at iota_S16_d0_w32_scVector L k rl
        have cc2 := Words.chk6_at (tile_body.sl.v12 d L f26 bc) h12 rl
        sl_exec
        rw [SparseCore.vectorLoadIdx_bind (V d (cV L) (jV L))]
        sl_exec
        rw [SparseCore.vectorStoreIdx_bind (V d (cV L) (jV L))]
        sl_exec
        sl_step
        isplitl [Hkv]; · iexact Hkv
        iexists _; isplitr
        rotate_left
        · iexact Hc
        · ipureintro
          exact trip_stepB d L f42 f45 f26 f33 f40 k h2k1 rl c hc _ hv12 _ hv13 _ _ (hkvAll _ rfl) (hkvAll _ rfl) _ _ _ _
      · unfold innerB
        isplitl [Hkv]; · iexact Hkv
        iexists cb; isplitr
        · ipureintro; exact rowsDone_zero d L f42 f45 f26 f33 f40 _ cb hcb
        iexact HcB
      iintro %_ HJ
      unfold innerB
      icases HJ with ⟨Hkv, %ce, %hce, HcB⟩
      ihave Houty := (Entails.of_eq (bigSep_ge_succ (F := F) _ (2 * k.val + 1) h2k1)) $$ Hout
      icases Houty with ⟨Hoq, Hout⟩
      ihave Hoqx := (Entails.of_eq (pts_out (F := F) d L (k0_off6 L k) (k0_off6_inb L k) _ (off6_chunk L k h2k1) f46).symm) $$ Hoq
      sl_exec
      sl_step
      rw [slotA_ge d L f42 (k.val + 1) (by omega), slotB_ge d L f42 (k.val + 1) (by omega)]
      unfold scrA scrB
      have hcd32 : RowsDone d L f42 f45 f26 f33 f40 ⟨2 * k.val, h2k⟩ 32 cd := by
        have h := hcd; rw [show Scf.trips k0_t2_loop.lb k0_t2_loop.ub k0_t2_loop.st = 32 from Words.t2_trips] at h; exact h
      have hce32 : RowsDone d L f42 f45 f26 f33 f40 ⟨2 * k.val + 1, h2k1⟩ 32 ce := by
        have h := hce; rw [show Scf.trips k0_t3_loop.lb k0_t3_loop.ub k0_t3_loop.st = 32 from Words.t3_trips] at h; exact h
      ihave HpA := (out_pieceA d L f42 f45 f26 f33 f40 f46 (k0_off4 L k 0#32) (k0_off4_inb L k 0) ⟨2 * k.val, h2k⟩ (off4_chunk0 L k h2k) cd hcd32) $$ [Hopx]
      · iexact Hopx
      ihave HpB := (out_pieceB d L f42 f45 f26 f33 f40 f46 (k0_off6 L k) (k0_off6_inb L k) ⟨2 * k.val + 1, h2k1⟩ (off6_chunk L k h2k1) ce hce32) $$ [Hoqx]
      · iexact Hoqx
      isplitr; · iexact Hmw
      isplitl [HcA HA]
      · isplitl [HcA]; · iexists _; iexact HcA
        iexact HA
      isplitl [HcB HB]
      · isplitl [HcB]; · iexists _; iexact HcB
        iexact HB
      isplitl [Hkv]; · iexact Hkv
      isplitl [Hge]; · iapply (ge_shift_empty (F := F) _ (2 * k.val + 2) (2 * (k.val + 1) + 2) (by omega) (by omega)); iexact Hge
      isplitl [Hlt HA_src HB_src]
      · iapply (lt_two (F := F) _ k.val h2k h2k1)
        isplitl [Hlt]; · iexact Hlt
        isplitl [HA_src]; · iexact HA_src
        iexact HB_src
      isplitl [Hdone HpA HpB]
      · iapply (lt_two (F := F) _ k.val h2k h2k1)
        isplitl [Hdone]; · iexact Hdone
        isplitl [HpA]; · iexact HpA
        iexact HpB
      isplitl [Hout]; · iapply (ge_shift (F := F) _ (2 * k.val + 1 + 1) (2 * (k.val + 1)) (by omega)); iexact Hout
      isplitl [HsC]; · iexact HsC
      isplitl [HsD]; · iexact HsD
      iexists _; isplitr
      rotate_left
      · iexact HO
      · ipureintro; intro p hp
        simp only [Finset.mem_insert] at hp
        rcases hp with rfl | rfl | rfl | rfl | hp
        · exact .inr rfl
        · exact .inr rfl
        · exact .inr rfl
        · exact .inr rfl
        · exact hW' p hp
  · unfold inv2
    rw [slotA_lt d L f42 0 (by omega), slotB_lt d L f42 0 (by omega)]
    isplitr; · iexact Hmw
    isplitl [HfA]; · iexact HfA
    isplitl [HfB]; · iexact HfB
    isplitl [HbFx]; · iexact HbFx
    isplitl [HM]; · iexact HM
    isplitr; · iapply (lt_none (F := F) _ _ (by omega)); iempintro
    isplitr; · iapply (lt_none (F := F) _ _ (by omega)); iempintro
    isplitl [HOUT]; · iapply (Entails.of_eq (congrArg (fun s => bigSep s _) (ge_zero.symm.trans (ge_congr (show 0 = 2 * 0 by omega))))); iexact HOUT
    isplitl [HsC]; · iexact HsC
    isplitl [HsD]; · iexact HsD
    iexists _; isplitr
    rotate_left
    · iexact HO
    · ipureintro; intro p hp
      simp only [Finset.mem_insert] at hp
      rcases hp with rfl | rfl | rfl | rfl | hp
      · exact .inr rfl
      · exact .inr rfl
      · exact .inr rfl
      · exact .inr rfl
      · exact .inl hp
  iintro %_ HI
  unfold inv2
  have ht : Scf.trips k0_t1_loop.lb k0_t1_loop.ub k0_t1_loop.st = 16 := Words.t1_trips
  icases HI with ⟨-, HA, HB, Hkv, -, Hlt, Hdone, -, HsC, HsD, %W', %hW', HO⟩
  ihave HAx := (Entails.of_eq (slotA_ge d L f42 _ (by rw [ht]; omega))) $$ HA
  icases HAx with ⟨⟨%ca, HcA⟩, HsA⟩
  ihave HBx := (Entails.of_eq (slotB_ge d L f42 _ (by rw [ht]; omega))) $$ HB
  icases HBx with ⟨⟨%cb, HcB⟩, HsB⟩
  sl_exec
  sl_step
  unfold Tile.tileOut
  isplitl [Hlt HKVx HNVx HWVx HGVx Hdone]
  · isplitl [Hlt]; · iapply (lt_all (F := F) _ (2 * Scf.trips k0_t1_loop.lb k0_t1_loop.ub k0_t1_loop.st) (by rw [ht])); iexact Hlt
    isplitl [HKVx]; · iapply (Entails.of_eq (pts_kv (F := F) d L q f45)); iexact HKVx
    isplitl [HNVx]; · iapply (Entails.of_eq (pts_rowNV (F := F) d L f26)); iexact HNVx
    isplitl [HWVx]; · iapply (Entails.of_eq (pts_rowWV (F := F) d L f33)); iexact HWVx
    isplitl [HGVx]; · iapply (Entails.of_eq (pts_rowGV (F := F) d L f40)); iexact HGVx
    iapply (lt_all (F := F) _ (2 * Scf.trips k0_t1_loop.lb k0_t1_loop.ub k0_t1_loop.st) (by rw [ht])); iexact Hdone
  isplitl [HcA HcB HbCx HbDx HbEx Hkv Hbufs]
  · isplitl [HcA]; · iexists _; iexact HcA
    isplitl [HcB]; · iexists _; iexact HcB
    isplitl [HbCx]; · iexists _; iexact HbCx
    isplitl [HbDx]; · iexists _; iexact HbDx
    isplitl [HbEx]; · iexists _; iexact HbEx
    isplitl [Hkv]; · iexists _; iexact Hkv
    iexact Hbufs
  isplitl [HsA HsB HsC HsD HsG HpA HpB HpC Hsems]
  · isplitl [HsA]; · iexact HsA
    isplitl [HsB]; · iexact HsB
    isplitl [HsC]; · iexact HsC
    isplitl [HsD]; · iexact HsD
    isplitl [HsG]; · iexact HsG
    isplitl [HpA]; · iexact HpA
    isplitl [HpB]; · iexact HpB
    isplitl [HpC]; · iexact HpC
    iexact Hsems
  iexists W'; isplitr
  · ipureintro; exact hW'
  iexact HO

end Cert.Kernel.Body

end
-- ==== Proof.LaunchK1.lean ====
/-
  The launch of the kernel's one call, first part: the facts of the configuration, what the handshakes carry, and
  the obligation of one vector subcore's task.

  The call runs on 2 SparseCores of 16 vector subcores. SparseCore `c` is handed, of the re-laid memory and of the
  output rows, the 512 chunks of its sixteen workers (worker `16·c + s` owns chunks `32·(16·c + s) … + 31`), of the
  three per-worker vectors the sixteen rows of its workers, and of the key/value table, which every worker reads, a
  read share (token `c` of the full share split in two); it hands worker `s` its 32 chunks of both arrays, its row of
  the three vectors, and token `s` of its own share split in sixteen. What comes back is the same with the output
  chunks at `Spec.rowsOf` of the five arrays read.
-/
import proofs.«210205_g8383776161859_cont_9to1_m_1272_27_alg».proof.Proof.TileDefsK
import Idealize.ShloMosaic.Lib.Transfers

noncomputable section

namespace Cert.Kernel.Launch

open Cert.Kernel Cert.Kernel.Gen Cert.Kernel.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareTok shareDrop pointsTo_toks pointsTo_toks_split pointsTo_toks_join)

variable {F : FTy → Type}

local notation "𝕄" => MT nD τ sig (HIx 1) (Elt F) ℕ UU ℕ

/-! ## The configuration's facts -/

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## Workers and shares -/

/-- Worker `16·c + s`: vector subcore `s` of SparseCore `c`. -/
def wk (c : Fin 2) (s : Fin 16) : Fin 32 := ⟨16 * c.val + s.val, by omega⟩

/-- SparseCore `c`'s read share of the key/value table: token `c` of the full share. -/
def shC (c : Fin 2) : PosShare TreeShare := shareTokN fullShare c.val
/-- Worker `(c, s)`'s: token `s` of its SparseCore's. -/
def shW (c : Fin 2) (s : Fin 16) : PosShare TreeShare := shareTokN (shC c) s.val

/-! ## What the handshakes carry -/

variable [FloatOps F]

section Payloads

variable (d : Dev nD)
  (A42 : Buf (Elt F) (loc42 d)) (A45 : Buf (Elt F) (loc45 d)) (A26 : Buf (Elt F) (loc26 d)) (A33 : Buf (Elt F) (loc33 d))
  (A40 : Buf (Elt F) (loc40 d))

/-- What SparseCore `c` holds of the call's arrays, the output rows at `X`. -/
def coreRes (c : Fin 2) (X : Buf (Elt F) (loc46 d)) : sProp 𝕄 :=
  iprop((bigSep Finset.univ fun s : Fin 16 => bigSep Finset.univ fun g : Fin 32 => loc42 d ↦[chunkSet (chunkOf (wk c s) g)]{fullShare} A42)
    ∗ (loc45 d ↦{shC c} A45)
    ∗ (bigSep Finset.univ fun s : Fin 16 => loc26 d ↦[wrowSet (wk c s)]{fullShare} A26)
    ∗ (bigSep Finset.univ fun s : Fin 16 => loc33 d ↦[wrowSet (wk c s)]{fullShare} A33)
    ∗ (bigSep Finset.univ fun s : Fin 16 => loc40 d ↦[wrowSet (wk c s)]{fullShare} A40)
    ∗ (bigSep Finset.univ fun s : Fin 16 => bigSep Finset.univ fun g : Fin 32 => loc46 d ↦[chunkSet (chunkOf (wk c s) g)]{fullShare} X))

/-- What worker `(c, s)` holds, the output rows at `X`: `Tile.tileIn` at its share. -/
abbrev tileRes (c : Fin 2) (s : Fin 16) (X : Buf (Elt F) (loc46 d)) : sProp 𝕄 :=
  tileIn d (wk c s) (shW c s) A42 A45 A26 A33 A40 X

theorem tileOut_eq (w : Fin 32) (q : PosShare TreeShare) :
    (tileOut d w q A42 A45 A26 A33 A40 : sProp 𝕄) = tileIn d w q A42 A45 A26 A33 A40 (Cert.Spec.rowsOf (F := F) A42 A45 A26 A33 A40) := rfl

instance coreRes_storable (c : Fin 2) (X : Buf (Elt F) (loc46 d)) : BI.Storable (upEmb : UEmb _ 𝕄) (coreRes d A42 A45 A26 A33 A40 c X) := by
  unfold coreRes; infer_instance
instance tileIn_storable (w : Fin 32) (q : PosShare TreeShare) (X : Buf (Elt F) (loc46 d)) :
    BI.Storable (upEmb : UEmb _ 𝕄) (tileIn d w q A42 A45 A26 A33 A40 X) := by
  unfold tileIn; infer_instance

end Payloads

section Launch

variable (A42 : (d : Dev nD) → Buf (Elt F) (loc42 d)) (A45 : (d : Dev nD) → Buf (Elt F) (loc45 d)) (A26 : (d : Dev nD) → Buf (Elt F) (loc26 d))
  (A33 : (d : Dev nD) → Buf (Elt F) (loc33 d)) (A40 : (d : Dev nD) → Buf (Elt F) (loc40 d)) (f46 : (d : Dev nD) → Buf (Elt F) (loc46 d))

/-- The rows the call leaves on device `d`. -/
abbrev R46 (d : Dev nD) : Buf (Elt F) (loc46 d) := Cert.Spec.rowsOf (F := F) (A42 d) (A45 d) (A26 d) (A33 d) (A40 d)

/-- Call 0's payloads; no kernel's proof consumes anything of the launch's. -/
def P : (K (F := F)).Pay (nD := nD) (Val := Elt F) (Name := ℕ) (U := UU) where
  st := fun q d c => match q with | 0 => coreRes d (A42 d) (A45 d) (A26 d) (A33 d) (A40 d) (Fin.cast nCore_zero c) (f46 d)
  dn := fun q d c => match q with | 0 => coreRes d (A42 d) (A45 d) (A26 d) (A33 d) (A40 d) (Fin.cast nCore_zero c) (R46 A42 A45 A26 A33 A40 d)
  go := fun q d c s => match q with
    | 0 => tileRes d (A42 d) (A45 d) (A26 d) (A33 d) (A40 d) (Fin.cast nCore_zero c) (Fin.cast nSub_zero s) (f46 d)
  td := fun q d c s => match q with
    | 0 => tileRes d (A42 d) (A45 d) (A26 d) (A33 d) (A40 d) (Fin.cast nCore_zero c) (Fin.cast nSub_zero s) (R46 A42 A45 A26 A33 A40 d)
  x := fun _ _ => iprop(emp)

theorem P_st (d : Dev nD) (c : Fin ((K (F := F)).nCore 0)) :
    (P A42 A45 A26 A33 A40 f46).st 0 d c = coreRes d (A42 d) (A45 d) (A26 d) (A33 d) (A40 d) (Fin.cast nCore_zero c) (f46 d) := rfl
theorem P_dn (d : Dev nD) (c : Fin ((K (F := F)).nCore 0)) :
    (P A42 A45 A26 A33 A40 f46).dn 0 d c = coreRes d (A42 d) (A45 d) (A26 d) (A33 d) (A40 d) (Fin.cast nCore_zero c) (R46 A42 A45 A26 A33 A40 d) := rfl
theorem P_go (d : Dev nD) (c : Fin ((K (F := F)).nCore 0)) (s : Fin ((K (F := F)).nSub 0)) :
    (P A42 A45 A26 A33 A40 f46).go 0 d c s
      = tileRes d (A42 d) (A45 d) (A26 d) (A33 d) (A40 d) (Fin.cast nCore_zero c) (Fin.cast nSub_zero s) (f46 d) := rfl
theorem P_td (d : Dev nD) (c : Fin ((K (F := F)).nCore 0)) (s : Fin ((K (F := F)).nSub 0)) :
    (P A42 A45 A26 A33 A40 f46).td 0 d c s
      = tileRes d (A42 d) (A45 d) (A26 d) (A33 d) (A40 d) (Fin.cast nCore_zero c) (Fin.cast nSub_zero s) (R46 A42 A45 A26 A33 A40 d) := rfl

instance P_storable : (P (F := F) A42 A45 A26 A33 A40 f46).IsStorable where
  st q d c := match q with | 0 => by rw [P_st]; infer_instance
  dn q d c := match q with | 0 => by rw [P_dn]; infer_instance
  go q d c s := match q with | 0 => by rw [P_go]; infer_instance
  td q d c s := match q with | 0 => by rw [P_td]; infer_instance

/-! ## The task's obligation, from the body's -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_body (coordsV c s)
          (Memref.whole main_v42_scv) (Memref.isWhole_whole _) (Memref.whole main_v45_scv) (Memref.isWhole_whole _)
          (Memref.whole main_v26_scv) (Memref.isWhole_whole _) (Memref.whole main_v33_scv) (Memref.isWhole_whole _)
          (Memref.whole main_v40_scv) (Memref.isWhole_whole _) (Memref.whole main_v46_scv) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          (Memref.whole cc0_scratch4) (Memref.isWhole_whole _) (Memref.whole cc0_scratch5) (Memref.isWhole_whole _)
          cc0_scratch6 cc0_scratch7 cc0_scratch8 cc0_scratch9 cc0_scratch10 cc0_scoped0 cc0_scoped1 cc0_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem wid_coordsV (c : Fin (grid0.bound 0)) (s : Fin (grid0.bound 1)) :
    wid (coordsV c s) = wk (Fin.cast bound_zero c) (Fin.cast bound_one s) := rfl

theorem tileObl (hbody : TileBody (F := F)) (hg : ∀ d p, (A40 d p).toNat < 8192) (hn : ∀ d p, (A26 d p).toNat < 1024) :
    (K (F := F)).TileObl (D (F := F)) 𝒱 (P A42 A45 A26 A33 A40 f46) v₀ 0 := by
  intro d c i O W hO _ _
  -- this kernel owes nothing for a protocol of its own
  simp only [show (P A42 A45 A26 A33 A40 f46).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  rw [P_go, P_td, show (P A42 A45 A26 A33 A40 f46).x 0 (V d ((K (F := F)).core 0 c) ((K (F := F)).sub 0 i)) = iprop(emp) from rfl]
  exact (hbody facts d (coordsV ⟨_, hc.1⟩ ⟨_, hc.2⟩) (shW (Fin.cast nCore_zero c) (Fin.cast nSub_zero i))
    (A42 d) (A45 d) (A26 d) (A33 d) (A40 d) (f46 d) (hg d) (hn d) O W hO).trans (wp_mono frame _ _ fun _ => obl_post)

end Launch

end Cert.Kernel.Launch

end
-- ==== Proof.LaunchK2.lean ====
/-
  The launch of the kernel's one call, second part: how the arrays split and join.

  An array of 32768 rows is its 1024 chunks of 32 rows, and those are, by SparseCore `c`, worker `s` and chunk `g`,
  chunk `32·(16·c + s) + g`; a per-worker vector of 32 rows is its rows, row `16·c + s` by SparseCore and worker. A
  share of the key/value table is a remainder and one token per reader. So the six arrays of the call, whole, are
  what the two SparseCores are handed (and a remainder of the table's share, kept by the caller), and what a
  SparseCore is handed is what its sixteen workers are handed (and a remainder, kept by the sequencer); the same
  read backwards joins what comes back, at any contents of the output rows.
-/
import proofs.«210205_g8383776161859_cont_9to1_m_1272_27_alg».proof.Proof.LaunchK1

noncomputable section

namespace Cert.Kernel.Launch

open Cert.Kernel Cert.Kernel.Gen Cert.Kernel.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareTok shareDrop pointsTo_toks pointsTo_toks_split pointsTo_toks_join)

variable {F : FTy → Type}

local notation "𝕄" => MT nD τ sig (HIx 1) (Elt F) ℕ UU ℕ

/-! ## Reindexing -/

section Reindex

variable {M : Type} [URA M]

theorem bigSep_fin_mul {m n : ℕ} (Φ : Fin (m * n) → sProp M) :
    bigSep Finset.univ Φ = bigSep Finset.univ fun a : Fin m => bigSep Finset.univ fun b : Fin n => Φ (finProdFinEquiv (a, b)) := by
  rw [bigSep_univ_equiv finProdFinEquiv Φ, bigSep_univ_prod]

/-- The 32 workers by SparseCore and subcore. -/
theorem bigSep_workers (Φ : Fin 32 → sProp M) :
    bigSep Finset.univ Φ = bigSep Finset.univ fun c : Fin 2 => bigSep Finset.univ fun s : Fin 16 => Φ (wk c s) := by
  rw [bigSep_fin_mul (m := 2) (n := 16) Φ]
  exact bigSep_congr fun c _ => bigSep_congr fun s _ => congrArg Φ (Fin.ext (by
    rw [finProdFinEquiv_apply_val]; show s.val + 16 * c.val = 16 * c.val + s.val; omega))

/-- The 1024 chunks by worker and chunk of the worker. -/
theorem bigSep_chunks (Φ : Fin 1024 → sProp M) :
    bigSep Finset.univ Φ = bigSep Finset.univ fun w : Fin 32 => bigSep Finset.univ fun g : Fin 32 => Φ (chunkOf w g) := by
  rw [bigSep_fin_mul (m := 32) (n := 32) Φ]
  exact bigSep_congr fun w _ => bigSep_congr fun g _ => congrArg Φ (Fin.ext (by
    rw [finProdFinEquiv_apply_val]; show g.val + 32 * w.val = 32 * w.val + g.val; omega))

end Reindex

/-! ## Chunks and rows partition their arrays -/

theorem chunkSet_eq (k : Fin 1024) : chunkSet k = (chunkRect k).set := by
  show ((View.whole (main_v42_scv : Ref sig .scVector)).slice (chunkRect k)).set = _
  rw [View.set_slice]; exact Finset.map_refl
theorem chunks_disjoint : ∀ i ∈ (Finset.univ : Finset (Fin 1024)), ∀ j ∈ (Finset.univ : Finset (Fin 1024)), i ≠ j → Disjoint (chunkSet i) (chunkSet j) :=
  fun i _ j _ h => by rw [chunkSet_eq, chunkSet_eq]; exact Rect.part_disjoint hdivC h
theorem chunks_cover : (Finset.univ : Finset (Fin 1024)).biUnion chunkSet = Finset.univ :=
  (Finset.biUnion_congr rfl fun i _ => chunkSet_eq i).trans (Rect.biUnion_part hdivC)

theorem wrowSet_eq (w : Fin 32) : wrowSet w = (wrowRect w).set := by
  show ((View.whole (main_v26_scv : Ref sig .scVector)).slice (wrowRect w)).set = _
  rw [View.set_slice]; exact Finset.map_refl
theorem wrows_disjoint : ∀ i ∈ (Finset.univ : Finset (Fin 32)), ∀ j ∈ (Finset.univ : Finset (Fin 32)), i ≠ j → Disjoint (wrowSet i) (wrowSet j) :=
  fun i _ j _ h => by rw [wrowSet_eq, wrowSet_eq]; exact Rect.part_disjoint hdivW h
theorem wrows_cover : (Finset.univ : Finset (Fin 32)).biUnion wrowSet = Finset.univ :=
  (Finset.biUnion_congr rfl fun i _ => wrowSet_eq i).trans (Rect.biUnion_part hdivW)

section Whole

variable (d : Dev nD)

theorem whole42 (f : Buf (Elt F) (loc42 d)) :
    (loc42 d ↦{fullShare} f : sProp 𝕄)
      = bigSep Finset.univ fun c : Fin 2 => bigSep Finset.univ fun s : Fin 16 => bigSep Finset.univ fun g : Fin 32 =>
          loc42 d ↦[chunkSet (chunkOf (wk c s) g)]{fullShare} f := by
  rw [← bigSep_workers (fun w => bigSep Finset.univ fun g : Fin 32 => (loc42 d ↦[chunkSet (chunkOf w g)]{fullShare} f : sProp 𝕄)),
    ← bigSep_chunks (fun k => (loc42 d ↦[chunkSet k]{fullShare} f : sProp 𝕄)),
    ← pointsTo_biUnion Finset.univ (ℓ := loc42 d) chunkSet chunks_disjoint, chunks_cover]; try rfl
theorem whole46 (f : Buf (Elt F) (loc46 d)) :
    (loc46 d ↦{fullShare} f : sProp 𝕄)
      = bigSep Finset.univ fun c : Fin 2 => bigSep Finset.univ fun s : Fin 16 => bigSep Finset.univ fun g : Fin 32 =>
          loc46 d ↦[chunkSet (chunkOf (wk c s) g)]{fullShare} f := by
  rw [← bigSep_workers (fun w => bigSep Finset.univ fun g : Fin 32 => (loc46 d ↦[chunkSet (chunkOf w g)]{fullShare} f : sProp 𝕄)),
    ← bigSep_chunks (fun k => (loc46 d ↦[chunkSet k]{fullShare} f : sProp 𝕄)),
    ← pointsTo_biUnion Finset.univ (ℓ := loc46 d) chunkSet chunks_disjoint, chunks_cover]; try rfl
theorem whole26 (f : Buf (Elt F) (loc26 d)) :
    (loc26 d ↦{fullShare} f : sProp 𝕄)
      = bigSep Finset.univ fun c : Fin 2 => bigSep Finset.univ fun s : Fin 16 => loc26 d ↦[wrowSet (wk c s)]{fullShare} f := by
  rw [← bigSep_workers (fun w => (loc26 d ↦[wrowSet w]{fullShare} f : sProp 𝕄)),
    ← pointsTo_biUnion Finset.univ (ℓ := loc26 d) wrowSet wrows_disjoint, wrows_cover]; try rfl
theorem whole33 (f : Buf (Elt F) (loc33 d)) :
    (loc33 d ↦{fullShare} f : sProp 𝕄)
      = bigSep Finset.univ fun c : Fin 2 => bigSep Finset.univ fun s : Fin 16 => loc33 d ↦[wrowSet (wk c s)]{fullShare} f := by
  rw [← bigSep_workers (fun w => (loc33 d ↦[wrowSet w]{fullShare} f : sProp 𝕄)),
    ← pointsTo_biUnion Finset.univ (ℓ := loc33 d) wrowSet wrows_disjoint, wrows_cover]; try rfl
theorem whole40 (f : Buf (Elt F) (loc40 d)) :
    (loc40 d ↦{fullShare} f : sProp 𝕄)
      = bigSep Finset.univ fun c : Fin 2 => bigSep Finset.univ fun s : Fin 16 => loc40 d ↦[wrowSet (wk c s)]{fullShare} f := by
  rw [← bigSep_workers (fun w => (loc40 d ↦[wrowSet w]{fullShare} f : sProp 𝕄)),
    ← pointsTo_biUnion Finset.univ (ℓ := loc40 d) wrowSet wrows_disjoint, wrows_cover]; try rfl

end Whole

variable [FloatOps F]

/-! ## A SparseCore's holdings are its workers' -/

section Core

variable (d : Dev nD)
  (A42 : Buf (Elt F) (loc42 d)) (A45 : Buf (Elt F) (loc45 d)) (A26 : Buf (Elt F) (loc26 d)) (A33 : Buf (Elt F) (loc33 d))
  (A40 : Buf (Elt F) (loc40 d))

theorem tiles_eq (c : Fin 2) (X : Buf (Elt F) (loc46 d)) :
    (bigSep Finset.univ fun s : Fin 16 => tileRes d A42 A45 A26 A33 A40 c s X)
      = iprop((bigSep Finset.univ fun s : Fin 16 => bigSep Finset.univ fun g : Fin 32 => loc42 d ↦[chunkSet (chunkOf (wk c s) g)]{fullShare} A42)
        ∗ (bigSep Finset.univ fun s : Fin 16 => loc45 d ↦{shareTok (shC c) 16 s} A45)
        ∗ (bigSep Finset.univ fun s : Fin 16 => loc26 d ↦[wrowSet (wk c s)]{fullShare} A26)
        ∗ (bigSep Finset.univ fun s : Fin 16 => loc33 d ↦[wrowSet (wk c s)]{fullShare} A33)
        ∗ (bigSep Finset.univ fun s : Fin 16 => loc40 d ↦[wrowSet (wk c s)]{fullShare} A40)
        ∗ (bigSep Finset.univ fun s : Fin 16 => bigSep Finset.univ fun g : Fin 32 => loc46 d ↦[chunkSet (chunkOf (wk c s) g)]{fullShare} X)) := by
  unfold tileRes tileIn shW
  rw [bigSep_sep', bigSep_sep', bigSep_sep', bigSep_sep', bigSep_sep']

theorem core_split (c : Fin 2) (X : Buf (Elt F) (loc46 d)) :
    coreRes d A42 A45 A26 A33 A40 c X
      ⊢ iprop((loc45 d ↦{shareDrop (shC c) 16} A45) ∗ bigSep Finset.univ fun s : Fin 16 => tileRes d A42 A45 A26 A33 A40 c s X) := by
  rw [tiles_eq]; unfold coreRes
  iintro ⟨H42, H45, H26, H33, H40, H46⟩
  ihave H := (pointsTo_toks_split (shC c) 16) $$ H45
  icases H with ⟨Hd, Ht⟩
  isplitl [Hd]; · iexact Hd
  isplitl [H42]; · iexact H42
  isplitl [Ht]; · iexact Ht
  isplitl [H26]; · iexact H26
  isplitl [H33]; · iexact H33
  isplitl [H40]; · iexact H40
  iexact H46

theorem core_join (c : Fin 2) (X : Buf (Elt F) (loc46 d)) :
    iprop((loc45 d ↦{shareDrop (shC c) 16} A45) ∗ bigSep Finset.univ fun s : Fin 16 => tileRes d A42 A45 A26 A33 A40 c s X)
      ⊢ coreRes d A42 A45 A26 A33 A40 c X := by
  rw [tiles_eq]; unfold coreRes
  iintro ⟨Hd, H42, Ht, H26, H33, H40, H46⟩
  isplitl [H42]; · iexact H42
  isplitl [Hd Ht]
  · iapply (pointsTo_toks_join (shC c) 16)
    isplitl [Hd]; · iexact Hd
    iexact Ht
  isplitl [H26]; · iexact H26
  isplitl [H33]; · iexact H33
  isplitl [H40]; · iexact H40
  iexact H46

/-! ## The call's arrays are the SparseCores' holdings -/

theorem cores_eq (X : Buf (Elt F) (loc46 d)) :
    (bigSep Finset.univ fun c : Fin 2 => coreRes d A42 A45 A26 A33 A40 c X)
      = iprop((loc42 d ↦{fullShare} A42)
        ∗ (bigSep Finset.univ fun c : Fin 2 => loc45 d ↦{shareTok fullShare 2 c} A45)
        ∗ (loc26 d ↦{fullShare} A26) ∗ (loc33 d ↦{fullShare} A33) ∗ (loc40 d ↦{fullShare} A40) ∗ (loc46 d ↦{fullShare} X)) := by
  unfold coreRes shC
  rw [bigSep_sep', bigSep_sep', bigSep_sep', bigSep_sep', bigSep_sep', ← whole42, ← whole26, ← whole33, ← whole40, ← whole46]

theorem call_split (X : Buf (Elt F) (loc46 d)) :
    iprop((loc42 d ↦{fullShare} A42) ∗ (loc45 d ↦{fullShare} A45) ∗ (loc26 d ↦{fullShare} A26) ∗ (loc33 d ↦{fullShare} A33)
        ∗ (loc40 d ↦{fullShare} A40) ∗ (loc46 d ↦{fullShare} X))
      ⊢ iprop((loc45 d ↦{shareDrop fullShare 2} A45) ∗ bigSep Finset.univ fun c : Fin 2 => coreRes d A42 A45 A26 A33 A40 c X) := by
  rw [cores_eq]
  iintro ⟨H42, H45, H26, H33, H40, H46⟩
  ihave H := (pointsTo_toks_split fullShare 2) $$ H45
  icases H with ⟨Hd, Ht⟩
  isplitl [Hd]; · iexact Hd
  isplitl [H42]; · iexact H42
  isplitl [Ht]; · iexact Ht
  isplitl [H26]; · iexact H26
  isplitl [H33]; · iexact H33
  isplitl [H40]; · iexact H40
  iexact H46

theorem call_join (X : Buf (Elt F) (loc46 d)) :
    iprop((loc45 d ↦{shareDrop fullShare 2} A45) ∗ bigSep Finset.univ fun c : Fin 2 => coreRes d A42 A45 A26 A33 A40 c X)
      ⊢ iprop((loc42 d ↦{fullShare} A42) ∗ (loc45 d ↦{fullShare} A45) ∗ (loc26 d ↦{fullShare} A26) ∗ (loc33 d ↦{fullShare} A33)
        ∗ (loc40 d ↦{fullShare} A40) ∗ (loc46 d ↦{fullShare} X)) := by
  rw [cores_eq]
  iintro ⟨Hd, H42, Ht, H26, H33, H40, H46⟩
  isplitl [H42]; · iexact H42
  isplitl [Hd Ht]
  · iapply (pointsTo_toks_join fullShare 2)
    isplitl [Hd]; · iexact Hd
    iexact Ht
  isplitl [H26]; · iexact H26
  isplitl [H33]; · iexact H33
  isplitl [H40]; · iexact H40
  iexact H46

end Core

/-! ## The launch theorem's split, and its launch element -/

section Launch

variable (A42 : (d : Dev nD) → Buf (Elt F) (loc42 d)) (A45 : (d : Dev nD) → Buf (Elt F) (loc45 d)) (A26 : (d : Dev nD) → Buf (Elt F) (loc26 d))
  (A33 : (d : Dev nD) → Buf (Elt F) (loc33 d)) (A40 : (d : Dev nD) → Buf (Elt F) (loc40 d)) (f46 : (d : Dev nD) → Buf (Elt F) (loc46 d))

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P A42 A45 A26 A33 A40 f46) 0 := by
  intro d c
  show coreRes d (A42 d) (A45 d) (A26 d) (A33 d) (A40 d) (Fin.cast nCore_zero c) (f46 d) ⊢ |={Set.univ}=> iprop(
      (bigSep Finset.univ fun i : Fin ((K (F := F)).nSub 0) =>
        tileRes d (A42 d) (A45 d) (A26 d) (A33 d) (A40 d) (Fin.cast nCore_zero c) (Fin.cast nSub_zero i) (f46 d))
      ∗ ((bigSep Finset.univ fun i : Fin ((K (F := F)).nSub 0) =>
          tileRes d (A42 d) (A45 d) (A26 d) (A33 d) (A40 d) (Fin.cast nCore_zero c) (Fin.cast nSub_zero i) (R46 A42 A45 A26 A33 A40 d))
        -∗ coreRes d (A42 d) (A45 d) (A26 d) (A33 d) (A40 d) (Fin.cast nCore_zero c) (R46 A42 A45 A26 A33 A40 d)))
  rw [bigSep_tasks (F := F) (fun i => tileRes d (A42 d) (A45 d) (A26 d) (A33 d) (A40 d) (Fin.cast nCore_zero c) i (f46 d)),
    bigSep_tasks (F := F) (fun i => tileRes d (A42 d) (A45 d) (A26 d) (A33 d) (A40 d) (Fin.cast nCore_zero c) i (R46 A42 A45 A26 A33 A40 d))]
  iintro H
  ihave H' := (core_split d (A42 d) (A45 d) (A26 d) (A33 d) (A40 d) (Fin.cast nCore_zero c) (f46 d)) $$ H
  icases H' with ⟨Hd, Ht⟩
  imodintro
  isplitl [Ht]; · iexact Ht
  iintro Ht
  iapply (core_join d (A42 d) (A45 d) (A26 d) (A33 d) (A40 d) (Fin.cast nCore_zero c) (R46 A42 A45 A26 A33 A40 d))
  isplitl [Hd]; · iexact Hd
  iexact Ht

/-- What the call takes for the two SparseCores, and what it hands back. -/
theorem st0_eq (d : Dev nD) :
    (bigSep Finset.univ fun c : Fin ((K (F := F)).nCore 0) => (P A42 A45 A26 A33 A40 f46).st 0 d c)
      = bigSep Finset.univ fun c : Fin 2 => coreRes d (A42 d) (A45 d) (A26 d) (A33 d) (A40 d) c (f46 d) :=
  bigSep_cores (F := F) (fun c => coreRes d (A42 d) (A45 d) (A26 d) (A33 d) (A40 d) c (f46 d))
theorem dn0_eq (d : Dev nD) :
    (bigSep Finset.univ fun c : Fin ((K (F := F)).nCore 0) => (P A42 A45 A26 A33 A40 f46).dn 0 d c)
      = bigSep Finset.univ fun c : Fin 2 => coreRes d (A42 d) (A45 d) (A26 d) (A33 d) (A40 d) c (R46 A42 A45 A26 A33 A40 d) :=
  bigSep_cores (F := F) (fun c => coreRes d (A42 d) (A45 d) (A26 d) (A33 d) (A40 d) c (R46 A42 A45 A26 A33 A40 d))

/-! ### The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P A42 A45 A26 A33 A40 f46).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Launch

end Cert.Kernel.Launch

end
-- ==== Proof.HostK.lean ====
/-
  The host side of the kernel's program: the StableHLO operations of @main before the SparseCore call and the two
  after it, as two lists of operations (a called function's operations stand in its call's place), the program as
  their runs around the call, and which buffers the lists touch and keep.
-/
import proofs.«210205_g8383776161859_cont_9to1_m_1272_27_alg».proof.Proof.Gen.Kernel
import Idealize.ShloMosaic.Lib.StableHlo.Run

noncomputable section

namespace Cert.Kernel.Host

open Cert.Kernel Cert.Kernel.Gen Idealize.ShloMosaic Idealize.ShloMosaic.TcCoe Idealize.SL.Sem Idealize.ShloMosaic.StableHlo

variable {F : FTy → Type} [FloatOps F]

/-- The 84 operations of @main before the call, in order. -/
def preOps : List (HloOp τ sig (Elt F)) :=
  [
    unary main_arg3 main_v0 (broadcastInDim S8x16x1 ![0, 1] bcast_S8x16_S8x16x1_0_1 : (⟨S8x16, .i32⟩ : BufTy).Contents (Elt F) → (⟨S8x16x1, .i32⟩ : BufTy).Contents (Elt F)),
    unary main_arg3 main_v1 (broadcastInDim S8x1x16 ![0, 2] bcast_S8x16_S8x1x16_0_2 : (⟨S8x16, .i32⟩ : BufTy).Contents (Elt F) → (⟨S8x1x16, .i32⟩ : BufTy).Contents (Elt F)),
    unary main_v0 main_v2 (broadcastInDim S8x16x16 ![0, 1, 2] bcast_S8x16x1_S8x16x16_0_1_2 : (⟨S8x16x1, .i32⟩ : BufTy).Contents (Elt F) → (⟨S8x16x16, .i32⟩ : BufTy).Contents (Elt F)),
    unary main_v1 main_v3 (broadcastInDim S8x16x16 ![0, 1, 2] bcast_S8x1x16_S8x16x16_0_1_2 : (⟨S8x1x16, .i32⟩ : BufTy).Contents (Elt F) → (⟨S8x16x16, .i32⟩ : BufTy).Contents (Elt F)),
    binary main_v2 main_v3 main_v4 (cmpi .eq : (⟨S8x16x16, .i32⟩ : BufTy).Contents (Elt F) → (⟨S8x16x16, .i32⟩ : BufTy).Contents (Elt F) → (⟨S8x16x16, .i1⟩ : BufTy).Contents (Elt F)),
    TRef.nullary (TRef.of (T := ⟨S16x16, .i32⟩) main_call0_v0) (iotaInDim S16x16 32 0),
    TRef.nullary (TRef.of (T := ⟨S_, .i32⟩) main_call0_c) (constantI S_ 32 4294967295#32),
    TRef.unary (TRef.of (T := ⟨S_, .i32⟩) main_call0_c) (TRef.of (T := ⟨S16x16, .i32⟩) main_call0_v1) (broadcastInDim S16x16 ![] bcast_S_S16x16),
    TRef.binary (TRef.of (T := ⟨S16x16, .i32⟩) main_call0_v0) (TRef.of (T := ⟨S16x16, .i32⟩) main_call0_v1) (TRef.of (T := ⟨S16x16, .i32⟩) main_call0_v2) addi,
    TRef.nullary (TRef.of (T := ⟨S16x16, .i32⟩) main_call0_v3) (iotaInDim S16x16 32 1),
    TRef.binary (TRef.of (T := ⟨S16x16, .i32⟩) main_call0_v2) (TRef.of (T := ⟨S16x16, .i32⟩) main_call0_v3) (TRef.of (T := ⟨S16x16, .i1⟩) main_call0_v4) (cmpi .sge),
    TRef.unary (TRef.of (T := ⟨S16x16, .i1⟩) main_call0_v4) (TRef.of (T := ⟨S8x16x16, .i1⟩) main_call0_v5) (broadcastInDim S8x16x16 ![1, 2] bcast_S16x16_S8x16x16_1_2),
    TRef.nullary (TRef.of (T := ⟨S_, .i1⟩) main_call0_c_0) (constantI S_ 1 0#1),
    TRef.unary (TRef.of (T := ⟨S_, .i1⟩) main_call0_c_0) (TRef.of (T := ⟨S8x16x16, .i1⟩) main_call0_v6) (broadcastInDim S8x16x16 ![] bcast_S_S8x16x16),
    TRef.ternary (TRef.of (T := ⟨S8x16x16, .i1⟩) main_call0_v5) (TRef.of (T := ⟨S8x16x16, .i1⟩) main_v4) (TRef.of (T := ⟨S8x16x16, .i1⟩) main_call0_v6) (TRef.of (T := ⟨S8x16x16, .i1⟩) main_v5) select,
    nullary main_c (constantI S_ 1 0#1),
    binary main_v5 main_c main_v6 ((fun x v => Host.reduce IntOp.ori x v reducesTo_S8x16x16_S8x16_d2 h_S_) : (⟨S8x16x16, .i1⟩ : BufTy).Contents (Elt F) → (⟨S_, .i1⟩ : BufTy).Contents (Elt F) → (⟨S8x16, .i1⟩ : BufTy).Contents (Elt F)),
    unary main_v6 main_v7 (noti : (⟨S8x16, .i1⟩ : BufTy).Contents (Elt F) → (⟨S8x16, .i1⟩ : BufTy).Contents (Elt F)),
    unary main_v4 main_v8 ((extui 32 · natLt_1_32) : (⟨S8x16x16, .i1⟩ : BufTy).Contents (Elt F) → (⟨S8x16x16, .i32⟩ : BufTy).Contents (Elt F)),
    nullary main_c_0 (constantI S_ 32 0#32),
    binary main_v8 main_c_0 main_v9 ((fun x v => Host.reduce IntOp.addi x v reducesTo_S8x16x16_S8x16_d2 h_S_) : (⟨S8x16x16, .i32⟩ : BufTy).Contents (Elt F) → (⟨S_, .i32⟩ : BufTy).Contents (Elt F) → (⟨S8x16, .i32⟩ : BufTy).Contents (Elt F)),
    nullary main_c_1 (constantI S_ 32 0#32),
    TRef.unary (TRef.of (T := ⟨S_, .i32⟩) main_c_1) (TRef.of (T := ⟨S_, .i32⟩) main_call1_v0) id,
    TRef.unary (TRef.of (T := ⟨S_, .i32⟩) main_call1_v0) (TRef.of (T := ⟨S8x16, .i32⟩) main_call1_v1) (broadcastInDim S8x16 ![] bcast_S_S8x16),
    TRef.ternary (TRef.of (T := ⟨S8x16, .i1⟩) main_v7) (TRef.of (T := ⟨S8x16, .i32⟩) main_v9) (TRef.of (T := ⟨S8x16, .i32⟩) main_call1_v1) (TRef.of (T := ⟨S8x16, .i32⟩) main_v10) select,
    unary main_v10 main_v11 (sitofp .f32 : (⟨S8x16, .i32⟩ : BufTy).Contents (Elt F) → (⟨S8x16, .f32⟩ : BufTy).Contents (Elt F)),
    nullary main_v12 (iotaInDim S8 32 0),
    unary main_v12 main_v13 (broadcastInDim S8x1 ![0] bcast_S8_S8x1_0 : (⟨S8, .i32⟩ : BufTy).Contents (Elt F) → (⟨S8x1, .i32⟩ : BufTy).Contents (Elt F)),
    nullary main_c_2 (constantI S_ 32 1024#32),
    unary main_c_2 main_v14 (broadcastInDim S8x1 ![] bcast_S_S8x1 : (⟨S_, .i32⟩ : BufTy).Contents (Elt F) → (⟨S8x1, .i32⟩ : BufTy).Contents (Elt F)),
    binary main_v13 main_v14 main_v15 (muli : (⟨S8x1, .i32⟩ : BufTy).Contents (Elt F) → (⟨S8x1, .i32⟩ : BufTy).Contents (Elt F) → (⟨S8x1, .i32⟩ : BufTy).Contents (Elt F)),
    unary main_v15 main_v16 (broadcastInDim S8x16 ![0, 1] bcast_S8x1_S8x16_0_1 : (⟨S8x1, .i32⟩ : BufTy).Contents (Elt F) → (⟨S8x16, .i32⟩ : BufTy).Contents (Elt F)),
    binary main_v16 main_arg3 main_v17 (addi : (⟨S8x16, .i32⟩ : BufTy).Contents (Elt F) → (⟨S8x16, .i32⟩ : BufTy).Contents (Elt F) → (⟨S8x16, .i32⟩ : BufTy).Contents (Elt F)),
    nullary main_v18 (iotaInDim S32 32 0),
    nullary main_c_3 (constantI S_ 32 4#32),
    TRef.unary (TRef.of (T := ⟨S_, .i32⟩) main_c_3) (TRef.of (T := ⟨S_, .i32⟩) main_call2_v0) id,
    TRef.unary (TRef.of (T := ⟨S_, .i32⟩) main_call2_v0) (TRef.of (T := ⟨S32, .i32⟩) main_call2_v1) (broadcastInDim S32 ![] bcast_S_S32),
    TRef.binary (TRef.of (T := ⟨S32, .i32⟩) main_v18) (TRef.of (T := ⟨S32, .i32⟩) main_call2_v1) (TRef.of (T := ⟨S32, .i32⟩) main_call2_v2) Host.divsi,
    TRef.unary (TRef.of (T := ⟨S32, .i32⟩) main_v18) (TRef.of (T := ⟨S32, .i32⟩) main_call2_v3) signi,
    TRef.unary (TRef.of (T := ⟨S_, .i32⟩) main_call2_v0) (TRef.of (T := ⟨S_, .i32⟩) main_call2_v4) signi,
    TRef.unary (TRef.of (T := ⟨S_, .i32⟩) main_call2_v4) (TRef.of (T := ⟨S32, .i32⟩) main_call2_v5) (broadcastInDim S32 ![] bcast_S_S32),
    TRef.binary (TRef.of (T := ⟨S32, .i32⟩) main_call2_v3) (TRef.of (T := ⟨S32, .i32⟩) main_call2_v5) (TRef.of (T := ⟨S32, .i1⟩) main_call2_v6) (cmpi .ne),
    TRef.unary (TRef.of (T := ⟨S_, .i32⟩) main_call2_v0) (TRef.of (T := ⟨S32, .i32⟩) main_call2_v7) (broadcastInDim S32 ![] bcast_S_S32),
    TRef.binary (TRef.of (T := ⟨S32, .i32⟩) main_v18) (TRef.of (T := ⟨S32, .i32⟩) main_call2_v7) (TRef.of (T := ⟨S32, .i32⟩) main_call2_v8) Host.remsi,
    TRef.nullary (TRef.of (T := ⟨S_, .i32⟩) main_call2_c) (constantI S_ 32 0#32),
    TRef.unary (TRef.of (T := ⟨S_, .i32⟩) main_call2_c) (TRef.of (T := ⟨S32, .i32⟩) main_call2_v9) (broadcastInDim S32 ![] bcast_S_S32),
    TRef.binary (TRef.of (T := ⟨S32, .i32⟩) main_call2_v8) (TRef.of (T := ⟨S32, .i32⟩) main_call2_v9) (TRef.of (T := ⟨S32, .i1⟩) main_call2_v10) (cmpi .ne),
    TRef.binary (TRef.of (T := ⟨S32, .i1⟩) main_call2_v6) (TRef.of (T := ⟨S32, .i1⟩) main_call2_v10) (TRef.of (T := ⟨S32, .i1⟩) main_call2_v11) andi,
    TRef.nullary (TRef.of (T := ⟨S_, .i32⟩) main_call2_c_0) (constantI S_ 32 1#32),
    TRef.unary (TRef.of (T := ⟨S_, .i32⟩) main_call2_c_0) (TRef.of (T := ⟨S32, .i32⟩) main_call2_v12) (broadcastInDim S32 ![] bcast_S_S32),
    TRef.binary (TRef.of (T := ⟨S32, .i32⟩) main_call2_v2) (TRef.of (T := ⟨S32, .i32⟩) main_call2_v12) (TRef.of (T := ⟨S32, .i32⟩) main_call2_v13) subi,
    TRef.ternary (TRef.of (T := ⟨S32, .i1⟩) main_call2_v11) (TRef.of (T := ⟨S32, .i32⟩) main_call2_v13) (TRef.of (T := ⟨S32, .i32⟩) main_call2_v2) (TRef.of (T := ⟨S32, .i32⟩) main_v19) select,
    nullary main_c_4 (constantI S_ 32 0#32),
    unary main_c_4 main_v20 (broadcastInDim S32 ![] bcast_S_S32 : (⟨S_, .i32⟩ : BufTy).Contents (Elt F) → (⟨S32, .i32⟩ : BufTy).Contents (Elt F)),
    binary main_v19 main_v20 main_v21 (cmpi .slt : (⟨S32, .i32⟩ : BufTy).Contents (Elt F) → (⟨S32, .i32⟩ : BufTy).Contents (Elt F) → (⟨S32, .i1⟩ : BufTy).Contents (Elt F)),
    nullary main_c_5 (constantI S_ 32 8#32),
    unary main_c_5 main_v22 (broadcastInDim S32 ![] bcast_S_S32 : (⟨S_, .i32⟩ : BufTy).Contents (Elt F) → (⟨S32, .i32⟩ : BufTy).Contents (Elt F)),
    binary main_v19 main_v22 main_v23 (addi : (⟨S32, .i32⟩ : BufTy).Contents (Elt F) → (⟨S32, .i32⟩ : BufTy).Contents (Elt F) → (⟨S32, .i32⟩ : BufTy).Contents (Elt F)),
    ternary main_v21 main_v23 main_v19 main_v24 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    unary main_v24 main_v25 (broadcastInDim S32x1 ![0] bcast_S32_S32x1_0 : (⟨S32, .i32⟩ : BufTy).Contents (Elt F) → (⟨S32x1, .i32⟩ : BufTy).Contents (Elt F)),
    binary main_arg3 main_v25 main_v26 ((fun x i => Host.gather gather_S8x16_S32x1_S32x16_1_0_n_n_0_1_116 x i) : (⟨S8x16, .i32⟩ : BufTy).Contents (Elt F) → (⟨S32x1, .i32⟩ : BufTy).Contents (Elt F) → (⟨S32x16, .i32⟩ : BufTy).Contents (Elt F)),
    nullary main_c_6 (constantI S_ 32 0#32),
    unary main_c_6 main_v27 (broadcastInDim S32 ![] bcast_S_S32 : (⟨S_, .i32⟩ : BufTy).Contents (Elt F) → (⟨S32, .i32⟩ : BufTy).Contents (Elt F)),
    binary main_v19 main_v27 main_v28 (cmpi .slt : (⟨S32, .i32⟩ : BufTy).Contents (Elt F) → (⟨S32, .i32⟩ : BufTy).Contents (Elt F) → (⟨S32, .i1⟩ : BufTy).Contents (Elt F)),
    nullary main_c_7 (constantI S_ 32 8#32),
    unary main_c_7 main_v29 (broadcastInDim S32 ![] bcast_S_S32 : (⟨S_, .i32⟩ : BufTy).Contents (Elt F) → (⟨S32, .i32⟩ : BufTy).Contents (Elt F)),
    binary main_v19 main_v29 main_v30 (addi : (⟨S32, .i32⟩ : BufTy).Contents (Elt F) → (⟨S32, .i32⟩ : BufTy).Contents (Elt F) → (⟨S32, .i32⟩ : BufTy).Contents (Elt F)),
    ternary main_v28 main_v30 main_v19 main_v31 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    unary main_v31 main_v32 (broadcastInDim S32x1 ![0] bcast_S32_S32x1_0 : (⟨S32, .i32⟩ : BufTy).Contents (Elt F) → (⟨S32x1, .i32⟩ : BufTy).Contents (Elt F)),
    binary main_v11 main_v32 main_v33 ((fun x i => Host.gather gather_S8x16_S32x1_S32x16_1_0_n_n_0_1_116 x i) : (⟨S8x16, .f32⟩ : BufTy).Contents (Elt F) → (⟨S32x1, .i32⟩ : BufTy).Contents (Elt F) → (⟨S32x16, .f32⟩ : BufTy).Contents (Elt F)),
    nullary main_c_8 (constantI S_ 32 0#32),
    unary main_c_8 main_v34 (broadcastInDim S32 ![] bcast_S_S32 : (⟨S_, .i32⟩ : BufTy).Contents (Elt F) → (⟨S32, .i32⟩ : BufTy).Contents (Elt F)),
    binary main_v19 main_v34 main_v35 (cmpi .slt : (⟨S32, .i32⟩ : BufTy).Contents (Elt F) → (⟨S32, .i32⟩ : BufTy).Contents (Elt F) → (⟨S32, .i1⟩ : BufTy).Contents (Elt F)),
    nullary main_c_9 (constantI S_ 32 8#32),
    unary main_c_9 main_v36 (broadcastInDim S32 ![] bcast_S_S32 : (⟨S_, .i32⟩ : BufTy).Contents (Elt F) → (⟨S32, .i32⟩ : BufTy).Contents (Elt F)),
    binary main_v19 main_v36 main_v37 (addi : (⟨S32, .i32⟩ : BufTy).Contents (Elt F) → (⟨S32, .i32⟩ : BufTy).Contents (Elt F) → (⟨S32, .i32⟩ : BufTy).Contents (Elt F)),
    ternary main_v35 main_v37 main_v19 main_v38 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    unary main_v38 main_v39 (broadcastInDim S32x1 ![0] bcast_S32_S32x1_0 : (⟨S32, .i32⟩ : BufTy).Contents (Elt F) → (⟨S32x1, .i32⟩ : BufTy).Contents (Elt F)),
    binary main_v17 main_v39 main_v40 ((fun x i => Host.gather gather_S8x16_S32x1_S32x16_1_0_n_n_0_1_116 x i) : (⟨S8x16, .i32⟩ : BufTy).Contents (Elt F) → (⟨S32x1, .i32⟩ : BufTy).Contents (Elt F) → (⟨S32x16, .i32⟩ : BufTy).Contents (Elt F)),
    unary main_arg0 main_v41 ((transpose S8x64x64x1024 [0, 2, 3, 1] · transposes_S8x1024x64x64_S8x64x64x1024_0_2_3_1) : (⟨S8x1024x64x64, .f32⟩ : BufTy).Contents (Elt F) → (⟨S8x64x64x1024, .f32⟩ : BufTy).Contents (Elt F)),
    reshape main_v41 main_v42 rfl shapeCasts_S8x64x64x1024_S32768x1024,
    reshape main_arg1 main_v43 rfl shapeCasts_S8x1024x64_S8192x64,
    reshape main_arg2 main_v44 rfl shapeCasts_S8x1024x64_S8192x64,
    binary main_v43 main_v44 main_v45 ((fun a b => concatenate S8192x128 1 [⟨S8192x64, a⟩, ⟨S8192x64, b⟩] concatenates_S8192x64_S8192x64_S8192x128_d1) : (⟨S8192x64, .f32⟩ : BufTy).Contents (Elt F) → (⟨S8192x64, .f32⟩ : BufTy).Contents (Elt F) → (⟨S8192x128, .f32⟩ : BufTy).Contents (Elt F)) ]

/-- The two operations of @main after the call: the rows laid back as the four-axis array. -/
def postOps : List (HloOp τ sig (Elt F)) :=
  [
    reshape main_v46 main_v47 rfl shapeCasts_S32768x1024_S8x64x64x1024,
    unary main_v47 main_v48 ((transpose S8x1024x64x64 [0, 3, 1, 2] · transposes_S8x64x64x1024_S8x1024x64x64_0_3_1_2) : (⟨S8x64x64x1024, .f32⟩ : BufTy).Contents (Elt F) → (⟨S8x1024x64x64, .f32⟩ : BufTy).Contents (Elt F)) ]

set_option maxRecDepth 16384 in
set_option maxHeartbeats 8000000 in
/-- The program is the operations before the call, the call, and the operations after it. -/
theorem main_eq (d : Dev nD) :
    main (F := F) d = (StableHlo.seq preOps >>= fun _ => sc.run d 0 >>= fun _ => StableHlo.seq postOps) := rfl

/-- The buffers the host operations may touch: the TensorCore's references. -/
def hostSet : Finset (DevRef τ sig) := tcRefs τ sig

theorem mem_hostSet (b : Ref sig .tc) : Proc.devRef (τ := τ) .tc b ∈ hostSet := devRef_mem_tcRefs b

set_option maxRecDepth 16384 in
theorem preOps_sub : (preOps : List (HloOp τ sig (Elt F))).Forall fun op => op.bufs ⊆ tcRefs τ sig :=
  ⟨unary_bufs_sub .., unary_bufs_sub .., unary_bufs_sub .., unary_bufs_sub .., binary_bufs_sub .., nullary_bufs_sub .., nullary_bufs_sub .., unary_bufs_sub .., binary_bufs_sub .., nullary_bufs_sub .., binary_bufs_sub .., unary_bufs_sub .., nullary_bufs_sub .., unary_bufs_sub .., ternary_bufs_sub .., nullary_bufs_sub .., binary_bufs_sub .., unary_bufs_sub .., unary_bufs_sub .., nullary_bufs_sub .., binary_bufs_sub .., nullary_bufs_sub .., unary_bufs_sub .., unary_bufs_sub .., ternary_bufs_sub .., unary_bufs_sub .., nullary_bufs_sub .., unary_bufs_sub .., nullary_bufs_sub .., unary_bufs_sub .., binary_bufs_sub .., unary_bufs_sub .., binary_bufs_sub .., nullary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., reshape_bufs_sub .., reshape_bufs_sub .., binary_bufs_sub ..⟩

theorem preOps_bufs : ∀ op ∈ (preOps : List (HloOp τ sig (Elt F))), op.bufs ⊆ hostSet :=
  List.forall_iff_forall_mem.1 preOps_sub

theorem postOps_sub : (postOps : List (HloOp τ sig (Elt F))).Forall fun op => op.bufs ⊆ tcRefs τ sig :=
  ⟨reshape_bufs_sub .., unary_bufs_sub ..⟩

theorem postOps_bufs : ∀ op ∈ (postOps : List (HloOp τ sig (Elt F))), op.bufs ⊆ hostSet :=
  List.forall_iff_forall_mem.1 postOps_sub

set_option maxRecDepth 16384 in
theorem preOps_freshAll : (preOps : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem preOps_fresh : ∀ op ∈ (preOps : List (HloOp τ sig (Elt F))), op.fresh = ∅ :=
  List.forall_iff_forall_mem.1 preOps_freshAll

theorem postOps_freshAll : (postOps : List (HloOp τ sig (Elt F))).Forall fun op => op.fresh = ∅ :=
  ⟨rfl, rfl⟩

theorem postOps_fresh : ∀ op ∈ (postOps : List (HloOp τ sig (Elt F))), op.fresh = ∅ :=
  List.forall_iff_forall_mem.1 postOps_freshAll

end Cert.Kernel.Host

end
-- ==== Proof.LaunchK3.lean ====
/-
  The launch of the kernel's one call, third part: @main on the TensorCore.

  @main is the host's operations before the call, the call, and the two after it. The operations before run over all the
  TensorCore's arrays held whole; the six arrays of the call are then taken out, split for the two SparseCores and
  handed over; what comes back is joined, the output rows at `Spec.rowsOf` of the five arrays read, and put back; the
  two operations after run; what is left to the claim is the four arguments at their launch contents and the result
  at `Spec.kerOut` of them. What the host's operations compute is taken here as stated facts (`HostVals`).
-/
import proofs.«210205_g8383776161859_cont_9to1_m_1272_27_alg».proof.Proof.LaunchK2
import proofs.«210205_g8383776161859_cont_9to1_m_1272_27_alg».proof.Proof.HostK

noncomputable section

namespace Cert.Kernel.Launch

open Cert.Kernel Cert.Kernel.Gen Cert.Kernel.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareTok shareDrop pointsTo_toks pointsTo_toks_split pointsTo_toks_join)

variable {F : FTy → Type}

local notation "𝕄" => MT nD τ sig (HIx 1) (Elt F) ℕ UU ℕ

open Idealize.ShloMosaic.StableHlo (held held_sub_split held_congr wp_seq)
open Cert.Kernel.Host (preOps postOps hostSet mem_hostSet)

/-! ## The TensorCore's arrays -/

abbrev arg0' : DevRef τ sig := Proc.devRef .tc (main_arg0 : Ref sig .tc)
abbrev arg1' : DevRef τ sig := Proc.devRef .tc (main_arg1 : Ref sig .tc)
abbrev arg2' : DevRef τ sig := Proc.devRef .tc (main_arg2 : Ref sig .tc)
abbrev arg3' : DevRef τ sig := Proc.devRef .tc (main_arg3 : Ref sig .tc)
abbrev v42' : DevRef τ sig := Proc.devRef .tc (main_v42 : Ref sig .tc)
abbrev v45' : DevRef τ sig := Proc.devRef .tc (main_v45 : Ref sig .tc)
abbrev v26' : DevRef τ sig := Proc.devRef .tc (main_v26 : Ref sig .tc)
abbrev v33' : DevRef τ sig := Proc.devRef .tc (main_v33 : Ref sig .tc)
abbrev v40' : DevRef τ sig := Proc.devRef .tc (main_v40 : Ref sig .tc)
abbrev v46' : DevRef τ sig := Proc.devRef .tc (main_v46 : Ref sig .tc)
abbrev v48' : DevRef τ sig := Proc.devRef .tc (main_v48 : Ref sig .tc)

abbrev locA0 (d : Dev nD) : Loc nD τ sig := (SparseCore.T d).loc main_arg0
abbrev locA1 (d : Dev nD) : Loc nD τ sig := (SparseCore.T d).loc main_arg1
abbrev locA2 (d : Dev nD) : Loc nD τ sig := (SparseCore.T d).loc main_arg2
abbrev locA3 (d : Dev nD) : Loc nD τ sig := (SparseCore.T d).loc main_arg3
abbrev loc48 (d : Dev nD) : Loc nD τ sig := (SparseCore.T d).loc main_v48

/-- The six arrays of the call. -/
def S6 : Finset (DevRef τ sig) := {v42', v45', v26', v33', v40', v46'}
/-- The four arguments and the result. -/
def S5 : Finset (DevRef τ sig) := {arg0', arg1', arg2', arg3', v48'}

theorem S6_sub : S6 ⊆ hostSet := by
  intro b hb
  simp only [S6, Finset.mem_insert, Finset.mem_singleton] at hb
  rcases hb with rfl | rfl | rfl | rfl | rfl | rfl <;> exact mem_hostSet _
theorem S5_sub : S5 ⊆ hostSet := by
  intro b hb
  simp only [S5, Finset.mem_insert, Finset.mem_singleton] at hb
  rcases hb with rfl | rfl | rfl | rfl | rfl <;> exact mem_hostSet _

theorem held_S6 (d : Dev nD) (W : Valuation τ sig (Elt F)) :
    (held (T d) S6 W : sProp 𝕄)
      = iprop((loc42 d ↦{fullShare} W v42') ∗ (loc45 d ↦{fullShare} W v45') ∗ (loc26 d ↦{fullShare} W v26') ∗ (loc33 d ↦{fullShare} W v33')
        ∗ (loc40 d ↦{fullShare} W v40') ∗ (loc46 d ↦{fullShare} W v46')) := by
  unfold held S6
  rw [SparseCore.bigSep_insert' (by decide), SparseCore.bigSep_insert' (by decide), SparseCore.bigSep_insert' (by decide),
    SparseCore.bigSep_insert' (by decide), SparseCore.bigSep_insert' (by decide), bigSep_singleton]

theorem held_S5 (d : Dev nD) (W : Valuation τ sig (Elt F)) :
    (held (T d) S5 W : sProp 𝕄)
      = iprop((locA0 d ↦{fullShare} W arg0') ∗ (locA1 d ↦{fullShare} W arg1') ∗ (locA2 d ↦{fullShare} W arg2') ∗ (locA3 d ↦{fullShare} W arg3')
        ∗ (loc48 d ↦{fullShare} W v48')) := by
  unfold held S5
  rw [SparseCore.bigSep_insert' (by decide), SparseCore.bigSep_insert' (by decide), SparseCore.bigSep_insert' (by decide),
    SparseCore.bigSep_insert' (by decide), bigSep_singleton]

/-- No TensorCore array of this program is scoped. -/
theorem scopedRefs_eq : (Finset.univ.filter fun b : Ref sig .tc => b.isScoped) = ∅ := by decide

theorem unscoped_held (d : Dev nD) (W : Valuation τ sig (Elt F)) :
    (unscopedBufs d (fun b => W (Proc.devRef .tc b)) : sProp 𝕄) = held (T d) hostSet W := by
  unfold unscopedBufs held hostSet StableHlo.tcRefs
  rw [Finset.filter_not, scopedRefs_eq, Finset.sdiff_empty, bigSep_map]; rfl

/-! ## What the host's operations compute, as stated facts -/

variable [FloatOps F]

/-- The host's operations before the call lay out the five arrays the call reads and keep the arguments; the two
    after it lay the rows back and keep the arguments; the laid-out slot numbers and table rows are in range where
    the slot numbers are. -/
structure HostVals : Prop where
  pre_v42 : ∀ V : Valuation τ sig (Elt F), StableHlo.after preOps V v42' = Cert.Spec.m2Of (V arg0')
  pre_v45 : ∀ V : Valuation τ sig (Elt F), StableHlo.after preOps V v45' = Cert.Spec.kvOf (V arg1') (V arg2')
  pre_v26 : ∀ V : Valuation τ sig (Elt F), StableHlo.after preOps V v26' = Cert.Spec.nvecOf (V arg3')
  pre_v33 : ∀ V : Valuation τ sig (Elt F), StableHlo.after preOps V v33' = Cert.Spec.wvecOf (F := F) (V arg3')
  pre_v40 : ∀ V : Valuation τ sig (Elt F), StableHlo.after preOps V v40' = Cert.Spec.gvecOf (V arg3')
  pre_keep0 : ∀ V : Valuation τ sig (Elt F), StableHlo.after preOps V arg0' = V arg0'
  pre_keep1 : ∀ V : Valuation τ sig (Elt F), StableHlo.after preOps V arg1' = V arg1'
  pre_keep2 : ∀ V : Valuation τ sig (Elt F), StableHlo.after preOps V arg2' = V arg2'
  pre_keep3 : ∀ V : Valuation τ sig (Elt F), StableHlo.after preOps V arg3' = V arg3'
  post_v48 : ∀ W : Valuation τ sig (Elt F), StableHlo.after postOps W v48' = Cert.Spec.outOf (W v46')
  post_keep0 : ∀ W : Valuation τ sig (Elt F), StableHlo.after postOps W arg0' = W arg0'
  post_keep1 : ∀ W : Valuation τ sig (Elt F), StableHlo.after postOps W arg1' = W arg1'
  post_keep2 : ∀ W : Valuation τ sig (Elt F), StableHlo.after postOps W arg2' = W arg2'
  post_keep3 : ∀ W : Valuation τ sig (Elt F), StableHlo.after postOps W arg3' = W arg3'
  gvec_lt : ∀ idx : IVec Cert.Spec.SI 32, (∀ p, (idx p).toNat ≤ 1023) → ∀ p, (Cert.Spec.gvecOf idx p).toNat < 8192
  nvec_lt : ∀ idx : IVec Cert.Spec.SI 32, (∀ p, (idx p).toNat ≤ 1023) → ∀ p, (Cert.Spec.nvecOf idx p).toNat < 1024

/-! ## The contents along @main -/

variable (m : (ℓ : Loc nD τ sig) → Buf (Elt F) ℓ) (ρ : Dev nD → PrngReg)

/-- The launch contents; -/
def V0 (d : Dev nD) : Valuation τ sig (Elt F) := fun b => m (d, b)
/-- after the host's operations before the call; -/
def VA (d : Dev nD) : Valuation τ sig (Elt F) := StableHlo.after preOps (V0 m d)

abbrev A42 (d : Dev nD) : Buf (Elt F) (loc42 d) := VA m d v42'
abbrev A45 (d : Dev nD) : Buf (Elt F) (loc45 d) := VA m d v45'
abbrev A26 (d : Dev nD) : Buf (Elt F) (loc26 d) := VA m d v26'
abbrev A33 (d : Dev nD) : Buf (Elt F) (loc33 d) := VA m d v33'
abbrev A40 (d : Dev nD) : Buf (Elt F) (loc40 d) := VA m d v40'
abbrev f46 (d : Dev nD) : Buf (Elt F) (loc46 d) := VA m d v46'

/-- The rows the call leaves. -/
abbrev R (d : Dev nD) : Buf (Elt F) (loc46 d) := R46 (A42 m) (A45 m) (A26 m) (A33 m) (A40 m) d

/-- after the call: the output rows at what the workers left; -/
def VB (d : Dev nD) : Valuation τ sig (Elt F) := Function.update (VA m d) v46' (R m d)
/-- after the host's two operations after the call. -/
def VC (d : Dev nD) : Valuation τ sig (Elt F) := StableHlo.after postOps (VB m d)

theorem VB_v46 (d : Dev nD) : VB m d v46' = R m d := Function.update_self _ _ _
theorem VB_of_ne (d : Dev nD) {b : DevRef τ sig} (h : b ≠ v46') : VB m d b = VA m d b := Function.update_of_ne h _ _

/-- The payloads of the call, at the contents @main hands over. -/
abbrev PP : (K (F := F)).Pay (nD := nD) (Val := Elt F) (Name := ℕ) (U := UU) := P (A42 m) (A45 m) (A26 m) (A33 m) (A40 m) (f46 m)

/-- The six arrays back among the TensorCore's, the output rows at what the workers left. -/
theorem held_back (d : Dev nD) :
    iprop(((loc42 d ↦{fullShare} A42 m d) ∗ (loc45 d ↦{fullShare} A45 m d) ∗ (loc26 d ↦{fullShare} A26 m d) ∗ (loc33 d ↦{fullShare} A33 m d)
          ∗ (loc40 d ↦{fullShare} A40 m d) ∗ (loc46 d ↦{fullShare} R m d))
        ∗ (held (T d) (hostSet \ S6) (VA m d) : sProp 𝕄))
      ⊢ (held (T d) hostSet (VB m d) : sProp 𝕄) := by
  rw [held_sub_split (T d) S6_sub (VB m d), held_S6, VB_v46,
    VB_of_ne m d (show v42' ≠ v46' by decide), VB_of_ne m d (show v45' ≠ v46' by decide), VB_of_ne m d (show v26' ≠ v46' by decide),
    VB_of_ne m d (show v33' ≠ v46' by decide), VB_of_ne m d (show v40' ≠ v46' by decide),
    held_congr (T d) (S := hostSet \ S6) (V := VB m d) (V' := VA m d) fun b hb => VB_of_ne m d fun e => (Finset.mem_sdiff.mp hb).2 (by
      rw [e]; simp [S6])]

/-! ## What @main leaves the claim -/

abbrev FIN (d : Dev nD) : sProp 𝕄 :=
  iprop((locA0 d ↦{fullShare} m (locA0 d)) ∗ (locA1 d ↦{fullShare} m (locA1 d)) ∗ (locA2 d ↦{fullShare} m (locA2 d)) ∗ (locA3 d ↦{fullShare} m (locA3 d))
    ∗ (loc48 d ↦{fullShare} Cert.Spec.kerOut (F := F) (m (locA0 d)) (m (locA1 d)) (m (locA2 d)) (m (locA3 d))))

theorem VC_arg0 (hv : HostVals (F := F)) (d : Dev nD) : VC m d arg0' = m (locA0 d) := by
  unfold VC; rw [hv.post_keep0, VB_of_ne m d (show arg0' ≠ v46' by decide)]; unfold VA; rw [hv.pre_keep0]; rfl
theorem VC_arg1 (hv : HostVals (F := F)) (d : Dev nD) : VC m d arg1' = m (locA1 d) := by
  unfold VC; rw [hv.post_keep1, VB_of_ne m d (show arg1' ≠ v46' by decide)]; unfold VA; rw [hv.pre_keep1]; rfl
theorem VC_arg2 (hv : HostVals (F := F)) (d : Dev nD) : VC m d arg2' = m (locA2 d) := by
  unfold VC; rw [hv.post_keep2, VB_of_ne m d (show arg2' ≠ v46' by decide)]; unfold VA; rw [hv.pre_keep2]; rfl
theorem VC_arg3 (hv : HostVals (F := F)) (d : Dev nD) : VC m d arg3' = m (locA3 d) := by
  unfold VC; rw [hv.post_keep3, VB_of_ne m d (show arg3' ≠ v46' by decide)]; unfold VA; rw [hv.pre_keep3]; rfl
theorem VC_v48 (hv : HostVals (F := F)) (d : Dev nD) :
    VC m d v48' = Cert.Spec.kerOut (F := F) (m (locA0 d)) (m (locA1 d)) (m (locA2 d)) (m (locA3 d)) := by
  unfold VC; rw [hv.post_v48, VB_v46]
  show Cert.Spec.outOf (Cert.Spec.rowsOf (VA m d v42') (VA m d v45') (VA m d v26') (VA m d v33') (VA m d v40')) = _
  unfold VA; rw [hv.pre_v42, hv.pre_v45, hv.pre_v26, hv.pre_v33, hv.pre_v40]; rfl

theorem fin_of_held (hv : HostVals (F := F)) (d : Dev nD) : (held (T d) hostSet (VC m d) : sProp 𝕄) ⊢ FIN m d := by
  rw [held_sub_split (T d) S5_sub (VC m d), held_S5, VC_arg0 m hv, VC_arg1 m hv, VC_arg2 m hv, VC_arg3 m hv, VC_v48 m hv]
  exact sep_elim_left

/-- The in-range facts the workers' obligation asks of the laid-out vectors, from the slot numbers' range. -/
theorem A40_lt (hv : HostVals (F := F)) (hidx : ∀ (d : Dev nD) p, (m (locA3 d) p).toNat ≤ 1023) : ∀ d p, (A40 m d p).toNat < 8192 := by
  intro d
  show ∀ p, (VA m d v40' p).toNat < 8192
  unfold VA; rw [hv.pre_v40]; exact hv.gvec_lt _ (hidx d)
theorem A26_lt (hv : HostVals (F := F)) (hidx : ∀ (d : Dev nD) p, (m (locA3 d) p).toNat ≤ 1023) : ∀ d p, (A26 m d p).toNat < 1024 := by
  intro d
  show ∀ p, (VA m d v26' p).toNat < 1024
  unfold VA; rw [hv.pre_v26]; exact hv.nvec_lt _ (hidx d)

/-! ## @main -/

theorem main_eq' (d : Dev nD) :
    main (F := F) d = (StableHlo.seq preOps >>= fun _ => sc.run d 0 >>= fun _ => StableHlo.seq postOps >>= fun u => Pure.pure u) := by
  rw [Host.main_eq]; simp only [bind_pure]

set_option backward.isDefEq.respectTransparency.types false in
/-- @main on device `d`'s TensorCore. -/
theorem hmain (hv : HostVals (F := F)) (κ : GSem nD τ sig → ℕ) (d : Dev nD) :
    iprop((K (F := F)).ctx EH (PP m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [show (fun b : Ref sig .tc => m ((SparseCore.T d).loc b)) = (fun b => V0 m d (Proc.devRef .tc b)) from rfl, unscoped_held, main_eq']
  iintro ⟨#Hctx, Hst, ⟨Hb, Hheld, -, -⟩, -⟩
  -- the host's operations before the call
  iapply (wp_seq 𝒱 none Set.univ d hostSet (fun _ => sc.run d 0 >>= fun _ => StableHlo.seq postOps >>= fun u => Pure.pure u)
      preOps Host.preOps_bufs Host.preOps_fresh (V0 m d)) $$ [Hb Hheld]
  · isplitl [Hb]; · iexact Hb
    iexact Hheld
  iintro ⟨Hb, Hheld⟩
  rw [show StableHlo.after preOps (V0 m d) = VA m d from rfl]
  -- the call's six arrays out, split for the two SparseCores
  ihave Hh := (Entails.of_eq (held_sub_split (T d) S6_sub (VA m d))) $$ Hheld
  icases Hh with ⟨H6, Hrest⟩
  ihave H6' := (Entails.of_eq (held_S6 d (VA m d))) $$ H6
  ihave Hc := (call_split d (A42 m d) (A45 m d) (A26 m d) (A33 m d) (A40 m d) (f46 m d)) $$ H6'
  icases Hc with ⟨Hd45, Hcores⟩
  rw [wp_bind]
  iapply ((K (F := F)).wp_run (D (F := F)) 𝒱 (EH := EH) (P := PP m) κ d 0) $$ [Hst Hcores Hb Hrest Hd45]
  isplitr; · iexact Hctx
  isplitl [Hst]; · iexact Hst
  isplitl [Hcores]
  · rw [st0_eq]; iexact Hcores
  iintro ⟨Hst, Hdn⟩
  -- what comes back, joined and put back
  ihave Hdn' := (Entails.of_eq (dn0_eq (A42 m) (A45 m) (A26 m) (A33 m) (A40 m) (f46 m) d)) $$ Hdn
  ihave H6 := (call_join d (A42 m d) (A45 m d) (A26 m d) (A33 m d) (A40 m d) (R m d)) $$ [Hd45 Hdn']
  · isplitl [Hd45]; · iexact Hd45
    iexact Hdn'
  ihave Hheld := (held_back m d) $$ [H6 Hrest]
  · isplitl [H6]; · iexact H6
    iexact Hrest
  -- the host's two operations after the call
  iapply (wp_seq 𝒱 none Set.univ d hostSet (fun u => Pure.pure u) postOps Host.postOps_bufs Host.postOps_fresh (VB m d)) $$ [Hb Hheld]
  · isplitl [Hb]; · iexact Hb
    iexact Hheld
  iintro ⟨-, Hheld⟩
  rw [show StableHlo.after postOps (VB m d) = VC m d from rfl, wp_pure]; imodintro
  isplitl [Hst]; · iexact Hst
  iapply (fin_of_held m hv d); iexact Hheld

end Cert.Kernel.Launch

end
-- ==== Proof.LaunchK4.lean ====
/-
  The launch of the kernel's one call, last part: how the final memory reads the claim, and the run of the whole
  program: from the body's obligation and the host's stated facts, every weakly fair execution of the device's threads
  ends, nothing faulting, with the result at `Spec.kerOut` of the arguments and the arguments unchanged.
-/
import proofs.«210205_g8383776161859_cont_9to1_m_1272_27_alg».proof.Proof.LaunchK3

noncomputable section

namespace Cert.Kernel.Launch

open Cert.Kernel Cert.Kernel.Gen Cert.Kernel.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareTok shareDrop pointsTo_toks pointsTo_toks_split pointsTo_toks_join)

variable {F : FTy → Type}

local notation "𝕄" => MT nD τ sig (HIx 1) (Elt F) ℕ UU ℕ

variable [FloatOps F]

variable (m : (ℓ : Loc nD τ sig) → Buf (Elt F) ℓ) (ρ : Dev nD → PrngReg)

def fq (d : Dev nD) (s' : Phys nD τ sig (Elt F)) : Prop :=
  s'.mem.mem (loc48 d) = Cert.Spec.kerOut (F := F) (m (locA0 d)) (m (locA1 d)) (m (locA2 d)) (m (locA3 d))
    ∧ s'.mem.mem (locA0 d) = m (locA0 d) ∧ s'.mem.mem (locA1 d) = m (locA1 d) ∧ s'.mem.mem (locA2 d) = m (locA2 d) ∧ s'.mem.mem (locA3 d) = m (locA3 d)

theorem hfin (d : Dev nD) (s' : Phys nD τ sig (Elt F)) : iprop(FIN m d ∗ SI s') ⊢ (⌜fq m d s'⌝ : sProp 𝕄) := by
  iintro ⟨⟨H0, H1, H2, H3, H48⟩, HSI⟩
  ihave H := (persistent_entails_right (SI_pointsTo_agree (st := s') (ℓ := locA0 d) (I := Finset.univ) (q := fullShare) (f := m (locA0 d)))) $$ [HSI H0]
  · isplitl [HSI] <;> iassumption
  icases H with ⟨%h0, HSI, -⟩
  ihave H := (persistent_entails_right (SI_pointsTo_agree (st := s') (ℓ := locA1 d) (I := Finset.univ) (q := fullShare) (f := m (locA1 d)))) $$ [HSI H1]
  · isplitl [HSI] <;> iassumption
  icases H with ⟨%h1, HSI, -⟩
  ihave H := (persistent_entails_right (SI_pointsTo_agree (st := s') (ℓ := locA2 d) (I := Finset.univ) (q := fullShare) (f := m (locA2 d)))) $$ [HSI H2]
  · isplitl [HSI] <;> iassumption
  icases H with ⟨%h2, HSI, -⟩
  ihave H := (persistent_entails_right (SI_pointsTo_agree (st := s') (ℓ := locA3 d) (I := Finset.univ) (q := fullShare) (f := m (locA3 d)))) $$ [HSI H3]
  · isplitl [HSI] <;> iassumption
  icases H with ⟨%h3, HSI, -⟩
  ihave H := (SI_pointsTo_agree (st := s') (ℓ := loc48 d) (I := Finset.univ) (q := fullShare)
    (f := Cert.Spec.kerOut (F := F) (m (locA0 d)) (m (locA1 d)) (m (locA2 d)) (m (locA3 d)))) $$ [HSI H48]
  · isplitl [HSI] <;> iassumption
  icases H with %h48
  ipureintro
  exact ⟨funext fun i => h48 i (Finset.mem_univ i), funext fun i => h0 i (Finset.mem_univ i), funext fun i => h1 i (Finset.mem_univ i),
    funext fun i => h2 i (Finset.mem_univ i), funext fun i => h3 i (Finset.mem_univ i)⟩

/-- The run of the whole program, the host's facts stated. -/
theorem run_main_of [∀ e, Nonempty (Elt F e)] (hv : HostVals (F := F)) (hbody : TileBody (F := F))
    (hidx : ∀ (c : Dev nD) p, (m ((c.tc : Thread nD τ).loc main_arg3) p).toNat ≤ 1023) :
    θ_run (Cert.Kernel.defs (F := F)) (Cert.Kernel.threads (F := F)) ⟨m, fun _ => 0, ρ⟩ (fun r => ∀ c : Dev nD,
      r.2.mem ((c.tc : Thread nD τ).loc main_v48) = Cert.Spec.kerOut (F := F) (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  SparseCore.Cfg.θ_run_sc (K := K (F := F)) (D := D (F := F)) (𝒱 := 𝒱) (EH := EH) (P := PP m) facts v₀
    (fun q hq => match q with | 0 => nomatch hq)
    (fun q _ => match q with
      | 0 => tileObl (A42 m) (A45 m) (A26 m) (A33 m) (A40 m) (f46 m) hbody (A40_lt m hv hidx) (A26_lt m hv hidx))
    (fun q _ => match q with | 0 => SparseCore.Cfg.VecSplit.of_plain (vecSplit (A42 m) (A45 m) (A26 m) (A33 m) (A40 m) (f46 m)))
    m ρ main (fun _ => iprop(emp)) (FIN m) (u₀ (F := F)) (sep_elim_left.trans (hu₀ (A42 m) (A45 m) (A26 m) (A33 m) (A40 m) (f46 m)))
    (hmain m ρ hv) (fq m) (hfin m) _ (fun _ h => h)

end Cert.Kernel.Launch

end
-- ==== Proof.HostK2.lean ====
/-
  The host's layouts read index by index: the memory re-laid as 32768 rows of 1024, the key and value vectors side by
  side as 8192 rows of 128, the rows laid back as the four-axis array; and the buffers the host operations keep.
-/
import proofs.«210205_g8383776161859_cont_9to1_m_1272_27_alg».proof.Proof.HostK
import proofs.«210205_g8383776161859_cont_9to1_m_1272_27_alg».proof.Proof.Spec
import Idealize.ShloMosaic.Lib.ValueLayout

noncomputable section

namespace Cert.Kernel.Host

open Cert.Kernel Cert.Kernel.Gen Idealize.ShloMosaic Idealize.ShloMosaic.TcCoe Idealize.SL.Sem Idealize.ShloMosaic.StableHlo
open Idealize.ShloMosaic.ValueIdx

variable {F : FTy → Type} [FloatOps F]

/-! ## The buffers the operations before the call keep -/

theorem pre_keep_arg0 (V : Valuation τ sig (Elt F)) :
    StableHlo.after preOps V (Proc.devRef .tc main_arg0) = V (Proc.devRef .tc main_arg0) := by
  unfold preOps; after_results_simp <;> rfl
theorem pre_keep_arg1 (V : Valuation τ sig (Elt F)) :
    StableHlo.after preOps V (Proc.devRef .tc main_arg1) = V (Proc.devRef .tc main_arg1) := by
  unfold preOps; after_results_simp <;> rfl
theorem pre_keep_arg2 (V : Valuation τ sig (Elt F)) :
    StableHlo.after preOps V (Proc.devRef .tc main_arg2) = V (Proc.devRef .tc main_arg2) := by
  unfold preOps; after_results_simp <;> rfl
theorem pre_keep_arg3 (V : Valuation τ sig (Elt F)) :
    StableHlo.after preOps V (Proc.devRef .tc main_arg3) = V (Proc.devRef .tc main_arg3) := by
  unfold preOps; after_results_simp <;> rfl
theorem pre_keep_v46 (V : Valuation τ sig (Elt F)) :
    StableHlo.after preOps V (Proc.devRef .tc main_v46) = V (Proc.devRef .tc main_v46) := by
  unfold preOps; after_results_simp <;> rfl
theorem pre_keep_v47 (V : Valuation τ sig (Elt F)) :
    StableHlo.after preOps V (Proc.devRef .tc main_v47) = V (Proc.devRef .tc main_v47) := by
  unfold preOps; after_results_simp <;> rfl
theorem pre_keep_v48 (V : Valuation τ sig (Elt F)) :
    StableHlo.after preOps V (Proc.devRef .tc main_v48) = V (Proc.devRef .tc main_v48) := by
  unfold preOps; after_results_simp <;> rfl

/-- The operations before the call write none of the arguments' buffers nor the three buffers after the call. -/
theorem pre_keep (V : Valuation τ sig (Elt F)) (r : Ref sig .tc)
    (hr : r ∈ [main_arg0, main_arg1, main_arg2, main_arg3, main_v46, main_v47, main_v48]) :
    StableHlo.after preOps V (Proc.devRef .tc r) = V (Proc.devRef .tc r) := by
  simp only [List.mem_cons, List.not_mem_nil, or_false] at hr
  rcases hr with rfl | rfl | rfl | rfl | rfl | rfl | rfl
  · exact pre_keep_arg0 V
  · exact pre_keep_arg1 V
  · exact pre_keep_arg2 V
  · exact pre_keep_arg3 V
  · exact pre_keep_v46 V
  · exact pre_keep_v47 V
  · exact pre_keep_v48 V

/-- The two operations after the call write none of the arguments' buffers. -/
theorem post_keep (W : Valuation τ sig (Elt F)) (r : Ref sig .tc) (hr : r ∈ [main_arg0, main_arg1, main_arg2, main_arg3]) :
    StableHlo.after postOps W (Proc.devRef .tc r) = W (Proc.devRef .tc r) := by
  simp only [List.mem_cons, List.not_mem_nil, or_false] at hr
  rcases hr with rfl | rfl | rfl | rfl <;> (unfold postOps; after_results_simp <;> rfl)

/-! ## The rows laid back -/

/-- What the two operations after the call leave in the result's buffer. -/
theorem post_v48_term (W : Valuation τ sig (Elt F)) :
    StableHlo.after postOps W (Proc.devRef .tc main_v48)
      = transpose S8x1024x64x64 [0, 3, 1, 2]
          (shapeCast S8x64x64x1024 (W (Proc.devRef .tc main_v46) : S32768x1024.Idx → Elt F .f32) shapeCasts_S32768x1024_S8x64x64x1024)
          transposes_S8x64x64x1024_S8x1024x64x64_0_3_1_2 := by
  unfold postOps; after_results_simp <;> rfl

/-- Rows cast to `[8, 64, 64, 1024]` and the last axis moved to second place: entry `(b, n, i, j)` is row
    `b·4096 + i·64 + j`, column `n`. -/
theorem outOf_eq (o2 : S32768x1024.Idx → Elt F .f32) :
    transpose S8x1024x64x64 [0, 3, 1, 2] (shapeCast S8x64x64x1024 o2 shapeCasts_S32768x1024_S8x64x64x1024)
      transposes_S8x64x64x1024_S8x1024x64x64_0_3_1_2 = Cert.Spec.outOf o2 := by
  funext p
  obtain ⟨b, n, i, j, rfl⟩ : ∃ (b : Fin 8) (n : Fin 1024) (i j : Fin 64), p = ix4 b n i j := ⟨p 0, p 1, p 2, p 3, eq_ix4 p⟩
  refine (transpose_apply _ _ _ _ (ix4 b i j n) ?_).trans ?_
  · intro c
    match c with
    | ⟨0, _⟩ => rfl
    | ⟨1, _⟩ => rfl
    | ⟨2, _⟩ => rfl
    | ⟨3, _⟩ => rfl
  have hb := b.isLt; have hi := i.isLt; have hj := j.isLt
  refine (shapeCast_apply _ _ _ (ix2 (⟨b.val * 4096 + i.val * 64 + j.val, by omega⟩ : Fin 32768) n) ?_).trans rfl
  rw [Shape.rowMajor_val_two, Shape.rowMajor_val_four]
  show (b.val * 4096 + i.val * 64 + j.val) * 1024 + n.val = ((b.val * 64 + i.val) * 64 + j.val) * 1024 + n.val
  omega

theorem post_v48 (W : Valuation τ sig (Elt F)) :
    StableHlo.after postOps W (Proc.devRef .tc main_v48) = Cert.Spec.outOf (W (Proc.devRef .tc main_v46)) :=
  (post_v48_term W).trans (outOf_eq _)

/-! ## The memory as rows -/

theorem pre_v42_term (V : Valuation τ sig (Elt F)) :
    StableHlo.after preOps V (Proc.devRef .tc main_v42)
      = shapeCast S32768x1024
          (transpose S8x64x64x1024 [0, 2, 3, 1] (V (Proc.devRef .tc main_arg0) : S8x1024x64x64.Idx → Elt F .f32)
            transposes_S8x1024x64x64_S8x64x64x1024_0_2_3_1) shapeCasts_S8x64x64x1024_S32768x1024 := by
  unfold preOps; after_results_simp <;> rfl

/-- The slot axis moved last and the first three axes merged: row `x`, column `n` is
    `M[x / 4096, n, x / 64 % 64, x % 64]`. -/
theorem m2Of_eq (M : S8x1024x64x64.Idx → Elt F .f32) :
    shapeCast S32768x1024 (transpose S8x64x64x1024 [0, 2, 3, 1] M transposes_S8x1024x64x64_S8x64x64x1024_0_2_3_1)
      shapeCasts_S8x64x64x1024_S32768x1024 = Cert.Spec.m2Of M := by
  funext p
  obtain ⟨x, n, rfl⟩ : ∃ (x : Fin 32768) (n : Fin 1024), p = ix2 x n := ⟨p 0, p 1, eq_ix2 p⟩
  have hx := x.isLt
  refine (shapeCast_apply _ _ _ (ix4 (⟨x.val / 4096, by omega⟩ : Fin 8) (⟨x.val / 64 % 64, by omega⟩ : Fin 64)
    (⟨x.val % 64, by omega⟩ : Fin 64) n) ?_).trans ?_
  · rw [Shape.rowMajor_val_two, Shape.rowMajor_val_four]
    show ((x.val / 4096 * 64 + x.val / 64 % 64) * 64 + x.val % 64) * 1024 + n.val = x.val * 1024 + n.val
    omega
  refine (transpose_apply _ _ _ _ (ix4 (⟨x.val / 4096, by omega⟩ : Fin 8) n (⟨x.val / 64 % 64, by omega⟩ : Fin 64)
    (⟨x.val % 64, by omega⟩ : Fin 64)) ?_).trans rfl
  intro c
  match c with
  | ⟨0, _⟩ => rfl
  | ⟨1, _⟩ => rfl
  | ⟨2, _⟩ => rfl
  | ⟨3, _⟩ => rfl

theorem pre_v42 (V : Valuation τ sig (Elt F)) :
    StableHlo.after preOps V (Proc.devRef .tc main_v42) = Cert.Spec.m2Of (V (Proc.devRef .tc main_arg0)) :=
  (pre_v42_term V).trans (m2Of_eq _)

/-! ## The key and value vectors side by side -/

theorem pre_v45_term (V : Valuation τ sig (Elt F)) :
    StableHlo.after preOps V (Proc.devRef .tc main_v45)
      = concatenate S8192x128 1
          [⟨S8192x64, shapeCast S8192x64 (V (Proc.devRef .tc main_arg1) : S8x1024x64.Idx → Elt F .f32) shapeCasts_S8x1024x64_S8192x64⟩,
           ⟨S8192x64, shapeCast S8192x64 (V (Proc.devRef .tc main_arg2) : S8x1024x64.Idx → Elt F .f32) shapeCasts_S8x1024x64_S8192x64⟩]
          concatenates_S8192x64_S8192x64_S8192x128_d1 := by
  unfold preOps; after_results_simp <;> rfl

/-- A `[8, 1024, 64]` array as 8192 rows of 64: row `s`, column `c` is entry `(s / 1024, s % 1024, c)`. -/
theorem rows64_apply (X : S8x1024x64.Idx → Elt F .f32) (s : Fin 8192) (c : Fin 64) :
    shapeCast S8192x64 X shapeCasts_S8x1024x64_S8192x64 (ix2 s c)
      = X (ix3 (⟨s.val / 1024, by omega⟩ : Fin 8) (⟨s.val % 1024, by omega⟩ : Fin 1024) c) := by
  have hs := s.isLt
  refine shapeCast_apply _ _ _ _ ?_
  rw [Shape.rowMajor_val_two, Shape.rowMajor_val_three]
  show (s.val / 1024 * 1024 + s.val % 1024) * 64 + c.val = s.val * 64 + c.val
  omega

theorem kvOf_eq (Mk Mv : S8x1024x64.Idx → Elt F .f32) :
    concatenate S8192x128 1
        [⟨S8192x64, shapeCast S8192x64 Mk shapeCasts_S8x1024x64_S8192x64⟩,
         ⟨S8192x64, shapeCast S8192x64 Mv shapeCasts_S8x1024x64_S8192x64⟩]
        concatenates_S8192x64_S8192x64_S8192x128_d1 = Cert.Spec.kvOf Mk Mv := by
  funext p
  obtain ⟨s, c, rfl⟩ : ∃ (s : Fin 8192) (c : Fin 128), p = ix2 s c := ⟨p 0, p 1, eq_ix2 p⟩
  show _ = Cert.Spec.kvAt Mk Mv s c
  unfold Cert.Spec.kvAt
  by_cases h : c.val < 64
  · rw [dif_pos h]
    refine (concatenate_pair_apply_left (t := S8192x128) (s₁ := S8192x64) (s₂ := S8192x64) (1 : Fin 2) _ _ _ (ix2 s c) rfl (ix2 s (⟨c.val, h⟩ : Fin 64)) ?_).trans
      (rows64_apply Mk s ⟨c.val, h⟩)
    intro b
    match b with
    | ⟨0, _⟩ => rfl
    | ⟨1, _⟩ => rfl
  · rw [dif_neg h]
    have hc := c.isLt
    refine (concatenate_pair_apply_right (t := S8192x128) (s₁ := S8192x64) (s₂ := S8192x64) (1 : Fin 2) _ _ _ (ix2 s c) rfl rfl (ix2 s (⟨c.val - 64, by omega⟩ : Fin 64)) ?_ ?_).trans
      (rows64_apply Mv s ⟨c.val - 64, by omega⟩)
    · intro b
      match b with
      | ⟨0, _⟩ => exact fun _ => rfl
      | ⟨1, _⟩ => exact fun hne => absurd rfl hne
    · show c.val - 64 + 64 = c.val
      omega

theorem pre_v45 (V : Valuation τ sig (Elt F)) :
    StableHlo.after preOps V (Proc.devRef .tc main_v45)
      = Cert.Spec.kvOf (V (Proc.devRef .tc main_arg1)) (V (Proc.devRef .tc main_arg2)) :=
  (pre_v45_term V).trans (kvOf_eq _ _)

end Cert.Kernel.Host

end
-- ==== Proof.HostK3.lean ====
/-
  The per-worker copies. Worker `w` of 32 serves batch entry `w / 4`: the host computes that number for each worker
  (the worker's number divided by four, rounded toward minus infinity, a negative result moved up by eight) and gathers
  whole rows of an `[8, 16]` array by it. Read index by index: the row index of worker `w` is `w / 4`, the gather of
  rows reads row `w / 4`, and so the workers' slot numbers and table rows are the batch entry's.
-/
import proofs.«210205_g8383776161859_cont_9to1_m_1272_27_alg».proof.Proof.HostK
import proofs.«210205_g8383776161859_cont_9to1_m_1272_27_alg».proof.Proof.Spec
import Idealize.ShloMosaic.Lib.ValueLayout

noncomputable section

namespace Cert.Kernel.Host

open Cert.Kernel Cert.Kernel.Gen Idealize.ShloMosaic Idealize.ShloMosaic.TcCoe Idealize.SL.Sem Idealize.ShloMosaic.StableHlo
open Idealize.ShloMosaic.ValueIdx

variable {F : FTy → Type} [FloatOps F]

/-- Worker numbers divided by four, rounded toward minus infinity: the quotient toward zero, one less where the signs
    differ and the division is inexact. -/
def q4 : IVec S32 32 :=
  let x : IVec S32 32 := iotaInDim S32 32 0
  let four : IVec S_ 32 := constantI S_ 32 4#32
  let d : IVec S32 32 := Host.divsi x (broadcastInDim S32 ![] bcast_S_S32 four)
  let differ : IVec S32 1 := cmpi .ne (signi x) (broadcastInDim S32 ![] bcast_S_S32 (signi four))
  let r : IVec S32 32 := Host.remsi x (broadcastInDim S32 ![] bcast_S_S32 four)
  let inexact : IVec S32 1 := cmpi .ne r (broadcastInDim S32 ![] bcast_S_S32 (constantI S_ 32 0#32))
  select (andi differ inexact) (subi d (broadcastInDim S32 ![] bcast_S_S32 (constantI S_ 32 1#32))) d

/-- The same, a negative entry moved up by eight, as a column: the start indices of the three gathers. -/
def rowOf : IVec S32x1 32 :=
  broadcastInDim S32x1 ![0] bcast_S32_S32x1_0
    (select (cmpi .slt q4 (broadcastInDim S32 ![] bcast_S_S32 (constantI S_ 32 0#32)))
      (addi q4 (broadcastInDim S32 ![] bcast_S_S32 (constantI S_ 32 8#32))) q4)

/-- Worker `w`'s start index is `w / 4`: thirty-two literal entries, none depending on an input. -/
theorem rowOf_apply : ∀ w : Fin 32, rowOf (ix2 w (0 : Fin 1)) = BitVec.ofNat 32 (w.val / 4) := by
  decide

/-- Read signed and clamped into the eight rows it is still `w / 4`. -/
theorem rowNat_eq : ∀ w : Fin 32, min (rowOf (ix2 w (0 : Fin 1))).toInt.toNat 7 = w.val / 4 := by
  decide

/-- The three gathers' dimension numbers: whole rows of an `[8, 16]` operand, one start index per result row. -/
abbrev GD : GatherDims S8x16 S32x1 S32x16 := gather_S8x16_S32x1_S32x16_1_0_n_n_0_1_116

/-- A gather of whole rows: entry `(r, k)` is the operand's row named by start index `r` (read signed, clamped into
    the eight rows), at column `k`. -/
theorem gather_rows_apply {α : Type} {w : Nat} (x : S8x16.Idx → α) (idx : IVec S32x1 w) (r : Fin 32) (k : Fin 16) :
    Host.gather GD x idx (ix2 r k)
      = x (ix2 (⟨min (idx (ix2 r (0 : Fin 1))).toInt.toNat 7, by omega⟩ : Fin 8) k) := by
  unfold Host.gather
  congr 1
  funext a
  refine Fin.ext ?_
  match a with
  | ⟨0, _⟩ =>
    show GD.start (ix2 r k) idx (0 : Fin 2) + GD.batchCoord (ix2 r k) (0 : Fin 2) + GD.offCoord (ix2 r k) (0 : Fin 2)
      = min (idx (ix2 r (0 : Fin 1))).toInt.toNat 7
    rw [GatherDims.batchCoord_eq_zero _ _ _ (show (0 : Fin 2) ∉ GD.operandBatchingDims from List.not_mem_nil),
      GatherDims.offCoord_eq_zero _ _ _ (fun h => ((GatherDims.mem_sKept _ _).mp h).1 (List.mem_singleton.mpr rfl))]
    simp only [Nat.add_zero]
    unfold GatherDims.start
    rw [dif_pos (show (0 : Fin 2) ∈ GD.startIndexMap from List.mem_singleton.mpr rfl)]
    have hsi : GD.siIdx (ix2 r k) ⟨List.idxOf (0 : Fin 2) GD.startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show GD.start (ix2 r k) idx (1 : Fin 2) + GD.batchCoord (ix2 r k) (1 : Fin 2) + GD.offCoord (ix2 r k) (1 : Fin 2) = k.val
    rw [GatherDims.batchCoord_eq_zero _ _ _ (show (1 : Fin 2) ∉ GD.operandBatchingDims from List.not_mem_nil)]
    unfold GatherDims.start
    rw [dif_neg (show (1 : Fin 2) ∉ GD.startIndexMap from by decide)]
    simp only [Nat.add_zero, Nat.zero_add]
    rfl

/-- Gathered by the workers' start indices, entry `(w, k)` is the operand's entry `(w / 4, k)`. -/
theorem gather_rowOf {α : Type} (x : S8x16.Idx → α) (w : Fin 32) (k : Fin 16) :
    Host.gather GD x rowOf (ix2 w k) = x (ix2 (Cert.Spec.batchOf w) k) :=
  (gather_rows_apply x rowOf w k).trans (congrArg (fun r : Fin 8 => x (ix2 r k)) (Fin.ext (rowNat_eq w)))

/-! ## The workers' slot numbers -/

theorem pre_v26_term (V : Valuation τ sig (Elt F)) :
    StableHlo.after preOps V (Proc.devRef .tc main_v26)
      = Host.gather GD (V (Proc.devRef .tc main_arg3) : S8x16.Idx → BitVec 32) rowOf := by
  unfold preOps; after_results_simp <;> rfl

theorem pre_v26 (V : Valuation τ sig (Elt F)) :
    StableHlo.after preOps V (Proc.devRef .tc main_v26) = Cert.Spec.nvecOf (V (Proc.devRef .tc main_arg3)) := by
  refine (pre_v26_term V).trans ?_
  funext p
  obtain ⟨w, k, rfl⟩ : ∃ (w : Fin 32) (k : Fin 16), p = ix2 w k := ⟨p 0, p 1, eq_ix2 p⟩
  exact gather_rowOf _ w k

/-! ## The workers' table rows -/

/-- Batch entry `b` times 1024, spread over the sixteen positions. -/
def rowBase : IVec S8x16 32 :=
  broadcastInDim S8x16 ![0, 1] bcast_S8x1_S8x16_0_1
    (muli (broadcastInDim S8x1 ![0] bcast_S8_S8x1_0 (iotaInDim S8 32 0))
      (broadcastInDim S8x1 ![] bcast_S_S8x1 (constantI S_ 32 1024#32)))

theorem rowBase_apply : ∀ (b : Fin 8) (k : Fin 16), rowBase (ix2 b k) = BitVec.ofNat 32 (b.val * 1024) := by
  decide

theorem pre_v40_term (V : Valuation τ sig (Elt F)) :
    StableHlo.after preOps V (Proc.devRef .tc main_v40)
      = Host.gather GD (addi rowBase (V (Proc.devRef .tc main_arg3) : S8x16.Idx → BitVec 32)) rowOf := by
  unfold preOps; after_results_simp <;> rfl

theorem pre_v40 (V : Valuation τ sig (Elt F)) :
    StableHlo.after preOps V (Proc.devRef .tc main_v40) = Cert.Spec.gvecOf (V (Proc.devRef .tc main_arg3)) := by
  refine (pre_v40_term V).trans ?_
  funext p
  obtain ⟨w, k, rfl⟩ : ∃ (w : Fin 32) (k : Fin 16), p = ix2 w k := ⟨p 0, p 1, eq_ix2 p⟩
  refine (gather_rowOf _ w k).trans ?_
  show IntOp.addi (rowBase (ix2 (Cert.Spec.batchOf w) k)) _ = _
  rw [rowBase_apply]
  rfl

end Cert.Kernel.Host

end
-- ==== Proof.LaunchK5.lean ====
/-
  The run of the kernel's whole program from the body's obligation: the host's operations' values discharged from
  their own modules.
-/
import proofs.«210205_g8383776161859_cont_9to1_m_1272_27_alg».proof.Proof.LaunchK4
import proofs.«210205_g8383776161859_cont_9to1_m_1272_27_alg».proof.Proof.HostK2
import proofs.«210205_g8383776161859_cont_9to1_m_1272_27_alg».proof.Proof.HostK3
import proofs.«210205_g8383776161859_cont_9to1_m_1272_27_alg».proof.Proof.SpecRange

noncomputable section

namespace Cert.Kernel.Launch

open Cert.Kernel Cert.Kernel.Gen Cert.Kernel.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareTok shareDrop pointsTo_toks pointsTo_toks_split pointsTo_toks_join)

variable {F : FTy → Type}

local notation "𝕄" => MT nD τ sig (HIx 1) (Elt F) ℕ UU ℕ

open Cert.Kernel.Host (preOps postOps)

variable [FloatOps F]

/-- The host's facts, the weights' layout the one left stated. -/
theorem hostVals (hv33 : ∀ V : Valuation τ sig (Elt F), StableHlo.after preOps V v33' = Cert.Spec.wvecOf (F := F) (V arg3')) :
    HostVals (F := F) where
  pre_v42 := Host.pre_v42
  pre_v45 := Host.pre_v45
  pre_v26 := Host.pre_v26
  pre_v33 := hv33
  pre_v40 := Host.pre_v40
  pre_keep0 := Host.pre_keep_arg0
  pre_keep1 := Host.pre_keep_arg1
  pre_keep2 := Host.pre_keep_arg2
  pre_keep3 := Host.pre_keep_arg3
  post_v48 := Host.post_v48
  post_keep0 := fun W => Host.post_keep W main_arg0 (by simp)
  post_keep1 := fun W => Host.post_keep W main_arg1 (by simp)
  post_keep2 := fun W => Host.post_keep W main_arg2 (by simp)
  post_keep3 := fun W => Host.post_keep W main_arg3 (by simp)
  gvec_lt := Cert.Spec.gvec_lt
  nvec_lt := Cert.Spec.nvec_lt

/-- The run of the whole program. -/
theorem run_main33 [∀ e, Nonempty (Elt F e)]
    (hv33 : ∀ V : Valuation τ sig (Elt F), StableHlo.after preOps V v33' = Cert.Spec.wvecOf (F := F) (V arg3'))
    (hbody : Cert.Kernel.Tile.TileBody (F := F)) (m : (ℓ : Loc nD τ sig) → Buf (Elt F) ℓ) (ρ : Dev nD → PrngReg)
    (hidx : ∀ (c : Dev nD) p, (m ((c.tc : Thread nD τ).loc main_arg3) p).toNat ≤ 1023) :
    θ_run (Cert.Kernel.defs (F := F)) (Cert.Kernel.threads (F := F)) ⟨m, fun _ => 0, ρ⟩ (fun r => ∀ c : Dev nD,
      r.2.mem ((c.tc : Thread nD τ).loc main_v48) = Cert.Spec.kerOut (F := F) (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_main_of m ρ (hostVals hv33) hbody hidx

end Cert.Kernel.Launch

end
-- ==== Proof.HostK4.lean ====
/-
  The weights. Position `k` of batch entry `b` weighs how many of the sixteen positions hold its slot number if no
  earlier position holds it, and zero otherwise. The host computes the pairwise equality of slot numbers, keeps the
  pairs whose second position is earlier, ors them along the second position and negates (no earlier equal position),
  sums the equalities along the second position (the count), selects, and converts to a float.
-/
import proofs.«210205_g8383776161859_cont_9to1_m_1272_27_alg».proof.Proof.HostK3
import proofs.«210205_g8383776161859_cont_9to1_m_1272_27_alg».proof.Proof.LibIntCount

noncomputable section

namespace Cert.Kernel.Host

open Cert.Kernel Cert.Kernel.Gen Idealize.ShloMosaic Idealize.ShloMosaic.TcCoe Idealize.SL.Sem Idealize.ShloMosaic.StableHlo
open Idealize.ShloMosaic.ValueIdx Cert.Lib.IntCount

variable {F : FTy → Type} [FloatOps F]
/-! ## The operations' terms -/

/-- `eq[b, k, l]`: positions `k` and `l` of batch entry `b` hold the same slot number. -/
def eqMask (idx : IVec S8x16 32) : IVec S8x16x16 1 :=
  cmpi .eq
    (broadcastInDim S8x16x16 ![0, 1, 2] bcast_S8x16x1_S8x16x16_0_1_2 (broadcastInDim S8x16x1 ![0, 1] bcast_S8x16_S8x16x1_0_1 idx))
    (broadcastInDim S8x16x16 ![0, 1, 2] bcast_S8x1x16_S8x16x16_0_1_2 (broadcastInDim S8x1x16 ![0, 2] bcast_S8x16_S8x1x16_0_2 idx))

/-- `below[k, l]`: `l ≤ k − 1`, the strictly lower triangle. -/
def below : IVec S16x16 1 :=
  cmpi .sge (addi (iotaInDim S16x16 32 0) (broadcastInDim S16x16 ![] bcast_S_S16x16 (constantI S_ 32 4294967295#32)))
    (iotaInDim S16x16 32 1)

/-- The equalities with an earlier position. -/
def earlier (idx : IVec S8x16 32) : IVec S8x16x16 1 :=
  select (broadcastInDim S8x16x16 ![1, 2] bcast_S16x16_S8x16x16_1_2 below) (eqMask idx)
    (broadcastInDim S8x16x16 ![] bcast_S_S8x16x16 (constantI S_ 1 0#1))

/-- No earlier position holds the same slot number. -/
def firstBit (idx : IVec S8x16 32) : IVec S8x16 1 :=
  noti (Host.reduce IntOp.ori (earlier idx) (constantI S_ 1 0#1) reducesTo_S8x16x16_S8x16_d2 h_S_)

/-- How many positions hold the same slot number, as a word. -/
def cntWord (idx : IVec S8x16 32) : IVec S8x16 32 :=
  Host.reduce IntOp.addi (extui 32 (eqMask idx) natLt_1_32) (constantI S_ 32 0#32) reducesTo_S8x16x16_S8x16_d2 h_S_

/-- The integer weight. -/
def wrow (idx : IVec S8x16 32) : IVec S8x16 32 :=
  select (firstBit idx) (cntWord idx) (broadcastInDim S8x16 ![] bcast_S_S8x16 (constantI S_ 32 0#32))

/-! ## The operations over their buffers directly

A called function's operations are stated over typed references, which move contents along the reference's type
equation; over literal references that transport is the identity, and the list below states each operation without it.
The two lists are equal, and the values are read off the second. -/

/-- The operations before the call, each over its buffers directly. -/
def preOpsP : List (HloOp τ sig (Elt F)) :=
  [
    unary main_arg3 main_v0 (broadcastInDim S8x16x1 ![0, 1] bcast_S8x16_S8x16x1_0_1 : (⟨S8x16, .i32⟩ : BufTy).Contents (Elt F) → (⟨S8x16x1, .i32⟩ : BufTy).Contents (Elt F)),
    unary main_arg3 main_v1 (broadcastInDim S8x1x16 ![0, 2] bcast_S8x16_S8x1x16_0_2 : (⟨S8x16, .i32⟩ : BufTy).Contents (Elt F) → (⟨S8x1x16, .i32⟩ : BufTy).Contents (Elt F)),
    unary main_v0 main_v2 (broadcastInDim S8x16x16 ![0, 1, 2] bcast_S8x16x1_S8x16x16_0_1_2 : (⟨S8x16x1, .i32⟩ : BufTy).Contents (Elt F) → (⟨S8x16x16, .i32⟩ : BufTy).Contents (Elt F)),
    unary main_v1 main_v3 (broadcastInDim S8x16x16 ![0, 1, 2] bcast_S8x1x16_S8x16x16_0_1_2 : (⟨S8x1x16, .i32⟩ : BufTy).Contents (Elt F) → (⟨S8x16x16, .i32⟩ : BufTy).Contents (Elt F)),
    binary main_v2 main_v3 main_v4 (cmpi .eq : (⟨S8x16x16, .i32⟩ : BufTy).Contents (Elt F) → (⟨S8x16x16, .i32⟩ : BufTy).Contents (Elt F) → (⟨S8x16x16, .i1⟩ : BufTy).Contents (Elt F)),
    nullary main_call0_v0 ((iotaInDim S16x16 32 0) : (⟨S16x16, .i32⟩ : BufTy).Contents (Elt F)),
    nullary main_call0_c ((constantI S_ 32 4294967295#32) : (⟨S_, .i32⟩ : BufTy).Contents (Elt F)),
    unary main_call0_c main_call0_v1 ((broadcastInDim S16x16 ![] bcast_S_S16x16) : (⟨S_, .i32⟩ : BufTy).Contents (Elt F) → (⟨S16x16, .i32⟩ : BufTy).Contents (Elt F)),
    binary main_call0_v0 main_call0_v1 main_call0_v2 (addi : (⟨S16x16, .i32⟩ : BufTy).Contents (Elt F) → (⟨S16x16, .i32⟩ : BufTy).Contents (Elt F) → (⟨S16x16, .i32⟩ : BufTy).Contents (Elt F)),
    nullary main_call0_v3 ((iotaInDim S16x16 32 1) : (⟨S16x16, .i32⟩ : BufTy).Contents (Elt F)),
    binary main_call0_v2 main_call0_v3 main_call0_v4 ((cmpi .sge) : (⟨S16x16, .i32⟩ : BufTy).Contents (Elt F) → (⟨S16x16, .i32⟩ : BufTy).Contents (Elt F) → (⟨S16x16, .i1⟩ : BufTy).Contents (Elt F)),
    unary main_call0_v4 main_call0_v5 ((broadcastInDim S8x16x16 ![1, 2] bcast_S16x16_S8x16x16_1_2) : (⟨S16x16, .i1⟩ : BufTy).Contents (Elt F) → (⟨S8x16x16, .i1⟩ : BufTy).Contents (Elt F)),
    nullary main_call0_c_0 ((constantI S_ 1 0#1) : (⟨S_, .i1⟩ : BufTy).Contents (Elt F)),
    unary main_call0_c_0 main_call0_v6 ((broadcastInDim S8x16x16 ![] bcast_S_S8x16x16) : (⟨S_, .i1⟩ : BufTy).Contents (Elt F) → (⟨S8x16x16, .i1⟩ : BufTy).Contents (Elt F)),
    ternary main_call0_v5 main_v4 main_call0_v6 main_v5 (select : (⟨S8x16x16, .i1⟩ : BufTy).Contents (Elt F) → (⟨S8x16x16, .i1⟩ : BufTy).Contents (Elt F) → (⟨S8x16x16, .i1⟩ : BufTy).Contents (Elt F) → (⟨S8x16x16, .i1⟩ : BufTy).Contents (Elt F)),
    nullary main_c (constantI S_ 1 0#1),
    binary main_v5 main_c main_v6 ((fun x v => Host.reduce IntOp.ori x v reducesTo_S8x16x16_S8x16_d2 h_S_) : (⟨S8x16x16, .i1⟩ : BufTy).Contents (Elt F) → (⟨S_, .i1⟩ : BufTy).Contents (Elt F) → (⟨S8x16, .i1⟩ : BufTy).Contents (Elt F)),
    unary main_v6 main_v7 (noti : (⟨S8x16, .i1⟩ : BufTy).Contents (Elt F) → (⟨S8x16, .i1⟩ : BufTy).Contents (Elt F)),
    unary main_v4 main_v8 ((extui 32 · natLt_1_32) : (⟨S8x16x16, .i1⟩ : BufTy).Contents (Elt F) → (⟨S8x16x16, .i32⟩ : BufTy).Contents (Elt F)),
    nullary main_c_0 (constantI S_ 32 0#32),
    binary main_v8 main_c_0 main_v9 ((fun x v => Host.reduce IntOp.addi x v reducesTo_S8x16x16_S8x16_d2 h_S_) : (⟨S8x16x16, .i32⟩ : BufTy).Contents (Elt F) → (⟨S_, .i32⟩ : BufTy).Contents (Elt F) → (⟨S8x16, .i32⟩ : BufTy).Contents (Elt F)),
    nullary main_c_1 (constantI S_ 32 0#32),
    unary main_c_1 main_call1_v0 (id : (⟨S_, .i32⟩ : BufTy).Contents (Elt F) → (⟨S_, .i32⟩ : BufTy).Contents (Elt F)),
    unary main_call1_v0 main_call1_v1 ((broadcastInDim S8x16 ![] bcast_S_S8x16) : (⟨S_, .i32⟩ : BufTy).Contents (Elt F) → (⟨S8x16, .i32⟩ : BufTy).Contents (Elt F)),
    ternary main_v7 main_v9 main_call1_v1 main_v10 (select : (⟨S8x16, .i1⟩ : BufTy).Contents (Elt F) → (⟨S8x16, .i32⟩ : BufTy).Contents (Elt F) → (⟨S8x16, .i32⟩ : BufTy).Contents (Elt F) → (⟨S8x16, .i32⟩ : BufTy).Contents (Elt F)),
    unary main_v10 main_v11 (sitofp .f32 : (⟨S8x16, .i32⟩ : BufTy).Contents (Elt F) → (⟨S8x16, .f32⟩ : BufTy).Contents (Elt F)),
    nullary main_v12 (iotaInDim S8 32 0),
    unary main_v12 main_v13 (broadcastInDim S8x1 ![0] bcast_S8_S8x1_0 : (⟨S8, .i32⟩ : BufTy).Contents (Elt F) → (⟨S8x1, .i32⟩ : BufTy).Contents (Elt F)),
    nullary main_c_2 (constantI S_ 32 1024#32),
    unary main_c_2 main_v14 (broadcastInDim S8x1 ![] bcast_S_S8x1 : (⟨S_, .i32⟩ : BufTy).Contents (Elt F) → (⟨S8x1, .i32⟩ : BufTy).Contents (Elt F)),
    binary main_v13 main_v14 main_v15 (muli : (⟨S8x1, .i32⟩ : BufTy).Contents (Elt F) → (⟨S8x1, .i32⟩ : BufTy).Contents (Elt F) → (⟨S8x1, .i32⟩ : BufTy).Contents (Elt F)),
    unary main_v15 main_v16 (broadcastInDim S8x16 ![0, 1] bcast_S8x1_S8x16_0_1 : (⟨S8x1, .i32⟩ : BufTy).Contents (Elt F) → (⟨S8x16, .i32⟩ : BufTy).Contents (Elt F)),
    binary main_v16 main_arg3 main_v17 (addi : (⟨S8x16, .i32⟩ : BufTy).Contents (Elt F) → (⟨S8x16, .i32⟩ : BufTy).Contents (Elt F) → (⟨S8x16, .i32⟩ : BufTy).Contents (Elt F)),
    nullary main_v18 (iotaInDim S32 32 0),
    nullary main_c_3 (constantI S_ 32 4#32),
    unary main_c_3 main_call2_v0 (id : (⟨S_, .i32⟩ : BufTy).Contents (Elt F) → (⟨S_, .i32⟩ : BufTy).Contents (Elt F)),
    unary main_call2_v0 main_call2_v1 ((broadcastInDim S32 ![] bcast_S_S32) : (⟨S_, .i32⟩ : BufTy).Contents (Elt F) → (⟨S32, .i32⟩ : BufTy).Contents (Elt F)),
    binary main_v18 main_call2_v1 main_call2_v2 (Host.divsi : (⟨S32, .i32⟩ : BufTy).Contents (Elt F) → (⟨S32, .i32⟩ : BufTy).Contents (Elt F) → (⟨S32, .i32⟩ : BufTy).Contents (Elt F)),
    unary main_v18 main_call2_v3 (signi : (⟨S32, .i32⟩ : BufTy).Contents (Elt F) → (⟨S32, .i32⟩ : BufTy).Contents (Elt F)),
    unary main_call2_v0 main_call2_v4 (signi : (⟨S_, .i32⟩ : BufTy).Contents (Elt F) → (⟨S_, .i32⟩ : BufTy).Contents (Elt F)),
    unary main_call2_v4 main_call2_v5 ((broadcastInDim S32 ![] bcast_S_S32) : (⟨S_, .i32⟩ : BufTy).Contents (Elt F) → (⟨S32, .i32⟩ : BufTy).Contents (Elt F)),
    binary main_call2_v3 main_call2_v5 main_call2_v6 ((cmpi .ne) : (⟨S32, .i32⟩ : BufTy).Contents (Elt F) → (⟨S32, .i32⟩ : BufTy).Contents (Elt F) → (⟨S32, .i1⟩ : BufTy).Contents (Elt F)),
    unary main_call2_v0 main_call2_v7 ((broadcastInDim S32 ![] bcast_S_S32) : (⟨S_, .i32⟩ : BufTy).Contents (Elt F) → (⟨S32, .i32⟩ : BufTy).Contents (Elt F)),
    binary main_v18 main_call2_v7 main_call2_v8 (Host.remsi : (⟨S32, .i32⟩ : BufTy).Contents (Elt F) → (⟨S32, .i32⟩ : BufTy).Contents (Elt F) → (⟨S32, .i32⟩ : BufTy).Contents (Elt F)),
    nullary main_call2_c ((constantI S_ 32 0#32) : (⟨S_, .i32⟩ : BufTy).Contents (Elt F)),
    unary main_call2_c main_call2_v9 ((broadcastInDim S32 ![] bcast_S_S32) : (⟨S_, .i32⟩ : BufTy).Contents (Elt F) → (⟨S32, .i32⟩ : BufTy).Contents (Elt F)),
    binary main_call2_v8 main_call2_v9 main_call2_v10 ((cmpi .ne) : (⟨S32, .i32⟩ : BufTy).Contents (Elt F) → (⟨S32, .i32⟩ : BufTy).Contents (Elt F) → (⟨S32, .i1⟩ : BufTy).Contents (Elt F)),
    binary main_call2_v6 main_call2_v10 main_call2_v11 (andi : (⟨S32, .i1⟩ : BufTy).Contents (Elt F) → (⟨S32, .i1⟩ : BufTy).Contents (Elt F) → (⟨S32, .i1⟩ : BufTy).Contents (Elt F)),
    nullary main_call2_c_0 ((constantI S_ 32 1#32) : (⟨S_, .i32⟩ : BufTy).Contents (Elt F)),
    unary main_call2_c_0 main_call2_v12 ((broadcastInDim S32 ![] bcast_S_S32) : (⟨S_, .i32⟩ : BufTy).Contents (Elt F) → (⟨S32, .i32⟩ : BufTy).Contents (Elt F)),
    binary main_call2_v2 main_call2_v12 main_call2_v13 (subi : (⟨S32, .i32⟩ : BufTy).Contents (Elt F) → (⟨S32, .i32⟩ : BufTy).Contents (Elt F) → (⟨S32, .i32⟩ : BufTy).Contents (Elt F)),
    ternary main_call2_v11 main_call2_v13 main_call2_v2 main_v19 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    nullary main_c_4 (constantI S_ 32 0#32),
    unary main_c_4 main_v20 (broadcastInDim S32 ![] bcast_S_S32 : (⟨S_, .i32⟩ : BufTy).Contents (Elt F) → (⟨S32, .i32⟩ : BufTy).Contents (Elt F)),
    binary main_v19 main_v20 main_v21 (cmpi .slt : (⟨S32, .i32⟩ : BufTy).Contents (Elt F) → (⟨S32, .i32⟩ : BufTy).Contents (Elt F) → (⟨S32, .i1⟩ : BufTy).Contents (Elt F)),
    nullary main_c_5 (constantI S_ 32 8#32),
    unary main_c_5 main_v22 (broadcastInDim S32 ![] bcast_S_S32 : (⟨S_, .i32⟩ : BufTy).Contents (Elt F) → (⟨S32, .i32⟩ : BufTy).Contents (Elt F)),
    binary main_v19 main_v22 main_v23 (addi : (⟨S32, .i32⟩ : BufTy).Contents (Elt F) → (⟨S32, .i32⟩ : BufTy).Contents (Elt F) → (⟨S32, .i32⟩ : BufTy).Contents (Elt F)),
    ternary main_v21 main_v23 main_v19 main_v24 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    unary main_v24 main_v25 (broadcastInDim S32x1 ![0] bcast_S32_S32x1_0 : (⟨S32, .i32⟩ : BufTy).Contents (Elt F) → (⟨S32x1, .i32⟩ : BufTy).Contents (Elt F)),
    binary main_arg3 main_v25 main_v26 ((fun x i => Host.gather gather_S8x16_S32x1_S32x16_1_0_n_n_0_1_116 x i) : (⟨S8x16, .i32⟩ : BufTy).Contents (Elt F) → (⟨S32x1, .i32⟩ : BufTy).Contents (Elt F) → (⟨S32x16, .i32⟩ : BufTy).Contents (Elt F)),
    nullary main_c_6 (constantI S_ 32 0#32),
    unary main_c_6 main_v27 (broadcastInDim S32 ![] bcast_S_S32 : (⟨S_, .i32⟩ : BufTy).Contents (Elt F) → (⟨S32, .i32⟩ : BufTy).Contents (Elt F)),
    binary main_v19 main_v27 main_v28 (cmpi .slt : (⟨S32, .i32⟩ : BufTy).Contents (Elt F) → (⟨S32, .i32⟩ : BufTy).Contents (Elt F) → (⟨S32, .i1⟩ : BufTy).Contents (Elt F)),
    nullary main_c_7 (constantI S_ 32 8#32),
    unary main_c_7 main_v29 (broadcastInDim S32 ![] bcast_S_S32 : (⟨S_, .i32⟩ : BufTy).Contents (Elt F) → (⟨S32, .i32⟩ : BufTy).Contents (Elt F)),
    binary main_v19 main_v29 main_v30 (addi : (⟨S32, .i32⟩ : BufTy).Contents (Elt F) → (⟨S32, .i32⟩ : BufTy).Contents (Elt F) → (⟨S32, .i32⟩ : BufTy).Contents (Elt F)),
    ternary main_v28 main_v30 main_v19 main_v31 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    unary main_v31 main_v32 (broadcastInDim S32x1 ![0] bcast_S32_S32x1_0 : (⟨S32, .i32⟩ : BufTy).Contents (Elt F) → (⟨S32x1, .i32⟩ : BufTy).Contents (Elt F)),
    binary main_v11 main_v32 main_v33 ((fun x i => Host.gather gather_S8x16_S32x1_S32x16_1_0_n_n_0_1_116 x i) : (⟨S8x16, .f32⟩ : BufTy).Contents (Elt F) → (⟨S32x1, .i32⟩ : BufTy).Contents (Elt F) → (⟨S32x16, .f32⟩ : BufTy).Contents (Elt F)),
    nullary main_c_8 (constantI S_ 32 0#32),
    unary main_c_8 main_v34 (broadcastInDim S32 ![] bcast_S_S32 : (⟨S_, .i32⟩ : BufTy).Contents (Elt F) → (⟨S32, .i32⟩ : BufTy).Contents (Elt F)),
    binary main_v19 main_v34 main_v35 (cmpi .slt : (⟨S32, .i32⟩ : BufTy).Contents (Elt F) → (⟨S32, .i32⟩ : BufTy).Contents (Elt F) → (⟨S32, .i1⟩ : BufTy).Contents (Elt F)),
    nullary main_c_9 (constantI S_ 32 8#32),
    unary main_c_9 main_v36 (broadcastInDim S32 ![] bcast_S_S32 : (⟨S_, .i32⟩ : BufTy).Contents (Elt F) → (⟨S32, .i32⟩ : BufTy).Contents (Elt F)),
    binary main_v19 main_v36 main_v37 (addi : (⟨S32, .i32⟩ : BufTy).Contents (Elt F) → (⟨S32, .i32⟩ : BufTy).Contents (Elt F) → (⟨S32, .i32⟩ : BufTy).Contents (Elt F)),
    ternary main_v35 main_v37 main_v19 main_v38 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    unary main_v38 main_v39 (broadcastInDim S32x1 ![0] bcast_S32_S32x1_0 : (⟨S32, .i32⟩ : BufTy).Contents (Elt F) → (⟨S32x1, .i32⟩ : BufTy).Contents (Elt F)),
    binary main_v17 main_v39 main_v40 ((fun x i => Host.gather gather_S8x16_S32x1_S32x16_1_0_n_n_0_1_116 x i) : (⟨S8x16, .i32⟩ : BufTy).Contents (Elt F) → (⟨S32x1, .i32⟩ : BufTy).Contents (Elt F) → (⟨S32x16, .i32⟩ : BufTy).Contents (Elt F)),
    unary main_arg0 main_v41 ((transpose S8x64x64x1024 [0, 2, 3, 1] · transposes_S8x1024x64x64_S8x64x64x1024_0_2_3_1) : (⟨S8x1024x64x64, .f32⟩ : BufTy).Contents (Elt F) → (⟨S8x64x64x1024, .f32⟩ : BufTy).Contents (Elt F)),
    reshape main_v41 main_v42 rfl shapeCasts_S8x64x64x1024_S32768x1024,
    reshape main_arg1 main_v43 rfl shapeCasts_S8x1024x64_S8192x64,
    reshape main_arg2 main_v44 rfl shapeCasts_S8x1024x64_S8192x64,
    binary main_v43 main_v44 main_v45 ((fun a b => concatenate S8192x128 1 [⟨S8192x64, a⟩, ⟨S8192x64, b⟩] concatenates_S8192x64_S8192x64_S8192x128_d1) : (⟨S8192x64, .f32⟩ : BufTy).Contents (Elt F) → (⟨S8192x64, .f32⟩ : BufTy).Contents (Elt F) → (⟨S8192x128, .f32⟩ : BufTy).Contents (Elt F)) ]

set_option maxRecDepth 16384 in
theorem preOps_eq : (preOps : List (HloOp τ sig (Elt F))) = preOpsP := rfl

theorem pre_v33_termP (V : Valuation τ sig (Elt F)) :
    StableHlo.after preOpsP V (Proc.devRef .tc main_v33)
      = Host.gather GD (sitofp .f32 (wrow (V (Proc.devRef .tc main_arg3) : S8x16.Idx → BitVec 32)) : S8x16.Idx → Elt F .f32) rowOf := by
  unfold preOpsP wrow firstBit cntWord earlier eqMask below
  after_results_simp <;> rfl

theorem pre_v33_term (V : Valuation τ sig (Elt F)) :
    StableHlo.after preOps V (Proc.devRef .tc main_v33)
      = Host.gather GD (sitofp .f32 (wrow (V (Proc.devRef .tc main_arg3) : S8x16.Idx → BitVec 32)) : S8x16.Idx → Elt F .f32) rowOf := by
  rw [preOps_eq]; exact pre_v33_termP V

/-! ## Read at an index -/

theorem noti_apply {s : Shape} {w : Nat} (x : IVec s w) (i : s.Idx) : noti x i = ~~~(x i) := rfl

theorem eqMask_apply (idx : IVec S8x16 32) (b : Fin 8) (k l : Fin 16) :
    eqMask idx (ix3 b k l) = IntOp.cmpi .eq (idx (ix2 b k)) (idx (ix2 b l)) := by
  have e1 : broadcastInDim S8x16x16 ![0, 1, 2] bcast_S8x16x1_S8x16x16_0_1_2
      (broadcastInDim S8x16x1 ![0, 1] bcast_S8x16_S8x16x1_0_1 idx) (ix3 b k l) = idx (ix2 b k) :=
    (broadcastInDim_apply _ _ _ (ix3 b k l) (ix3 b k (0 : Fin 1))
      (fun a => match a with | ⟨0, _⟩ => rfl | ⟨1, _⟩ => rfl | ⟨2, _⟩ => rfl)).trans
      (broadcastInDim_apply _ _ _ (ix3 b k (0 : Fin 1)) (ix2 b k) (fun a => match a with | ⟨0, _⟩ => rfl | ⟨1, _⟩ => rfl))
  have e2 : broadcastInDim S8x16x16 ![0, 1, 2] bcast_S8x1x16_S8x16x16_0_1_2
      (broadcastInDim S8x1x16 ![0, 2] bcast_S8x16_S8x1x16_0_2 idx) (ix3 b k l) = idx (ix2 b l) :=
    (broadcastInDim_apply _ _ _ (ix3 b k l) (ix3 b (0 : Fin 1) l)
      (fun a => match a with | ⟨0, _⟩ => rfl | ⟨1, _⟩ => rfl | ⟨2, _⟩ => rfl)).trans
      (broadcastInDim_apply _ _ _ (ix3 b (0 : Fin 1) l) (ix2 b l) (fun a => match a with | ⟨0, _⟩ => rfl | ⟨1, _⟩ => rfl))
  show IntOp.cmpi .eq _ _ = _
  rw [e1, e2]

theorem below_apply : ∀ k l : Fin 16, below (ix2 k l) = if l.val < k.val then 1#1 else 0#1 := by
  decide

theorem earlier_apply (idx : IVec S8x16 32) (b : Fin 8) (k l : Fin 16) :
    earlier idx (ix3 b k l) = if l.val < k.val then IntOp.cmpi .eq (idx (ix2 b k)) (idx (ix2 b l)) else 0#1 := by
  have e1 : broadcastInDim S8x16x16 ![1, 2] bcast_S16x16_S8x16x16_1_2 below (ix3 b k l) = below (ix2 k l) :=
    broadcastInDim_apply _ _ _ (ix3 b k l) (ix2 k l) (fun a => match a with | ⟨0, _⟩ => rfl | ⟨1, _⟩ => rfl)
  have e3 : broadcastInDim S8x16x16 ![] bcast_S_S8x16x16 (constantI S_ 1 0#1) (ix3 b k l) = 0#1 := rfl
  rw [earlier, select_apply, e1, e3, below_apply, eqMask_apply]
  split
  · exact select_one _ _
  · exact select_zero _ _

/-! ## The two reductions along the second position -/

/-- The reduction's shape fact in the form that names the indices over a result index. -/
theorem red2 : S8x16x16.Reduces [2] S8x16 := by decide

/-- Over result index `(b, k)`, the index with `l` on the reduced axis is `(b, k, l)`. -/
theorem lift_eq (b : Fin 8) (k l : Fin 16) : red2.lift (ix2 b k) l = ix3 b k l := by
  funext c
  refine Fin.ext ?_
  match c with
  | ⟨0, _⟩ => rfl
  | ⟨1, _⟩ => rfl
  | ⟨2, _⟩ => rfl

theorem bit_or_eq_one : ∀ x y : BitVec 1, IntOp.ori x y = 1#1 ↔ x = 1#1 ∨ y = 1#1 := by decide
theorem bit_not_eq_one : ∀ x : BitVec 1, ~~~x = 1#1 ↔ ¬ x = 1#1 := by decide

/-- An or of bits over a finite set is set exactly when one of them is. -/
theorem fold_ori_eq_one {ι : Type*} (S : Finset ι) (f : ι → BitVec 1) :
    S.fold IntOp.ori 0#1 f = 1#1 ↔ ∃ i ∈ S, f i = 1#1 := by
  induction S using Finset.cons_induction with
  | empty =>
    rw [Finset.fold_empty]
    constructor
    · intro h; exact absurd h (by decide)
    · rintro ⟨i, hi, _⟩; simp at hi
  | cons a S ha ih =>
    rw [Finset.fold_cons, bit_or_eq_one, ih]
    constructor
    · rintro (h | ⟨i, hi, h⟩)
      · exact ⟨a, Finset.mem_cons_self a S, h⟩
      · exact ⟨i, Finset.mem_cons.2 (Or.inr hi), h⟩
    · rintro ⟨i, hi, h⟩
      rcases Finset.mem_cons.1 hi with rfl | hi
      · exact Or.inl h
      · exact Or.inr ⟨i, hi, h⟩

/-- The equality comparison's bit is set exactly at equal words. -/
theorem cmpi_eq_one (x y : BitVec 32) : IntOp.cmpi .eq x y = 1#1 ↔ x = y := by
  show BitVec.ofBool (x == y) = 1#1 ↔ x = y
  by_cases h : x = y
  · subst h; rw [beq_self_eq_true]; exact ⟨fun _ => rfl, fun _ => rfl⟩
  · rw [beq_false_of_ne h]; exact ⟨fun e => absurd e (by decide), fun e => absurd e h⟩

/-- Widened to a word it is one at equal words and zero otherwise. -/
theorem setWidth_cmpi (x y : BitVec 32) : (IntOp.cmpi .eq x y).setWidth 32 = if x = y then 1#32 else 0#32 := by
  by_cases h : x = y
  · rw [if_pos h, (cmpi_eq_one x y).2 h]; rfl
  · rw [if_neg h, eq_zero_of_ne_one (mt (cmpi_eq_one x y).1 h)]; rfl

/-- Over result index `(b, k)`, some index of the reduced axis satisfies a condition exactly when some position does. -/
theorem exists_lift {β : Type} (g : S8x16x16.Idx → β) (c : β) (b : Fin 8) (k : Fin 16) :
    (∃ l ∈ (Finset.univ : Finset (Fin (S8x16x16.size 2))), (g ∘ red2.lift (ix2 b k)) l = c) ↔ ∃ l : Fin 16, g (ix3 b k l) = c := by
  constructor
  · rintro ⟨l, -, hl⟩
    exact ⟨l, (congrArg g (lift_eq b k l)).symm.trans hl⟩
  · rintro ⟨l, hl⟩
    exact ⟨l, Finset.mem_univ _, (congrArg g (lift_eq b k l)).trans hl⟩

/-- The or along the second position, read over the sixteen positions. -/
theorem or_earlier (idx : IVec S8x16 32) (b : Fin 8) (k : Fin 16) :
    Host.reduce IntOp.ori (earlier idx) (constantI S_ 1 0#1) reducesTo_S8x16x16_S8x16_d2 h_S_ (ix2 b k) = 1#1
      ↔ ∃ l : Fin 16, earlier idx (ix3 b k l) = 1#1 := by
  rw [Host.reduce_eq_fold_single IntOp.ori (earlier idx) (constantI S_ 1 0#1) reducesTo_S8x16x16_S8x16_d2 red2 h_S_ (ix2 b k),
    constantI_apply, fold_ori_eq_one]
  exact exists_lift (earlier idx) 1#1 b k

/-- The negated or is set exactly when no earlier position holds the same slot number. -/
theorem firstBit_eq_one (idx : IVec S8x16 32) (b : Fin 8) (k : Fin 16) :
    firstBit idx (ix2 b k) = 1#1 ↔ Cert.Spec.firstAt idx b k := by
  rw [firstBit, noti_apply, bit_not_eq_one, or_earlier]
  unfold Cert.Spec.firstAt
  constructor
  · intro h l hl he
    refine h ⟨l, ?_⟩
    rw [earlier_apply, if_pos (show l.val < k.val from hl)]
    exact (cmpi_eq_one _ _).2 he.symm
  · rintro h ⟨l, hl⟩
    rw [earlier_apply] at hl
    split at hl
    · next hlt => exact h l hlt ((cmpi_eq_one _ _).1 hl).symm
    · exact absurd hl (by decide)

/-- The sum along the second position, read over the sixteen positions. -/
theorem sum_eqMask (idx : IVec S8x16 32) (b : Fin 8) (k : Fin 16) :
    Host.reduce IntOp.addi (extui 32 (eqMask idx) natLt_1_32) (constantI S_ 32 0#32) reducesTo_S8x16x16_S8x16_d2 h_S_ (ix2 b k)
      = ∑ l : Fin 16, (eqMask idx (ix3 b k l)).setWidth 32 := by
  rw [Host.reduce_eq_fold_single IntOp.addi _ _ reducesTo_S8x16x16_S8x16_d2 red2 h_S_ (ix2 b k), constantI_apply,
    fold_addi_eq_sum, BitVec.zero_add]
  exact Finset.sum_congr rfl (fun l _ => congrArg (fun i => (eqMask idx i).setWidth 32) (lift_eq b k l))

/-- The sum of the widened equalities is the number of positions holding the same slot number. -/
theorem cntWord_apply (idx : IVec S8x16 32) (b : Fin 8) (k : Fin 16) :
    cntWord idx (ix2 b k) = BitVec.ofNat 32 (Cert.Spec.cntAt idx b k) := by
  rw [cntWord, sum_eqMask]
  have e : ∀ l : Fin 16, (eqMask idx (ix3 b k l)).setWidth 32
      = if idx (ix2 b l) = idx (ix2 b k) then 1#32 else 0#32 := fun l => by
    rw [eqMask_apply, setWidth_cmpi]
    exact if_congr eq_comm rfl rfl
  rw [Finset.sum_congr rfl (fun l _ => e l), sum_indicator]
  rfl

/-- The selected word is the integer weight. -/
theorem wrow_apply (idx : IVec S8x16 32) (b : Fin 8) (k : Fin 16) : wrow idx (ix2 b k) = Cert.Spec.wrowAt idx b k := by
  have e3 : broadcastInDim S8x16 ![] bcast_S_S8x16 (constantI S_ 32 0#32) (ix2 b k) = 0#32 := rfl
  rw [wrow, select_apply, e3]
  unfold Cert.Spec.wrowAt
  by_cases hf : Cert.Spec.firstAt idx b k
  · rw [(firstBit_eq_one idx b k).2 hf, select_one, cntWord_apply, if_pos hf]
  · rw [eq_zero_of_ne_one (mt (firstBit_eq_one idx b k).1 hf), select_zero, if_neg hf]

/-! ## The workers' weights -/

theorem pre_v33 (V : Valuation τ sig (Elt F)) :
    StableHlo.after preOps V (Proc.devRef .tc main_v33) = Cert.Spec.wvecOf (F := F) (V (Proc.devRef .tc main_arg3)) := by
  refine (pre_v33_term V).trans ?_
  funext p
  obtain ⟨w, k, rfl⟩ : ∃ (w : Fin 32) (k : Fin 16), p = ix2 w k := ⟨p 0, p 1, eq_ix2 p⟩
  refine (gather_rowOf _ w k).trans ?_
  rw [sitofp_apply, wrow_apply]
  rfl

end Cert.Kernel.Host

end
-- ==== Proof.LaunchK6.lean ====
/-
  The run of the kernel's whole program from the body's obligation alone.
-/
import proofs.«210205_g8383776161859_cont_9to1_m_1272_27_alg».proof.Proof.LaunchK5
import proofs.«210205_g8383776161859_cont_9to1_m_1272_27_alg».proof.Proof.HostK4

noncomputable section

namespace Cert.Kernel.Launch

open Cert.Kernel Cert.Kernel.Gen Cert.Kernel.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareTok shareDrop pointsTo_toks pointsTo_toks_split pointsTo_toks_join)

variable {F : FTy → Type}

local notation "𝕄" => MT nD τ sig (HIx 1) (Elt F) ℕ UU ℕ

variable [FloatOps F]

/-- From the obligation of one worker's body: every weakly fair execution of the device's threads, from any memory whose
    slot numbers are at most 1023, ends, nothing faulting, with the result at `Spec.kerOut` of the arguments and the
    arguments unchanged. -/
theorem run_main [∀ e, Nonempty (Elt F e)] (hbody : Cert.Kernel.Tile.TileBody (F := F)) (m : (ℓ : Loc nD τ sig) → Buf (Elt F) ℓ) (ρ : Dev nD → PrngReg)
    (hidx : ∀ (c : Dev nD) p, (m ((c.tc : Thread nD τ).loc main_arg3) p).toNat ≤ 1023) :
    θ_run (Cert.Kernel.defs (F := F)) (Cert.Kernel.threads (F := F)) ⟨m, fun _ => 0, ρ⟩ (fun r => ∀ c : Dev nD,
      r.2.mem ((c.tc : Thread nD τ).loc main_v48) = Cert.Spec.kerOut (F := F) (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_main33 Host.pre_v33 hbody m ρ hidx

end Cert.Kernel.Launch

end
-- ==== Proof.lean ====
/-
  The certificate's claim.

  The memory M holds 1024 slots of 64 × 64 matrices per batch entry, M_k and M_v a key and a value vector per slot, and
  idx sixteen slot numbers per batch entry. The array code adds to slot idx[b, k] of batch entry b, once per position k, the
  outer product of that slot's key and value vectors. The kernel lays M out as rows, and each of its 32 workers adds to its
  rows, at the FIRST occurrence of each slot number, the product weighted by the number of occurrences, then lays the rows
  back.

  The five claims. The kernel's program as printed, its idealization and the array code's program each run to the end,
  nothing faulting, with the arguments unchanged (the three frames). The idealization rewrote no operation, so there is
  nothing to preserve. And over the extended reals the idealized kernel and the array code, run from memories agreeing on
  the arguments, end with the same result: under the precondition (finite floats, 0 ≤ idx ≤ 1023) the kernel's result is
  Spec.kerOut of the arguments and the array code's is Spec.refOut, and the two are equal because c · (a · v), with c the
  number of positions holding a slot number, is the sum of a · v over those positions.

  Supplied here to the assembly: the host's weight layout, the worker's obligation at the extended reals, and the
  word-level program's run from the worker's obligation at machine words.
-/
import proofs.«210205_g8383776161859_cont_9to1_m_1272_27_alg».proof.Defs
import proofs.«210205_g8383776161859_cont_9to1_m_1272_27_alg».proof.Proof.Gen.Kernel
import proofs.«210205_g8383776161859_cont_9to1_m_1272_27_alg».proof.Proof.Gen.KernelIdeal
import proofs.«210205_g8383776161859_cont_9to1_m_1272_27_alg».proof.Proof.Gen.ReferenceIdeal
import proofs.«210205_g8383776161859_cont_9to1_m_1272_27_alg».proof.Proof.Gen.Pre_input_domain
import proofs.«210205_g8383776161859_cont_9to1_m_1272_27_alg».proof.Proof.Claims
import proofs.«210205_g8383776161859_cont_9to1_m_1272_27_alg».proof.Proof.HostKI4
import proofs.«210205_g8383776161859_cont_9to1_m_1272_27_alg».proof.Proof.BodyKI
import proofs.«210205_g8383776161859_cont_9to1_m_1272_27_alg».proof.Proof.BodyK
import proofs.«210205_g8383776161859_cont_9to1_m_1272_27_alg».proof.Proof.LaunchK6

noncomputable section

namespace Cert.Proof

open Idealize.ShloMosaic Idealize.SL.Sem

theorem claim : Cert.Claim :=
  Cert.Proof.Claims.claim_of
    (fun V => Cert.KernelIdeal.Host.pre_v33 (F := Ideal) V)
    (Cert.KernelIdeal.Body.tile_body (F := Ideal))
    (fun m ρ hidx => Cert.Kernel.Launch.run_main (F := Bits) (Cert.Kernel.Body.tile_body (F := Bits)) m ρ hidx)

end Cert.Proof

end
